-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S4x3072x1024 : Shape := ⟨3, ![4, 3072, 1024]⟩
abbrev S4x3072 : Shape := ⟨2, ![4, 3072]⟩
abbrev S4x1024x1024 : Shape := ⟨3, ![4, 1024, 1024]⟩
abbrev S4x1024 : Shape := ⟨2, ![4, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4x3072x1024 : S_.BroadcastsInDim S4x3072x1024 (![] : Fin 0 → Fin S4x3072x1024.rank)
  reducesTo_S4x3072x1024_S_d0_1_2 : S4x3072x1024.ReducesTo [0, 1, 2] S_
  bcast_S_S4x3072 : S_.BroadcastsInDim S4x3072 (![] : Fin 0 → Fin S4x3072.rank)
  reducesTo_S4x3072_S_d0_1 : S4x3072.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  main_v23

def fn {F : FTy → Type} [FloatOps F] (main_arg0 : FVec F S2048x1024 .f32) (main_arg1 : FVec F S4x3072x1024 .f32) (main_arg2 : FVec F S4x3072 .f32) (main_arg3 : FVec F S4x1024x1024 .f32) (main_arg4 : FVec F S4x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S4x3072x1024 .f32 := Host.absf main_arg1
  let main_cst_0 : FVec F S_ .f32 := constant S_ .f32 0x7F800000#32
  let main_v5 : FVec F S4x3072x1024 .f32 := broadcastInDim S4x3072x1024 ![] bcast_S_S4x3072x1024 main_cst_0
  let main_v6 : IVec S4x3072x1024 1 := cmpf .olt main_v4 main_v5
  let main_c_1 : IVec S_ 1 := constantI S_ 1 1#1
  let main_v7 : IVec S_ 1 := (fun x v => Host.reduce IntOp.andi x v reducesTo_S4x3072x1024_S_d0_1_2 h_S_) main_v6 main_c_1
  let main_v8 : IVec S_ 1 := andi main_v3 main_v7
  let main_v9 : FVec F S4x3072 .f32 := Host.absf main_arg2
  let main_cst_2 : FVec F S_ .f32 := constant S_ .f32 0x7F800000#32
  let main_v10 : FVec F S4x3072 .f32 := broadcastInDim S4x3072 ![] bcast_S_S4x3072 main_cst_2
  let main_v11 : IVec S4x3072 1 := cmpf .olt main_v9 main_v10
  let main_c_3 : IVec S_ 1 := constantI S_ 1 1#1
  let main_v12 : IVec S_ 1 := (fun x v => Host.reduce IntOp.andi x v reducesTo_S4x3072_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_v13 main_v16
-- ==== Kernel.lean ====
abbrev S2048x1024 : Shape := ⟨2, ![2048, 1024]⟩
abbrev S4x3072x1024 : Shape := ⟨3, ![4, 3072, 1024]⟩
abbrev S4x3072 : Shape := ⟨2, ![4, 3072]⟩
abbrev S4x1024x1024 : Shape := ⟨3, ![4, 1024, 1024]⟩
abbrev S4x1024 : Shape := ⟨2, ![4, 1024]⟩
abbrev S_ : Shape := ⟨0, ![]⟩
abbrev S2048x2048 : Shape := ⟨2, ![2048, 2048]⟩
abbrev S1x3072 : Shape := ⟨2, ![1, 3072]⟩
abbrev S3072 : Shape := ⟨1, ![3072]⟩
abbrev S1x3072x1024 : Shape := ⟨3, ![1, 3072, 1024]⟩
abbrev S3072x1024 : Shape := ⟨2, ![3072, 1024]⟩
abbrev S256x1024 : Shape := ⟨2, ![256, 1024]⟩
abbrev S1024x1024 : Shape := ⟨2, ![1024, 1024]⟩
abbrev S1x1024 : Shape := ⟨2, ![1, 1024]⟩
abbrev S1024 : Shape := ⟨1, ![1024]⟩
abbrev S1x1024x1024 : Shape := ⟨3, ![1, 1024, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 69
  | .vmem => 88
  | .smem => 0
  | _ => 0

abbrev bufTy : (tb : Table) → Fin (tcTables nBuf tb) → BufTy
  | .hbm, ⟨0, _⟩ => ⟨S2048x1024, .f32⟩
  | .hbm, ⟨1, _⟩ => ⟨S4x3072x1024, .f32⟩
  | .hbm, ⟨2, _⟩ => ⟨S4x3072, .f32⟩
  | .hbm, ⟨3, _⟩ => ⟨S4x1024x1024, .f32⟩
  | .hbm, ⟨4, _⟩ => ⟨S4x1024, .f32⟩
  | .hbm, ⟨5, _⟩ => ⟨S4x3072x1024, .bf16⟩
  | .hbm, ⟨6, _⟩ => ⟨S4x1024x1024, .bf16⟩
  | .hbm, ⟨7, _⟩ => ⟨S_, .f32⟩
  | .hbm, ⟨8, _⟩ => ⟨S2048x2048, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S1x3072x1024, .bf16⟩
  | .hbm, ⟨13, _⟩ => ⟨S3072x1024, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024x1024, .bf16⟩
  | .hbm, ⟨21, _⟩ => ⟨S1024x1024, .bf16⟩
  | .hbm, ⟨22, _⟩ => ⟨S2048x1024, .f32⟩
  | .hbm, ⟨23, _⟩ => ⟨S2048x2048, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S1x3072x1024, .bf16⟩
  | .hbm, ⟨28, _⟩ => ⟨S3072x1024, .bf16⟩
  | .hbm, ⟨29, _⟩ => ⟨S2048x1024, .bf16⟩
  | .hbm, ⟨30, _⟩ => ⟨S2048x1024, .bf16⟩
  | .hbm, ⟨31, _⟩ => ⟨S2048x1024, .bf16⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1x1024x1024, .bf16⟩
  | .hbm, ⟨36, _⟩ => ⟨S1024x1024, .bf16⟩
  | .hbm, ⟨37, _⟩ => ⟨S2048x1024, .f32⟩
  | .hbm, ⟨38, _⟩ => ⟨S2048x2048, .f32⟩
  | .hbm, ⟨39, _⟩ => ⟨S1x3072, .f32⟩
  | .hbm, ⟨40, _⟩ => ⟨S3072, .f32⟩
  | .hbm, ⟨41, _⟩ => ⟨S1x3072, .f32⟩
  | .hbm, ⟨42, _⟩ => ⟨S1x3072x1024, .bf16⟩
  | .hbm, ⟨43, _⟩ => ⟨S3072x1024, .bf16⟩
  | .hbm, ⟨44, _⟩ => ⟨S2048x1024, .bf16⟩
  | .hbm, ⟨45, _⟩ => ⟨S2048x1024, .bf16⟩
  | .hbm, ⟨46, _⟩ => ⟨S2048x1024, .bf16⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1x1024x1024, .bf16⟩
  | .hbm, ⟨51, _⟩ => ⟨S1024x1024, .bf16⟩
  | .hbm, ⟨52, _⟩ => ⟨S2048x1024, .f32⟩
  | .hbm, ⟨53, _⟩ => ⟨S2048x2048, .f32⟩
  | .hbm, ⟨54, _⟩ => ⟨S1x3072, .f32⟩
  | .hbm, ⟨55, _⟩ => ⟨S3072, .f32⟩
  | .hbm, ⟨56, _⟩ => ⟨S1x3072, .f32⟩
  | .hbm, ⟨57, _⟩ => ⟨S1x3072x1024, .bf16⟩
  | .hbm, ⟨58, _⟩ => ⟨S3072x1024, .bf16⟩
  | .hbm, ⟨59, _⟩ => ⟨S2048x1024, .bf16⟩
  | .hbm, ⟨60, _⟩ => ⟨S2048x1024, .bf16⟩
  | .hbm, ⟨61, _⟩ => ⟨S2048x1024, .bf16⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S1x1024x1024, .bf16⟩
  | .hbm, ⟨66, _⟩ => ⟨S1024x1024, .bf16⟩
  | .hbm, ⟨67, _⟩ => ⟨S2048x1024, .f32⟩
  | .hbm, ⟨68, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S1x3072, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1x1024, .f32⟩
  | .local _ .vmem, ⟨16, _⟩ => ⟨S256x2048, .f32⟩
  | .local _ .vmem, ⟨17, _⟩ => ⟨S256x2048, .f32⟩
  | .local _ .vmem, ⟨18, _⟩ => ⟨S256x1024, .f32⟩
  | .local _ .vmem, ⟨19, _⟩ => ⟨S256x1024, .f32⟩
  | .local _ .vmem, ⟨20, _⟩ => ⟨S256x2048, .f32⟩
  | .local _ .vmem, ⟨21, _⟩ => ⟨S256x2048, .f32⟩
  | .local _ .vmem, ⟨22, _⟩ => ⟨S256x1024, .f32⟩
  | .local _ .vmem, ⟨23, _⟩ => ⟨S256x1024, .f32⟩
  | .local _ .vmem, ⟨24, _⟩ => ⟨S3072x1024, .bf16⟩
  | .local _ .vmem, ⟨25, _⟩ => ⟨S1x3072, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S2048x1024, .bf16⟩
  | .local _ .vmem, ⟨35, _⟩ => ⟨S2048x1024, .bf16⟩
  | .local _ .vmem, ⟨36, _⟩ => ⟨S1024x1024, .bf16⟩
  | .local _ .vmem, ⟨37, _⟩ => ⟨S1x1024, .f32⟩
  | .local _ .vmem, ⟨38, _⟩ => ⟨S256x2048, .f32⟩
  | .local _ .vmem, ⟨39, _⟩ => ⟨S256x2048, .f32⟩
  | .local _ .vmem, ⟨40, _⟩ => ⟨S256x1024, .f32⟩
  | .local _ .vmem, ⟨41, _⟩ => ⟨S256x1024, .f32⟩
  | .local _ .vmem, ⟨42, _⟩ => ⟨S256x2048, .f32⟩
  | .local _ .vmem, ⟨43, _⟩ => ⟨S256x2048, .f32⟩
  | .local _ .vmem, ⟨44, _⟩ => ⟨S256x1024, .f32⟩
  | .local _ .vmem, ⟨45, _⟩ => ⟨S256x1024, .f32⟩
  | .local _ .vmem, ⟨46, _⟩ => ⟨S3072x1024, .bf16⟩
  | .local _ .vmem, ⟨47, _⟩ => ⟨S1x3072, .f32⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S256x1024, .bf16⟩
  | .local _ .vmem, ⟨54, _⟩ => ⟨S256x1024, .bf16⟩
  | .local _ .vmem, ⟨55, _⟩ => ⟨S256x1024, .bf16⟩
  | .local _ .vmem, ⟨56, _⟩ => ⟨S2048x1024, .bf16⟩
  | .local _ .vmem, ⟨57, _⟩ => ⟨S2048x1024, .bf16⟩
  | .local _ .vmem, ⟨58, _⟩ => ⟨S1024x1024, .bf16⟩
  | .local _ .vmem, ⟨59, _⟩ => ⟨S1x1024, .f32⟩
  | .local _ .vmem, ⟨60, _⟩ => ⟨S256x2048, .f32⟩
  | .local _ .vmem, ⟨61, _⟩ => ⟨S256x2048, .f32⟩
  | .local _ .vmem, ⟨62, _⟩ => ⟨S256x1024, .f32⟩
  | .local _ .vmem, ⟨63, _⟩ => ⟨S256x1024, .f32⟩
  | .local _ .vmem, ⟨64, _⟩ => ⟨S256x2048, .f32⟩
  | .local _ .vmem, ⟨65, _⟩ => ⟨S256x2048, .f32⟩
  | .local _ .vmem, ⟨66, _⟩ => ⟨S256x1024, .f32⟩
  | .local _ .vmem, ⟨67, _⟩ => ⟨S256x1024, .f32⟩
  | .local _ .vmem, ⟨68, _⟩ => ⟨S3072x1024, .bf16⟩
  | .local _ .vmem, ⟨69, _⟩ => ⟨S1x3072, .f32⟩
  | .local _ .vmem, ⟨70, _⟩ => ⟨S256x1024, .bf16⟩
  | .local _ .vmem, ⟨71, _⟩ => ⟨S256x1024, .bf16⟩
  | .local _ .vmem, ⟨72, _⟩ => ⟨S256x1024, .bf16⟩
  | .local _ .vmem, ⟨73, _⟩ => ⟨S256x1024, .bf16⟩
  | .local _ .vmem, ⟨74, _⟩ => ⟨S256x1024, .bf16⟩
  | .local _ .vmem, ⟨75, _⟩ => ⟨S256x1024, .bf16⟩
  | .local _ .vmem, ⟨76, _⟩ => ⟨S256x1024, .bf16⟩
  | .local _ .vmem, ⟨77, _⟩ => ⟨S256x1024, .bf16⟩
  | .local _ .vmem, ⟨78, _⟩ => ⟨S2048x1024, .bf16⟩
  | .local _ .vmem, ⟨79, _⟩ => ⟨S2048x1024, .bf16⟩
  | .local _ .vmem, ⟨80, _⟩ => ⟨S1024x1024, .bf16⟩
  | .local _ .vmem, ⟨81, _⟩ => ⟨S1x1024, .f32⟩
  | .local _ .vmem, ⟨82, _⟩ => ⟨S256x2048, .f32⟩
  | .local _ .vmem, ⟨83, _⟩ => ⟨S256x2048, .f32⟩
  | .local _ .vmem, ⟨84, _⟩ => ⟨S256x1024, .f32⟩
  | .local _ .vmem, ⟨85, _⟩ => ⟨S256x1024, .f32⟩
  | .local _ .vmem, ⟨86, _⟩ => ⟨S256x2048, .f32⟩
  | .local _ .vmem, ⟨87, _⟩ => ⟨S256x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50_0 : Ref sig .tc := ⟨.hbm, 67, rfl⟩
abbrev main_v50_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg5_1 : Ref sig .tc := ⟨.vmem, 61, rfl⟩
abbrev cc5_stg6_0 : Ref sig .tc := ⟨.vmem, 62, rfl⟩
abbrev cc5_stg6_1 : Ref sig .tc := ⟨.vmem, 63, rfl⟩
abbrev cc5_stg7_0 : Ref sig .tc := ⟨.vmem, 64, rfl⟩
abbrev cc5_stg7_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg3_1 : Ref sig .tc := ⟨.vmem, 71, rfl⟩
abbrev cc6_stg4_0 : Ref sig .tc := ⟨.vmem, 72, rfl⟩
abbrev cc6_stg4_1 : Ref sig .tc := ⟨.vmem, 73, rfl⟩
abbrev cc6_stg5_0 : Ref sig .tc := ⟨.vmem, 74, rfl⟩
abbrev cc6_stg5_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg5_1 : Ref sig .tc := ⟨.vmem, 83, rfl⟩
abbrev cc7_stg6_0 : Ref sig .tc := ⟨.vmem, 84, rfl⟩
abbrev cc7_stg6_1 : Ref sig .tc := ⟨.vmem, 85, rfl⟩
abbrev cc7_stg7_0 : Ref sig .tc := ⟨.vmem, 86, rfl⟩
abbrev cc7_stg7_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem3_1 : DmaSem sig := 49
abbrev cc4_sem4_0 : DmaSem sig := 50
abbrev cc4_sem4_1 : DmaSem sig := 51
abbrev cc4_sem5_0 : DmaSem sig := 52
abbrev cc4_sem5_1 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem5_1 : DmaSem sig := 61
abbrev cc5_sem6_0 : DmaSem sig := 62
abbrev cc5_sem6_1 : DmaSem sig := 63
abbrev cc5_sem7_0 : DmaSem sig := 64
abbrev cc5_sem7_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem3_1 : DmaSem sig := 71
abbrev cc6_sem4_0 : DmaSem sig := 72
abbrev cc6_sem4_1 : DmaSem sig := 73
abbrev cc6_sem5_0 : DmaSem sig := 74
abbrev cc6_sem5_1 : DmaSem sig := 75
abbrev cc7_sem0_0 : DmaSem sig := 76
abbrev cc7_sem0_1 : DmaSem sig := 77
abbrev cc7_sem1_0 : DmaSem sig := 78
abbrev cc7_sem2_0 : DmaSem sig := 79
abbrev cc7_sem3_0 : DmaSem sig := 80
abbrev cc7_sem4_0 : DmaSem sig := 81
abbrev cc7_sem5_0 : DmaSem sig := 82
abbrev cc7_sem5_1 : DmaSem sig := 83
abbrev cc7_sem6_0 : DmaSem sig := 84
abbrev cc7_sem6_1 : DmaSem sig := 85
abbrev cc7_sem7_0 : DmaSem sig := 86
abbrev cc7_sem7_1 : DmaSem sig := 87

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3072x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x3072 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S3072x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x3072 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S2048x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S256x2048 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x2048 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S3072x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x3072 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x1024 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S2048x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1024x1024 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S256x2048 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S256x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S256x2048 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  bitsLt_bf16_f32 : FTy.bits .bf16 < FTy.bits .f32
  bcast_S_S2048x2048 : S_.BroadcastsInDim S2048x2048 (![] : Fin 0 → Fin S2048x2048.rank)
  slices_S4x3072_S1x3072_0_0 : S4x3072.Slices ![0, 0] S1x3072
  shapeCasts_S1x3072_S3072 : S1x3072.ShapeCasts S3072
  shapeCasts_S3072_S1x3072 : S3072.ShapeCasts S1x3072
  slices_S4x3072x1024_S1x3072x1024_0_0_0 : S4x3072x1024.Slices ![0, 0, 0] S1x3072x1024
  shapeCasts_S1x3072x1024_S3072x1024 : S1x3072x1024.ShapeCasts S3072x1024
  inb_S256x1024_S256x1024_0_0 : ∀ a, (![0, 0] : Fin 2 → Nat) a + S256x1024.size a ≤ S256x1024.size a
  h_S256x1024 : 0 < S256x1024.numel
  inb_S3072x1024_S1024x1024_0_0 : ∀ a, (![0, 0] : Fin 2 → Nat) a + S1024x1024.size a ≤ S3072x1024.size a
  h_S1024x1024 : 0 < S1024x1024.numel
  shapeCasts_S1024x1024_S1024x1024 : S1024x1024.ShapeCasts S1024x1024
  inb_S3072x1024_S1024x1024_1024_0 : ∀ a, (![1024, 0] : Fin 2 → Nat) a + S1024x1024.size a ≤ S3072x1024.size a
  inb_S3072x1024_S1024x1024_2048_0 : ∀ a, (![2048, 0] : Fin 2 → Nat) a + S1024x1024.size a ≤ S3072x1024.size a
  inb_S1x3072_S1x1024_0_0 : ∀ a, (![0, 0] : Fin 2 → Nat) a + S1x1024.size a ≤ S1x3072.size a
  h_S1x1024 : 0 < S1x1024.numel
  shapeCasts_S1x1024_S1x1024 : S1x1024.ShapeCasts S1x1024
  inb_S1x3072_S1x1024_0_1024 : ∀ a, (![0, 1024] : Fin 2 → Nat) a + S1x1024.size a ≤ S1x3072.size a
  inb_S1x3072_S1x1024_0_2048 : ∀ a, (![0, 2048] : Fin 2 → Nat) a + S1x1024.size a ≤ S1x3072.size a
  transposes_S1024x1024_p1_0_S1024x1024 : S1024x1024.Transposes [1, 0] S1024x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  slices_S4x1024_S1x1024_0_0 : S4x1024.Slices ![0, 0] S1x1024
  shapeCasts_S1x1024_S1024 : S1x1024.ShapeCasts S1024
  shapeCasts_S1024_S1x1024 : S1024.ShapeCasts S1x1024
  slices_S4x1024x1024_S1x1024x1024_0_0_0 : S4x1024x1024.Slices ![0, 0, 0] S1x1024x1024
  shapeCasts_S1x1024x1024_S1024x1024 : S1x1024x1024.ShapeCasts S1024x1024
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S2048x1024_p1_0_S1024x2048 : S2048x1024.Transposes [1, 0] S1024x2048
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x1024_S1024x1024_0_0 : ∀ a, (![0, 0] : Fin 2 → Nat) a + S1024x1024.size a ≤ S1024x1024.size a
  inb_S1x1024_S1x1024_0_0 : ∀ a, (![0, 0] : Fin 2 → Nat) a + S1x1024.size a ≤ S1x1024.size a
  slices_S4x3072_S1x3072_1_0 : S4x3072.Slices ![1, 0] S1x3072
  slices_S4x3072x1024_S1x3072x1024_1_0_0 : S4x3072x1024.Slices ![1, 0, 0] S1x3072x1024
  slices_S4x1024_S1x1024_1_0 : S4x1024.Slices ![1, 0] S1x1024
  slices_S4x1024x1024_S1x1024x1024_1_0_0 : S4x1024x1024.Slices ![1, 0, 0] S1x1024x1024
  slices_S4x3072_S1x3072_2_0 : S4x3072.Slices ![2, 0] S1x3072
  slices_S4x3072x1024_S1x3072x1024_2_0_0 : S4x3072x1024.Slices ![2, 0, 0] S1x3072x1024
  slices_S4x1024_S1x1024_2_0 : S4x1024.Slices ![2, 0] S1x1024
  slices_S4x1024x1024_S1x1024x1024_2_0_0 : S4x1024x1024.Slices ![2, 0, 0] S1x1024x1024
  slices_S4x3072_S1x3072_3_0 : S4x3072.Slices ![3, 0] S1x3072
  slices_S4x3072x1024_S1x3072x1024_3_0_0 : S4x3072x1024.Slices ![3, 0, 0] S1x3072x1024
  slices_S4x1024_S1x1024_3_0 : S4x1024.Slices ![3, 0] S1x1024
  slices_S4x1024x1024_S1x1024x1024_3_0_0 : S4x1024x1024.Slices ![3, 0, 0] S1x1024x1024
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .bf16 = 32 ∨ (Rect.block (s := S2048x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .bf16 = 32 ∨ (Rect.block (s := S2048x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .bf16 = 32 ∨ (Rect.block (s := S2048x1024) S256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x1024.size a
  hwx1_0 : ∀ i : grid1.Coords, EltTy.bits .bf16 = 32 ∨ (Rect.block (s := S2048x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x1024.size a
  hwx1_1 : ∀ i : grid1.Coords, EltTy.bits .bf16 = 32 ∨ (Rect.block (s := S2048x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S2048x1024.size a
  hwx1_2 : ∀ i : grid1.Coords, EltTy.bits .bf16 = 32 ∨ (Rect.block (s := S2048x1024) S2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S2048x2048.size a
  hwx1_5 : ∀ i : grid1.Coords, EltTy.bits .f32 = 32 ∨ (Rect.block (s := S2048x2048) S256x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S2048x1024.size a
  hwx1_6 : ∀ i : grid1.Coords, EltTy.bits .f32 = 32 ∨ (Rect.block (s := S2048x1024) S256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S2048x2048.size a
  hwx1_7 : ∀ i : grid1.Coords, EltTy.bits .f32 = 32 ∨ (Rect.block (s := S2048x2048) S256x2048.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S2048x1024.size a
  hwx2_0 : ∀ i : grid2.Coords, EltTy.bits .f32 = 32 ∨ (Rect.block (s := S2048x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3072x1024.size a ≤ S3072x1024.size a
  hwx2_1 : ∀ i : grid2.Coords, EltTy.bits .bf16 = 32 ∨ (Rect.block (s := S3072x1024) S3072x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x3072.size a ≤ S1x3072.size a
  hwx2_2 : ∀ i : grid2.Coords, EltTy.bits .f32 = 32 ∨ (Rect.block (s := S1x3072) S1x3072.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S2048x1024.size a
  hwx2_3 : ∀ i : grid2.Coords, EltTy.bits .bf16 = 32 ∨ (Rect.block (s := S2048x1024) S256x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1024.size a ≤ S2048x1024.size a
  hwx2_4 : ∀ i : grid2.Coords, EltTy.bits .bf16 = 32 ∨ (Rect.block (s := S2048x1024) S256x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S2048x1024.size a
  hwx2_5 : ∀ i : grid2.Coords, EltTy.bits .bf16 = 32 ∨ (Rect.block (s := S2048x1024) S256x1024.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S2048x1024.size a
  hwx3_0 : ∀ i : grid3.Coords, EltTy.bits .bf16 = 32 ∨ (Rect.block (s := S2048x1024) S256x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S2048x1024.size a
  hwx3_1 : ∀ i : grid3.Coords, EltTy.bits .bf16 = 32 ∨ (Rect.block (s := S2048x1024) S2048x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S2048x1024.size a
  hwx3_2 : ∀ i : grid3.Coords, EltTy.bits .bf16 = 32 ∨ (Rect.block (s := S2048x1024) S2048x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x2048.size a ≤ S2048x2048.size a
  hwx3_5 : ∀ i : grid3.Coords, EltTy.bits .f32 = 32 ∨ (Rect.block (s := S2048x2048) S256x2048.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x1024.size a ≤ S2048x1024.size a
  hwx3_6 : ∀ i : grid3.Coords, EltTy.bits .f32 = 32 ∨ (Rect.block (s := S2048x1024) S256x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S256x2048.size a ≤ S2048x2048.size a
  hwx3_7 : ∀ i : grid3.Coords, EltTy.bits .f32 = 32 ∨ (Rect.block (s := S2048x2048) S256x2048.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x1024.size a ≤ S2048x1024.size a
  hwx4_0 : ∀ i : grid4.Coords, EltTy.bits .f32 = 32 ∨ (Rect.block (s := S2048x1024) S256x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S3072x1024.size a ≤ S3072x1024.size a
  hwx4_1 : ∀ i : grid4.Coords, EltTy.bits .bf16 = 32 ∨ (Rect.block (s := S3072x1024) S3072x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x3072.size a ≤ S1x3072.size a
  hwx4_2 : ∀ i : grid4.Coords, EltTy.bits .f32 = 32 ∨ (Rect.block (s := S1x3072) S1x3072.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x1024.size a ≤ S2048x1024.size a
  hwx4_3 : ∀ i : grid4.Coords, EltTy.bits .bf16 = 32 ∨ (Rect.block (s := S2048x1024) S256x1024.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x1024.size a ≤ S2048x1024.size a
  hwx4_4 : ∀ i : grid4.Coords, EltTy.bits .bf16 = 32 ∨ (Rect.block (s := S2048x1024) S256x1024.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S256x1024.size a ≤ S2048x1024.size a
  hwx4_5 : ∀ i : grid4.Coords, EltTy.bits .bf16 = 32 ∨ (Rect.block (s := S2048x1024) S256x1024.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x1024.size a ≤ S2048x1024.size a
  hwx5_0 : ∀ i : grid5.Coords, EltTy.bits .bf16 = 32 ∨ (Rect.block (s := S2048x1024) S256x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x1024.size a ≤ S2048x1024.size a
  hwx5_1 : ∀ i : grid5.Coords, EltTy.bits .bf16 = 32 ∨ (Rect.block (s := S2048x1024) S2048x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2048x1024.size a ≤ S2048x1024.size a
  hwx5_2 : ∀ i : grid5.Coords, EltTy.bits .bf16 = 32 ∨ (Rect.block (s := S2048x1024) S2048x1024.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S1024x1024.size a
  hwx5_3 : ∀ i : grid5.Coords, EltTy.bits .bf16 = 32 ∨ (Rect.block (s := S1024x1024) S1024x1024.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1024.size a ≤ S1x1024.size a
  hwx5_4 : ∀ i : grid5.Coords, EltTy.bits .f32 = 32 ∨ (Rect.block (s := S1x1024) S1x1024.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S256x2048.size a ≤ S2048x2048.size a
  hwx5_5 : ∀ i : grid5.Coords, EltTy.bits .f32 = 32 ∨ (Rect.block (s := S2048x2048) S256x2048.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S256x1024.size a ≤ S2048x1024.size a
  hwx5_6 : ∀ i : grid5.Coords, EltTy.bits .f32 = 32 ∨ (Rect.block (s := S2048x1024) S256x1024.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S256x2048.size a ≤ S2048x2048.size a
  hwx5_7 : ∀ i : grid5.Coords, EltTy.bits .f32 = 32 ∨ (Rect.block (s := S2048x2048) S256x2048.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x1024.size a ≤ S2048x1024.size a
  hwx6_0 : ∀ i : grid6.Coords, EltTy.bits .f32 = 32 ∨ (Rect.block (s := S2048x1024) S256x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S3072x1024.size a ≤ S3072x1024.size a
  hwx6_1 : ∀ i : grid6.Coords, EltTy.bits .bf16 = 32 ∨ (Rect.block (s := S3072x1024) S3072x1024.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x3072.size a ≤ S1x3072.size a
  hwx6_2 : ∀ i : grid6.Coords, EltTy.bits .f32 = 32 ∨ (Rect.block (s := S1x3072) S1x3072.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S256x1024.size a ≤ S2048x1024.size a
  hwx6_3 : ∀ i : grid6.Coords, EltTy.bits .bf16 = 32 ∨ (Rect.block (s := S2048x1024) S256x1024.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S256x1024.size a ≤ S2048x1024.size a
  hwx6_4 : ∀ i : grid6.Coords, EltTy.bits .bf16 = 32 ∨ (Rect.block (s := S2048x1024) S256x1024.size (cc6_transform_4 i) (hinb6_4 i)).WholeWords (EltTy.packing .bf16)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S256x1024.size a ≤ S2048x1024.size a
  hwx6_5 : ∀ i : grid6.Coords, EltTy.bits .bf16 = 32 ∨ (Rect.block (s := S2048x1024) S256x1024.size (cc6_transform_5 i) (hinb6_5 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S2048x1024.size a
  hwx7_0 : ∀ i : grid7.Coords, EltTy.bits .bf16 = 32 ∨ (Rect.block (s := S2048x1024) S256x1024.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x1024.size a ≤ S2048x1024.size a
  hwx7_1 : ∀ i : grid7.Coords, EltTy.bits .bf16 = 32 ∨ (Rect.block (s := S2048x1024) S2048x1024.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S2048x1024.size a ≤ S2048x1024.size a
  hwx7_2 : ∀ i : grid7.Coords, EltTy.bits .bf16 = 32 ∨ (Rect.block (s := S2048x1024) S2048x1024.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1024x1024.size a ≤ S1024x1024.size a
  hwx7_3 : ∀ i : grid7.Coords, EltTy.bits .bf16 = 32 ∨ (Rect.block (s := S1024x1024) S1024x1024.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1024.size a ≤ S1x1024.size a
  hwx7_4 : ∀ i : grid7.Coords, EltTy.bits .f32 = 32 ∨ (Rect.block (s := S1x1024) S1x1024.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S256x2048.size a ≤ S2048x2048.size a
  hwx7_5 : ∀ i : grid7.Coords, EltTy.bits .f32 = 32 ∨ (Rect.block (s := S2048x2048) S256x2048.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S256x1024.size a ≤ S2048x1024.size a
  hwx7_6 : ∀ i : grid7.Coords, EltTy.bits .f32 = 32 ∨ (Rect.block (s := S2048x1024) S256x1024.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S256x2048.size a ≤ S2048x2048.size a
  hwx7_7 : ∀ i : grid7.Coords, EltTy.bits .f32 = 32 ∨ (Rect.block (s := S2048x2048) S256x2048.size (cc7_transform_7 i) (hinb7_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S256x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_0) S256x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v14_1) S256x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v14_0) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S3072x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x3072.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20_0) S256x1024.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20_1) S256x1024.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v20_2) S256x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v20_0) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20_1) S2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20_2) S2048x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14_1) S256x2048.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v26_0) S256x1024.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v26_1) S256x2048.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v26_0) S256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S3072x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v29) S1x3072.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32_0) S256x1024.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v32_1) S256x1024.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v32_2) S256x1024.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v32_0) S256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32_1) S2048x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v32_2) S2048x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v37) S1024x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v35) S1x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v26_1) S256x2048.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v38_0) S256x1024.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v38_1) S256x2048.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v38_0) S256x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v43) S3072x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v41) S1x3072.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v44_0) S256x1024.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v44_1) S256x1024.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v44_2) S256x1024.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v44_0) S256x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v44_1) S2048x1024.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v44_2) S2048x1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v49) S1024x1024.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v47) S1x1024.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v38_1) S256x2048.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v50_0) S256x1024.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v50_1) S256x2048.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where
  halias1_7 : Pipeline.Aliased win1 5 7
  halias3_7 : Pipeline.Aliased win3 5 7
  halias5_7 : Pipeline.Aliased win5 5 7
  halias7_7 : Pipeline.Aliased win7 5 7

variable [Facts]
-- ==== ReferenceIdeal.lean ====
abbrev S2048x1024 : Shape := ⟨2, ![2048, 1024]⟩
abbrev S4x3072x1024 : Shape := ⟨3, ![4, 3072, 1024]⟩
abbrev S4x3072 : Shape := ⟨2, ![4, 3072]⟩
abbrev S4x1024x1024 : Shape := ⟨3, ![4, 1024, 1024]⟩
abbrev S4x1024 : Shape := ⟨2, ![4, 1024]⟩
abbrev S_ : Shape := ⟨0, ![]⟩
abbrev S2048x2048 : Shape := ⟨2, ![2048, 2048]⟩
abbrev S1x3072x1024 : Shape := ⟨3, ![1, 3072, 1024]⟩
abbrev S3072x1024 : Shape := ⟨2, ![3072, 1024]⟩
abbrev S1024x3072 : Shape := ⟨2, ![1024, 3072]⟩
abbrev S2048x3072 : Shape := ⟨2, ![2048, 3072]⟩
abbrev S1x3072 : Shape := ⟨2, ![1, 3072]⟩
abbrev S3072 : Shape := ⟨1, ![3072]⟩
abbrev S1024x2048 : Shape := ⟨2, ![1024, 2048]⟩
abbrev S2048 : Shape := ⟨1, ![2048]⟩
abbrev S2048x1 : Shape := ⟨2, ![2048, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x2048x2048 : Shape := ⟨3, ![1, 2048, 2048]⟩
abbrev S4x2048x2048 : Shape := ⟨3, ![4, 2048, 2048]⟩

abbrev nBuf : Space → Nat
  | .hbm => 194
  | .vmem => 0
  | .smem => 0
  | _ => 0

abbrev hbmTy0_0 (i : Nat) : BufTy := match i % 128 with
  | 0 => ⟨S2048x1024, .f32⟩
  | 1 => ⟨S4x3072x1024, .f32⟩
  | 2 => ⟨S4x3072, .f32⟩
  | 3 => ⟨S4x1024x1024, .f32⟩
  | 4 => ⟨S4x1024, .f32⟩
  | 5 => ⟨S_, .f32⟩
  | 6 => ⟨S_, .f32⟩
  | 7 => ⟨S_, .f32⟩
  | 8 => ⟨S_, .f32⟩
  | 9 => ⟨S_, .f32⟩
  | 10 => ⟨S2048x2048, .f32⟩
  | 11 => ⟨S2048x2048, .i32⟩
  | 12 => ⟨S_, .i32⟩
  | 13 => ⟨S2048x2048, .i32⟩
  | 14 => ⟨S2048x2048, .i32⟩
  | 15 => ⟨S2048x2048, .i32⟩
  | 16 => ⟨S2048x2048, .i1⟩
  | 17 => ⟨S_, .f32⟩
  | 18 => ⟨S2048x2048, .f32⟩
  | 19 => ⟨S2048x2048, .f32⟩
  | 20 => ⟨S1x3072x1024, .f32⟩
  | 21 => ⟨S3072x1024, .f32⟩
  | 22 => ⟨S1024x3072, .f32⟩
  | 23 => ⟨S2048x3072, .f32⟩
  | 24 => ⟨S1x3072, .f32⟩
  | 25 => ⟨S3072, .f32⟩
  | 26 => ⟨S1x3072, .f32⟩
  | 27 => ⟨S2048x3072, .f32⟩
  | 28 => ⟨S2048x3072, .f32⟩
  | 29 => ⟨S2048x1024, .f32⟩
  | 30 => ⟨S2048x1024, .f32⟩
  | 31 => ⟨S2048x1024, .f32⟩
  | 32 => ⟨S2048x1024, .f32⟩
  | 33 => ⟨S2048x1024, .f32⟩
  | 34 => ⟨S1024x2048, .f32⟩
  | 35 => ⟨S2048x2048, .f32⟩
  | 36 => ⟨S2048x2048, .f32⟩
  | 37 => ⟨S_, .f32⟩
  | 38 => ⟨S2048, .f32⟩
  | 39 => ⟨S_, .f32⟩
  | 40 => ⟨S2048, .f32⟩
  | 41 => ⟨S2048, .f32⟩
  | 42 => ⟨S2048x1, .f32⟩
  | 43 => ⟨S2048x2048, .f32⟩
  | 44 => ⟨S2048x2048, .f32⟩
  | 45 => ⟨S2048x2048, .f32⟩
  | 46 => ⟨S_, .f32⟩
  | 47 => ⟨S2048, .f32⟩
  | 48 => ⟨S2048x1, .f32⟩
  | 49 => ⟨S2048x2048, .f32⟩
  | 50 => ⟨S2048x2048, .f32⟩
  | 51 => ⟨S2048x1024, .f32⟩
  | 52 => ⟨S1x1024x1024, .f32⟩
  | 53 => ⟨S1024x1024, .f32⟩
  | 54 => ⟨S1024x1024, .f32⟩
  | 55 => ⟨S2048x1024, .f32⟩
  | 56 => ⟨S1x1024, .f32⟩
  | 57 => ⟨S1024, .f32⟩
  | 58 => ⟨S1x1024, .f32⟩
  | 59 => ⟨S2048x1024, .f32⟩
  | 60 => ⟨S2048x1024, .f32⟩
  | 61 => ⟨S1x3072x1024, .f32⟩
  | 62 => ⟨S3072x1024, .f32⟩
  | 63 => ⟨S1024x3072, .f32⟩
  | 64 => ⟨S2048x3072, .f32⟩
  | 65 => ⟨S1x3072, .f32⟩
  | 66 => ⟨S3072, .f32⟩
  | 67 => ⟨S1x3072, .f32⟩
  | 68 => ⟨S2048x3072, .f32⟩
  | 69 => ⟨S2048x3072, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S1024x2048, .f32⟩
  | 76 => ⟨S2048x2048, .f32⟩
  | 77 => ⟨S2048x2048, .f32⟩
  | 78 => ⟨S_, .f32⟩
  | 79 => ⟨S2048, .f32⟩
  | 80 => ⟨S_, .f32⟩
  | 81 => ⟨S2048, .f32⟩
  | 82 => ⟨S2048, .f32⟩
  | 83 => ⟨S2048x1, .f32⟩
  | 84 => ⟨S2048x2048, .f32⟩
  | 85 => ⟨S2048x2048, .f32⟩
  | 86 => ⟨S2048x2048, .f32⟩
  | 87 => ⟨S_, .f32⟩
  | 88 => ⟨S2048, .f32⟩
  | 89 => ⟨S2048x1, .f32⟩
  | 90 => ⟨S2048x2048, .f32⟩
  | 91 => ⟨S2048x2048, .f32⟩
  | 92 => ⟨S2048x1024, .f32⟩
  | 93 => ⟨S1x1024x1024, .f32⟩
  | 94 => ⟨S1024x1024, .f32⟩
  | 95 => ⟨S1024x1024, .f32⟩
  | 96 => ⟨S2048x1024, .f32⟩
  | 97 => ⟨S1x1024, .f32⟩
  | 98 => ⟨S1024, .f32⟩
  | 99 => ⟨S1x1024, .f32⟩
  | 100 => ⟨S2048x1024, .f32⟩
  | 101 => ⟨S2048x1024, .f32⟩
  | 102 => ⟨S1x3072x1024, .f32⟩
  | 103 => ⟨S3072x1024, .f32⟩
  | 104 => ⟨S1024x3072, .f32⟩
  | 105 => ⟨S2048x3072, .f32⟩
  | 106 => ⟨S1x3072, .f32⟩
  | 107 => ⟨S3072, .f32⟩
  | 108 => ⟨S1x3072, .f32⟩
  | 109 => ⟨S2048x3072, .f32⟩
  | 110 => ⟨S2048x3072, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S1024x2048, .f32⟩
  | 117 => ⟨S2048x2048, .f32⟩
  | 118 => ⟨S2048x2048, .f32⟩
  | 119 => ⟨S_, .f32⟩
  | 120 => ⟨S2048, .f32⟩
  | 121 => ⟨S_, .f32⟩
  | 122 => ⟨S2048, .f32⟩
  | 123 => ⟨S2048, .f32⟩
  | 124 => ⟨S2048x1, .f32⟩
  | 125 => ⟨S2048x2048, .f32⟩
  | 126 => ⟨S2048x2048, .f32⟩
  | 127 => ⟨S2048x2048, .f32⟩
  | _ => ⟨S2048x1024, .f32⟩

abbrev hbmTy0_1 (i : Nat) : BufTy := match i % 128 with
  | 0 => ⟨S_, .f32⟩
  | 1 => ⟨S2048, .f32⟩
  | 2 => ⟨S2048x1, .f32⟩
  | 3 => ⟨S2048x2048, .f32⟩
  | 4 => ⟨S2048x2048, .f32⟩
  | 5 => ⟨S2048x1024, .f32⟩
  | 6 => ⟨S1x1024x1024, .f32⟩
  | 7 => ⟨S1024x1024, .f32⟩
  | 8 => ⟨S1024x1024, .f32⟩
  | 9 => ⟨S2048x1024, .f32⟩
  | 10 => ⟨S1x1024, .f32⟩
  | 11 => ⟨S1024, .f32⟩
  | 12 => ⟨S1x1024, .f32⟩
  | 13 => ⟨S2048x1024, .f32⟩
  | 14 => ⟨S2048x1024, .f32⟩
  | 15 => ⟨S1x3072x1024, .f32⟩
  | 16 => ⟨S3072x1024, .f32⟩
  | 17 => ⟨S1024x3072, .f32⟩
  | 18 => ⟨S2048x3072, .f32⟩
  | 19 => ⟨S1x3072, .f32⟩
  | 20 => ⟨S3072, .f32⟩
  | 21 => ⟨S1x3072, .f32⟩
  | 22 => ⟨S2048x3072, .f32⟩
  | 23 => ⟨S2048x3072, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S1024x2048, .f32⟩
  | 30 => ⟨S2048x2048, .f32⟩
  | 31 => ⟨S2048x2048, .f32⟩
  | 32 => ⟨S_, .f32⟩
  | 33 => ⟨S2048, .f32⟩
  | 34 => ⟨S_, .f32⟩
  | 35 => ⟨S2048, .f32⟩
  | 36 => ⟨S2048, .f32⟩
  | 37 => ⟨S2048x1, .f32⟩
  | 38 => ⟨S2048x2048, .f32⟩
  | 39 => ⟨S2048x2048, .f32⟩
  | 40 => ⟨S2048x2048, .f32⟩
  | 41 => ⟨S_, .f32⟩
  | 42 => ⟨S2048, .f32⟩
  | 43 => ⟨S2048x1, .f32⟩
  | 44 => ⟨S2048x2048, .f32⟩
  | 45 => ⟨S2048x2048, .f32⟩
  | 46 => ⟨S2048x1024, .f32⟩
  | 47 => ⟨S1x1024x1024, .f32⟩
  | 48 => ⟨S1024x1024, .f32⟩
  | 49 => ⟨S1024x1024, .f32⟩
  | 50 => ⟨S2048x1024, .f32⟩
  | 51 => ⟨S1x1024, .f32⟩
  | 52 => ⟨S1024, .f32⟩
  | 53 => ⟨S1x1024, .f32⟩
  | 54 => ⟨S2048x1024, .f32⟩
  | 55 => ⟨S2048x1024, .f32⟩
  | 56 => ⟨S1x2048x2048, .f32⟩
  | 57 => ⟨S1x2048x2048, .f32⟩
  | 58 => ⟨S1x2048x2048, .f32⟩
  | 59 => ⟨S1x2048x2048, .f32⟩
  | 60 => ⟨S4x2048x2048, .f32⟩
  | 61 => ⟨S_, .f32⟩
  | 62 => ⟨S2048x2048, .f32⟩
  | 63 => ⟨S_, .f32⟩
  | 64 => ⟨S2048x2048, .f32⟩
  | 65 => ⟨S2048x2048, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_8 : Ref sig .tc := ⟨.hbm, 119, rfl⟩
abbrev main_v97 : Ref sig .tc := ⟨.hbm, 120, rfl⟩
abbrev main_cst_9 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_10 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_11 : Ref sig .tc := ⟨.hbm, 160, rfl⟩
abbrev main_v135 : Ref sig .tc := ⟨.hbm, 161, rfl⟩
abbrev main_cst_12 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_13 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_cst_14 : Ref sig .tc := ⟨.hbm, 189, rfl⟩
abbrev main_v161 : Ref sig .tc := ⟨.hbm, 190, rfl⟩
abbrev main_cst_15 : Ref sig .tc := ⟨.hbm, 191, rfl⟩
abbrev main_v162 : Ref sig .tc := ⟨.hbm, 192, rfl⟩
abbrev main_v163 : Ref sig .tc := ⟨.hbm, 193, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  slices_S4x3072x1024_S1x3072x1024_0_0_0 : S4x3072x1024.Slices ![0, 0, 0] S1x3072x1024
  shapeCasts_S1x3072x1024_S3072x1024 : S1x3072x1024.ShapeCasts S3072x1024
  transposes_S3072x1024_S1024x3072_1_0 : S3072x1024.Transposes [1, 0] S1024x3072
  slices_S4x3072_S1x3072_0_0 : S4x3072.Slices ![0, 0] S1x3072
  shapeCasts_S1x3072_S3072 : S1x3072.ShapeCasts S3072
  bcast_S3072_S1x3072_1 : S3072.BroadcastsInDim S1x3072 (![1] : Fin 1 → Fin S1x3072.rank)
  bcast_S1x3072_S2048x3072_0_1 : S1x3072.BroadcastsInDim S2048x3072 (![0, 1] : Fin 2 → Fin S2048x3072.rank)
  slices_S2048x3072_S2048x1024_0_0 : S2048x3072.Slices ![0, 0] S2048x1024
  slices_S2048x3072_S2048x1024_0_1024 : S2048x3072.Slices ![0, 1024] S2048x1024
  slices_S2048x3072_S2048x1024_0_2048 : S2048x3072.Slices ![0, 2048] S2048x1024
  bcast_S_S2048x1024 : S_.BroadcastsInDim S2048x1024 (![] : Fin 0 → Fin S2048x1024.rank)
  transposes_S2048x1024_S1024x2048_1_0 : S2048x1024.Transposes [1, 0] S1024x2048
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  slices_S4x1024x1024_S1x1024x1024_0_0_0 : S4x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  slices_S4x3072x1024_S1x3072x1024_1_0_0 : S4x3072x1024.Slices ![1, 0, 0] S1x3072x1024
  slices_S4x3072_S1x3072_1_0 : S4x3072.Slices ![1, 0] S1x3072
  slices_S4x1024x1024_S1x1024x1024_1_0_0 : S4x1024x1024.Slices ![1, 0, 0] S1x1024x1024
  slices_S4x1024_S1x1024_1_0 : S4x1024.Slices ![1, 0] S1x1024
  slices_S4x3072x1024_S1x3072x1024_2_0_0 : S4x3072x1024.Slices ![2, 0, 0] S1x3072x1024
  slices_S4x3072_S1x3072_2_0 : S4x3072.Slices ![2, 0] S1x3072
  slices_S4x1024x1024_S1x1024x1024_2_0_0 : S4x1024x1024.Slices ![2, 0, 0] S1x1024x1024
  slices_S4x1024_S1x1024_2_0 : S4x1024.Slices ![2, 0] S1x1024
  slices_S4x3072x1024_S1x3072x1024_3_0_0 : S4x3072x1024.Slices ![3, 0, 0] S1x3072x1024
  slices_S4x3072_S1x3072_3_0 : S4x3072.Slices ![3, 0] S1x3072
  slices_S4x1024x1024_S1x1024x1024_3_0_0 : S4x1024x1024.Slices ![3, 0, 0] S1x1024x1024
  slices_S4x1024_S1x1024_3_0 : S4x1024.Slices ![3, 0] S1x1024
  bcast_S2048x2048_S1x2048x2048_1_2 : S2048x2048.BroadcastsInDim S1x2048x2048 (![1, 2] : Fin 2 → Fin S1x2048x2048.rank)
  concatenates_S1x2048x2048_S1x2048x2048_S1x2048x2048_S1x2048x2048_S4x2048x2048_d0 : Shape.Concatenates [S1x2048x2048, S1x2048x2048, S1x2048x2048, S1x2048x2048] S4x2048x2048 0
  reducesTo_S4x2048x2048_S2048x2048_d0 : S4x2048x2048.ReducesTo [0] S2048x2048
  dot_S2048x1024_S1024x3072_S2048x3072_1_0_0_1_n_n_wf : DotDims.WF S2048x1024 S1024x3072 S2048x3072 [1] [0] [0] [1] [] []
  dot_S2048x1024_S1024x2048_S2048x2048_1_0_0_1_n_n_wf : DotDims.WF S2048x1024 S1024x2048 S2048x2048 [1] [0] [0] [1] [] []
  dot_S2048x2048_S2048x1024_S2048x1024_1_0_0_1_n_n_wf : DotDims.WF S2048x2048 S2048x1024 S2048x1024 [1] [0] [0] [1] [] []
  dot_S2048x1024_S1024x1024_S2048x1024_1_0_0_1_n_n_wf : DotDims.WF S2048x1024 S1024x1024 S2048x1024 [1] [0] [0] [1] [] []

variable [Facts₀]

def dot_S2048x1024_S1024x3072_S2048x3072_1_0_0_1_n_n : DotDims S2048x1024 S1024x3072 S2048x3072 where
  lhsContracting := [1]
  rhsContracting := [0]
  lhsNonContracting := [0]
  rhsNonContracting := [1]
  lhsBatch := []
  rhsBatch := []
  wf := dot_S2048x1024_S1024x3072_S2048x3072_1_0_0_1_n_n_wf
def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.KRun.lean ====
/-
  The idealized kernel program's run with its result buffer named.

  The frame's run ends with every unscoped buffer of a core at the last boundary's contents, the fold of the eight
  regions and the host lines between them over the launch memory. The frame claim keeps of this only that the five
  argument arrays are as launched; here the same run is stated with one more conjunct: the result buffer holds that
  fold's value at its own reference. The run's proof term is the frame's, with that conjunct read off the same
  final-state fact.
-/
import proofs.«101734_j68264210202743_2_alg».proof.Proof.KernelIdealFrame

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_all : θ_run defs (onTc (τ := τ) (main (F := F))) ⟨m, fun _ => 0, ρ⟩ (fun r => ∀ c : Dev nD,
      r.2.mem ((c.tc : Thread nD τ).loc main_v50_1) = W16 m ρ c (Proc.devRef .tc main_v50_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v50_1 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c)⟩)

end Cert.KernelIdeal.GenP

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.KQkvBlock.lean ====
/-
  One projection block of the query / key / value kernel, read at an index on the extended reals.

  The body rounds its [256, 1024] input block to bf16 (the identity here), multiplies it by the transpose of a
  [1024, 1024] slab of the stacked weights on the matrix unit into a zero accumulator, adds the matching
  [1, 1024] piece of the bias to every row, and rounds again. So entry (p, q) of the block is the dot product of
  row p of the input with row q of the slab, plus the bias at q. The three stores of the body are this one
  function of (input, slab, bias piece), and the four layers' kernels share it.
-/
import proofs.«101734_j68264210202743_2_alg».proof.Proof.Gen.KernelIdeal.Skeleton
import proofs.«101734_j68264210202743_2_alg».proof.Proof.LibPlainDot
import Idealize.ShloMosaic.Lib.ValueLayout
import Idealize.ShloMosaic.Lib.Pipeline.Value

noncomputable section

namespace Cert.KSide

open Cert.KernelIdeal Cert.KernelIdeal.Gen Idealize.ShloMosaic Idealize.ShloMosaic.ValueIdx Cert.LibPlainDot

/-- The printed dimension numbers of the [256, 1024] × [1024, 1024] product are the plain ones. -/
theorem dot_proj_plain : dot_S256x1024_S1024x1024_S256x1024_1_0_0_1_n_n = DotDims.plain 256 1024 1024 := rfl

/-- The projection of a block: rows of `x` against rows of `w`, plus the bias row. -/
def projBlock (x : FVec Ideal S256x1024 .f32) (w : FVec Ideal S1024x1024 .bf16) (b : FVec Ideal S1x1024 .f32) :
    FVec Ideal S256x1024 .bf16 :=
  fun j => (∑ t : Fin 1024, x (ix2 (⟨(j 0).val, idx2_lt0 j⟩ : Fin 256) t) * w (ix2 (⟨(j 1).val, idx2_lt1 j⟩ : Fin 1024) t))
    + b (ix2 (0 : Fin 1) (⟨(j 1).val, idx2_lt1 j⟩ : Fin 1024))

theorem projBlock_apply (x : FVec Ideal S256x1024 .f32) (w : FVec Ideal S1024x1024 .bf16) (b : FVec Ideal S1x1024 .f32)
    (p : Fin 256) (q : Fin 1024) :
    projBlock x w b (ix2 p q) = (∑ t : Fin 1024, x (ix2 p t) * w (ix2 q t)) + b (ix2 (0 : Fin 1) q) := rfl

/-- The body's arithmetic, once its identity casts are gone, is the projection. -/
theorem body_eq (x : FVec Ideal S256x1024 .f32) (w : FVec Ideal S1024x1024 .bf16) (b : FVec Ideal S1x1024 .f32) :
    (truncf .bf16 (addf (matmul (F := Ideal) dot_S256x1024_S1024x1024_S256x1024_1_0_0_1_n_n none (truncf .bf16 x bitsLt_bf16_f32)
        (transpose S1024x1024 [1, 0] w transposes_S1024x1024_p1_0_S1024x1024) (constant S256x1024 .f32 0x00000000#32))
      (broadcastTo S256x1024 b broadcasts_S1x1024_S256x1024)) bitsLt_bf16_f32 : FVec Ideal S256x1024 .bf16)
      = projBlock x w b := by
  funext j
  obtain ⟨p, q, rfl⟩ : ∃ (p : Fin 256) (q : Fin 1024), j = ix2 p q := ⟨j 0, j 1, eq_ix2 j⟩
  rw [projBlock_apply]
  show FloatOps.matmul (F := Ideal) dot_S256x1024_S1024x1024_S256x1024_1_0_0_1_n_n none (truncf .bf16 x bitsLt_bf16_f32)
      (transpose S1024x1024 [1, 0] w transposes_S1024x1024_p1_0_S1024x1024) (constant S256x1024 .f32 0x00000000#32) (ix2 p q)
      + broadcastTo S256x1024 b broadcasts_S1x1024_S256x1024 (ix2 p q) = _
  rw [dot_proj_plain, matmul_zero_plain, rowsTimes_apply, broadcastTo_1b_ab_apply]
  refine congrArg (· + _) (Finset.sum_congr rfl fun t _ => ?_)
  rw [transpose_ix2_apply]
  rfl

section Layer0
variable (x : Vec Ideal S256x1024 .f32) (w : Vec Ideal S1024x1024 .bf16) (b : Vec Ideal S1x1024 .f32)
theorem pay0_q : k0_pay2 (F := Ideal) x w b = projBlock x w b := by
  unfold k0_pay2 k0_pay1; dsimp only; simp only [shapeCast_self]; exact body_eq x w b
theorem pay0_k : k0_pay3 (F := Ideal) x w b = projBlock x w b := by
  unfold k0_pay3 k0_pay1; dsimp only; simp only [shapeCast_self]; exact body_eq x w b
theorem pay0_v : k0_pay4 (F := Ideal) x w b = projBlock x w b := by
  unfold k0_pay4 k0_pay1; dsimp only; simp only [shapeCast_self]; exact body_eq x w b
theorem pay2_q : k2_pay2 (F := Ideal) x w b = projBlock x w b := by
  unfold k2_pay2 k2_pay1; dsimp only; simp only [shapeCast_self]; exact body_eq x w b
theorem pay2_k : k2_pay3 (F := Ideal) x w b = projBlock x w b := by
  unfold k2_pay3 k2_pay1; dsimp only; simp only [shapeCast_self]; exact body_eq x w b
theorem pay2_v : k2_pay4 (F := Ideal) x w b = projBlock x w b := by
  unfold k2_pay4 k2_pay1; dsimp only; simp only [shapeCast_self]; exact body_eq x w b
theorem pay4_q : k4_pay2 (F := Ideal) x w b = projBlock x w b := by
  unfold k4_pay2 k4_pay1; dsimp only; simp only [shapeCast_self]; exact body_eq x w b
theorem pay4_k : k4_pay3 (F := Ideal) x w b = projBlock x w b := by
  unfold k4_pay3 k4_pay1; dsimp only; simp only [shapeCast_self]; exact body_eq x w b
theorem pay4_v : k4_pay4 (F := Ideal) x w b = projBlock x w b := by
  unfold k4_pay4 k4_pay1; dsimp only; simp only [shapeCast_self]; exact body_eq x w b
theorem pay6_q : k6_pay2 (F := Ideal) x w b = projBlock x w b := by
  unfold k6_pay2 k6_pay1; dsimp only; simp only [shapeCast_self]; exact body_eq x w b
theorem pay6_k : k6_pay3 (F := Ideal) x w b = projBlock x w b := by
  unfold k6_pay3 k6_pay1; dsimp only; simp only [shapeCast_self]; exact body_eq x w b
theorem pay6_v : k6_pay4 (F := Ideal) x w b = projBlock x w b := by
  unfold k6_pay4 k6_pay1; dsimp only; simp only [shapeCast_self]; exact body_eq x w b
end Layer0

end Cert.KSide

end
-- ==== Proof.Spec.lean ====
/-
  The mathematics both programs compute, on the extended reals, with no program in sight.

  A single-head causal self-attention layer on `n` positions of width `e`: the three projections
  `x · Wᵀ + b`, the scaled scores `(q_i · k_j) * c` kept on and below the diagonal and `⊥` above it, the
  row-wise softmax written as it is computed (subtract the row's maximum, exponentiate, divide by the
  row's sum), the mixture of the values by those weights, and the output projection. Four such layers
  are chained, and the result is the running sum of each layer's weights times a constant, started
  from a constant: with the constants `0`, `1/4` and `1/32` it is the layer-averaged attention matrix.
  The constants stay parameters here, so that no float pattern is ever evaluated on this side.
-/
import Idealize.ShloMosaic.PureOps.Ideal
import Idealize.ShloMosaic.Lib.ValueIdx

noncomputable section

namespace Cert.Attn

open Idealize.ShloMosaic Idealize.ShloMosaic.ValueIdx

/-- A matrix of extended reals, rows by columns. -/
abbrev Mat (a b : ℕ) := Fin a → Fin b → EReal

/-- `x · wᵀ + b`: entry (i, j) is the dot product of row `i` of `x` with row `j` of `w`, plus `b j`. -/
def proj {n k o : ℕ} (x : Mat n k) (w : Mat o k) (b : Fin o → EReal) : Mat n o :=
  fun i j => (∑ t : Fin k, x i t * w j t) + b j

/-- Scaled causal scores: `(q_i · k_j) * c` for `j ≤ i`, and `⊥` above the diagonal. -/
def scores {n e : ℕ} (c : EReal) (q k : Mat n e) : Mat n n :=
  fun i j => if j.val ≤ i.val then (∑ t : Fin e, q i t * k j t) * c else ⊥

/-- The maximum of a row, as a fold of `max` from `⊥`. -/
def rowMax {n p : ℕ} (s : Mat n p) (i : Fin n) : EReal := (Finset.univ : Finset (Fin p)).fold max ⊥ (s i)

/-- `exp (s - rowMax)`, entry by entry. -/
def expo {n p : ℕ} (s : Mat n p) : Mat n p := fun i j => Ideal.exp (s i j - rowMax s i)

/-- The softmax of each row: the shifted exponentials over their row sum. -/
def weights {n p : ℕ} (s : Mat n p) : Mat n p := fun i j => Ideal.div (expo s i j) (∑ t : Fin p, expo s i t)

/-- `w · v`: the rows of `v` mixed by the rows of `w`. -/
def mix {n p e : ℕ} (w : Mat n p) (v : Mat p e) : Mat n e := fun i t => ∑ j : Fin p, w i j * v j t

/-- A layer's attention weights from its input and its query / key parameters. -/
def attnW {n e : ℕ} (c : EReal) (x : Mat n e) (wq wk : Mat e e) (bq bk : Fin e → EReal) : Mat n n :=
  weights (scores c (proj x wq bq) (proj x wk bk))

/-- A layer's output: the values mixed by the attention weights, then projected. -/
def next {n e : ℕ} (c : EReal) (x : Mat n e) (wq wk wv wo : Mat e e) (bq bk bv bo : Fin e → EReal) : Mat n e :=
  proj (mix (attnW c x wq wk bq bk) (proj x wv bv)) wo bo

section Net

/-! ## Four layers over stacked parameters

`W l` stacks the query, key and value matrices of layer `l` as rows 0–1023, 1024–2047, 2048–3071, and
`B l` their biases the same way. -/

variable (c z qtr : EReal)
variable (X : Mat 2048 1024) (W : Fin 4 → Mat 3072 1024) (B : Fin 4 → Fin 3072 → EReal)
variable (Wo : Fin 4 → Mat 1024 1024) (Bo : Fin 4 → Fin 1024 → EReal)

/-- Rows `off … off + 1023` of a stacked matrix. -/
def rowsAt (off : ℕ) (h : off + 1024 ≤ 3072) (w : Mat 3072 1024) : Mat 1024 1024 :=
  fun j t => w ⟨off + j.val, by have := j.isLt; omega⟩ t

/-- Entries `off … off + 1023` of a stacked bias. -/
def entriesAt (off : ℕ) (h : off + 1024 ≤ 3072) (b : Fin 3072 → EReal) : Fin 1024 → EReal :=
  fun j => b ⟨off + j.val, by have := j.isLt; omega⟩

/-- Layer `l`'s attention weights on the input `x`. -/
def layerW (l : Fin 4) (x : Mat 2048 1024) : Mat 2048 2048 :=
  attnW c x (rowsAt 0 (by omega) (W l)) (rowsAt 1024 (by omega) (W l))
    (entriesAt 0 (by omega) (B l)) (entriesAt 1024 (by omega) (B l))

/-- Layer `l`'s output on the input `x`. -/
def layerX (l : Fin 4) (x : Mat 2048 1024) : Mat 2048 1024 :=
  next c x (rowsAt 0 (by omega) (W l)) (rowsAt 1024 (by omega) (W l)) (rowsAt 2048 (by omega) (W l)) (Wo l)
    (entriesAt 0 (by omega) (B l)) (entriesAt 1024 (by omega) (B l)) (entriesAt 2048 (by omega) (B l)) (Bo l)

/-- The inputs of layers 1, 2, 3. -/
def x1 : Mat 2048 1024 := layerX c W B Wo Bo 0 X
def x2 : Mat 2048 1024 := layerX c W B Wo Bo 1 (x1 c X W B Wo Bo)
def x3 : Mat 2048 1024 := layerX c W B Wo Bo 2 (x2 c X W B Wo Bo)

/-- The running sum after each layer: the previous sum plus that layer's weights times `qtr`, from `z`. -/
def acc1 : Mat 2048 2048 := fun i j => z + layerW c W B 0 X i j * qtr
def acc2 : Mat 2048 2048 := fun i j => acc1 c z qtr X W B i j + layerW c W B 1 (x1 c X W B Wo Bo) i j * qtr
def acc3 : Mat 2048 2048 := fun i j => acc2 c z qtr X W B Wo Bo i j + layerW c W B 2 (x2 c X W B Wo Bo) i j * qtr
def acc4 : Mat 2048 2048 := fun i j => acc3 c z qtr X W B Wo Bo i j + layerW c W B 3 (x3 c X W B Wo Bo) i j * qtr

end Net

/-! ## The result as an array

The five argument arrays at their literal shapes, read through their coordinates, and the three float
patterns both programs use: the zero the running sum starts from, `0.25` and `0.03125`. -/

/-- The layer-averaged attention matrix as an array over the index type of a [2048, 2048] buffer. -/
def result (a0 : (⟨2, ![2048, 1024]⟩ : Shape).Idx → EReal) (a1 : (⟨3, ![4, 3072, 1024]⟩ : Shape).Idx → EReal)
    (a2 : (⟨2, ![4, 3072]⟩ : Shape).Idx → EReal) (a3 : (⟨3, ![4, 1024, 1024]⟩ : Shape).Idx → EReal)
    (a4 : (⟨2, ![4, 1024]⟩ : Shape).Idx → EReal) : (⟨2, ![2048, 2048]⟩ : Shape).Idx → EReal :=
  fun i => acc4 (Ideal.ofBits .f32 0x3D000000#32) (Ideal.ofBits .f32 0x00000000#32) (Ideal.ofBits .f32 0x3E800000#32)
    (fun p t => a0 (ix2 p t)) (fun l j t => a1 (ix3 l j t)) (fun l j => a2 (ix2 l j))
    (fun l j t => a3 (ix3 l j t)) (fun l j => a4 (ix2 l j))
    ⟨(i 0).val, (i 0).isLt⟩ ⟨(i 1).val, (i 1).isLt⟩

end Cert.Attn

end
-- ==== Proof.KTerms.lean ====
/-
  The arrays the idealized kernel program computes, as functions of its five argument arrays, and their
  agreement with the specification.

  Layer l of the program reads slab l of the stacked weights and biases; its query / key / value kernel leaves
  the three projections of its input; its attention kernel leaves the output projection of the mixed values and
  adds a quarter of the attention weights to the running sum. Written over whole arrays these are the
  specification's `proj`, `scores`, `weights`, `mix` read through coordinates, so the running sum after the
  fourth layer is the specification's result: every step below is an unfolding.
-/
import proofs.«101734_j68264210202743_2_alg».proof.Proof.Gen.KernelIdeal
import proofs.«101734_j68264210202743_2_alg».proof.Proof.Spec
import Idealize.ShloMosaic.Lib.ValueIdx

noncomputable section

namespace Cert.KSide

open Cert.KernelIdeal Idealize.ShloMosaic Idealize.ShloMosaic.ValueIdx Cert.Attn

/-- The scale `0.03125` and the weight `0.25` of one layer in the average, as the float patterns the kernel prints. -/
abbrev cK : EReal := Ideal.ofBits .f32 0x3D000000#32
abbrev qK : EReal := Ideal.ofBits .f32 0x3E800000#32
abbrev zK : EReal := Ideal.ofBits .f32 0x00000000#32

/-- A rank-two array as a matrix, and a one-row array as a vector. -/
def toMat {a b : ℕ} (f : (⟨2, ![a, b]⟩ : Shape).Idx → EReal) : Mat a b := fun i j => f (ix2 i j)
def toRow {b : ℕ} (f : (⟨2, ![1, b]⟩ : Shape).Idx → EReal) : Fin b → EReal := fun j => f (ix2 (0 : Fin 1) j)

/-- `x · Wᵀ + b` over whole arrays, with the 1024 rows of the stacked weights `w` and the 1024 entries of the stacked
    bias `b` taken at offset `off`. -/
def projArr (off : ℕ) (hoff : off + 1024 ≤ 3072) (x : S2048x1024.Idx → EReal) (w : S3072x1024.Idx → EReal)
    (b : S1x3072.Idx → EReal) : S2048x1024.Idx → EReal :=
  fun i => (∑ t : Fin 1024, x (ix2 (⟨(i 0).val, idx2_lt0 i⟩ : Fin 2048) t)
        * w (ix2 (⟨off + (i 1).val, by have := idx2_lt1 i; omega⟩ : Fin 3072) t))
    + b (ix2 (0 : Fin 1) (⟨off + (i 1).val, by have := idx2_lt1 i; omega⟩ : Fin 3072))

/-- The attention weights of queries `q` against keys `k`, as an array. -/
def attnArr (q k : S2048x1024.Idx → EReal) : S2048x2048.Idx → EReal :=
  fun i => weights (scores cK (toMat q) (toMat k)) ⟨(i 0).val, idx2_lt0 i⟩ ⟨(i 1).val, idx2_lt1 i⟩

/-- The running sum after a layer: what it held plus a quarter of the layer's attention weights. -/
def accArr (a : S2048x2048.Idx → EReal) (q k : S2048x1024.Idx → EReal) : S2048x2048.Idx → EReal :=
  fun i => a i + attnArr q k i * qK

/-- A layer's output: the values mixed by the attention weights, projected by `wo` and shifted by `bo`. -/
def outArr (q k v : S2048x1024.Idx → EReal) (wo : S1024x1024.Idx → EReal) (bo : S1x1024.Idx → EReal) :
    S2048x1024.Idx → EReal :=
  fun i => proj (mix (weights (scores cK (toMat q) (toMat k))) (toMat v)) (toMat wo) (toRow bo)
    ⟨(i 0).val, idx2_lt0 i⟩ ⟨(i 1).val, idx2_lt1 i⟩

section Layers

variable (a0 : S2048x1024.Idx → EReal) (a1 : S4x3072x1024.Idx → EReal) (a2 : S4x3072.Idx → EReal)
variable (a3 : S4x1024x1024.Idx → EReal) (a4 : S4x1024.Idx → EReal)

/-- Slab `l` of each stacked parameter, as the array the layer's kernels are handed. -/
def wSlab (l : Fin 4) : S3072x1024.Idx → EReal := fun i => a1 (ix3 l (⟨(i 0).val, idx2_lt0 i⟩ : Fin 3072) (⟨(i 1).val, idx2_lt1 i⟩ : Fin 1024))
def bSlab (l : Fin 4) : S1x3072.Idx → EReal := fun i => a2 (ix2 l (⟨(i 1).val, idx2_lt1 i⟩ : Fin 3072))
def woSlab (l : Fin 4) : S1024x1024.Idx → EReal := fun i => a3 (ix3 l (⟨(i 0).val, idx2_lt0 i⟩ : Fin 1024) (⟨(i 1).val, idx2_lt1 i⟩ : Fin 1024))
def boSlab (l : Fin 4) : S1x1024.Idx → EReal := fun i => a4 (ix2 l (⟨(i 1).val, idx2_lt1 i⟩ : Fin 1024))

/-- The three projections of layer `l` on the input `x`. -/
def qArr (l : Fin 4) (x : S2048x1024.Idx → EReal) := projArr 0 (by omega) x (wSlab a1 l) (bSlab a2 l)
def kArr (l : Fin 4) (x : S2048x1024.Idx → EReal) := projArr 1024 (by omega) x (wSlab a1 l) (bSlab a2 l)
def vArr (l : Fin 4) (x : S2048x1024.Idx → EReal) := projArr 2048 (by omega) x (wSlab a1 l) (bSlab a2 l)

/-- Layer `l`'s output and its step of the running sum. -/
def xNext (l : Fin 4) (x : S2048x1024.Idx → EReal) : S2048x1024.Idx → EReal :=
  outArr (qArr a1 a2 l x) (kArr a1 a2 l x) (vArr a1 a2 l x) (woSlab a3 l) (boSlab a4 l)
def aNext (l : Fin 4) (a : S2048x2048.Idx → EReal) (x : S2048x1024.Idx → EReal) : S2048x2048.Idx → EReal :=
  accArr a (qArr a1 a2 l x) (kArr a1 a2 l x)

/-- The inputs of the four layers and the running sum after each. -/
def xA1 := xNext a1 a2 a3 a4 0 a0
def xA2 := xNext a1 a2 a3 a4 1 (xA1 a0 a1 a2 a3 a4)
def xA3 := xNext a1 a2 a3 a4 2 (xA2 a0 a1 a2 a3 a4)
def aA0 : S2048x2048.Idx → EReal := fun _ => zK
def aA1 := aNext a1 a2 0 aA0 a0
def aA2 := aNext a1 a2 1 (aA1 a0 a1 a2) (xA1 a0 a1 a2 a3 a4)
def aA3 := aNext a1 a2 2 (aA2 a0 a1 a2 a3 a4) (xA2 a0 a1 a2 a3 a4)
def aA4 := aNext a1 a2 3 (aA3 a0 a1 a2 a3 a4) (xA3 a0 a1 a2 a3 a4)

/-! ## Agreement with the specification -/

/-- The specification's stacked parameters read off the argument arrays. -/
abbrev sX : Mat 2048 1024 := fun p t => a0 (ix2 p t)
abbrev sW : Fin 4 → Mat 3072 1024 := fun l j t => a1 (ix3 l j t)
abbrev sB : Fin 4 → Fin 3072 → EReal := fun l j => a2 (ix2 l j)
abbrev sWo : Fin 4 → Mat 1024 1024 := fun l j t => a3 (ix3 l j t)
abbrev sBo : Fin 4 → Fin 1024 → EReal := fun l j => a4 (ix2 l j)

/-- A projection array read as a matrix is the specification's projection with the slab's rows and entries. -/
theorem toMat_projArr (off : ℕ) (hoff : off + 1024 ≤ 3072) (l : Fin 4) (x : S2048x1024.Idx → EReal) :
    toMat (projArr off hoff x (wSlab a1 l) (bSlab a2 l))
      = proj (toMat x) (rowsAt off hoff (sW a1 l)) (entriesAt off hoff (sB a2 l)) := rfl

/-- A layer's output array read as a matrix is the specification's layer output. -/
theorem toMat_xNext (l : Fin 4) (x : S2048x1024.Idx → EReal) :
    toMat (xNext a1 a2 a3 a4 l x) = layerX cK (sW a1) (sB a2) (sWo a3) (sBo a4) l (toMat x) := rfl

/-- A layer's attention array is the specification's layer weights. -/
theorem attnArr_layer (l : Fin 4) (x : S2048x1024.Idx → EReal) (i : S2048x2048.Idx) :
    attnArr (qArr a1 a2 l x) (kArr a1 a2 l x) i
      = layerW cK (sW a1) (sB a2) l (toMat x) ⟨(i 0).val, idx2_lt0 i⟩ ⟨(i 1).val, idx2_lt1 i⟩ := rfl

theorem toMat_a0 : toMat a0 = sX a0 := rfl
theorem toMat_xA1 : toMat (xA1 a0 a1 a2 a3 a4) = x1 cK (sX a0) (sW a1) (sB a2) (sWo a3) (sBo a4) := rfl
theorem toMat_xA2 : toMat (xA2 a0 a1 a2 a3 a4) = x2 cK (sX a0) (sW a1) (sB a2) (sWo a3) (sBo a4) := by
  unfold xA2 x2; rw [toMat_xNext, toMat_xA1]
theorem toMat_xA3 : toMat (xA3 a0 a1 a2 a3 a4) = x3 cK (sX a0) (sW a1) (sB a2) (sWo a3) (sBo a4) := by
  unfold xA3 x3; rw [toMat_xNext, toMat_xA2]

/-- The running sum after the fourth layer is the specification's result. -/
theorem aA4_eq_result : aA4 a0 a1 a2 a3 a4 = Cert.Attn.result a0 a1 a2 a3 a4 := by
  funext i
  unfold aA4 aA3 aA2 aA1 aA0 aNext accArr Cert.Attn.result acc4 acc3 acc2 acc1
  rw [attnArr_layer, attnArr_layer, attnArr_layer, attnArr_layer, toMat_xA3, toMat_xA2, toMat_xA1]
  rfl

end Layers

end Cert.KSide

end
-- ==== Proof.KQkvRegion.lean ====
/-
  The query / key / value kernel's three output arrays as whole-array functions of the arrays the region finds.

  The kernel's grid has eight points; point t reads rows 256 t … 256 t + 255 of the input, the whole [3072, 1024]
  stack of weights and the whole [1, 3072] bias, and writes rows 256 t … 256 t + 255 of each of its three outputs.
  Its body takes the slab at row offset 0, 1024 or 2048 of the weights and the same piece of the bias. A row of
  x · Wᵀ + b depends on its own row of x only, so block t of the output is block t of the projection of the whole
  input, and the eight blocks tile the output: each output array ends holding the projection of the whole input
  with the slab at its offset.
-/
import proofs.«101734_j68264210202743_2_alg».proof.Proof.KernelIdealFrame
import proofs.«101734_j68264210202743_2_alg».proof.Proof.KQkvBlock
import proofs.«101734_j68264210202743_2_alg».proof.Proof.KTerms
import Idealize.ShloMosaic.Lib.Pipeline.Value

set_option maxRecDepth 16384

noncomputable section

namespace Cert.KSide

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-- A block of rows of the projection is the projection of that block of rows: if `xb` is rows `256 r …` of `X`, `wb`
    rows `off …` of `W` and `bb` entries `off …` of `B`, then the block's projection at `y` is the whole projection at the
    index `i` that `y` sits at. -/
theorem proj_rows (off : ℕ) (hoff : off + 1024 ≤ 3072) (X : S2048x1024.Idx → EReal) (W : S3072x1024.Idx → EReal)
    (B : S1x3072.Idx → EReal) (xb : Vec Ideal S256x1024 .f32) (wb : Vec Ideal S1024x1024 .bf16) (bb : Vec Ideal S1x1024 .f32) (r : ℕ)
    (hx : ∀ (y : S256x1024.Idx) (i : S2048x1024.Idx), (i 0).val = r * 256 + (y 0).val → (i 1).val = (y 1).val → xb y = X i)
    (hw : ∀ (y : S1024x1024.Idx) (i : S3072x1024.Idx), (i 0).val = off + (y 0).val → (i 1).val = (y 1).val → wb y = W i)
    (hb : ∀ (y : S1x1024.Idx) (i : S1x3072.Idx), (i 1).val = off + (y 1).val → bb y = B i)
    (y : S256x1024.Idx) (i : S2048x1024.Idx) (h0 : (i 0).val = r * 256 + (y 0).val) (h1 : (i 1).val = (y 1).val) :
    projBlock xb wb bb y = projArr off hoff X W B i := by
  unfold projBlock projArr
  refine congrArg₂ (· + ·) (Finset.sum_congr rfl fun t _ => congrArg₂ (· * ·) (hx _ _ ?_ ?_) (hw _ _ ?_ ?_)) (hb _ _ ?_)
  · exact h0
  · rfl
  · show off + (i 1).val = off + (y 1).val; rw [h1]
  · rfl
  · show off + (i 1).val = off + (y 1).val; rw [h1]

variable (V : (c : Dev nD) → (b : Ref sig .tc) → Buf (Elt Ideal) ((c : Thread nD τ).loc b))

/-! ## Region 0 -/

/-- The printed index maps of region 0, decided over its eight points: the input and the three outputs move down the
    rows with the point; the weight slab and the bias row stay put. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input block at a point is 256 rows of the input array. -/
theorem xblk0 (c : Dev nD) (t : Fin cfg0.N) (y : S256x1024.Idx) (i : S2048x1024.Idx)
    (h0 : (i 0).val = t.val * 256 + (y 0).val) (h1 : (i 1).val = (y 1).val) :
    View.ld (iblk0 V c 0 t) r0_0 y = V c main_arg0 i := by
  obtain ⟨e0, e1, -⟩ := idx0 t
  show V c main_arg0 (((cfg0.win 0).blk t).view.emb (r0_0.idx y)) = V c main_arg0 i
  refine congrArg (V c main_arg0) (funext fun a => Fin.ext ?_)
  match a with
  | ⟨0, _⟩ => show win0_0.index t (0 : Fin 2) * 256 + 1 * (0 + 1 * (y 0).val) = (i 0).val; rw [e0, h0]; omega
  | ⟨1, _⟩ => show win0_0.index t (1 : Fin 2) * 1024 + 1 * (0 + 1 * (y 1).val) = (i 1).val; rw [e1, h1]; omega

/-- The slab the body loads at row offset `off` of the weight block is those rows of the weight array. -/
theorem wblk0 (c : Dev nD) (t : Fin cfg0.N) (off : ℕ) (inb) (y : S1024x1024.Idx) (i : S3072x1024.Idx)
    (h0 : (i 0).val = off + (y 0).val) (h1 : (i 1).val = (y 1).val) :
    View.ld (iblk0 V c 1 t) (Rect.unit (s := S3072x1024) ![off, 0] S1024x1024.size inb) y = V c main_v7 i := by
  obtain ⟨-, -, e0, e1, -⟩ := idx0 t
  show V c main_v7 (((cfg0.win 1).blk t).view.emb ((Rect.unit (s := S3072x1024) ![off, 0] S1024x1024.size inb).idx y)) = V c main_v7 i
  refine congrArg (V c main_v7) (funext fun a => Fin.ext ?_)
  match a with
  | ⟨0, _⟩ => show win0_1.index t (0 : Fin 2) * 3072 + 1 * (off + 1 * (y 0).val) = (i 0).val; rw [e0, h0]; omega
  | ⟨1, _⟩ => show win0_1.index t (1 : Fin 2) * 1024 + 1 * (0 + 1 * (y 1).val) = (i 1).val; rw [e1, h1]; omega

/-- The piece the body loads at column offset `off` of the bias block is those entries of the bias array. -/
theorem bblk0 (c : Dev nD) (t : Fin cfg0.N) (off : ℕ) (inb) (y : S1x1024.Idx) (i : S1x3072.Idx)
    (h1 : (i 1).val = off + (y 1).val) :
    View.ld (iblk0 V c 2 t) (Rect.unit (s := S1x3072) ![0, off] S1x1024.size inb) y = V c main_v5 i := by
  obtain ⟨-, -, -, -, e0, e1, -⟩ := idx0 t
  show V c main_v5 (((cfg0.win 2).blk t).view.emb ((Rect.unit (s := S1x3072) ![0, off] S1x1024.size inb).idx y)) = V c main_v5 i
  refine congrArg (V c main_v5) (funext fun a => Fin.ext ?_)
  match a with
  | ⟨0, _⟩ => show win0_2.index t (0 : Fin 2) * 1 + 1 * (0 + 1 * (y 0).val) = (i 0).val; rw [e0]; have hy : (y 0).val < 1 := (y 0).isLt; have hi : (i 0).val < 1 := (i 0).isLt; omega
  | ⟨1, _⟩ => show win0_2.index t (1 : Fin 2) * 3072 + 1 * (off + 1 * (y 1).val) = (i 1).val; rw [e1, h1]; omega

/-- What point `t` writes back through output window 3 is block `t` of the projection at row offset 0 of the stacked weights. -/
theorem flushed0_3_eq (c : Dev nD) (t : Fin cfg0.N) :
    (dat0 V c).flushed 3 t = ((cfg0.win 3).blk t).view.read (Elt Ideal)
      (projArr 0 (by omega) (V c main_arg0) (V c main_v7) (V c main_v5)) := by
  show (cfg0.win 3).cut (grid0.coords t) ((dat0 V c).after 3 t) = _
  rw [after0_3]
  unfold out0_3
  rw [View.canon_unit_zero hz2, pay0_q]
  obtain ⟨-, -, -, -, -, -, e30, e31, e40, e41, e50, e51⟩ := idx0 t
  funext j
  show projBlock _ _ _ j = projArr 0 (by omega) _ _ _ (((cfg0.win 3).blk t).view.emb j)
  refine proj_rows 0 (by omega) (V c main_arg0) (V c main_v7) (V c main_v5) _ _ _ t.val
    (xblk0 V c t) (wblk0 V c t 0 _) (bblk0 V c t 0 _) j _ ?_ ?_
  · show win0_3.index t (0 : Fin 2) * 256 + 1 * (j 0).val = t.val * 256 + (j 0).val; rw [e30]; omega
  · show win0_3.index t (1 : Fin 2) * 1024 + 1 * (j 1).val = (j 1).val; rw [e31]; omega

/-- An index of output 3's array is in point `t`'s block iff each coordinate is in the block's range. -/
theorem mem_blk0_3 (t : Fin cfg0.N) (i : S2048x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v8_0).slice (win0_3.rect t)).set ↔ _
  rw [View.set_slice_whole, Rect.mem_set_unit]
  exact Iff.rfl

/-- The eight row blocks tile the array: row `r` is in the block of point `r / 256`. -/
theorem cover0_3 (i : S2048x1024.Idx) :
    ∃ t : Fin cfg0.N, (cfg0.win 3).flush t = true ∧ i ∈ ((cfg0.win 3).blk t).view.set := by
  have hi0 : (i 0).val < 2048 := (i 0).isLt
  have hi1 : (i 1).val < 1024 := (i 1).isLt
  have hN : cfg0.N = 8 := N_0
  obtain ⟨t, ht⟩ : ∃ t : Fin cfg0.N, t.val = (i 0).val / 256 := ⟨⟨(i 0).val / 256, by rw [hN]; omega⟩, rfl⟩
  obtain ⟨-, -, -, -, -, -, e30, e31, e40, e41, e50, e51⟩ := idx0 t
  refine ⟨t, flush0_3 t, ?_⟩
  rw [mem_blk0_3]
  intro a
  match a with
  | ⟨0, _⟩ => show win0_3.index t (0 : Fin 2) * 256 ≤ (i 0).val ∧ (i 0).val < win0_3.index t (0 : Fin 2) * 256 + 256; rw [e30, ht]; omega
  | ⟨1, _⟩ => show win0_3.index t (1 : Fin 2) * 1024 ≤ (i 1).val ∧ (i 1).val < win0_3.index t (1 : Fin 2) * 1024 + 1024; rw [e31]; omega

/-- Output 3's array after the region: the projection of the whole input. -/
theorem final0_3 (c : Dev nD) :
    (dat0 V c).arrAt 3 cfg0.N = projArr 0 (by omega) (V c main_arg0) (V c main_v7) (V c main_v5) :=
  (dat0 V c).arrAt_eq_of_cover 3 _ (fun t _ => flushed0_3_eq V c t) (cover0_3)

/-- What point `t` writes back through output window 4 is block `t` of the projection at row offset 1024 of the stacked weights. -/
theorem flushed0_4_eq (c : Dev nD) (t : Fin cfg0.N) :
    (dat0 V c).flushed 4 t = ((cfg0.win 4).blk t).view.read (Elt Ideal)
      (projArr 1024 (by omega) (V c main_arg0) (V c main_v7) (V c main_v5)) := by
  show (cfg0.win 4).cut (grid0.coords t) ((dat0 V c).after 4 t) = _
  rw [after0_4]
  unfold out0_4
  rw [View.canon_unit_zero hz2, pay0_k]
  obtain ⟨-, -, -, -, -, -, e30, e31, e40, e41, e50, e51⟩ := idx0 t
  funext j
  show projBlock _ _ _ j = projArr 1024 (by omega) _ _ _ (((cfg0.win 4).blk t).view.emb j)
  refine proj_rows 1024 (by omega) (V c main_arg0) (V c main_v7) (V c main_v5) _ _ _ t.val
    (xblk0 V c t) (wblk0 V c t 1024 _) (bblk0 V c t 1024 _) j _ ?_ ?_
  · show win0_4.index t (0 : Fin 2) * 256 + 1 * (j 0).val = t.val * 256 + (j 0).val; rw [e40]; omega
  · show win0_4.index t (1 : Fin 2) * 1024 + 1 * (j 1).val = (j 1).val; rw [e41]; omega

/-- An index of output 4's array is in point `t`'s block iff each coordinate is in the block's range. -/
theorem mem_blk0_4 (t : Fin cfg0.N) (i : S2048x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v8_1).slice (win0_4.rect t)).set ↔ _
  rw [View.set_slice_whole, Rect.mem_set_unit]
  exact Iff.rfl

/-- The eight row blocks tile the array: row `r` is in the block of point `r / 256`. -/
theorem cover0_4 (i : S2048x1024.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  have hN : cfg0.N = 8 := N_0
  obtain ⟨t, ht⟩ : ∃ t : Fin cfg0.N, t.val = (i 0).val / 256 := ⟨⟨(i 0).val / 256, by rw [hN]; omega⟩, rfl⟩
  obtain ⟨-, -, -, -, -, -, e30, e31, e40, e41, e50, e51⟩ := idx0 t
  refine ⟨t, flush0_4 t, ?_⟩
  rw [mem_blk0_4]
  intro a
  match a with
  | ⟨0, _⟩ => show win0_4.index t (0 : Fin 2) * 256 ≤ (i 0).val ∧ (i 0).val < win0_4.index t (0 : Fin 2) * 256 + 256; rw [e40, ht]; omega
  | ⟨1, _⟩ => show win0_4.index t (1 : Fin 2) * 1024 ≤ (i 1).val ∧ (i 1).val < win0_4.index t (1 : Fin 2) * 1024 + 1024; rw [e41]; omega

/-- Output 4's array after the region: the projection of the whole input. -/
theorem final0_4 (c : Dev nD) :
    (dat0 V c).arrAt 4 cfg0.N = projArr 1024 (by omega) (V c main_arg0) (V c main_v7) (V c main_v5) :=
  (dat0 V c).arrAt_eq_of_cover 4 _ (fun t _ => flushed0_4_eq V c t) (cover0_4)

/-- What point `t` writes back through output window 5 is block `t` of the projection at row offset 2048 of the stacked weights. -/
theorem flushed0_5_eq (c : Dev nD) (t : Fin cfg0.N) :
    (dat0 V c).flushed 5 t = ((cfg0.win 5).blk t).view.read (Elt Ideal)
      (projArr 2048 (by omega) (V c main_arg0) (V c main_v7) (V c main_v5)) := by
  show (cfg0.win 5).cut (grid0.coords t) ((dat0 V c).after 5 t) = _
  rw [after0_5]
  unfold out0_5
  rw [View.canon_unit_zero hz2, pay0_v]
  obtain ⟨-, -, -, -, -, -, e30, e31, e40, e41, e50, e51⟩ := idx0 t
  funext j
  show projBlock _ _ _ j = projArr 2048 (by omega) _ _ _ (((cfg0.win 5).blk t).view.emb j)
  refine proj_rows 2048 (by omega) (V c main_arg0) (V c main_v7) (V c main_v5) _ _ _ t.val
    (xblk0 V c t) (wblk0 V c t 2048 _) (bblk0 V c t 2048 _) j _ ?_ ?_
  · show win0_5.index t (0 : Fin 2) * 256 + 1 * (j 0).val = t.val * 256 + (j 0).val; rw [e50]; omega
  · show win0_5.index t (1 : Fin 2) * 1024 + 1 * (j 1).val = (j 1).val; rw [e51]; omega

/-- An index of output 5's array is in point `t`'s block iff each coordinate is in the block's range. -/
theorem mem_blk0_5 (t : Fin cfg0.N) (i : S2048x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v8_2).slice (win0_5.rect t)).set ↔ _
  rw [View.set_slice_whole, Rect.mem_set_unit]
  exact Iff.rfl

/-- The eight row blocks tile the array: row `r` is in the block of point `r / 256`. -/
theorem cover0_5 (i : S2048x1024.Idx) :
    ∃ t : Fin cfg0.N, (cfg0.win 5).flush t = true ∧ i ∈ ((cfg0.win 5).blk t).view.set := by
  have hi0 : (i 0).val < 2048 := (i 0).isLt
  have hi1 : (i 1).val < 1024 := (i 1).isLt
  have hN : cfg0.N = 8 := N_0
  obtain ⟨t, ht⟩ : ∃ t : Fin cfg0.N, t.val = (i 0).val / 256 := ⟨⟨(i 0).val / 256, by rw [hN]; omega⟩, rfl⟩
  obtain ⟨-, -, -, -, -, -, e30, e31, e40, e41, e50, e51⟩ := idx0 t
  refine ⟨t, flush0_5 t, ?_⟩
  rw [mem_blk0_5]
  intro a
  match a with
  | ⟨0, _⟩ => show win0_5.index t (0 : Fin 2) * 256 ≤ (i 0).val ∧ (i 0).val < win0_5.index t (0 : Fin 2) * 256 + 256; rw [e50, ht]; omega
  | ⟨1, _⟩ => show win0_5.index t (1 : Fin 2) * 1024 ≤ (i 1).val ∧ (i 1).val < win0_5.index t (1 : Fin 2) * 1024 + 1024; rw [e51]; omega

/-- Output 5's array after the region: the projection of the whole input. -/
theorem final0_5 (c : Dev nD) :
    (dat0 V c).arrAt 5 cfg0.N = projArr 2048 (by omega) (V c main_arg0) (V c main_v7) (V c main_v5) :=
  (dat0 V c).arrAt_eq_of_cover 5 _ (fun t _ => flushed0_5_eq V c t) (cover0_5)

/-! ## Region 2 -/

/-- The printed index maps of region 2, decided over its eight points: the input and the three outputs move down the
    rows with the point; the weight slab and the bias row stay put. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The input block at a point is 256 rows of the input array. -/
theorem xblk2 (c : Dev nD) (t : Fin cfg2.N) (y : S256x1024.Idx) (i : S2048x1024.Idx)
    (h0 : (i 0).val = t.val * 256 + (y 0).val) (h1 : (i 1).val = (y 1).val) :
    View.ld (iblk2 V c 0 t) r2_0 y = V c main_v14_0 i := by
  obtain ⟨e0, e1, -⟩ := idx2 t
  show V c main_v14_0 (((cfg2.win 0).blk t).view.emb (r2_0.idx y)) = V c main_v14_0 i
  refine congrArg (V c main_v14_0) (funext fun a => Fin.ext ?_)
  match a with
  | ⟨0, _⟩ => show win2_0.index t (0 : Fin 2) * 256 + 1 * (0 + 1 * (y 0).val) = (i 0).val; rw [e0, h0]; omega
  | ⟨1, _⟩ => show win2_0.index t (1 : Fin 2) * 1024 + 1 * (0 + 1 * (y 1).val) = (i 1).val; rw [e1, h1]; omega

/-- The slab the body loads at row offset `off` of the weight block is those rows of the weight array. -/
theorem wblk2 (c : Dev nD) (t : Fin cfg2.N) (off : ℕ) (inb) (y : S1024x1024.Idx) (i : S3072x1024.Idx)
    (h0 : (i 0).val = off + (y 0).val) (h1 : (i 1).val = (y 1).val) :
    View.ld (iblk2 V c 1 t) (Rect.unit (s := S3072x1024) ![off, 0] S1024x1024.size inb) y = V c main_v19 i := by
  obtain ⟨-, -, e0, e1, -⟩ := idx2 t
  show V c main_v19 (((cfg2.win 1).blk t).view.emb ((Rect.unit (s := S3072x1024) ![off, 0] S1024x1024.size inb).idx y)) = V c main_v19 i
  refine congrArg (V c main_v19) (funext fun a => Fin.ext ?_)
  match a with
  | ⟨0, _⟩ => show win2_1.index t (0 : Fin 2) * 3072 + 1 * (off + 1 * (y 0).val) = (i 0).val; rw [e0, h0]; omega
  | ⟨1, _⟩ => show win2_1.index t (1 : Fin 2) * 1024 + 1 * (0 + 1 * (y 1).val) = (i 1).val; rw [e1, h1]; omega

/-- The piece the body loads at column offset `off` of the bias block is those entries of the bias array. -/
theorem bblk2 (c : Dev nD) (t : Fin cfg2.N) (off : ℕ) (inb) (y : S1x1024.Idx) (i : S1x3072.Idx)
    (h1 : (i 1).val = off + (y 1).val) :
    View.ld (iblk2 V c 2 t) (Rect.unit (s := S1x3072) ![0, off] S1x1024.size inb) y = V c main_v17 i := by
  obtain ⟨-, -, -, -, e0, e1, -⟩ := idx2 t
  show V c main_v17 (((cfg2.win 2).blk t).view.emb ((Rect.unit (s := S1x3072) ![0, off] S1x1024.size inb).idx y)) = V c main_v17 i
  refine congrArg (V c main_v17) (funext fun a => Fin.ext ?_)
  match a with
  | ⟨0, _⟩ => show win2_2.index t (0 : Fin 2) * 1 + 1 * (0 + 1 * (y 0).val) = (i 0).val; rw [e0]; have hy : (y 0).val < 1 := (y 0).isLt; have hi : (i 0).val < 1 := (i 0).isLt; omega
  | ⟨1, _⟩ => show win2_2.index t (1 : Fin 2) * 3072 + 1 * (off + 1 * (y 1).val) = (i 1).val; rw [e1, h1]; omega

/-- What point `t` writes back through output window 3 is block `t` of the projection at row offset 0 of the stacked weights. -/
theorem flushed2_3_eq (c : Dev nD) (t : Fin cfg2.N) :
    (dat2 V c).flushed 3 t = ((cfg2.win 3).blk t).view.read (Elt Ideal)
      (projArr 0 (by omega) (V c main_v14_0) (V c main_v19) (V c main_v17)) := by
  show (cfg2.win 3).cut (grid2.coords t) ((dat2 V c).after 3 t) = _
  rw [after2_3]
  unfold out2_3
  rw [View.canon_unit_zero hz2, pay2_q]
  obtain ⟨-, -, -, -, -, -, e30, e31, e40, e41, e50, e51⟩ := idx2 t
  funext j
  show projBlock _ _ _ j = projArr 0 (by omega) _ _ _ (((cfg2.win 3).blk t).view.emb j)
  refine proj_rows 0 (by omega) (V c main_v14_0) (V c main_v19) (V c main_v17) _ _ _ t.val
    (xblk2 V c t) (wblk2 V c t 0 _) (bblk2 V c t 0 _) j _ ?_ ?_
  · show win2_3.index t (0 : Fin 2) * 256 + 1 * (j 0).val = t.val * 256 + (j 0).val; rw [e30]; omega
  · show win2_3.index t (1 : Fin 2) * 1024 + 1 * (j 1).val = (j 1).val; rw [e31]; omega

/-- An index of output 3's array is in point `t`'s block iff each coordinate is in the block's range. -/
theorem mem_blk2_3 (t : Fin cfg2.N) (i : S2048x1024.Idx) :
    i ∈ ((cfg2.win 3).blk t).view.set ↔ ∀ a : Fin 2, win2_3.index t a * S256x1024.size a ≤ (i a).val
      ∧ (i a).val < win2_3.index t a * S256x1024.size a + S256x1024.size a := by
  show i ∈ ((View.whole main_v20_0).slice (win2_3.rect t)).set ↔ _
  rw [View.set_slice_whole, Rect.mem_set_unit]
  exact Iff.rfl

/-- The eight row blocks tile the array: row `r` is in the block of point `r / 256`. -/
theorem cover2_3 (i : S2048x1024.Idx) :
    ∃ t : Fin cfg2.N, (cfg2.win 3).flush t = true ∧ i ∈ ((cfg2.win 3).blk t).view.set := by
  have hi0 : (i 0).val < 2048 := (i 0).isLt
  have hi1 : (i 1).val < 1024 := (i 1).isLt
  have hN : cfg2.N = 8 := N_2
  obtain ⟨t, ht⟩ : ∃ t : Fin cfg2.N, t.val = (i 0).val / 256 := ⟨⟨(i 0).val / 256, by rw [hN]; omega⟩, rfl⟩
  obtain ⟨-, -, -, -, -, -, e30, e31, e40, e41, e50, e51⟩ := idx2 t
  refine ⟨t, flush2_3 t, ?_⟩
  rw [mem_blk2_3]
  intro a
  match a with
  | ⟨0, _⟩ => show win2_3.index t (0 : Fin 2) * 256 ≤ (i 0).val ∧ (i 0).val < win2_3.index t (0 : Fin 2) * 256 + 256; rw [e30, ht]; omega
  | ⟨1, _⟩ => show win2_3.index t (1 : Fin 2) * 1024 ≤ (i 1).val ∧ (i 1).val < win2_3.index t (1 : Fin 2) * 1024 + 1024; rw [e31]; omega

/-- Output 3's array after the region: the projection of the whole input. -/
theorem final2_3 (c : Dev nD) :
    (dat2 V c).arrAt 3 cfg2.N = projArr 0 (by omega) (V c main_v14_0) (V c main_v19) (V c main_v17) :=
  (dat2 V c).arrAt_eq_of_cover 3 _ (fun t _ => flushed2_3_eq V c t) (cover2_3)

/-- What point `t` writes back through output window 4 is block `t` of the projection at row offset 1024 of the stacked weights. -/
theorem flushed2_4_eq (c : Dev nD) (t : Fin cfg2.N) :
    (dat2 V c).flushed 4 t = ((cfg2.win 4).blk t).view.read (Elt Ideal)
      (projArr 1024 (by omega) (V c main_v14_0) (V c main_v19) (V c main_v17)) := by
  show (cfg2.win 4).cut (grid2.coords t) ((dat2 V c).after 4 t) = _
  rw [after2_4]
  unfold out2_4
  rw [View.canon_unit_zero hz2, pay2_k]
  obtain ⟨-, -, -, -, -, -, e30, e31, e40, e41, e50, e51⟩ := idx2 t
  funext j
  show projBlock _ _ _ j = projArr 1024 (by omega) _ _ _ (((cfg2.win 4).blk t).view.emb j)
  refine proj_rows 1024 (by omega) (V c main_v14_0) (V c main_v19) (V c main_v17) _ _ _ t.val
    (xblk2 V c t) (wblk2 V c t 1024 _) (bblk2 V c t 1024 _) j _ ?_ ?_
  · show win2_4.index t (0 : Fin 2) * 256 + 1 * (j 0).val = t.val * 256 + (j 0).val; rw [e40]; omega
  · show win2_4.index t (1 : Fin 2) * 1024 + 1 * (j 1).val = (j 1).val; rw [e41]; omega

/-- An index of output 4's array is in point `t`'s block iff each coordinate is in the block's range. -/
theorem mem_blk2_4 (t : Fin cfg2.N) (i : S2048x1024.Idx) :
    i ∈ ((cfg2.win 4).blk t).view.set ↔ ∀ a : Fin 2, win2_4.index t a * S256x1024.size a ≤ (i a).val
      ∧ (i a).val < win2_4.index t a * S256x1024.size a + S256x1024.size a := by
  show i ∈ ((View.whole main_v20_1).slice (win2_4.rect t)).set ↔ _
  rw [View.set_slice_whole, Rect.mem_set_unit]
  exact Iff.rfl

/-- The eight row blocks tile the array: row `r` is in the block of point `r / 256`. -/
theorem cover2_4 (i : S2048x1024.Idx) :
    ∃ t : Fin cfg2.N, (cfg2.win 4).flush t = true ∧ i ∈ ((cfg2.win 4).blk t).view.set := by
  have hi0 : (i 0).val < 2048 := (i 0).isLt
  have hi1 : (i 1).val < 1024 := (i 1).isLt
  have hN : cfg2.N = 8 := N_2
  obtain ⟨t, ht⟩ : ∃ t : Fin cfg2.N, t.val = (i 0).val / 256 := ⟨⟨(i 0).val / 256, by rw [hN]; omega⟩, rfl⟩
  obtain ⟨-, -, -, -, -, -, e30, e31, e40, e41, e50, e51⟩ := idx2 t
  refine ⟨t, flush2_4 t, ?_⟩
  rw [mem_blk2_4]
  intro a
  match a with
  | ⟨0, _⟩ => show win2_4.index t (0 : Fin 2) * 256 ≤ (i 0).val ∧ (i 0).val < win2_4.index t (0 : Fin 2) * 256 + 256; rw [e40, ht]; omega
  | ⟨1, _⟩ => show win2_4.index t (1 : Fin 2) * 1024 ≤ (i 1).val ∧ (i 1).val < win2_4.index t (1 : Fin 2) * 1024 + 1024; rw [e41]; omega

/-- Output 4's array after the region: the projection of the whole input. -/
theorem final2_4 (c : Dev nD) :
    (dat2 V c).arrAt 4 cfg2.N = projArr 1024 (by omega) (V c main_v14_0) (V c main_v19) (V c main_v17) :=
  (dat2 V c).arrAt_eq_of_cover 4 _ (fun t _ => flushed2_4_eq V c t) (cover2_4)

/-- What point `t` writes back through output window 5 is block `t` of the projection at row offset 2048 of the stacked weights. -/
theorem flushed2_5_eq (c : Dev nD) (t : Fin cfg2.N) :
    (dat2 V c).flushed 5 t = ((cfg2.win 5).blk t).view.read (Elt Ideal)
      (projArr 2048 (by omega) (V c main_v14_0) (V c main_v19) (V c main_v17)) := by
  show (cfg2.win 5).cut (grid2.coords t) ((dat2 V c).after 5 t) = _
  rw [after2_5]
  unfold out2_5
  rw [View.canon_unit_zero hz2, pay2_v]
  obtain ⟨-, -, -, -, -, -, e30, e31, e40, e41, e50, e51⟩ := idx2 t
  funext j
  show projBlock _ _ _ j = projArr 2048 (by omega) _ _ _ (((cfg2.win 5).blk t).view.emb j)
  refine proj_rows 2048 (by omega) (V c main_v14_0) (V c main_v19) (V c main_v17) _ _ _ t.val
    (xblk2 V c t) (wblk2 V c t 2048 _) (bblk2 V c t 2048 _) j _ ?_ ?_
  · show win2_5.index t (0 : Fin 2) * 256 + 1 * (j 0).val = t.val * 256 + (j 0).val; rw [e50]; omega
  · show win2_5.index t (1 : Fin 2) * 1024 + 1 * (j 1).val = (j 1).val; rw [e51]; omega

/-- An index of output 5's array is in point `t`'s block iff each coordinate is in the block's range. -/
theorem mem_blk2_5 (t : Fin cfg2.N) (i : S2048x1024.Idx) :
    i ∈ ((cfg2.win 5).blk t).view.set ↔ ∀ a : Fin 2, win2_5.index t a * S256x1024.size a ≤ (i a).val
      ∧ (i a).val < win2_5.index t a * S256x1024.size a + S256x1024.size a := by
  show i ∈ ((View.whole main_v20_2).slice (win2_5.rect t)).set ↔ _
  rw [View.set_slice_whole, Rect.mem_set_unit]
  exact Iff.rfl

/-- The eight row blocks tile the array: row `r` is in the block of point `r / 256`. -/
theorem cover2_5 (i : S2048x1024.Idx) :
    ∃ t : Fin cfg2.N, (cfg2.win 5).flush t = true ∧ i ∈ ((cfg2.win 5).blk t).view.set := by
  have hi0 : (i 0).val < 2048 := (i 0).isLt
  have hi1 : (i 1).val < 1024 := (i 1).isLt
  have hN : cfg2.N = 8 := N_2
  obtain ⟨t, ht⟩ : ∃ t : Fin cfg2.N, t.val = (i 0).val / 256 := ⟨⟨(i 0).val / 256, by rw [hN]; omega⟩, rfl⟩
  obtain ⟨-, -, -, -, -, -, e30, e31, e40, e41, e50, e51⟩ := idx2 t
  refine ⟨t, flush2_5 t, ?_⟩
  rw [mem_blk2_5]
  intro a
  match a with
  | ⟨0, _⟩ => show win2_5.index t (0 : Fin 2) * 256 ≤ (i 0).val ∧ (i 0).val < win2_5.index t (0 : Fin 2) * 256 + 256; rw [e50, ht]; omega
  | ⟨1, _⟩ => show win2_5.index t (1 : Fin 2) * 1024 ≤ (i 1).val ∧ (i 1).val < win2_5.index t (1 : Fin 2) * 1024 + 1024; rw [e51]; omega

/-- Output 5's array after the region: the projection of the whole input. -/
theorem final2_5 (c : Dev nD) :
    (dat2 V c).arrAt 5 cfg2.N = projArr 2048 (by omega) (V c main_v14_0) (V c main_v19) (V c main_v17) :=
  (dat2 V c).arrAt_eq_of_cover 5 _ (fun t _ => flushed2_5_eq V c t) (cover2_5)

/-! ## Region 4 -/

/-- The printed index maps of region 4, decided over its eight points: the input and the three outputs move down the
    rows with the point; the weight slab and the bias row stay put. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The input block at a point is 256 rows of the input array. -/
theorem xblk4 (c : Dev nD) (t : Fin cfg4.N) (y : S256x1024.Idx) (i : S2048x1024.Idx)
    (h0 : (i 0).val = t.val * 256 + (y 0).val) (h1 : (i 1).val = (y 1).val) :
    View.ld (iblk4 V c 0 t) r4_0 y = V c main_v26_0 i := by
  obtain ⟨e0, e1, -⟩ := idx4 t
  show V c main_v26_0 (((cfg4.win 0).blk t).view.emb (r4_0.idx y)) = V c main_v26_0 i
  refine congrArg (V c main_v26_0) (funext fun a => Fin.ext ?_)
  match a with
  | ⟨0, _⟩ => show win4_0.index t (0 : Fin 2) * 256 + 1 * (0 + 1 * (y 0).val) = (i 0).val; rw [e0, h0]; omega
  | ⟨1, _⟩ => show win4_0.index t (1 : Fin 2) * 1024 + 1 * (0 + 1 * (y 1).val) = (i 1).val; rw [e1, h1]; omega

/-- The slab the body loads at row offset `off` of the weight block is those rows of the weight array. -/
theorem wblk4 (c : Dev nD) (t : Fin cfg4.N) (off : ℕ) (inb) (y : S1024x1024.Idx) (i : S3072x1024.Idx)
    (h0 : (i 0).val = off + (y 0).val) (h1 : (i 1).val = (y 1).val) :
    View.ld (iblk4 V c 1 t) (Rect.unit (s := S3072x1024) ![off, 0] S1024x1024.size inb) y = V c main_v31 i := by
  obtain ⟨-, -, e0, e1, -⟩ := idx4 t
  show V c main_v31 (((cfg4.win 1).blk t).view.emb ((Rect.unit (s := S3072x1024) ![off, 0] S1024x1024.size inb).idx y)) = V c main_v31 i
  refine congrArg (V c main_v31) (funext fun a => Fin.ext ?_)
  match a with
  | ⟨0, _⟩ => show win4_1.index t (0 : Fin 2) * 3072 + 1 * (off + 1 * (y 0).val) = (i 0).val; rw [e0, h0]; omega
  | ⟨1, _⟩ => show win4_1.index t (1 : Fin 2) * 1024 + 1 * (0 + 1 * (y 1).val) = (i 1).val; rw [e1, h1]; omega

/-- The piece the body loads at column offset `off` of the bias block is those entries of the bias array. -/
theorem bblk4 (c : Dev nD) (t : Fin cfg4.N) (off : ℕ) (inb) (y : S1x1024.Idx) (i : S1x3072.Idx)
    (h1 : (i 1).val = off + (y 1).val) :
    View.ld (iblk4 V c 2 t) (Rect.unit (s := S1x3072) ![0, off] S1x1024.size inb) y = V c main_v29 i := by
  obtain ⟨-, -, -, -, e0, e1, -⟩ := idx4 t
  show V c main_v29 (((cfg4.win 2).blk t).view.emb ((Rect.unit (s := S1x3072) ![0, off] S1x1024.size inb).idx y)) = V c main_v29 i
  refine congrArg (V c main_v29) (funext fun a => Fin.ext ?_)
  match a with
  | ⟨0, _⟩ => show win4_2.index t (0 : Fin 2) * 1 + 1 * (0 + 1 * (y 0).val) = (i 0).val; rw [e0]; have hy : (y 0).val < 1 := (y 0).isLt; have hi : (i 0).val < 1 := (i 0).isLt; omega
  | ⟨1, _⟩ => show win4_2.index t (1 : Fin 2) * 3072 + 1 * (off + 1 * (y 1).val) = (i 1).val; rw [e1, h1]; omega

/-- What point `t` writes back through output window 3 is block `t` of the projection at row offset 0 of the stacked weights. -/
theorem flushed4_3_eq (c : Dev nD) (t : Fin cfg4.N) :
    (dat4 V c).flushed 3 t = ((cfg4.win 3).blk t).view.read (Elt Ideal)
      (projArr 0 (by omega) (V c main_v26_0) (V c main_v31) (V c main_v29)) := by
  show (cfg4.win 3).cut (grid4.coords t) ((dat4 V c).after 3 t) = _
  rw [after4_3]
  unfold out4_3
  rw [View.canon_unit_zero hz2, pay4_q]
  obtain ⟨-, -, -, -, -, -, e30, e31, e40, e41, e50, e51⟩ := idx4 t
  funext j
  show projBlock _ _ _ j = projArr 0 (by omega) _ _ _ (((cfg4.win 3).blk t).view.emb j)
  refine proj_rows 0 (by omega) (V c main_v26_0) (V c main_v31) (V c main_v29) _ _ _ t.val
    (xblk4 V c t) (wblk4 V c t 0 _) (bblk4 V c t 0 _) j _ ?_ ?_
  · show win4_3.index t (0 : Fin 2) * 256 + 1 * (j 0).val = t.val * 256 + (j 0).val; rw [e30]; omega
  · show win4_3.index t (1 : Fin 2) * 1024 + 1 * (j 1).val = (j 1).val; rw [e31]; omega

/-- An index of output 3's array is in point `t`'s block iff each coordinate is in the block's range. -/
theorem mem_blk4_3 (t : Fin cfg4.N) (i : S2048x1024.Idx) :
    i ∈ ((cfg4.win 3).blk t).view.set ↔ ∀ a : Fin 2, win4_3.index t a * S256x1024.size a ≤ (i a).val
      ∧ (i a).val < win4_3.index t a * S256x1024.size a + S256x1024.size a := by
  show i ∈ ((View.whole main_v32_0).slice (win4_3.rect t)).set ↔ _
  rw [View.set_slice_whole, Rect.mem_set_unit]
  exact Iff.rfl

/-- The eight row blocks tile the array: row `r` is in the block of point `r / 256`. -/
theorem cover4_3 (i : S2048x1024.Idx) :
    ∃ t : Fin cfg4.N, (cfg4.win 3).flush t = true ∧ i ∈ ((cfg4.win 3).blk t).view.set := by
  have hi0 : (i 0).val < 2048 := (i 0).isLt
  have hi1 : (i 1).val < 1024 := (i 1).isLt
  have hN : cfg4.N = 8 := N_4
  obtain ⟨t, ht⟩ : ∃ t : Fin cfg4.N, t.val = (i 0).val / 256 := ⟨⟨(i 0).val / 256, by rw [hN]; omega⟩, rfl⟩
  obtain ⟨-, -, -, -, -, -, e30, e31, e40, e41, e50, e51⟩ := idx4 t
  refine ⟨t, flush4_3 t, ?_⟩
  rw [mem_blk4_3]
  intro a
  match a with
  | ⟨0, _⟩ => show win4_3.index t (0 : Fin 2) * 256 ≤ (i 0).val ∧ (i 0).val < win4_3.index t (0 : Fin 2) * 256 + 256; rw [e30, ht]; omega
  | ⟨1, _⟩ => show win4_3.index t (1 : Fin 2) * 1024 ≤ (i 1).val ∧ (i 1).val < win4_3.index t (1 : Fin 2) * 1024 + 1024; rw [e31]; omega

/-- Output 3's array after the region: the projection of the whole input. -/
theorem final4_3 (c : Dev nD) :
    (dat4 V c).arrAt 3 cfg4.N = projArr 0 (by omega) (V c main_v26_0) (V c main_v31) (V c main_v29) :=
  (dat4 V c).arrAt_eq_of_cover 3 _ (fun t _ => flushed4_3_eq V c t) (cover4_3)

/-- What point `t` writes back through output window 4 is block `t` of the projection at row offset 1024 of the stacked weights. -/
theorem flushed4_4_eq (c : Dev nD) (t : Fin cfg4.N) :
    (dat4 V c).flushed 4 t = ((cfg4.win 4).blk t).view.read (Elt Ideal)
      (projArr 1024 (by omega) (V c main_v26_0) (V c main_v31) (V c main_v29)) := by
  show (cfg4.win 4).cut (grid4.coords t) ((dat4 V c).after 4 t) = _
  rw [after4_4]
  unfold out4_4
  rw [View.canon_unit_zero hz2, pay4_k]
  obtain ⟨-, -, -, -, -, -, e30, e31, e40, e41, e50, e51⟩ := idx4 t
  funext j
  show projBlock _ _ _ j = projArr 1024 (by omega) _ _ _ (((cfg4.win 4).blk t).view.emb j)
  refine proj_rows 1024 (by omega) (V c main_v26_0) (V c main_v31) (V c main_v29) _ _ _ t.val
    (xblk4 V c t) (wblk4 V c t 1024 _) (bblk4 V c t 1024 _) j _ ?_ ?_
  · show win4_4.index t (0 : Fin 2) * 256 + 1 * (j 0).val = t.val * 256 + (j 0).val; rw [e40]; omega
  · show win4_4.index t (1 : Fin 2) * 1024 + 1 * (j 1).val = (j 1).val; rw [e41]; omega

/-- An index of output 4's array is in point `t`'s block iff each coordinate is in the block's range. -/
theorem mem_blk4_4 (t : Fin cfg4.N) (i : S2048x1024.Idx) :
    i ∈ ((cfg4.win 4).blk t).view.set ↔ ∀ a : Fin 2, win4_4.index t a * S256x1024.size a ≤ (i a).val
      ∧ (i a).val < win4_4.index t a * S256x1024.size a + S256x1024.size a := by
  show i ∈ ((View.whole main_v32_1).slice (win4_4.rect t)).set ↔ _
  rw [View.set_slice_whole, Rect.mem_set_unit]
  exact Iff.rfl

/-- The eight row blocks tile the array: row `r` is in the block of point `r / 256`. -/
theorem cover4_4 (i : S2048x1024.Idx) :
    ∃ t : Fin cfg4.N, (cfg4.win 4).flush t = true ∧ i ∈ ((cfg4.win 4).blk t).view.set := by
  have hi0 : (i 0).val < 2048 := (i 0).isLt
  have hi1 : (i 1).val < 1024 := (i 1).isLt
  have hN : cfg4.N = 8 := N_4
  obtain ⟨t, ht⟩ : ∃ t : Fin cfg4.N, t.val = (i 0).val / 256 := ⟨⟨(i 0).val / 256, by rw [hN]; omega⟩, rfl⟩
  obtain ⟨-, -, -, -, -, -, e30, e31, e40, e41, e50, e51⟩ := idx4 t
  refine ⟨t, flush4_4 t, ?_⟩
  rw [mem_blk4_4]
  intro a
  match a with
  | ⟨0, _⟩ => show win4_4.index t (0 : Fin 2) * 256 ≤ (i 0).val ∧ (i 0).val < win4_4.index t (0 : Fin 2) * 256 + 256; rw [e40, ht]; omega
  | ⟨1, _⟩ => show win4_4.index t (1 : Fin 2) * 1024 ≤ (i 1).val ∧ (i 1).val < win4_4.index t (1 : Fin 2) * 1024 + 1024; rw [e41]; omega

/-- Output 4's array after the region: the projection of the whole input. -/
theorem final4_4 (c : Dev nD) :
    (dat4 V c).arrAt 4 cfg4.N = projArr 1024 (by omega) (V c main_v26_0) (V c main_v31) (V c main_v29) :=
  (dat4 V c).arrAt_eq_of_cover 4 _ (fun t _ => flushed4_4_eq V c t) (cover4_4)

/-- What point `t` writes back through output window 5 is block `t` of the projection at row offset 2048 of the stacked weights. -/
theorem flushed4_5_eq (c : Dev nD) (t : Fin cfg4.N) :
    (dat4 V c).flushed 5 t = ((cfg4.win 5).blk t).view.read (Elt Ideal)
      (projArr 2048 (by omega) (V c main_v26_0) (V c main_v31) (V c main_v29)) := by
  show (cfg4.win 5).cut (grid4.coords t) ((dat4 V c).after 5 t) = _
  rw [after4_5]
  unfold out4_5
  rw [View.canon_unit_zero hz2, pay4_v]
  obtain ⟨-, -, -, -, -, -, e30, e31, e40, e41, e50, e51⟩ := idx4 t
  funext j
  show projBlock _ _ _ j = projArr 2048 (by omega) _ _ _ (((cfg4.win 5).blk t).view.emb j)
  refine proj_rows 2048 (by omega) (V c main_v26_0) (V c main_v31) (V c main_v29) _ _ _ t.val
    (xblk4 V c t) (wblk4 V c t 2048 _) (bblk4 V c t 2048 _) j _ ?_ ?_
  · show win4_5.index t (0 : Fin 2) * 256 + 1 * (j 0).val = t.val * 256 + (j 0).val; rw [e50]; omega
  · show win4_5.index t (1 : Fin 2) * 1024 + 1 * (j 1).val = (j 1).val; rw [e51]; omega

/-- An index of output 5's array is in point `t`'s block iff each coordinate is in the block's range. -/
theorem mem_blk4_5 (t : Fin cfg4.N) (i : S2048x1024.Idx) :
    i ∈ ((cfg4.win 5).blk t).view.set ↔ ∀ a : Fin 2, win4_5.index t a * S256x1024.size a ≤ (i a).val
      ∧ (i a).val < win4_5.index t a * S256x1024.size a + S256x1024.size a := by
  show i ∈ ((View.whole main_v32_2).slice (win4_5.rect t)).set ↔ _
  rw [View.set_slice_whole, Rect.mem_set_unit]
  exact Iff.rfl

/-- The eight row blocks tile the array: row `r` is in the block of point `r / 256`. -/
theorem cover4_5 (i : S2048x1024.Idx) :
    ∃ t : Fin cfg4.N, (cfg4.win 5).flush t = true ∧ i ∈ ((cfg4.win 5).blk t).view.set := by
  have hi0 : (i 0).val < 2048 := (i 0).isLt
  have hi1 : (i 1).val < 1024 := (i 1).isLt
  have hN : cfg4.N = 8 := N_4
  obtain ⟨t, ht⟩ : ∃ t : Fin cfg4.N, t.val = (i 0).val / 256 := ⟨⟨(i 0).val / 256, by rw [hN]; omega⟩, rfl⟩
  obtain ⟨-, -, -, -, -, -, e30, e31, e40, e41, e50, e51⟩ := idx4 t
  refine ⟨t, flush4_5 t, ?_⟩
  rw [mem_blk4_5]
  intro a
  match a with
  | ⟨0, _⟩ => show win4_5.index t (0 : Fin 2) * 256 ≤ (i 0).val ∧ (i 0).val < win4_5.index t (0 : Fin 2) * 256 + 256; rw [e50, ht]; omega
  | ⟨1, _⟩ => show win4_5.index t (1 : Fin 2) * 1024 ≤ (i 1).val ∧ (i 1).val < win4_5.index t (1 : Fin 2) * 1024 + 1024; rw [e51]; omega

/-- Output 5's array after the region: the projection of the whole input. -/
theorem final4_5 (c : Dev nD) :
    (dat4 V c).arrAt 5 cfg4.N = projArr 2048 (by omega) (V c main_v26_0) (V c main_v31) (V c main_v29) :=
  (dat4 V c).arrAt_eq_of_cover 5 _ (fun t _ => flushed4_5_eq V c t) (cover4_5)

/-! ## Region 6 -/

/-- The printed index maps of region 6, decided over its eight points: the input and the three outputs move down the
    rows with the point; the weight slab and the bias row stay put. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-- The input block at a point is 256 rows of the input array. -/
theorem xblk6 (c : Dev nD) (t : Fin cfg6.N) (y : S256x1024.Idx) (i : S2048x1024.Idx)
    (h0 : (i 0).val = t.val * 256 + (y 0).val) (h1 : (i 1).val = (y 1).val) :
    View.ld (iblk6 V c 0 t) r6_0 y = V c main_v38_0 i := by
  obtain ⟨e0, e1, -⟩ := idx6 t
  show V c main_v38_0 (((cfg6.win 0).blk t).view.emb (r6_0.idx y)) = V c main_v38_0 i
  refine congrArg (V c main_v38_0) (funext fun a => Fin.ext ?_)
  match a with
  | ⟨0, _⟩ => show win6_0.index t (0 : Fin 2) * 256 + 1 * (0 + 1 * (y 0).val) = (i 0).val; rw [e0, h0]; omega
  | ⟨1, _⟩ => show win6_0.index t (1 : Fin 2) * 1024 + 1 * (0 + 1 * (y 1).val) = (i 1).val; rw [e1, h1]; omega

/-- The slab the body loads at row offset `off` of the weight block is those rows of the weight array. -/
theorem wblk6 (c : Dev nD) (t : Fin cfg6.N) (off : ℕ) (inb) (y : S1024x1024.Idx) (i : S3072x1024.Idx)
    (h0 : (i 0).val = off + (y 0).val) (h1 : (i 1).val = (y 1).val) :
    View.ld (iblk6 V c 1 t) (Rect.unit (s := S3072x1024) ![off, 0] S1024x1024.size inb) y = V c main_v43 i := by
  obtain ⟨-, -, e0, e1, -⟩ := idx6 t
  show V c main_v43 (((cfg6.win 1).blk t).view.emb ((Rect.unit (s := S3072x1024) ![off, 0] S1024x1024.size inb).idx y)) = V c main_v43 i
  refine congrArg (V c main_v43) (funext fun a => Fin.ext ?_)
  match a with
  | ⟨0, _⟩ => show win6_1.index t (0 : Fin 2) * 3072 + 1 * (off + 1 * (y 0).val) = (i 0).val; rw [e0, h0]; omega
  | ⟨1, _⟩ => show win6_1.index t (1 : Fin 2) * 1024 + 1 * (0 + 1 * (y 1).val) = (i 1).val; rw [e1, h1]; omega

/-- The piece the body loads at column offset `off` of the bias block is those entries of the bias array. -/
theorem bblk6 (c : Dev nD) (t : Fin cfg6.N) (off : ℕ) (inb) (y : S1x1024.Idx) (i : S1x3072.Idx)
    (h1 : (i 1).val = off + (y 1).val) :
    View.ld (iblk6 V c 2 t) (Rect.unit (s := S1x3072) ![0, off] S1x1024.size inb) y = V c main_v41 i := by
  obtain ⟨-, -, -, -, e0, e1, -⟩ := idx6 t
  show V c main_v41 (((cfg6.win 2).blk t).view.emb ((Rect.unit (s := S1x3072) ![0, off] S1x1024.size inb).idx y)) = V c main_v41 i
  refine congrArg (V c main_v41) (funext fun a => Fin.ext ?_)
  match a with
  | ⟨0, _⟩ => show win6_2.index t (0 : Fin 2) * 1 + 1 * (0 + 1 * (y 0).val) = (i 0).val; rw [e0]; have hy : (y 0).val < 1 := (y 0).isLt; have hi : (i 0).val < 1 := (i 0).isLt; omega
  | ⟨1, _⟩ => show win6_2.index t (1 : Fin 2) * 3072 + 1 * (off + 1 * (y 1).val) = (i 1).val; rw [e1, h1]; omega

/-- What point `t` writes back through output window 3 is block `t` of the projection at row offset 0 of the stacked weights. -/
theorem flushed6_3_eq (c : Dev nD) (t : Fin cfg6.N) :
    (dat6 V c).flushed 3 t = ((cfg6.win 3).blk t).view.read (Elt Ideal)
      (projArr 0 (by omega) (V c main_v38_0) (V c main_v43) (V c main_v41)) := by
  show (cfg6.win 3).cut (grid6.coords t) ((dat6 V c).after 3 t) = _
  rw [after6_3]
  unfold out6_3
  rw [View.canon_unit_zero hz2, pay6_q]
  obtain ⟨-, -, -, -, -, -, e30, e31, e40, e41, e50, e51⟩ := idx6 t
  funext j
  show projBlock _ _ _ j = projArr 0 (by omega) _ _ _ (((cfg6.win 3).blk t).view.emb j)
  refine proj_rows 0 (by omega) (V c main_v38_0) (V c main_v43) (V c main_v41) _ _ _ t.val
    (xblk6 V c t) (wblk6 V c t 0 _) (bblk6 V c t 0 _) j _ ?_ ?_
  · show win6_3.index t (0 : Fin 2) * 256 + 1 * (j 0).val = t.val * 256 + (j 0).val; rw [e30]; omega
  · show win6_3.index t (1 : Fin 2) * 1024 + 1 * (j 1).val = (j 1).val; rw [e31]; omega

/-- An index of output 3's array is in point `t`'s block iff each coordinate is in the block's range. -/
theorem mem_blk6_3 (t : Fin cfg6.N) (i : S2048x1024.Idx) :
    i ∈ ((cfg6.win 3).blk t).view.set ↔ ∀ a : Fin 2, win6_3.index t a * S256x1024.size a ≤ (i a).val
      ∧ (i a).val < win6_3.index t a * S256x1024.size a + S256x1024.size a := by
  show i ∈ ((View.whole main_v44_0).slice (win6_3.rect t)).set ↔ _
  rw [View.set_slice_whole, Rect.mem_set_unit]
  exact Iff.rfl

/-- The eight row blocks tile the array: row `r` is in the block of point `r / 256`. -/
theorem cover6_3 (i : S2048x1024.Idx) :
    ∃ t : Fin cfg6.N, (cfg6.win 3).flush t = true ∧ i ∈ ((cfg6.win 3).blk t).view.set := by
  have hi0 : (i 0).val < 2048 := (i 0).isLt
  have hi1 : (i 1).val < 1024 := (i 1).isLt
  have hN : cfg6.N = 8 := N_6
  obtain ⟨t, ht⟩ : ∃ t : Fin cfg6.N, t.val = (i 0).val / 256 := ⟨⟨(i 0).val / 256, by rw [hN]; omega⟩, rfl⟩
  obtain ⟨-, -, -, -, -, -, e30, e31, e40, e41, e50, e51⟩ := idx6 t
  refine ⟨t, flush6_3 t, ?_⟩
  rw [mem_blk6_3]
  intro a
  match a with
  | ⟨0, _⟩ => show win6_3.index t (0 : Fin 2) * 256 ≤ (i 0).val ∧ (i 0).val < win6_3.index t (0 : Fin 2) * 256 + 256; rw [e30, ht]; omega
  | ⟨1, _⟩ => show win6_3.index t (1 : Fin 2) * 1024 ≤ (i 1).val ∧ (i 1).val < win6_3.index t (1 : Fin 2) * 1024 + 1024; rw [e31]; omega

/-- Output 3's array after the region: the projection of the whole input. -/
theorem final6_3 (c : Dev nD) :
    (dat6 V c).arrAt 3 cfg6.N = projArr 0 (by omega) (V c main_v38_0) (V c main_v43) (V c main_v41) :=
  (dat6 V c).arrAt_eq_of_cover 3 _ (fun t _ => flushed6_3_eq V c t) (cover6_3)

/-- What point `t` writes back through output window 4 is block `t` of the projection at row offset 1024 of the stacked weights. -/
theorem flushed6_4_eq (c : Dev nD) (t : Fin cfg6.N) :
    (dat6 V c).flushed 4 t = ((cfg6.win 4).blk t).view.read (Elt Ideal)
      (projArr 1024 (by omega) (V c main_v38_0) (V c main_v43) (V c main_v41)) := by
  show (cfg6.win 4).cut (grid6.coords t) ((dat6 V c).after 4 t) = _
  rw [after6_4]
  unfold out6_4
  rw [View.canon_unit_zero hz2, pay6_k]
  obtain ⟨-, -, -, -, -, -, e30, e31, e40, e41, e50, e51⟩ := idx6 t
  funext j
  show projBlock _ _ _ j = projArr 1024 (by omega) _ _ _ (((cfg6.win 4).blk t).view.emb j)
  refine proj_rows 1024 (by omega) (V c main_v38_0) (V c main_v43) (V c main_v41) _ _ _ t.val
    (xblk6 V c t) (wblk6 V c t 1024 _) (bblk6 V c t 1024 _) j _ ?_ ?_
  · show win6_4.index t (0 : Fin 2) * 256 + 1 * (j 0).val = t.val * 256 + (j 0).val; rw [e40]; omega
  · show win6_4.index t (1 : Fin 2) * 1024 + 1 * (j 1).val = (j 1).val; rw [e41]; omega

/-- An index of output 4's array is in point `t`'s block iff each coordinate is in the block's range. -/
theorem mem_blk6_4 (t : Fin cfg6.N) (i : S2048x1024.Idx) :
    i ∈ ((cfg6.win 4).blk t).view.set ↔ ∀ a : Fin 2, win6_4.index t a * S256x1024.size a ≤ (i a).val
      ∧ (i a).val < win6_4.index t a * S256x1024.size a + S256x1024.size a := by
  show i ∈ ((View.whole main_v44_1).slice (win6_4.rect t)).set ↔ _
  rw [View.set_slice_whole, Rect.mem_set_unit]
  exact Iff.rfl

/-- The eight row blocks tile the array: row `r` is in the block of point `r / 256`. -/
theorem cover6_4 (i : S2048x1024.Idx) :
    ∃ t : Fin cfg6.N, (cfg6.win 4).flush t = true ∧ i ∈ ((cfg6.win 4).blk t).view.set := by
  have hi0 : (i 0).val < 2048 := (i 0).isLt
  have hi1 : (i 1).val < 1024 := (i 1).isLt
  have hN : cfg6.N = 8 := N_6
  obtain ⟨t, ht⟩ : ∃ t : Fin cfg6.N, t.val = (i 0).val / 256 := ⟨⟨(i 0).val / 256, by rw [hN]; omega⟩, rfl⟩
  obtain ⟨-, -, -, -, -, -, e30, e31, e40, e41, e50, e51⟩ := idx6 t
  refine ⟨t, flush6_4 t, ?_⟩
  rw [mem_blk6_4]
  intro a
  match a with
  | ⟨0, _⟩ => show win6_4.index t (0 : Fin 2) * 256 ≤ (i 0).val ∧ (i 0).val < win6_4.index t (0 : Fin 2) * 256 + 256; rw [e40, ht]; omega
  | ⟨1, _⟩ => show win6_4.index t (1 : Fin 2) * 1024 ≤ (i 1).val ∧ (i 1).val < win6_4.index t (1 : Fin 2) * 1024 + 1024; rw [e41]; omega

/-- Output 4's array after the region: the projection of the whole input. -/
theorem final6_4 (c : Dev nD) :
    (dat6 V c).arrAt 4 cfg6.N = projArr 1024 (by omega) (V c main_v38_0) (V c main_v43) (V c main_v41) :=
  (dat6 V c).arrAt_eq_of_cover 4 _ (fun t _ => flushed6_4_eq V c t) (cover6_4)

/-- What point `t` writes back through output window 5 is block `t` of the projection at row offset 2048 of the stacked weights. -/
theorem flushed6_5_eq (c : Dev nD) (t : Fin cfg6.N) :
    (dat6 V c).flushed 5 t = ((cfg6.win 5).blk t).view.read (Elt Ideal)
      (projArr 2048 (by omega) (V c main_v38_0) (V c main_v43) (V c main_v41)) := by
  show (cfg6.win 5).cut (grid6.coords t) ((dat6 V c).after 5 t) = _
  rw [after6_5]
  unfold out6_5
  rw [View.canon_unit_zero hz2, pay6_v]
  obtain ⟨-, -, -, -, -, -, e30, e31, e40, e41, e50, e51⟩ := idx6 t
  funext j
  show projBlock _ _ _ j = projArr 2048 (by omega) _ _ _ (((cfg6.win 5).blk t).view.emb j)
  refine proj_rows 2048 (by omega) (V c main_v38_0) (V c main_v43) (V c main_v41) _ _ _ t.val
    (xblk6 V c t) (wblk6 V c t 2048 _) (bblk6 V c t 2048 _) j _ ?_ ?_
  · show win6_5.index t (0 : Fin 2) * 256 + 1 * (j 0).val = t.val * 256 + (j 0).val; rw [e50]; omega
  · show win6_5.index t (1 : Fin 2) * 1024 + 1 * (j 1).val = (j 1).val; rw [e51]; omega

/-- An index of output 5's array is in point `t`'s block iff each coordinate is in the block's range. -/
theorem mem_blk6_5 (t : Fin cfg6.N) (i : S2048x1024.Idx) :
    i ∈ ((cfg6.win 5).blk t).view.set ↔ ∀ a : Fin 2, win6_5.index t a * S256x1024.size a ≤ (i a).val
      ∧ (i a).val < win6_5.index t a * S256x1024.size a + S256x1024.size a := by
  show i ∈ ((View.whole main_v44_2).slice (win6_5.rect t)).set ↔ _
  rw [View.set_slice_whole, Rect.mem_set_unit]
  exact Iff.rfl

/-- The eight row blocks tile the array: row `r` is in the block of point `r / 256`. -/
theorem cover6_5 (i : S2048x1024.Idx) :
    ∃ t : Fin cfg6.N, (cfg6.win 5).flush t = true ∧ i ∈ ((cfg6.win 5).blk t).view.set := by
  have hi0 : (i 0).val < 2048 := (i 0).isLt
  have hi1 : (i 1).val < 1024 := (i 1).isLt
  have hN : cfg6.N = 8 := N_6
  obtain ⟨t, ht⟩ : ∃ t : Fin cfg6.N, t.val = (i 0).val / 256 := ⟨⟨(i 0).val / 256, by rw [hN]; omega⟩, rfl⟩
  obtain ⟨-, -, -, -, -, -, e30, e31, e40, e41, e50, e51⟩ := idx6 t
  refine ⟨t, flush6_5 t, ?_⟩
  rw [mem_blk6_5]
  intro a
  match a with
  | ⟨0, _⟩ => show win6_5.index t (0 : Fin 2) * 256 ≤ (i 0).val ∧ (i 0).val < win6_5.index t (0 : Fin 2) * 256 + 256; rw [e50, ht]; omega
  | ⟨1, _⟩ => show win6_5.index t (1 : Fin 2) * 1024 ≤ (i 1).val ∧ (i 1).val < win6_5.index t (1 : Fin 2) * 1024 + 1024; rw [e51]; omega

/-- Output 5's array after the region: the projection of the whole input. -/
theorem final6_5 (c : Dev nD) :
    (dat6 V c).arrAt 5 cfg6.N = projArr 2048 (by omega) (V c main_v38_0) (V c main_v43) (V c main_v41) :=
  (dat6 V c).arrAt_eq_of_cover 5 _ (fun t _ => flushed6_5_eq V c t) (cover6_5)

end Cert.KSide

end
-- ==== Proof.KAttnLayout.lean ====
/-
  A block of shape [a, b] read at coordinates: the facts about layout and reductions that a row-wise softmax needs.

  A reduction along the columns drops the second coordinate; putting the coordinate k back at row p gives the index
  (p, k). So at the extended reals the maximum along the columns, started from the word of −∞, is the fold of max
  from ⊥ over the row, and the sum along the columns is the sum over the row. The result of such a reduction is a
  vector [a]; cast to a column [a, 1] and broadcast to [a, b] it reads, at (p, c), the vector's entry p.

  Last, the causal mask as a fact about words: for a block index g below 8, a row p below 256 and a column t below 2048,
  the signed 32-bit comparison of the word of t with the word g * 256 + p is the comparison of the natural numbers,
  because both stay far below 2^31.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.WordArith

noncomputable section

namespace Cert.KSide

open Idealize.ShloMosaic Idealize.ShloMosaic.ValueIdx

/-! ## A vector as a column, and a column over many columns -/

/-- A length-a vector cast to a column [a, 1] reads, at (p, u), the vector at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions along the columns -/

/-- The reduced index p with the column k put back is (p, k). -/
theorem lift_axis1_ix1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The word of −∞ denotes ⊥. -/
theorem ofBits_neg_inf : (Ideal.ofBits .f32 0xFF800000#32 : EReal) = ⊥ := by simp [Ideal.ofBits, Ideal.ieee]

/-- The maximum along the columns of an [a, b] block, started from the word of −∞, read at row p: the fold of max from ⊥
    over the row. -/
theorem rowMax_apply {a b : ℕ} (s : FVec Ideal ⟨2, ![a, b]⟩ .f32) (h : (⟨2, ![a, b]⟩ : Shape).Reduces [1] (⟨1, ![a]⟩ : Shape))
    (hφ : FKind.Formats .f32) (hacc : 0xFF800000#32 = FKind.maximumf.neutral .f32 hφ) (p : Fin a) :
    multiReduction (F := Ideal) .maximumf [1] ⟨1, ![a]⟩ s 0xFF800000#32 h hφ hacc (ix1 p)
      = (Finset.univ : Finset (Fin b)).fold max (⊥ : EReal) (fun t => s (ix2 p t)) := by
  refine (Ideal.multiReduction_maximumf_single s _ h hφ hacc (ix1 p)).trans ?_
  have hf : (s ∘ h.lift (ix1 p)) = fun k : Fin b => s (ix2 p k) := funext fun k => congrArg s (lift_axis1_ix1 h p k)
  refine Eq.trans ?_ (congrArg (fun f => Finset.fold max (⊥ : EReal) f (Finset.univ : Finset (Fin b))) hf)
  exact congrArg (fun e => Finset.fold max e (s ∘ h.lift (ix1 p)) (Finset.univ : Finset (Fin b))) ofBits_neg_inf

/-- The sum along the columns of an [a, b] block read at row p: the sum over the row. -/
theorem rowSum_apply {a b : ℕ} (s : FVec Ideal ⟨2, ![a, b]⟩ .f32) (h : (⟨2, ![a, b]⟩ : Shape).Reduces [1] (⟨1, ![a]⟩ : Shape))
    (hφ : FKind.Formats .f32) (hacc : 0x00000000#32 = FKind.add.neutral .f32 hφ) (p : Fin a) :
    multiReduction (F := Ideal) .add [1] ⟨1, ![a]⟩ s 0x00000000#32 h hφ hacc (ix1 p) = ∑ t : Fin b, s (ix2 p t) := by
  refine (Ideal.multiReduction_add_single s _ h hφ hacc (ix1 p)).trans ?_
  exact Finset.sum_congr rfl fun k _ => congrArg s (lift_axis1_ix1 h p k)

/-! ## The causal mask on words -/

/-- The word g * 256 + p, computed on 32-bit words, is the word of that number. -/
theorem rowWord (g p : ℕ) :
    IntOp.addi (Scalar.muli (BitVec.ofNat 32 g) 256#32) (BitVec.ofNat 32 p) = BitVec.ofNat 32 (g * 256 + p) := by
  apply BitVec.eq_of_toNat_eq
  simp only [IntOp.addi, Scalar.muli, IntOp.muli, BitVec.toNat_add, BitVec.toNat_mul, BitVec.toNat_ofNat]
  omega

/-- Below 2^31 the signed comparison of two words is the comparison of the numbers. -/
theorem sle_ofNat_small (t m : ℕ) (ht : t < 2 ^ 31) (hm : m < 2 ^ 31) :
    (BitVec.ofNat 32 t).sle (BitVec.ofNat 32 m) = decide (t ≤ m) := by
  unfold BitVec.sle
  rw [WordArith.toInt_ofNat_small t ht, WordArith.toInt_ofNat_small m hm]
  exact decide_eq_decide.mpr Int.ofNat_le

/-- A select on "column t is at most row g * 256 + p", the comparison made on signed 32-bit words, is the `if` on the
    natural numbers. -/
theorem causal_select {α : Type} (g p t : ℕ) (hg : g < 8) (hp : p < 256) (ht : t < 2048) (A B : α) :
    Scalar.select (IntOp.cmpi .sle (BitVec.ofNat 32 t)
        (IntOp.addi (Scalar.muli (BitVec.ofNat 32 g) 256#32) (BitVec.ofNat 32 p))) A B
      = if t ≤ g * 256 + p then A else B := by
  rw [rowWord]
  unfold IntOp.cmpi
  show Scalar.select (BitVec.ofBool ((BitVec.ofNat 32 t).sle (BitVec.ofNat 32 (g * 256 + p)))) A B = _
  rw [sle_ofNat_small t (g * 256 + p) (by omega) (by omega)]
  unfold Scalar.select
  by_cases hle : t ≤ g * 256 + p
  · rw [if_pos hle, decide_eq_true hle]; rfl
  · rw [if_neg hle, decide_eq_false hle]; rfl

end Cert.KSide

end
-- ==== Proof.KAttnBlock.lean ====
/-
  One block of 256 query rows of the attention kernel, read at an index on the extended reals.

  The body multiplies the block's queries [256, 1024] by the transpose of all 2048 keys on the matrix unit into a zero
  accumulator and scales by a constant; it keeps the entry (p, j) when column j is at most the block's first row plus p,
  the comparison made on signed 32-bit words, and puts a named constant that denotes ⊥ elsewhere. Then, row by row, it
  subtracts the row's maximum, exponentiates, and divides by the row's sum: the softmax as the specification writes it.
  So entry (p, j) of the weights is the specification's softmax of the causal scaled scores of the block.

  From the weights the body makes three things: the running sum, to which it adds the weights times a constant; the
  mixture of the values, a matrix product of the weights with the [2048, 1024] values; and, from the mixture, the output
  projection, a product with the transpose of a [1024, 1024] matrix plus a bias row. Changes of float format are the
  identity on the extended reals. The four layers' kernels have the same body.
-/
import proofs.«101734_j68264210202743_2_alg».proof.Proof.Gen.KernelIdeal.Skeleton
import proofs.«101734_j68264210202743_2_alg».proof.Proof.Spec
import proofs.«101734_j68264210202743_2_alg».proof.Proof.LibPlainDot
import proofs.«101734_j68264210202743_2_alg».proof.Proof.KAttnLayout
import proofs.«101734_j68264210202743_2_alg».proof.Proof.KTerms
import Idealize.ShloMosaic.PureOps.IdealRules
import Idealize.ShloMosaic.Lib.ValueLayout
import Idealize.ShloMosaic.Lib.Pipeline.Value

noncomputable section

namespace Cert.KSide

open Cert.KernelIdeal Cert.KernelIdeal.Gen Idealize.ShloMosaic Idealize.ShloMosaic.ValueIdx Cert.LibPlainDot

/-- The causal scaled scores of a block of 256 query rows starting at row o against all 2048 keys. -/
def scoreBlk (o : ℕ) (q : Vec Ideal S256x1024 .bf16) (k : Vec Ideal S2048x1024 .bf16) : Cert.Attn.Mat 256 2048 :=
  fun p j => if j.val ≤ o + p.val then (∑ t : Fin 1024, q (ix2 p t) * k (ix2 j t)) * cK else ⊥

/-! ## The printed dimension numbers are the plain ones -/

theorem dot_qk_plain : dot_S256x1024_S1024x2048_S256x2048_1_0_0_1_n_n = DotDims.plain 256 1024 2048 := rfl
theorem dot_wv_plain : dot_S256x2048_S2048x1024_S256x1024_1_0_0_1_n_n = DotDims.plain 256 2048 1024 := rfl
theorem dot_out_plain : dot_S256x1024_S1024x1024_S256x1024_1_0_0_1_n_n = DotDims.plain 256 1024 1024 := rfl

/-- The named constant of the mask denotes ⊥, by the certificate's table. -/
theorem neg_big_bot : Named.named (F := Ideal) κ "neg_big" (φ := .f32) 0xFF333332#32 = (⊥ : EReal) :=
  IdealRules.named_const.ideal_named_scalar _ _ _ _ rfl

/-! ## The body's stages as functions of their operands -/

/-- The masked scaled scores, as the body computes them from the word a0 of the block's grid coordinate. -/
def scoresV (a0 : BitVec 32) (q : FVec Ideal S256x1024 .bf16) (k : FVec Ideal S2048x1024 .bf16) : FVec Ideal S256x2048 .f32 :=
  select
    (cmpi .sle (iota .tc S256x2048 32 [1] iota_S256x2048_d1_w32)
      (addi (broadcast S256x2048 (Scalar.muli a0 256#32)) (iota .tc S256x2048 32 [0] iota_S256x2048_d0_w32)))
    (mulf (matmul dot_S256x1024_S1024x2048_S256x2048_1_0_0_1_n_n none q
        (transpose S1024x2048 [1, 0] k transposes_S2048x1024_p1_0_S1024x2048) (constant S256x2048 .f32 0x00000000#32))
      (broadcast S256x2048 (Scalar.ofBits .f32 0x3D000000#32)))
    (broadcast S256x2048 (Named.named κ "neg_big" 0xFF333332#32))

/-- The exponentials of a block shifted by its rows' maxima. -/
def expShift (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- The row-wise softmax of a block, as the body computes it. -/
def softmaxV (s : FVec Ideal S256x2048 .f32) : FVec Ideal S256x2048 .f32 :=
  divf (expShift s) (broadcastTo S256x2048 (shapeCast S256x1
    (multiReduction .add [1] S256 (expShift s) 0x00000000#32 reduces_S256x2048_S256 (.inl rfl) rfl) shapeCasts_S256_S256x1)
    broadcasts_S256x1_S256x2048)

/-- The values mixed by the weights, on the matrix unit. -/
def mixV (w : FVec Ideal S256x2048 .f32) (v : FVec Ideal S2048x1024 .bf16) : FVec Ideal S256x1024 .bf16 :=
  truncf .bf16 (matmul dot_S256x2048_S2048x1024_S256x1024_1_0_0_1_n_n none (truncf .bf16 w bitsLt_bf16_f32) v
    (constant S256x1024 .f32 0x00000000#32)) bitsLt_bf16_f32

/-- The output projection of a mixed block. -/
def outV (x : FVec Ideal S256x1024 .bf16) (wo : FVec Ideal S1024x1024 .bf16) (bo : FVec Ideal S1x1024 .f32) :
    FVec Ideal S256x1024 .f32 :=
  addf (matmul dot_S256x1024_S1024x1024_S256x1024_1_0_0_1_n_n none x
      (transpose S1024x1024 [1, 0] wo transposes_S1024x1024_p1_0_S1024x1024) (constant S256x1024 .f32 0x00000000#32))
    (broadcastTo S256x1024 bo broadcasts_S1x1024_S256x1024)

/-! ## Each stage read at an index -/

/-- Entry (p, j) of the masked scores of block g is the causal scaled score of row g * 256 + p against key j. -/
theorem scoresV_apply (g : ℕ) (hg : g < 8) (q : FVec Ideal S256x1024 .bf16) (k : FVec Ideal S2048x1024 .bf16)
    (p : Fin 256) (j : Fin 2048) : scoresV (BitVec.ofNat 32 g) q k (ix2 p j) = scoreBlk (g * 256) q k p j := by
  show Scalar.select (IntOp.cmpi .sle (iota .tc S256x2048 32 [1] iota_S256x2048_d1_w32 (ix2 p j))
      (IntOp.addi (Scalar.muli (BitVec.ofNat 32 g) 256#32) (iota .tc S256x2048 32 [0] iota_S256x2048_d0_w32 (ix2 p j))))
      (FloatOps.matmul dot_S256x1024_S1024x2048_S256x2048_1_0_0_1_n_n none q
        (transpose S1024x2048 [1, 0] k transposes_S2048x1024_p1_0_S1024x2048) (constant S256x2048 .f32 0x00000000#32) (ix2 p j)
        * Ideal.ofBits .f32 0x3D000000#32)
      (Named.named (F := Ideal) κ "neg_big" (φ := .f32) 0xFF333332#32) = _
  rw [iota_single_apply, iota_single_apply]
  show Scalar.select (IntOp.cmpi .sle (BitVec.ofNat 32 j.val)
      (IntOp.addi (Scalar.muli (BitVec.ofNat 32 g) 256#32) (BitVec.ofNat 32 p.val))) _ _ = _
  rw [causal_select g p.val j.val hg p.isLt j.isLt, dot_qk_plain, matmul_zero_plain, rowsTimes_apply, neg_big_bot]
  unfold scoreBlk
  refine if_congr Iff.rfl (congrArg (· * _) (Finset.sum_congr rfl fun t _ => ?_)) rfl
  rw [transpose_ix2_apply]

/-- Entry (p, j) of the shifted exponentials is the specification's. -/
theorem expShift_apply (s : FVec Ideal S256x2048 .f32) (p : Fin 256) (j : Fin 2048) :
    expShift s (ix2 p j) = Cert.Attn.expo (fun a b => s (ix2 a b)) p j := by
  show Ideal.exp (s (ix2 p j) - broadcastTo S256x2048 (shapeCast S256x1
    (multiReduction .maximumf [1] S256 s 0xFF800000#32 reduces_S256x2048_S256 (.inl rfl) rfl) shapeCasts_S256_S256x1)
    broadcasts_S256x1_S256x2048 (ix2 p j)) = _
  rw [broadcastTo_a1_ab_apply, shapeCast_a_a1_apply]
  exact congrArg (fun m => Ideal.exp (s (ix2 p j) - m)) (rowMax_apply s reduces_S256x2048_S256 (.inl rfl) rfl p)

/-- Entry (p, j) of the body's softmax is the specification's weight. -/
theorem softmaxV_apply (s : FVec Ideal S256x2048 .f32) (p : Fin 256) (j : Fin 2048) :
    softmaxV s (ix2 p j) = Cert.Attn.weights (fun a b => s (ix2 a b)) p j := by
  show Ideal.div (expShift s (ix2 p j)) (broadcastTo S256x2048 (shapeCast S256x1
    (multiReduction .add [1] S256 (expShift s) 0x00000000#32 reduces_S256x2048_S256 (.inl rfl) rfl) shapeCasts_S256_S256x1)
    broadcasts_S256x1_S256x2048 (ix2 p j)) = _
  rw [broadcastTo_a1_ab_apply, shapeCast_a_a1_apply, expShift_apply]
  refine (congrArg (Ideal.div _) (rowSum_apply (expShift s) reduces_S256x2048_S256 (.inl rfl) rfl p)).trans ?_
  unfold Cert.Attn.weights
  exact congrArg (Ideal.div _) (Finset.sum_congr rfl fun t _ => expShift_apply s p t)

/-- The weights of block g: the specification's softmax of the block's causal scaled scores. -/
theorem attn_w (g : ℕ) (hg : g < 8) (q : FVec Ideal S256x1024 .bf16) (k : FVec Ideal S2048x1024 .bf16)
    (p : Fin 256) (j : Fin 2048) :
    softmaxV (scoresV (BitVec.ofNat 32 g) q k) (ix2 p j) = Cert.Attn.weights (scoreBlk (g * 256) q k) p j := by
  rw [softmaxV_apply]
  exact congrArg (fun s => Cert.Attn.weights s p j) (funext fun a => funext fun b => scoresV_apply g hg q k a b)

/-- Entry (p, e) of the mixture: row p of the weights against column e of the values. -/
theorem mixV_apply (w : FVec Ideal S256x2048 .f32) (v : FVec Ideal S2048x1024 .bf16) (p : Fin 256) (e : Fin 1024) :
    mixV w v (ix2 p e) = ∑ j : Fin 2048, w (ix2 p j) * v (ix2 j e) := by
  show FloatOps.matmul dot_S256x2048_S2048x1024_S256x1024_1_0_0_1_n_n none (truncf .bf16 w bitsLt_bf16_f32) v
    (constant S256x1024 .f32 0x00000000#32) (ix2 p e) = _
  rw [dot_wv_plain, matmul_zero_plain, rowsTimes_apply]
  rfl

/-- Entry (p, f) of the output projection: row p of the block against row f of the matrix, plus the bias at f. -/
theorem outV_apply (x : FVec Ideal S256x1024 .bf16) (wo : FVec Ideal S1024x1024 .bf16) (bo : FVec Ideal S1x1024 .f32)
    (p : Fin 256) (f : Fin 1024) :
    outV x wo bo (ix2 p f) = (∑ e : Fin 1024, x (ix2 p e) * wo (ix2 f e)) + bo (ix2 (0 : Fin 1) f) := by
  show FloatOps.matmul dot_S256x1024_S1024x1024_S256x1024_1_0_0_1_n_n none x
      (transpose S1024x1024 [1, 0] wo transposes_S1024x1024_p1_0_S1024x1024) (constant S256x1024 .f32 0x00000000#32) (ix2 p f)
    + broadcastTo S256x1024 bo broadcasts_S1x1024_S256x1024 (ix2 p f) = _
  rw [dot_out_plain, matmul_zero_plain, rowsTimes_apply, broadcastTo_1b_ab_apply]
  refine congrArg (· + _) (Finset.sum_congr rfl fun t _ => ?_)
  rw [transpose_ix2_apply]

/-! ## Layer kernel 1 -/

section Region1
variable (i : grid1.Coords) (hi : (i 0).val < 8) (q : Vec Ideal S256x1024 .bf16) (k : Vec Ideal S2048x1024 .bf16)

theorem pay1_w_eq : k1_pay2 (F := Ideal) i q k = softmaxV (scoresV (BitVec.ofNat 32 (i 0).val) q k) := by
  unfold k1_pay2; dsimp only; simp only [shapeCast_self]; rfl

theorem pay1_mix_eq (v : Vec Ideal S2048x1024 .bf16) : k1_pay4 (F := Ideal) i q k v = mixV (k1_pay2 i q k) v := by
  unfold k1_pay4; dsimp only; simp only [shapeCast_self]; rfl

theorem pay1_out_eq (x : FVec Ideal S256x1024 .bf16) (wo : Vec Ideal S1024x1024 .bf16) (bo : Vec Ideal S1x1024 .f32) :
    k1_pay1 (F := Ideal) x (k1_pay5 wo) bo = outV x wo bo := by
  unfold k1_pay1 k1_pay5; dsimp only; simp only [shapeCast_self]; rfl

include hi in
/-- The weights the kernel of this layer computes for block i. -/
theorem pay1_w (p : Fin 256) (j : Fin 2048) :
    k1_pay2 (F := Ideal) i q k (ix2 p j) = Cert.Attn.weights (scoreBlk ((i 0).val * 256) q k) p j := by
  rw [pay1_w_eq]; exact attn_w (i 0).val hi q k p j

include hi in
/-- The running sum after this layer's block: what was there plus the weights times the constant. -/
theorem pay1_acc (a : Vec Ideal S256x2048 .f32) (p : Fin 256) (j : Fin 2048) :
    k1_pay3 (F := Ideal) i q k a (ix2 p j)
      = a (ix2 p j) + Cert.Attn.weights (scoreBlk ((i 0).val * 256) q k) p j * qK := by
  unfold k1_pay3; dsimp only; simp only [shapeCast_self]
  show a (ix2 p j) + k1_pay2 (F := Ideal) i q k (ix2 p j) * Ideal.ofBits .f32 0x3E800000#32 = _
  rw [pay1_w i hi q k p j]

include hi in
/-- The block's output: the values mixed by the weights, projected, plus the bias. -/
theorem pay1_x (v : Vec Ideal S2048x1024 .bf16) (wo : Vec Ideal S1024x1024 .bf16) (bo : Vec Ideal S1x1024 .f32)
    (p : Fin 256) (f : Fin 1024) :
    k1_pay1 (F := Ideal) (k1_pay4 i q k v) (k1_pay5 wo) bo (ix2 p f)
      = (∑ e : Fin 1024, (∑ j : Fin 2048, Cert.Attn.weights (scoreBlk ((i 0).val * 256) q k) p j * v (ix2 j e)) * wo (ix2 f e))
        + bo (ix2 (0 : Fin 1) f) := by
  rw [pay1_out_eq, outV_apply]
  refine congrArg (· + _) (Finset.sum_congr rfl fun e _ => ?_)
  rw [pay1_mix_eq, mixV_apply]
  refine congrArg (· * _) (Finset.sum_congr rfl fun j _ => ?_)
  rw [pay1_w i hi q k p j]

end Region1

/-! ## Layer kernel 3 -/

section Region3
variable (i : grid3.Coords) (hi : (i 0).val < 8) (q : Vec Ideal S256x1024 .bf16) (k : Vec Ideal S2048x1024 .bf16)

theorem pay3_w_eq : k3_pay2 (F := Ideal) i q k = softmaxV (scoresV (BitVec.ofNat 32 (i 0).val) q k) := by
  unfold k3_pay2; dsimp only; simp only [shapeCast_self]; rfl

theorem pay3_mix_eq (v : Vec Ideal S2048x1024 .bf16) : k3_pay4 (F := Ideal) i q k v = mixV (k3_pay2 i q k) v := by
  unfold k3_pay4; dsimp only; simp only [shapeCast_self]; rfl

theorem pay3_out_eq (x : FVec Ideal S256x1024 .bf16) (wo : Vec Ideal S1024x1024 .bf16) (bo : Vec Ideal S1x1024 .f32) :
    k3_pay1 (F := Ideal) x (k3_pay5 wo) bo = outV x wo bo := by
  unfold k3_pay1 k3_pay5; dsimp only; simp only [shapeCast_self]; rfl

include hi in
/-- The weights the kernel of this layer computes for block i. -/
theorem pay3_w (p : Fin 256) (j : Fin 2048) :
    k3_pay2 (F := Ideal) i q k (ix2 p j) = Cert.Attn.weights (scoreBlk ((i 0).val * 256) q k) p j := by
  rw [pay3_w_eq]; exact attn_w (i 0).val hi q k p j

include hi in
/-- The running sum after this layer's block: what was there plus the weights times the constant. -/
theorem pay3_acc (a : Vec Ideal S256x2048 .f32) (p : Fin 256) (j : Fin 2048) :
    k3_pay3 (F := Ideal) i q k a (ix2 p j)
      = a (ix2 p j) + Cert.Attn.weights (scoreBlk ((i 0).val * 256) q k) p j * qK := by
  unfold k3_pay3; dsimp only; simp only [shapeCast_self]
  show a (ix2 p j) + k3_pay2 (F := Ideal) i q k (ix2 p j) * Ideal.ofBits .f32 0x3E800000#32 = _
  rw [pay3_w i hi q k p j]

include hi in
/-- The block's output: the values mixed by the weights, projected, plus the bias. -/
theorem pay3_x (v : Vec Ideal S2048x1024 .bf16) (wo : Vec Ideal S1024x1024 .bf16) (bo : Vec Ideal S1x1024 .f32)
    (p : Fin 256) (f : Fin 1024) :
    k3_pay1 (F := Ideal) (k3_pay4 i q k v) (k3_pay5 wo) bo (ix2 p f)
      = (∑ e : Fin 1024, (∑ j : Fin 2048, Cert.Attn.weights (scoreBlk ((i 0).val * 256) q k) p j * v (ix2 j e)) * wo (ix2 f e))
        + bo (ix2 (0 : Fin 1) f) := by
  rw [pay3_out_eq, outV_apply]
  refine congrArg (· + _) (Finset.sum_congr rfl fun e _ => ?_)
  rw [pay3_mix_eq, mixV_apply]
  refine congrArg (· * _) (Finset.sum_congr rfl fun j _ => ?_)
  rw [pay3_w i hi q k p j]

end Region3

/-! ## Layer kernel 5 -/

section Region5
variable (i : grid5.Coords) (hi : (i 0).val < 8) (q : Vec Ideal S256x1024 .bf16) (k : Vec Ideal S2048x1024 .bf16)

theorem pay5_w_eq : k5_pay2 (F := Ideal) i q k = softmaxV (scoresV (BitVec.ofNat 32 (i 0).val) q k) := by
  unfold k5_pay2; dsimp only; simp only [shapeCast_self]; rfl

theorem pay5_mix_eq (v : Vec Ideal S2048x1024 .bf16) : k5_pay4 (F := Ideal) i q k v = mixV (k5_pay2 i q k) v := by
  unfold k5_pay4; dsimp only; simp only [shapeCast_self]; rfl

theorem pay5_out_eq (x : FVec Ideal S256x1024 .bf16) (wo : Vec Ideal S1024x1024 .bf16) (bo : Vec Ideal S1x1024 .f32) :
    k5_pay1 (F := Ideal) x (k5_pay5 wo) bo = outV x wo bo := by
  unfold k5_pay1 k5_pay5; dsimp only; simp only [shapeCast_self]; rfl

include hi in
/-- The weights the kernel of this layer computes for block i. -/
theorem pay5_w (p : Fin 256) (j : Fin 2048) :
    k5_pay2 (F := Ideal) i q k (ix2 p j) = Cert.Attn.weights (scoreBlk ((i 0).val * 256) q k) p j := by
  rw [pay5_w_eq]; exact attn_w (i 0).val hi q k p j

include hi in
/-- The running sum after this layer's block: what was there plus the weights times the constant. -/
theorem pay5_acc (a : Vec Ideal S256x2048 .f32) (p : Fin 256) (j : Fin 2048) :
    k5_pay3 (F := Ideal) i q k a (ix2 p j)
      = a (ix2 p j) + Cert.Attn.weights (scoreBlk ((i 0).val * 256) q k) p j * qK := by
  unfold k5_pay3; dsimp only; simp only [shapeCast_self]
  show a (ix2 p j) + k5_pay2 (F := Ideal) i q k (ix2 p j) * Ideal.ofBits .f32 0x3E800000#32 = _
  rw [pay5_w i hi q k p j]

include hi in
/-- The block's output: the values mixed by the weights, projected, plus the bias. -/
theorem pay5_x (v : Vec Ideal S2048x1024 .bf16) (wo : Vec Ideal S1024x1024 .bf16) (bo : Vec Ideal S1x1024 .f32)
    (p : Fin 256) (f : Fin 1024) :
    k5_pay1 (F := Ideal) (k5_pay4 i q k v) (k5_pay5 wo) bo (ix2 p f)
      = (∑ e : Fin 1024, (∑ j : Fin 2048, Cert.Attn.weights (scoreBlk ((i 0).val * 256) q k) p j * v (ix2 j e)) * wo (ix2 f e))
        + bo (ix2 (0 : Fin 1) f) := by
  rw [pay5_out_eq, outV_apply]
  refine congrArg (· + _) (Finset.sum_congr rfl fun e _ => ?_)
  rw [pay5_mix_eq, mixV_apply]
  refine congrArg (· * _) (Finset.sum_congr rfl fun j _ => ?_)
  rw [pay5_w i hi q k p j]

end Region5

/-! ## Layer kernel 7 -/

section Region7
variable (i : grid7.Coords) (hi : (i 0).val < 8) (q : Vec Ideal S256x1024 .bf16) (k : Vec Ideal S2048x1024 .bf16)

theorem pay7_w_eq : k7_pay2 (F := Ideal) i q k = softmaxV (scoresV (BitVec.ofNat 32 (i 0).val) q k) := by
  unfold k7_pay2; dsimp only; simp only [shapeCast_self]; rfl

theorem pay7_mix_eq (v : Vec Ideal S2048x1024 .bf16) : k7_pay4 (F := Ideal) i q k v = mixV (k7_pay2 i q k) v := by
  unfold k7_pay4; dsimp only; simp only [shapeCast_self]; rfl

theorem pay7_out_eq (x : FVec Ideal S256x1024 .bf16) (wo : Vec Ideal S1024x1024 .bf16) (bo : Vec Ideal S1x1024 .f32) :
    k7_pay1 (F := Ideal) x (k7_pay5 wo) bo = outV x wo bo := by
  unfold k7_pay1 k7_pay5; dsimp only; simp only [shapeCast_self]; rfl

include hi in
/-- The weights the kernel of this layer computes for block i. -/
theorem pay7_w (p : Fin 256) (j : Fin 2048) :
    k7_pay2 (F := Ideal) i q k (ix2 p j) = Cert.Attn.weights (scoreBlk ((i 0).val * 256) q k) p j := by
  rw [pay7_w_eq]; exact attn_w (i 0).val hi q k p j

include hi in
/-- The running sum after this layer's block: what was there plus the weights times the constant. -/
theorem pay7_acc (a : Vec Ideal S256x2048 .f32) (p : Fin 256) (j : Fin 2048) :
    k7_pay3 (F := Ideal) i q k a (ix2 p j)
      = a (ix2 p j) + Cert.Attn.weights (scoreBlk ((i 0).val * 256) q k) p j * qK := by
  unfold k7_pay3; dsimp only; simp only [shapeCast_self]
  show a (ix2 p j) + k7_pay2 (F := Ideal) i q k (ix2 p j) * Ideal.ofBits .f32 0x3E800000#32 = _
  rw [pay7_w i hi q k p j]

include hi in
/-- The block's output: the values mixed by the weights, projected, plus the bias. -/
theorem pay7_x (v : Vec Ideal S2048x1024 .bf16) (wo : Vec Ideal S1024x1024 .bf16) (bo : Vec Ideal S1x1024 .f32)
    (p : Fin 256) (f : Fin 1024) :
    k7_pay1 (F := Ideal) (k7_pay4 i q k v) (k7_pay5 wo) bo (ix2 p f)
      = (∑ e : Fin 1024, (∑ j : Fin 2048, Cert.Attn.weights (scoreBlk ((i 0).val * 256) q k) p j * v (ix2 j e)) * wo (ix2 f e))
        + bo (ix2 (0 : Fin 1) f) := by
  rw [pay7_out_eq, outV_apply]
  refine congrArg (· + _) (Finset.sum_congr rfl fun e _ => ?_)
  rw [pay7_mix_eq, mixV_apply]
  refine congrArg (· * _) (Finset.sum_congr rfl fun j _ => ?_)
  rw [pay7_w i hi q k p j]

end Region7

end Cert.KSide

end
-- ==== Proof.KAttnRegion.lean ====
/-
  The attention kernel's two output arrays as whole-array functions of the arrays the region finds.

  The kernel's grid has eight points; point t reads rows 256 t … 256 t + 255 of the queries and of the running
  sum, all the keys and values, the output projection and its bias, and writes rows 256 t … of the layer's output
  and of the new running sum. Row r of the causal softmax weights depends on row r of the queries only (its
  scores, their maximum, their exponentials and their sum are all taken along the row), so the weights of a block
  of query rows are those rows of the weights of all the queries; mixing the values and projecting keep rows
  apart too. Hence block t of each output is block t of one whole-array function, and the eight row blocks tile it.
-/
import proofs.«101734_j68264210202743_2_alg».proof.Proof.KernelIdealFrame
import proofs.«101734_j68264210202743_2_alg».proof.Proof.KAttnBlock
import proofs.«101734_j68264210202743_2_alg».proof.Proof.KTerms
import Idealize.ShloMosaic.Lib.Pipeline.Value

set_option maxRecDepth 16384

noncomputable section

namespace Cert.KSide

open Cert.KernelIdeal Cert.KernelIdeal.Gen Cert.KernelIdeal.GenP Cert.Attn
open Idealize.ShloMosaic Idealize.ShloMosaic.TcCoe Idealize.ShloMosaic.ValueIdx Idealize.SL.Sem
open Idealize.ShloMosaic.Pipeline (Dat)

theorem hz2' : (![0, 0] : Fin 2 → Nat) = fun _ => 0 := funext fun a => by fin_cases a <;> rfl

/-- The softmax weights of a row depend on that row of the scores only. -/
theorem weights_row {n n' p : ℕ} (s : Mat n p) (s' : Mat n' p) (i : Fin n) (i' : Fin n') (h : ∀ j, s i j = s' i' j)
    (j : Fin p) : weights s i j = weights s' i' j := by
  have hr : s i = s' i' := funext h
  unfold weights expo rowMax
  rw [hr]

/-- The causal scores of a block of 256 query rows starting at row `256 r` are those rows of the scores of all the
    queries. -/
theorem score_rows (Q K : S2048x1024.Idx → EReal) (qb : Vec Ideal S256x1024 .bf16) (kb : Vec Ideal S2048x1024 .bf16)
    (r : ℕ) (hr : r * 256 + 256 ≤ 2048)
    (hq : ∀ (y : S256x1024.Idx) (i : S2048x1024.Idx), (i 0).val = r * 256 + (y 0).val → (i 1).val = (y 1).val → qb y = Q i)
    (hk : ∀ y : S2048x1024.Idx, kb y = K y) (p : Fin 256) (j : Fin 2048) :
    scoreBlk (r * 256) qb kb p j = scores cK (toMat Q) (toMat K) ⟨r * 256 + p.val, by have := p.isLt; omega⟩ j := by
  unfold scoreBlk scores toMat
  refine if_congr Iff.rfl (congrArg (· * cK) (Finset.sum_congr rfl fun t _ => congrArg₂ (· * ·) (hq _ _ rfl rfl) (hk _))) rfl

/-- The weights of that block are those rows of the weights of all the queries. -/
theorem weights_rows (Q K : S2048x1024.Idx → EReal) (qb : Vec Ideal S256x1024 .bf16) (kb : Vec Ideal S2048x1024 .bf16)
    (r : ℕ) (hr : r * 256 + 256 ≤ 2048)
    (hq : ∀ (y : S256x1024.Idx) (i : S2048x1024.Idx), (i 0).val = r * 256 + (y 0).val → (i 1).val = (y 1).val → qb y = Q i)
    (hk : ∀ y : S2048x1024.Idx, kb y = K y) (p : Fin 256) (j : Fin 2048) :
    weights (scoreBlk (r * 256) qb kb) p j
      = weights (scores cK (toMat Q) (toMat K)) ⟨r * 256 + p.val, by have := p.isLt; omega⟩ j :=
  weights_row _ _ _ _ (fun j' => score_rows Q K qb kb r hr hq hk p j') j

/-- The running sum's block: if the body's value `w` at `(p, j)` is the old block plus a quarter of the block's weights,
    then at the index `i` that `y` sits at it is the whole-array running sum. -/
theorem acc_rows (A : S2048x2048.Idx → EReal) (Q K : S2048x1024.Idx → EReal) (ab : Vec Ideal S256x2048 .f32)
    (qb : Vec Ideal S256x1024 .bf16) (kb : Vec Ideal S2048x1024 .bf16) (r : ℕ) (hr : r * 256 + 256 ≤ 2048)
    (ha : ∀ (y : S256x2048.Idx) (i : S2048x2048.Idx), (i 0).val = r * 256 + (y 0).val → (i 1).val = (y 1).val → ab y = A i)
    (hq : ∀ (y : S256x1024.Idx) (i : S2048x1024.Idx), (i 0).val = r * 256 + (y 0).val → (i 1).val = (y 1).val → qb y = Q i)
    (hk : ∀ y : S2048x1024.Idx, kb y = K y) (w : S256x2048.Idx → EReal)
    (hw : ∀ (p : Fin 256) (j : Fin 2048), w (ix2 p j) = ab (ix2 p j) + weights (scoreBlk (r * 256) qb kb) p j * qK)
    (y : S256x2048.Idx) (i : S2048x2048.Idx) (h0 : (i 0).val = r * 256 + (y 0).val) (h1 : (i 1).val = (y 1).val) :
    w y = accArr A Q K i := by
  have hy : y = ix2 (⟨(y 0).val, idx2_lt0 y⟩ : Fin 256) (⟨(y 1).val, idx2_lt1 y⟩ : Fin 2048) := eq_ix2 y
  rw [hy, hw, weights_rows Q K qb kb r hr hq hk, ← hy, ha y i h0 h1]
  unfold accArr attnArr
  have e0 : (⟨r * 256 + (y 0).val, by have := idx2_lt0 y; omega⟩ : Fin 2048) = ⟨(i 0).val, idx2_lt0 i⟩ := Fin.ext h0.symm
  have e1 : (⟨(y 1).val, idx2_lt1 y⟩ : Fin 2048) = ⟨(i 1).val, idx2_lt1 i⟩ := Fin.ext h1.symm
  rw [← e0, ← e1]

/-- The output's block likewise: mixing the values and projecting keep rows apart. -/
theorem out_rows (Q K Vv : S2048x1024.Idx → EReal) (Wo : S1024x1024.Idx → EReal) (Bo : S1x1024.Idx → EReal)
    (qb : Vec Ideal S256x1024 .bf16) (kb vb : Vec Ideal S2048x1024 .bf16) (wob : Vec Ideal S1024x1024 .bf16)
    (bob : Vec Ideal S1x1024 .f32) (r : ℕ) (hr : r * 256 + 256 ≤ 2048)
    (hq : ∀ (y : S256x1024.Idx) (i : S2048x1024.Idx), (i 0).val = r * 256 + (y 0).val → (i 1).val = (y 1).val → qb y = Q i)
    (hk : ∀ y : S2048x1024.Idx, kb y = K y) (hv : ∀ y : S2048x1024.Idx, vb y = Vv y)
    (hwo : ∀ y : S1024x1024.Idx, wob y = Wo y) (hbo : ∀ y : S1x1024.Idx, bob y = Bo y) (w : S256x1024.Idx → EReal)
    (hw : ∀ (p : Fin 256) (f : Fin 1024), w (ix2 p f)
      = (∑ e : Fin 1024, (∑ j : Fin 2048, weights (scoreBlk (r * 256) qb kb) p j * vb (ix2 j e)) * wob (ix2 f e))
        + bob (ix2 (0 : Fin 1) f))
    (y : S256x1024.Idx) (i : S2048x1024.Idx) (h0 : (i 0).val = r * 256 + (y 0).val) (h1 : (i 1).val = (y 1).val) :
    w y = outArr Q K Vv Wo Bo i := by
  have hy : y = ix2 (⟨(y 0).val, idx2_lt0 y⟩ : Fin 256) (⟨(y 1).val, idx2_lt1 y⟩ : Fin 1024) := eq_ix2 y
  rw [hy, hw]
  unfold outArr proj mix toMat toRow
  have e0 : (⟨r * 256 + (y 0).val, by have := idx2_lt0 y; omega⟩ : Fin 2048) = ⟨(i 0).val, idx2_lt0 i⟩ := Fin.ext h0.symm
  have e1 : (⟨(y 1).val, idx2_lt1 y⟩ : Fin 1024) = ⟨(i 1).val, idx2_lt1 i⟩ := Fin.ext h1.symm
  rw [← e0, ← e1, hbo]
  refine congrArg (· + _) (Finset.sum_congr rfl fun e _ => ?_)
  rw [hwo]
  refine congrArg (· * _) (Finset.sum_congr rfl fun j _ => ?_)
  rw [weights_rows Q K qb kb r hr hq hk, hv]
  rfl

variable (V : (c : Dev nD) → (b : Ref sig .tc) → Buf (Elt Ideal) ((c : Thread nD τ).loc b))

/-! ## Region 1 -/

/-- The printed index maps of region 1, decided over its eight points: the query block, the running sum's block and the
    two output blocks move down the rows with the point; keys, values, the output projection and its bias stay put;
    and the grid coordinate of point `t` is `t`. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ ((grid1.coords t) 0).val = t.val :=
  (by decide +kernel : ∀ t : Fin grid1.N, _)

theorem qblk1 (c : Dev nD) (t : Fin cfg1.N) (y : S256x1024.Idx) (i : S2048x1024.Idx)
    (h0 : (i 0).val = t.val * 256 + (y 0).val) (h1 : (i 1).val = (y 1).val) : iblk1 V c 0 t y = V c main_v8_0 i := by
  obtain ⟨e0, e1, -⟩ := idx1 t
  show V c main_v8_0 (((cfg1.win 0).blk t).view.emb y) = V c main_v8_0 i
  refine congrArg (V c main_v8_0) (funext fun a => Fin.ext ?_)
  match a with
  | ⟨0, _⟩ => show win1_0.index t (0 : Fin 2) * 256 + 1 * (y 0).val = (i 0).val; rw [e0, h0]; omega
  | ⟨1, _⟩ => show win1_0.index t (1 : Fin 2) * 1024 + 1 * (y 1).val = (i 1).val; rw [e1, h1]; omega

theorem kblk1 (c : Dev nD) (t : Fin cfg1.N) (y : S2048x1024.Idx) : iblk1 V c 1 t y = V c main_v8_1 y := by
  obtain ⟨-, -, e0, e1, -⟩ := idx1 t
  show V c main_v8_1 (((cfg1.win 1).blk t).view.emb y) = V c main_v8_1 y
  refine congrArg (V c main_v8_1) (funext fun a => Fin.ext ?_)
  match a with
  | ⟨0, _⟩ => show win1_1.index t (0 : Fin 2) * 2048 + 1 * (y 0).val = (y 0).val; rw [e0]; omega
  | ⟨1, _⟩ => show win1_1.index t (1 : Fin 2) * 1024 + 1 * (y 1).val = (y 1).val; rw [e1]; omega

theorem vblk1 (c : Dev nD) (t : Fin cfg1.N) (y : S2048x1024.Idx) : iblk1 V c 2 t y = V c main_v8_2 y := by
  obtain ⟨-, -, -, -, e0, e1, -⟩ := idx1 t
  show V c main_v8_2 (((cfg1.win 2).blk t).view.emb y) = V c main_v8_2 y
  refine congrArg (V c main_v8_2) (funext fun a => Fin.ext ?_)
  match a with
  | ⟨0, _⟩ => show win1_2.index t (0 : Fin 2) * 2048 + 1 * (y 0).val = (y 0).val; rw [e0]; omega
  | ⟨1, _⟩ => show win1_2.index t (1 : Fin 2) * 1024 + 1 * (y 1).val = (y 1).val; rw [e1]; omega

theorem woblk1 (c : Dev nD) (t : Fin cfg1.N) (y : S1024x1024.Idx) : iblk1 V c 3 t y = V c main_v13 y := by
  obtain ⟨-, -, -, -, -, -, e0, e1, -⟩ := idx1 t
  show V c main_v13 (((cfg1.win 3).blk t).view.emb y) = V c main_v13 y
  refine congrArg (V c main_v13) (funext fun a => Fin.ext ?_)
  match a with
  | ⟨0, _⟩ => show win1_3.index t (0 : Fin 2) * 1024 + 1 * (y 0).val = (y 0).val; rw [e0]; omega
  | ⟨1, _⟩ => show win1_3.index t (1 : Fin 2) * 1024 + 1 * (y 1).val = (y 1).val; rw [e1]; omega

theorem boblk1 (c : Dev nD) (t : Fin cfg1.N) (y : S1x1024.Idx) : iblk1 V c 4 t y = V c main_v11 y := by
  obtain ⟨-, -, -, -, -, -, -, -, e0, e1, -⟩ := idx1 t
  show V c main_v11 (((cfg1.win 4).blk t).view.emb y) = V c main_v11 y
  refine congrArg (V c main_v11) (funext fun a => Fin.ext ?_)
  match a with
  | ⟨0, _⟩ => show win1_4.index t (0 : Fin 2) * 1 + 1 * (y 0).val = (y 0).val; rw [e0]; omega
  | ⟨1, _⟩ => show win1_4.index t (1 : Fin 2) * 1024 + 1 * (y 1).val = (y 1).val; rw [e1]; omega

theorem ablk1 (c : Dev nD) (t : Fin cfg1.N) (y : S256x2048.Idx) (i : S2048x2048.Idx)
    (h0 : (i 0).val = t.val * 256 + (y 0).val) (h1 : (i 1).val = (y 1).val) : iblk1 V c 5 t y = V c main_v2 i := by
  obtain ⟨-, -, -, -, -, -, -, -, -, -, e0, e1, -⟩ := idx1 t
  show V c main_v2 (((cfg1.win 5).blk t).view.emb y) = V c main_v2 i
  refine congrArg (V c main_v2) (funext fun a => Fin.ext ?_)
  match a with
  | ⟨0, _⟩ => show win1_5.index t (0 : Fin 2) * 256 + 1 * (y 0).val = (i 0).val; rw [e0, h0]; omega
  | ⟨1, _⟩ => show win1_5.index t (1 : Fin 2) * 2048 + 1 * (y 1).val = (i 1).val; rw [e1, h1]; omega

/-- What point `t` writes back through the running sum's window is block `t` of the sum plus a quarter of the weights. -/
theorem flushed1_7_eq (c : Dev nD) (t : Fin cfg1.N) :
    (dat1 V c).flushed 7 t = ((cfg1.win 7).blk t).view.read (Elt Ideal) (accArr (V c main_v2) (V c main_v8_0) (V c main_v8_1)) := by
  show (cfg1.win 7).cut (grid1.coords t) ((dat1 V c).after 7 t) = _
  rw [after1_7]
  unfold out1_7
  rw [View.canon_unit_zero hz2']
  simp only [View.ld_unit_zero (S := S256x1024) hz2', View.ld_unit_zero (S := S2048x1024) hz2', View.ld_unit_zero (S := S256x2048) hz2']
  obtain ⟨-, -, -, -, -, -, -, -, -, -, -, -, -, -, e70, e71, eg⟩ := idx1 t
  have hN : cfg1.N = 8 := N_1
  have ht : t.val < 8 := hN ▸ t.isLt
  funext j
  show k1_pay3 (F := Ideal) (grid1.coords t) (iblk1 V c 0 t) (iblk1 V c 1 t) (iblk1 V c 5 t) j
    = accArr (V c main_v2) (V c main_v8_0) (V c main_v8_1) (((cfg1.win 7).blk t).view.emb j)
  refine acc_rows (V c main_v2) (V c main_v8_0) (V c main_v8_1) _ _ _ t.val (by omega) (ablk1 V c t) (qblk1 V c t) (kblk1 V c t) _
    (fun p jj => by rw [pay1_acc (grid1.coords t) (by rw [eg]; exact ht), eg]) j _ ?_ ?_
  · show win1_7.index t (0 : Fin 2) * 256 + 1 * (j 0).val = t.val * 256 + (j 0).val; rw [e70]; omega
  · show win1_7.index t (1 : Fin 2) * 2048 + 1 * (j 1).val = (j 1).val; rw [e71]; omega

/-- What point `t` writes back through the output window is block `t` of the layer's output. -/
theorem flushed1_6_eq (c : Dev nD) (t : Fin cfg1.N) :
    (dat1 V c).flushed 6 t = ((cfg1.win 6).blk t).view.read (Elt Ideal)
      (outArr (V c main_v8_0) (V c main_v8_1) (V c main_v8_2) (V c main_v13) (V c main_v11)) := by
  show (cfg1.win 6).cut (grid1.coords t) ((dat1 V c).after 6 t) = _
  rw [after1_6]
  unfold out1_6
  rw [View.canon_unit_zero hz2']
  simp only [View.ld_unit_zero (S := S256x1024) hz2', View.ld_unit_zero (S := S2048x1024) hz2', View.ld_unit_zero (S := S1024x1024) hz2',
    View.ld_unit_zero (S := S1x1024) hz2']
  obtain ⟨-, -, -, -, -, -, -, -, -, -, -, -, e60, e61, -, -, eg⟩ := idx1 t
  have hN : cfg1.N = 8 := N_1
  have ht : t.val < 8 := hN ▸ t.isLt
  funext j
  show k1_pay1 (F := Ideal) (k1_pay4 (grid1.coords t) (iblk1 V c 0 t) (iblk1 V c 1 t) (iblk1 V c 2 t)) (k1_pay5 (iblk1 V c 3 t)) (iblk1 V c 4 t) j
    = outArr (V c main_v8_0) (V c main_v8_1) (V c main_v8_2) (V c main_v13) (V c main_v11) (((cfg1.win 6).blk t).view.emb j)
  refine out_rows (V c main_v8_0) (V c main_v8_1) (V c main_v8_2) (V c main_v13) (V c main_v11) _ _ _ _ _ t.val (by omega) (qblk1 V c t) (kblk1 V c t)
    (vblk1 V c t) (woblk1 V c t) (boblk1 V c t) _
    (fun p f => by rw [pay1_x (grid1.coords t) (by rw [eg]; exact ht), eg]) j _ ?_ ?_
  · show win1_6.index t (0 : Fin 2) * 256 + 1 * (j 0).val = t.val * 256 + (j 0).val; rw [e60]; omega
  · show win1_6.index t (1 : Fin 2) * 1024 + 1 * (j 1).val = (j 1).val; rw [e61]; omega

theorem mem_blk1_7 (t : Fin cfg1.N) (i : S2048x2048.Idx) :
    i ∈ ((cfg1.win 7).blk t).view.set ↔ ∀ a : Fin 2, win1_7.index t a * S256x2048.size a ≤ (i a).val
      ∧ (i a).val < win1_7.index t a * S256x2048.size a + S256x2048.size a := by
  show i ∈ ((View.whole main_v14_1).slice (win1_7.rect t)).set ↔ _
  rw [View.set_slice_whole, Rect.mem_set_unit]
  exact Iff.rfl

theorem mem_blk1_6 (t : Fin cfg1.N) (i : S2048x1024.Idx) :
    i ∈ ((cfg1.win 6).blk t).view.set ↔ ∀ a : Fin 2, win1_6.index t a * S256x1024.size a ≤ (i a).val
      ∧ (i a).val < win1_6.index t a * S256x1024.size a + S256x1024.size a := by
  show i ∈ ((View.whole main_v14_0).slice (win1_6.rect t)).set ↔ _
  rw [View.set_slice_whole, Rect.mem_set_unit]
  exact Iff.rfl

theorem cover1_7 (i : S2048x2048.Idx) :
    ∃ t : Fin cfg1.N, (cfg1.win 7).flush t = true ∧ i ∈ ((cfg1.win 7).blk t).view.set := by
  have hi0 : (i 0).val < 2048 := (i 0).isLt
  have hi1 : (i 1).val < 2048 := (i 1).isLt
  have hN : cfg1.N = 8 := N_1
  obtain ⟨t, ht⟩ : ∃ t : Fin cfg1.N, t.val = (i 0).val / 256 := ⟨⟨(i 0).val / 256, by rw [hN]; omega⟩, rfl⟩
  obtain ⟨-, -, -, -, -, -, -, -, -, -, -, -, -, -, e70, e71, -⟩ := idx1 t
  refine ⟨t, flush1_7 t, ?_⟩
  rw [mem_blk1_7]
  intro a
  match a with
  | ⟨0, _⟩ => show win1_7.index t (0 : Fin 2) * 256 ≤ (i 0).val ∧ (i 0).val < win1_7.index t (0 : Fin 2) * 256 + 256; rw [e70, ht]; omega
  | ⟨1, _⟩ => show win1_7.index t (1 : Fin 2) * 2048 ≤ (i 1).val ∧ (i 1).val < win1_7.index t (1 : Fin 2) * 2048 + 2048; rw [e71]; omega

theorem cover1_6 (i : S2048x1024.Idx) :
    ∃ t : Fin cfg1.N, (cfg1.win 6).flush t = true ∧ i ∈ ((cfg1.win 6).blk t).view.set := by
  have hi0 : (i 0).val < 2048 := (i 0).isLt
  have hi1 : (i 1).val < 1024 := (i 1).isLt
  have hN : cfg1.N = 8 := N_1
  obtain ⟨t, ht⟩ : ∃ t : Fin cfg1.N, t.val = (i 0).val / 256 := ⟨⟨(i 0).val / 256, by rw [hN]; omega⟩, rfl⟩
  obtain ⟨-, -, -, -, -, -, -, -, -, -, -, -, e60, e61, -⟩ := idx1 t
  refine ⟨t, flush1_6 t, ?_⟩
  rw [mem_blk1_6]
  intro a
  match a with
  | ⟨0, _⟩ => show win1_6.index t (0 : Fin 2) * 256 ≤ (i 0).val ∧ (i 0).val < win1_6.index t (0 : Fin 2) * 256 + 256; rw [e60, ht]; omega
  | ⟨1, _⟩ => show win1_6.index t (1 : Fin 2) * 1024 ≤ (i 1).val ∧ (i 1).val < win1_6.index t (1 : Fin 2) * 1024 + 1024; rw [e61]; omega

/-- The running sum's array after the region. -/
theorem final1_7 (c : Dev nD) : (dat1 V c).arrAt 7 cfg1.N = accArr (V c main_v2) (V c main_v8_0) (V c main_v8_1) :=
  (dat1 V c).arrAt_eq_of_cover 7 _ (fun t _ => flushed1_7_eq V c t) (cover1_7)

/-- The layer's output array after the region. -/
theorem final1_6 (c : Dev nD) :
    (dat1 V c).arrAt 6 cfg1.N = outArr (V c main_v8_0) (V c main_v8_1) (V c main_v8_2) (V c main_v13) (V c main_v11) :=
  (dat1 V c).arrAt_eq_of_cover 6 _ (fun t _ => flushed1_6_eq V c t) (cover1_6)

/-! ## Region 3 -/

/-- The printed index maps of region 3, decided over its eight points: the query block, the running sum's block and the
    two output blocks move down the rows with the point; keys, values, the output projection and its bias stay put;
    and the grid coordinate of point `t` is `t`. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0
    ∧ ((grid3.coords t) 0).val = t.val :=
  (by decide +kernel : ∀ t : Fin grid3.N, _)

theorem qblk3 (c : Dev nD) (t : Fin cfg3.N) (y : S256x1024.Idx) (i : S2048x1024.Idx)
    (h0 : (i 0).val = t.val * 256 + (y 0).val) (h1 : (i 1).val = (y 1).val) : iblk3 V c 0 t y = V c main_v20_0 i := by
  obtain ⟨e0, e1, -⟩ := idx3 t
  show V c main_v20_0 (((cfg3.win 0).blk t).view.emb y) = V c main_v20_0 i
  refine congrArg (V c main_v20_0) (funext fun a => Fin.ext ?_)
  match a with
  | ⟨0, _⟩ => show win3_0.index t (0 : Fin 2) * 256 + 1 * (y 0).val = (i 0).val; rw [e0, h0]; omega
  | ⟨1, _⟩ => show win3_0.index t (1 : Fin 2) * 1024 + 1 * (y 1).val = (i 1).val; rw [e1, h1]; omega

theorem kblk3 (c : Dev nD) (t : Fin cfg3.N) (y : S2048x1024.Idx) : iblk3 V c 1 t y = V c main_v20_1 y := by
  obtain ⟨-, -, e0, e1, -⟩ := idx3 t
  show V c main_v20_1 (((cfg3.win 1).blk t).view.emb y) = V c main_v20_1 y
  refine congrArg (V c main_v20_1) (funext fun a => Fin.ext ?_)
  match a with
  | ⟨0, _⟩ => show win3_1.index t (0 : Fin 2) * 2048 + 1 * (y 0).val = (y 0).val; rw [e0]; omega
  | ⟨1, _⟩ => show win3_1.index t (1 : Fin 2) * 1024 + 1 * (y 1).val = (y 1).val; rw [e1]; omega

theorem vblk3 (c : Dev nD) (t : Fin cfg3.N) (y : S2048x1024.Idx) : iblk3 V c 2 t y = V c main_v20_2 y := by
  obtain ⟨-, -, -, -, e0, e1, -⟩ := idx3 t
  show V c main_v20_2 (((cfg3.win 2).blk t).view.emb y) = V c main_v20_2 y
  refine congrArg (V c main_v20_2) (funext fun a => Fin.ext ?_)
  match a with
  | ⟨0, _⟩ => show win3_2.index t (0 : Fin 2) * 2048 + 1 * (y 0).val = (y 0).val; rw [e0]; omega
  | ⟨1, _⟩ => show win3_2.index t (1 : Fin 2) * 1024 + 1 * (y 1).val = (y 1).val; rw [e1]; omega

theorem woblk3 (c : Dev nD) (t : Fin cfg3.N) (y : S1024x1024.Idx) : iblk3 V c 3 t y = V c main_v25 y := by
  obtain ⟨-, -, -, -, -, -, e0, e1, -⟩ := idx3 t
  show V c main_v25 (((cfg3.win 3).blk t).view.emb y) = V c main_v25 y
  refine congrArg (V c main_v25) (funext fun a => Fin.ext ?_)
  match a with
  | ⟨0, _⟩ => show win3_3.index t (0 : Fin 2) * 1024 + 1 * (y 0).val = (y 0).val; rw [e0]; omega
  | ⟨1, _⟩ => show win3_3.index t (1 : Fin 2) * 1024 + 1 * (y 1).val = (y 1).val; rw [e1]; omega

theorem boblk3 (c : Dev nD) (t : Fin cfg3.N) (y : S1x1024.Idx) : iblk3 V c 4 t y = V c main_v23 y := by
  obtain ⟨-, -, -, -, -, -, -, -, e0, e1, -⟩ := idx3 t
  show V c main_v23 (((cfg3.win 4).blk t).view.emb y) = V c main_v23 y
  refine congrArg (V c main_v23) (funext fun a => Fin.ext ?_)
  match a with
  | ⟨0, _⟩ => show win3_4.index t (0 : Fin 2) * 1 + 1 * (y 0).val = (y 0).val; rw [e0]; omega
  | ⟨1, _⟩ => show win3_4.index t (1 : Fin 2) * 1024 + 1 * (y 1).val = (y 1).val; rw [e1]; omega

theorem ablk3 (c : Dev nD) (t : Fin cfg3.N) (y : S256x2048.Idx) (i : S2048x2048.Idx)
    (h0 : (i 0).val = t.val * 256 + (y 0).val) (h1 : (i 1).val = (y 1).val) : iblk3 V c 5 t y = V c main_v14_1 i := by
  obtain ⟨-, -, -, -, -, -, -, -, -, -, e0, e1, -⟩ := idx3 t
  show V c main_v14_1 (((cfg3.win 5).blk t).view.emb y) = V c main_v14_1 i
  refine congrArg (V c main_v14_1) (funext fun a => Fin.ext ?_)
  match a with
  | ⟨0, _⟩ => show win3_5.index t (0 : Fin 2) * 256 + 1 * (y 0).val = (i 0).val; rw [e0, h0]; omega
  | ⟨1, _⟩ => show win3_5.index t (1 : Fin 2) * 2048 + 1 * (y 1).val = (i 1).val; rw [e1, h1]; omega

/-- What point `t` writes back through the running sum's window is block `t` of the sum plus a quarter of the weights. -/
theorem flushed3_7_eq (c : Dev nD) (t : Fin cfg3.N) :
    (dat3 V c).flushed 7 t = ((cfg3.win 7).blk t).view.read (Elt Ideal) (accArr (V c main_v14_1) (V c main_v20_0) (V c main_v20_1)) := by
  show (cfg3.win 7).cut (grid3.coords t) ((dat3 V c).after 7 t) = _
  rw [after3_7]
  unfold out3_7
  rw [View.canon_unit_zero hz2']
  simp only [View.ld_unit_zero (S := S256x1024) hz2', View.ld_unit_zero (S := S2048x1024) hz2', View.ld_unit_zero (S := S256x2048) hz2']
  obtain ⟨-, -, -, -, -, -, -, -, -, -, -, -, -, -, e70, e71, eg⟩ := idx3 t
  have hN : cfg3.N = 8 := N_3
  have ht : t.val < 8 := hN ▸ t.isLt
  funext j
  show k3_pay3 (F := Ideal) (grid3.coords t) (iblk3 V c 0 t) (iblk3 V c 1 t) (iblk3 V c 5 t) j
    = accArr (V c main_v14_1) (V c main_v20_0) (V c main_v20_1) (((cfg3.win 7).blk t).view.emb j)
  refine acc_rows (V c main_v14_1) (V c main_v20_0) (V c main_v20_1) _ _ _ t.val (by omega) (ablk3 V c t) (qblk3 V c t) (kblk3 V c t) _
    (fun p jj => by rw [pay3_acc (grid3.coords t) (by rw [eg]; exact ht), eg]) j _ ?_ ?_
  · show win3_7.index t (0 : Fin 2) * 256 + 1 * (j 0).val = t.val * 256 + (j 0).val; rw [e70]; omega
  · show win3_7.index t (1 : Fin 2) * 2048 + 1 * (j 1).val = (j 1).val; rw [e71]; omega

/-- What point `t` writes back through the output window is block `t` of the layer's output. -/
theorem flushed3_6_eq (c : Dev nD) (t : Fin cfg3.N) :
    (dat3 V c).flushed 6 t = ((cfg3.win 6).blk t).view.read (Elt Ideal)
      (outArr (V c main_v20_0) (V c main_v20_1) (V c main_v20_2) (V c main_v25) (V c main_v23)) := by
  show (cfg3.win 6).cut (grid3.coords t) ((dat3 V c).after 6 t) = _
  rw [after3_6]
  unfold out3_6
  rw [View.canon_unit_zero hz2']
  simp only [View.ld_unit_zero (S := S256x1024) hz2', View.ld_unit_zero (S := S2048x1024) hz2', View.ld_unit_zero (S := S1024x1024) hz2',
    View.ld_unit_zero (S := S1x1024) hz2']
  obtain ⟨-, -, -, -, -, -, -, -, -, -, -, -, e60, e61, -, -, eg⟩ := idx3 t
  have hN : cfg3.N = 8 := N_3
  have ht : t.val < 8 := hN ▸ t.isLt
  funext j
  show k3_pay1 (F := Ideal) (k3_pay4 (grid3.coords t) (iblk3 V c 0 t) (iblk3 V c 1 t) (iblk3 V c 2 t)) (k3_pay5 (iblk3 V c 3 t)) (iblk3 V c 4 t) j
    = outArr (V c main_v20_0) (V c main_v20_1) (V c main_v20_2) (V c main_v25) (V c main_v23) (((cfg3.win 6).blk t).view.emb j)
  refine out_rows (V c main_v20_0) (V c main_v20_1) (V c main_v20_2) (V c main_v25) (V c main_v23) _ _ _ _ _ t.val (by omega) (qblk3 V c t) (kblk3 V c t)
    (vblk3 V c t) (woblk3 V c t) (boblk3 V c t) _
    (fun p f => by rw [pay3_x (grid3.coords t) (by rw [eg]; exact ht), eg]) j _ ?_ ?_
  · show win3_6.index t (0 : Fin 2) * 256 + 1 * (j 0).val = t.val * 256 + (j 0).val; rw [e60]; omega
  · show win3_6.index t (1 : Fin 2) * 1024 + 1 * (j 1).val = (j 1).val; rw [e61]; omega

theorem mem_blk3_7 (t : Fin cfg3.N) (i : S2048x2048.Idx) :
    i ∈ ((cfg3.win 7).blk t).view.set ↔ ∀ a : Fin 2, win3_7.index t a * S256x2048.size a ≤ (i a).val
      ∧ (i a).val < win3_7.index t a * S256x2048.size a + S256x2048.size a := by
  show i ∈ ((View.whole main_v26_1).slice (win3_7.rect t)).set ↔ _
  rw [View.set_slice_whole, Rect.mem_set_unit]
  exact Iff.rfl

theorem mem_blk3_6 (t : Fin cfg3.N) (i : S2048x1024.Idx) :
    i ∈ ((cfg3.win 6).blk t).view.set ↔ ∀ a : Fin 2, win3_6.index t a * S256x1024.size a ≤ (i a).val
      ∧ (i a).val < win3_6.index t a * S256x1024.size a + S256x1024.size a := by
  show i ∈ ((View.whole main_v26_0).slice (win3_6.rect t)).set ↔ _
  rw [View.set_slice_whole, Rect.mem_set_unit]
  exact Iff.rfl

theorem cover3_7 (i : S2048x2048.Idx) :
    ∃ t : Fin cfg3.N, (cfg3.win 7).flush t = true ∧ i ∈ ((cfg3.win 7).blk t).view.set := by
  have hi0 : (i 0).val < 2048 := (i 0).isLt
  have hi1 : (i 1).val < 2048 := (i 1).isLt
  have hN : cfg3.N = 8 := N_3
  obtain ⟨t, ht⟩ : ∃ t : Fin cfg3.N, t.val = (i 0).val / 256 := ⟨⟨(i 0).val / 256, by rw [hN]; omega⟩, rfl⟩
  obtain ⟨-, -, -, -, -, -, -, -, -, -, -, -, -, -, e70, e71, -⟩ := idx3 t
  refine ⟨t, flush3_7 t, ?_⟩
  rw [mem_blk3_7]
  intro a
  match a with
  | ⟨0, _⟩ => show win3_7.index t (0 : Fin 2) * 256 ≤ (i 0).val ∧ (i 0).val < win3_7.index t (0 : Fin 2) * 256 + 256; rw [e70, ht]; omega
  | ⟨1, _⟩ => show win3_7.index t (1 : Fin 2) * 2048 ≤ (i 1).val ∧ (i 1).val < win3_7.index t (1 : Fin 2) * 2048 + 2048; rw [e71]; omega

theorem cover3_6 (i : S2048x1024.Idx) :
    ∃ t : Fin cfg3.N, (cfg3.win 6).flush t = true ∧ i ∈ ((cfg3.win 6).blk t).view.set := by
  have hi0 : (i 0).val < 2048 := (i 0).isLt
  have hi1 : (i 1).val < 1024 := (i 1).isLt
  have hN : cfg3.N = 8 := N_3
  obtain ⟨t, ht⟩ : ∃ t : Fin cfg3.N, t.val = (i 0).val / 256 := ⟨⟨(i 0).val / 256, by rw [hN]; omega⟩, rfl⟩
  obtain ⟨-, -, -, -, -, -, -, -, -, -, -, -, e60, e61, -⟩ := idx3 t
  refine ⟨t, flush3_6 t, ?_⟩
  rw [mem_blk3_6]
  intro a
  match a with
  | ⟨0, _⟩ => show win3_6.index t (0 : Fin 2) * 256 ≤ (i 0).val ∧ (i 0).val < win3_6.index t (0 : Fin 2) * 256 + 256; rw [e60, ht]; omega
  | ⟨1, _⟩ => show win3_6.index t (1 : Fin 2) * 1024 ≤ (i 1).val ∧ (i 1).val < win3_6.index t (1 : Fin 2) * 1024 + 1024; rw [e61]; omega

/-- The running sum's array after the region. -/
theorem final3_7 (c : Dev nD) : (dat3 V c).arrAt 7 cfg3.N = accArr (V c main_v14_1) (V c main_v20_0) (V c main_v20_1) :=
  (dat3 V c).arrAt_eq_of_cover 7 _ (fun t _ => flushed3_7_eq V c t) (cover3_7)

/-- The layer's output array after the region. -/
theorem final3_6 (c : Dev nD) :
    (dat3 V c).arrAt 6 cfg3.N = outArr (V c main_v20_0) (V c main_v20_1) (V c main_v20_2) (V c main_v25) (V c main_v23) :=
  (dat3 V c).arrAt_eq_of_cover 6 _ (fun t _ => flushed3_6_eq V c t) (cover3_6)

/-! ## Region 5 -/

/-- The printed index maps of region 5, decided over its eight points: the query block, the running sum's block and the
    two output blocks move down the rows with the point; keys, values, the output projection and its bias stay put;
    and the grid coordinate of point `t` is `t`. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0
    ∧ ((grid5.coords t) 0).val = t.val :=
  (by decide +kernel : ∀ t : Fin grid5.N, _)

theorem qblk5 (c : Dev nD) (t : Fin cfg5.N) (y : S256x1024.Idx) (i : S2048x1024.Idx)
    (h0 : (i 0).val = t.val * 256 + (y 0).val) (h1 : (i 1).val = (y 1).val) : iblk5 V c 0 t y = V c main_v32_0 i := by
  obtain ⟨e0, e1, -⟩ := idx5 t
  show V c main_v32_0 (((cfg5.win 0).blk t).view.emb y) = V c main_v32_0 i
  refine congrArg (V c main_v32_0) (funext fun a => Fin.ext ?_)
  match a with
  | ⟨0, _⟩ => show win5_0.index t (0 : Fin 2) * 256 + 1 * (y 0).val = (i 0).val; rw [e0, h0]; omega
  | ⟨1, _⟩ => show win5_0.index t (1 : Fin 2) * 1024 + 1 * (y 1).val = (i 1).val; rw [e1, h1]; omega

theorem kblk5 (c : Dev nD) (t : Fin cfg5.N) (y : S2048x1024.Idx) : iblk5 V c 1 t y = V c main_v32_1 y := by
  obtain ⟨-, -, e0, e1, -⟩ := idx5 t
  show V c main_v32_1 (((cfg5.win 1).blk t).view.emb y) = V c main_v32_1 y
  refine congrArg (V c main_v32_1) (funext fun a => Fin.ext ?_)
  match a with
  | ⟨0, _⟩ => show win5_1.index t (0 : Fin 2) * 2048 + 1 * (y 0).val = (y 0).val; rw [e0]; omega
  | ⟨1, _⟩ => show win5_1.index t (1 : Fin 2) * 1024 + 1 * (y 1).val = (y 1).val; rw [e1]; omega

theorem vblk5 (c : Dev nD) (t : Fin cfg5.N) (y : S2048x1024.Idx) : iblk5 V c 2 t y = V c main_v32_2 y := by
  obtain ⟨-, -, -, -, e0, e1, -⟩ := idx5 t
  show V c main_v32_2 (((cfg5.win 2).blk t).view.emb y) = V c main_v32_2 y
  refine congrArg (V c main_v32_2) (funext fun a => Fin.ext ?_)
  match a with
  | ⟨0, _⟩ => show win5_2.index t (0 : Fin 2) * 2048 + 1 * (y 0).val = (y 0).val; rw [e0]; omega
  | ⟨1, _⟩ => show win5_2.index t (1 : Fin 2) * 1024 + 1 * (y 1).val = (y 1).val; rw [e1]; omega

theorem woblk5 (c : Dev nD) (t : Fin cfg5.N) (y : S1024x1024.Idx) : iblk5 V c 3 t y = V c main_v37 y := by
  obtain ⟨-, -, -, -, -, -, e0, e1, -⟩ := idx5 t
  show V c main_v37 (((cfg5.win 3).blk t).view.emb y) = V c main_v37 y
  refine congrArg (V c main_v37) (funext fun a => Fin.ext ?_)
  match a with
  | ⟨0, _⟩ => show win5_3.index t (0 : Fin 2) * 1024 + 1 * (y 0).val = (y 0).val; rw [e0]; omega
  | ⟨1, _⟩ => show win5_3.index t (1 : Fin 2) * 1024 + 1 * (y 1).val = (y 1).val; rw [e1]; omega

theorem boblk5 (c : Dev nD) (t : Fin cfg5.N) (y : S1x1024.Idx) : iblk5 V c 4 t y = V c main_v35 y := by
  obtain ⟨-, -, -, -, -, -, -, -, e0, e1, -⟩ := idx5 t
  show V c main_v35 (((cfg5.win 4).blk t).view.emb y) = V c main_v35 y
  refine congrArg (V c main_v35) (funext fun a => Fin.ext ?_)
  match a with
  | ⟨0, _⟩ => show win5_4.index t (0 : Fin 2) * 1 + 1 * (y 0).val = (y 0).val; rw [e0]; omega
  | ⟨1, _⟩ => show win5_4.index t (1 : Fin 2) * 1024 + 1 * (y 1).val = (y 1).val; rw [e1]; omega

theorem ablk5 (c : Dev nD) (t : Fin cfg5.N) (y : S256x2048.Idx) (i : S2048x2048.Idx)
    (h0 : (i 0).val = t.val * 256 + (y 0).val) (h1 : (i 1).val = (y 1).val) : iblk5 V c 5 t y = V c main_v26_1 i := by
  obtain ⟨-, -, -, -, -, -, -, -, -, -, e0, e1, -⟩ := idx5 t
  show V c main_v26_1 (((cfg5.win 5).blk t).view.emb y) = V c main_v26_1 i
  refine congrArg (V c main_v26_1) (funext fun a => Fin.ext ?_)
  match a with
  | ⟨0, _⟩ => show win5_5.index t (0 : Fin 2) * 256 + 1 * (y 0).val = (i 0).val; rw [e0, h0]; omega
  | ⟨1, _⟩ => show win5_5.index t (1 : Fin 2) * 2048 + 1 * (y 1).val = (i 1).val; rw [e1, h1]; omega

/-- What point `t` writes back through the running sum's window is block `t` of the sum plus a quarter of the weights. -/
theorem flushed5_7_eq (c : Dev nD) (t : Fin cfg5.N) :
    (dat5 V c).flushed 7 t = ((cfg5.win 7).blk t).view.read (Elt Ideal) (accArr (V c main_v26_1) (V c main_v32_0) (V c main_v32_1)) := by
  show (cfg5.win 7).cut (grid5.coords t) ((dat5 V c).after 7 t) = _
  rw [after5_7]
  unfold out5_7
  rw [View.canon_unit_zero hz2']
  simp only [View.ld_unit_zero (S := S256x1024) hz2', View.ld_unit_zero (S := S2048x1024) hz2', View.ld_unit_zero (S := S256x2048) hz2']
  obtain ⟨-, -, -, -, -, -, -, -, -, -, -, -, -, -, e70, e71, eg⟩ := idx5 t
  have hN : cfg5.N = 8 := N_5
  have ht : t.val < 8 := hN ▸ t.isLt
  funext j
  show k5_pay3 (F := Ideal) (grid5.coords t) (iblk5 V c 0 t) (iblk5 V c 1 t) (iblk5 V c 5 t) j
    = accArr (V c main_v26_1) (V c main_v32_0) (V c main_v32_1) (((cfg5.win 7).blk t).view.emb j)
  refine acc_rows (V c main_v26_1) (V c main_v32_0) (V c main_v32_1) _ _ _ t.val (by omega) (ablk5 V c t) (qblk5 V c t) (kblk5 V c t) _
    (fun p jj => by rw [pay5_acc (grid5.coords t) (by rw [eg]; exact ht), eg]) j _ ?_ ?_
  · show win5_7.index t (0 : Fin 2) * 256 + 1 * (j 0).val = t.val * 256 + (j 0).val; rw [e70]; omega
  · show win5_7.index t (1 : Fin 2) * 2048 + 1 * (j 1).val = (j 1).val; rw [e71]; omega

/-- What point `t` writes back through the output window is block `t` of the layer's output. -/
theorem flushed5_6_eq (c : Dev nD) (t : Fin cfg5.N) :
    (dat5 V c).flushed 6 t = ((cfg5.win 6).blk t).view.read (Elt Ideal)
      (outArr (V c main_v32_0) (V c main_v32_1) (V c main_v32_2) (V c main_v37) (V c main_v35)) := by
  show (cfg5.win 6).cut (grid5.coords t) ((dat5 V c).after 6 t) = _
  rw [after5_6]
  unfold out5_6
  rw [View.canon_unit_zero hz2']
  simp only [View.ld_unit_zero (S := S256x1024) hz2', View.ld_unit_zero (S := S2048x1024) hz2', View.ld_unit_zero (S := S1024x1024) hz2',
    View.ld_unit_zero (S := S1x1024) hz2']
  obtain ⟨-, -, -, -, -, -, -, -, -, -, -, -, e60, e61, -, -, eg⟩ := idx5 t
  have hN : cfg5.N = 8 := N_5
  have ht : t.val < 8 := hN ▸ t.isLt
  funext j
  show k5_pay1 (F := Ideal) (k5_pay4 (grid5.coords t) (iblk5 V c 0 t) (iblk5 V c 1 t) (iblk5 V c 2 t)) (k5_pay5 (iblk5 V c 3 t)) (iblk5 V c 4 t) j
    = outArr (V c main_v32_0) (V c main_v32_1) (V c main_v32_2) (V c main_v37) (V c main_v35) (((cfg5.win 6).blk t).view.emb j)
  refine out_rows (V c main_v32_0) (V c main_v32_1) (V c main_v32_2) (V c main_v37) (V c main_v35) _ _ _ _ _ t.val (by omega) (qblk5 V c t) (kblk5 V c t)
    (vblk5 V c t) (woblk5 V c t) (boblk5 V c t) _
    (fun p f => by rw [pay5_x (grid5.coords t) (by rw [eg]; exact ht), eg]) j _ ?_ ?_
  · show win5_6.index t (0 : Fin 2) * 256 + 1 * (j 0).val = t.val * 256 + (j 0).val; rw [e60]; omega
  · show win5_6.index t (1 : Fin 2) * 1024 + 1 * (j 1).val = (j 1).val; rw [e61]; omega

theorem mem_blk5_7 (t : Fin cfg5.N) (i : S2048x2048.Idx) :
    i ∈ ((cfg5.win 7).blk t).view.set ↔ ∀ a : Fin 2, win5_7.index t a * S256x2048.size a ≤ (i a).val
      ∧ (i a).val < win5_7.index t a * S256x2048.size a + S256x2048.size a := by
  show i ∈ ((View.whole main_v38_1).slice (win5_7.rect t)).set ↔ _
  rw [View.set_slice_whole, Rect.mem_set_unit]
  exact Iff.rfl

theorem mem_blk5_6 (t : Fin cfg5.N) (i : S2048x1024.Idx) :
    i ∈ ((cfg5.win 6).blk t).view.set ↔ ∀ a : Fin 2, win5_6.index t a * S256x1024.size a ≤ (i a).val
      ∧ (i a).val < win5_6.index t a * S256x1024.size a + S256x1024.size a := by
  show i ∈ ((View.whole main_v38_0).slice (win5_6.rect t)).set ↔ _
  rw [View.set_slice_whole, Rect.mem_set_unit]
  exact Iff.rfl

theorem cover5_7 (i : S2048x2048.Idx) :
    ∃ t : Fin cfg5.N, (cfg5.win 7).flush t = true ∧ i ∈ ((cfg5.win 7).blk t).view.set := by
  have hi0 : (i 0).val < 2048 := (i 0).isLt
  have hi1 : (i 1).val < 2048 := (i 1).isLt
  have hN : cfg5.N = 8 := N_5
  obtain ⟨t, ht⟩ : ∃ t : Fin cfg5.N, t.val = (i 0).val / 256 := ⟨⟨(i 0).val / 256, by rw [hN]; omega⟩, rfl⟩
  obtain ⟨-, -, -, -, -, -, -, -, -, -, -, -, -, -, e70, e71, -⟩ := idx5 t
  refine ⟨t, flush5_7 t, ?_⟩
  rw [mem_blk5_7]
  intro a
  match a with
  | ⟨0, _⟩ => show win5_7.index t (0 : Fin 2) * 256 ≤ (i 0).val ∧ (i 0).val < win5_7.index t (0 : Fin 2) * 256 + 256; rw [e70, ht]; omega
  | ⟨1, _⟩ => show win5_7.index t (1 : Fin 2) * 2048 ≤ (i 1).val ∧ (i 1).val < win5_7.index t (1 : Fin 2) * 2048 + 2048; rw [e71]; omega

theorem cover5_6 (i : S2048x1024.Idx) :
    ∃ t : Fin cfg5.N, (cfg5.win 6).flush t = true ∧ i ∈ ((cfg5.win 6).blk t).view.set := by
  have hi0 : (i 0).val < 2048 := (i 0).isLt
  have hi1 : (i 1).val < 1024 := (i 1).isLt
  have hN : cfg5.N = 8 := N_5
  obtain ⟨t, ht⟩ : ∃ t : Fin cfg5.N, t.val = (i 0).val / 256 := ⟨⟨(i 0).val / 256, by rw [hN]; omega⟩, rfl⟩
  obtain ⟨-, -, -, -, -, -, -, -, -, -, -, -, e60, e61, -⟩ := idx5 t
  refine ⟨t, flush5_6 t, ?_⟩
  rw [mem_blk5_6]
  intro a
  match a with
  | ⟨0, _⟩ => show win5_6.index t (0 : Fin 2) * 256 ≤ (i 0).val ∧ (i 0).val < win5_6.index t (0 : Fin 2) * 256 + 256; rw [e60, ht]; omega
  | ⟨1, _⟩ => show win5_6.index t (1 : Fin 2) * 1024 ≤ (i 1).val ∧ (i 1).val < win5_6.index t (1 : Fin 2) * 1024 + 1024; rw [e61]; omega

/-- The running sum's array after the region. -/
theorem final5_7 (c : Dev nD) : (dat5 V c).arrAt 7 cfg5.N = accArr (V c main_v26_1) (V c main_v32_0) (V c main_v32_1) :=
  (dat5 V c).arrAt_eq_of_cover 7 _ (fun t _ => flushed5_7_eq V c t) (cover5_7)

/-- The layer's output array after the region. -/
theorem final5_6 (c : Dev nD) :
    (dat5 V c).arrAt 6 cfg5.N = outArr (V c main_v32_0) (V c main_v32_1) (V c main_v32_2) (V c main_v37) (V c main_v35) :=
  (dat5 V c).arrAt_eq_of_cover 6 _ (fun t _ => flushed5_6_eq V c t) (cover5_6)

/-! ## Region 7 -/

/-- The printed index maps of region 7, decided over its eight points: the query block, the running sum's block and the
    two output blocks move down the rows with the point; keys, values, the output projection and its bias stay put;
    and the grid coordinate of point `t` is `t`. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0
    ∧ win7_7.index t (0 : Fin 2) = t.val ∧ win7_7.index t (1 : Fin 2) = 0
    ∧ ((grid7.coords t) 0).val = t.val :=
  (by decide +kernel : ∀ t : Fin grid7.N, _)

theorem qblk7 (c : Dev nD) (t : Fin cfg7.N) (y : S256x1024.Idx) (i : S2048x1024.Idx)
    (h0 : (i 0).val = t.val * 256 + (y 0).val) (h1 : (i 1).val = (y 1).val) : iblk7 V c 0 t y = V c main_v44_0 i := by
  obtain ⟨e0, e1, -⟩ := idx7 t
  show V c main_v44_0 (((cfg7.win 0).blk t).view.emb y) = V c main_v44_0 i
  refine congrArg (V c main_v44_0) (funext fun a => Fin.ext ?_)
  match a with
  | ⟨0, _⟩ => show win7_0.index t (0 : Fin 2) * 256 + 1 * (y 0).val = (i 0).val; rw [e0, h0]; omega
  | ⟨1, _⟩ => show win7_0.index t (1 : Fin 2) * 1024 + 1 * (y 1).val = (i 1).val; rw [e1, h1]; omega

theorem kblk7 (c : Dev nD) (t : Fin cfg7.N) (y : S2048x1024.Idx) : iblk7 V c 1 t y = V c main_v44_1 y := by
  obtain ⟨-, -, e0, e1, -⟩ := idx7 t
  show V c main_v44_1 (((cfg7.win 1).blk t).view.emb y) = V c main_v44_1 y
  refine congrArg (V c main_v44_1) (funext fun a => Fin.ext ?_)
  match a with
  | ⟨0, _⟩ => show win7_1.index t (0 : Fin 2) * 2048 + 1 * (y 0).val = (y 0).val; rw [e0]; omega
  | ⟨1, _⟩ => show win7_1.index t (1 : Fin 2) * 1024 + 1 * (y 1).val = (y 1).val; rw [e1]; omega

theorem vblk7 (c : Dev nD) (t : Fin cfg7.N) (y : S2048x1024.Idx) : iblk7 V c 2 t y = V c main_v44_2 y := by
  obtain ⟨-, -, -, -, e0, e1, -⟩ := idx7 t
  show V c main_v44_2 (((cfg7.win 2).blk t).view.emb y) = V c main_v44_2 y
  refine congrArg (V c main_v44_2) (funext fun a => Fin.ext ?_)
  match a with
  | ⟨0, _⟩ => show win7_2.index t (0 : Fin 2) * 2048 + 1 * (y 0).val = (y 0).val; rw [e0]; omega
  | ⟨1, _⟩ => show win7_2.index t (1 : Fin 2) * 1024 + 1 * (y 1).val = (y 1).val; rw [e1]; omega

theorem woblk7 (c : Dev nD) (t : Fin cfg7.N) (y : S1024x1024.Idx) : iblk7 V c 3 t y = V c main_v49 y := by
  obtain ⟨-, -, -, -, -, -, e0, e1, -⟩ := idx7 t
  show V c main_v49 (((cfg7.win 3).blk t).view.emb y) = V c main_v49 y
  refine congrArg (V c main_v49) (funext fun a => Fin.ext ?_)
  match a with
  | ⟨0, _⟩ => show win7_3.index t (0 : Fin 2) * 1024 + 1 * (y 0).val = (y 0).val; rw [e0]; omega
  | ⟨1, _⟩ => show win7_3.index t (1 : Fin 2) * 1024 + 1 * (y 1).val = (y 1).val; rw [e1]; omega

theorem boblk7 (c : Dev nD) (t : Fin cfg7.N) (y : S1x1024.Idx) : iblk7 V c 4 t y = V c main_v47 y := by
  obtain ⟨-, -, -, -, -, -, -, -, e0, e1, -⟩ := idx7 t
  show V c main_v47 (((cfg7.win 4).blk t).view.emb y) = V c main_v47 y
  refine congrArg (V c main_v47) (funext fun a => Fin.ext ?_)
  match a with
  | ⟨0, _⟩ => show win7_4.index t (0 : Fin 2) * 1 + 1 * (y 0).val = (y 0).val; rw [e0]; omega
  | ⟨1, _⟩ => show win7_4.index t (1 : Fin 2) * 1024 + 1 * (y 1).val = (y 1).val; rw [e1]; omega

theorem ablk7 (c : Dev nD) (t : Fin cfg7.N) (y : S256x2048.Idx) (i : S2048x2048.Idx)
    (h0 : (i 0).val = t.val * 256 + (y 0).val) (h1 : (i 1).val = (y 1).val) : iblk7 V c 5 t y = V c main_v38_1 i := by
  obtain ⟨-, -, -, -, -, -, -, -, -, -, e0, e1, -⟩ := idx7 t
  show V c main_v38_1 (((cfg7.win 5).blk t).view.emb y) = V c main_v38_1 i
  refine congrArg (V c main_v38_1) (funext fun a => Fin.ext ?_)
  match a with
  | ⟨0, _⟩ => show win7_5.index t (0 : Fin 2) * 256 + 1 * (y 0).val = (i 0).val; rw [e0, h0]; omega
  | ⟨1, _⟩ => show win7_5.index t (1 : Fin 2) * 2048 + 1 * (y 1).val = (i 1).val; rw [e1, h1]; omega

/-- What point `t` writes back through the running sum's window is block `t` of the sum plus a quarter of the weights. -/
theorem flushed7_7_eq (c : Dev nD) (t : Fin cfg7.N) :
    (dat7 V c).flushed 7 t = ((cfg7.win 7).blk t).view.read (Elt Ideal) (accArr (V c main_v38_1) (V c main_v44_0) (V c main_v44_1)) := by
  show (cfg7.win 7).cut (grid7.coords t) ((dat7 V c).after 7 t) = _
  rw [after7_7]
  unfold out7_7
  rw [View.canon_unit_zero hz2']
  simp only [View.ld_unit_zero (S := S256x1024) hz2', View.ld_unit_zero (S := S2048x1024) hz2', View.ld_unit_zero (S := S256x2048) hz2']
  obtain ⟨-, -, -, -, -, -, -, -, -, -, -, -, -, -, e70, e71, eg⟩ := idx7 t
  have hN : cfg7.N = 8 := N_7
  have ht : t.val < 8 := hN ▸ t.isLt
  funext j
  show k7_pay3 (F := Ideal) (grid7.coords t) (iblk7 V c 0 t) (iblk7 V c 1 t) (iblk7 V c 5 t) j
    = accArr (V c main_v38_1) (V c main_v44_0) (V c main_v44_1) (((cfg7.win 7).blk t).view.emb j)
  refine acc_rows (V c main_v38_1) (V c main_v44_0) (V c main_v44_1) _ _ _ t.val (by omega) (ablk7 V c t) (qblk7 V c t) (kblk7 V c t) _
    (fun p jj => by rw [pay7_acc (grid7.coords t) (by rw [eg]; exact ht), eg]) j _ ?_ ?_
  · show win7_7.index t (0 : Fin 2) * 256 + 1 * (j 0).val = t.val * 256 + (j 0).val; rw [e70]; omega
  · show win7_7.index t (1 : Fin 2) * 2048 + 1 * (j 1).val = (j 1).val; rw [e71]; omega

/-- What point `t` writes back through the output window is block `t` of the layer's output. -/
theorem flushed7_6_eq (c : Dev nD) (t : Fin cfg7.N) :
    (dat7 V c).flushed 6 t = ((cfg7.win 6).blk t).view.read (Elt Ideal)
      (outArr (V c main_v44_0) (V c main_v44_1) (V c main_v44_2) (V c main_v49) (V c main_v47)) := by
  show (cfg7.win 6).cut (grid7.coords t) ((dat7 V c).after 6 t) = _
  rw [after7_6]
  unfold out7_6
  rw [View.canon_unit_zero hz2']
  simp only [View.ld_unit_zero (S := S256x1024) hz2', View.ld_unit_zero (S := S2048x1024) hz2', View.ld_unit_zero (S := S1024x1024) hz2',
    View.ld_unit_zero (S := S1x1024) hz2']
  obtain ⟨-, -, -, -, -, -, -, -, -, -, -, -, e60, e61, -, -, eg⟩ := idx7 t
  have hN : cfg7.N = 8 := N_7
  have ht : t.val < 8 := hN ▸ t.isLt
  funext j
  show k7_pay1 (F := Ideal) (k7_pay4 (grid7.coords t) (iblk7 V c 0 t) (iblk7 V c 1 t) (iblk7 V c 2 t)) (k7_pay5 (iblk7 V c 3 t)) (iblk7 V c 4 t) j
    = outArr (V c main_v44_0) (V c main_v44_1) (V c main_v44_2) (V c main_v49) (V c main_v47) (((cfg7.win 6).blk t).view.emb j)
  refine out_rows (V c main_v44_0) (V c main_v44_1) (V c main_v44_2) (V c main_v49) (V c main_v47) _ _ _ _ _ t.val (by omega) (qblk7 V c t) (kblk7 V c t)
    (vblk7 V c t) (woblk7 V c t) (boblk7 V c t) _
    (fun p f => by rw [pay7_x (grid7.coords t) (by rw [eg]; exact ht), eg]) j _ ?_ ?_
  · show win7_6.index t (0 : Fin 2) * 256 + 1 * (j 0).val = t.val * 256 + (j 0).val; rw [e60]; omega
  · show win7_6.index t (1 : Fin 2) * 1024 + 1 * (j 1).val = (j 1).val; rw [e61]; omega

theorem mem_blk7_7 (t : Fin cfg7.N) (i : S2048x2048.Idx) :
    i ∈ ((cfg7.win 7).blk t).view.set ↔ ∀ a : Fin 2, win7_7.index t a * S256x2048.size a ≤ (i a).val
      ∧ (i a).val < win7_7.index t a * S256x2048.size a + S256x2048.size a := by
  show i ∈ ((View.whole main_v50_1).slice (win7_7.rect t)).set ↔ _
  rw [View.set_slice_whole, Rect.mem_set_unit]
  exact Iff.rfl

theorem mem_blk7_6 (t : Fin cfg7.N) (i : S2048x1024.Idx) :
    i ∈ ((cfg7.win 6).blk t).view.set ↔ ∀ a : Fin 2, win7_6.index t a * S256x1024.size a ≤ (i a).val
      ∧ (i a).val < win7_6.index t a * S256x1024.size a + S256x1024.size a := by
  show i ∈ ((View.whole main_v50_0).slice (win7_6.rect t)).set ↔ _
  rw [View.set_slice_whole, Rect.mem_set_unit]
  exact Iff.rfl

theorem cover7_7 (i : S2048x2048.Idx) :
    ∃ t : Fin cfg7.N, (cfg7.win 7).flush t = true ∧ i ∈ ((cfg7.win 7).blk t).view.set := by
  have hi0 : (i 0).val < 2048 := (i 0).isLt
  have hi1 : (i 1).val < 2048 := (i 1).isLt
  have hN : cfg7.N = 8 := N_7
  obtain ⟨t, ht⟩ : ∃ t : Fin cfg7.N, t.val = (i 0).val / 256 := ⟨⟨(i 0).val / 256, by rw [hN]; omega⟩, rfl⟩
  obtain ⟨-, -, -, -, -, -, -, -, -, -, -, -, -, -, e70, e71, -⟩ := idx7 t
  refine ⟨t, flush7_7 t, ?_⟩
  rw [mem_blk7_7]
  intro a
  match a with
  | ⟨0, _⟩ => show win7_7.index t (0 : Fin 2) * 256 ≤ (i 0).val ∧ (i 0).val < win7_7.index t (0 : Fin 2) * 256 + 256; rw [e70, ht]; omega
  | ⟨1, _⟩ => show win7_7.index t (1 : Fin 2) * 2048 ≤ (i 1).val ∧ (i 1).val < win7_7.index t (1 : Fin 2) * 2048 + 2048; rw [e71]; omega

theorem cover7_6 (i : S2048x1024.Idx) :
    ∃ t : Fin cfg7.N, (cfg7.win 6).flush t = true ∧ i ∈ ((cfg7.win 6).blk t).view.set := by
  have hi0 : (i 0).val < 2048 := (i 0).isLt
  have hi1 : (i 1).val < 1024 := (i 1).isLt
  have hN : cfg7.N = 8 := N_7
  obtain ⟨t, ht⟩ : ∃ t : Fin cfg7.N, t.val = (i 0).val / 256 := ⟨⟨(i 0).val / 256, by rw [hN]; omega⟩, rfl⟩
  obtain ⟨-, -, -, -, -, -, -, -, -, -, -, -, e60, e61, -⟩ := idx7 t
  refine ⟨t, flush7_6 t, ?_⟩
  rw [mem_blk7_6]
  intro a
  match a with
  | ⟨0, _⟩ => show win7_6.index t (0 : Fin 2) * 256 ≤ (i 0).val ∧ (i 0).val < win7_6.index t (0 : Fin 2) * 256 + 256; rw [e60, ht]; omega
  | ⟨1, _⟩ => show win7_6.index t (1 : Fin 2) * 1024 ≤ (i 1).val ∧ (i 1).val < win7_6.index t (1 : Fin 2) * 1024 + 1024; rw [e61]; omega

/-- The running sum's array after the region. -/
theorem final7_7 (c : Dev nD) : (dat7 V c).arrAt 7 cfg7.N = accArr (V c main_v38_1) (V c main_v44_0) (V c main_v44_1) :=
  (dat7 V c).arrAt_eq_of_cover 7 _ (fun t _ => flushed7_7_eq V c t) (cover7_7)

/-- The layer's output array after the region. -/
theorem final7_6 (c : Dev nD) :
    (dat7 V c).arrAt 6 cfg7.N = outArr (V c main_v44_0) (V c main_v44_1) (V c main_v44_2) (V c main_v49) (V c main_v47) :=
  (dat7 V c).arrAt_eq_of_cover 6 _ (fun t _ => flushed7_6_eq V c t) (cover7_6)

end Cert.KSide

end
-- ==== Proof.KHost.lean ====
/-
  The host lines between the kernels, read at an index.

  Before each kernel the program slices one layer's slab out of a stacked parameter and reshapes it to the shape
  the kernel's window has: a [1, 3072, 1024] slice of the weights to [3072, 1024], a [1, 3072] slice of the bias
  through [3072] back to [1, 3072], and the same for the output projection's [1024, 1024] matrix and [1, 1024]
  bias. Read at an index each is the stacked array at (layer, row, column) or (layer, column). Rounding the
  stacked weights to bf16 first is the identity on the extended reals.
-/
import proofs.«101734_j68264210202743_2_alg».proof.Proof.KTerms
import Idealize.ShloMosaic.Lib.ValueLayout
import Idealize.ShloMosaic.Lib.Pipeline.Value

noncomputable section

namespace Cert.KSide

open Cert.KernelIdeal Idealize.ShloMosaic Idealize.ShloMosaic.ValueIdx

/-- Slab `o` of the stacked projection weights, sliced out and reshaped to [3072, 1024]. -/
theorem slab_w (x : S4x3072x1024.Idx → EReal) (o : ℕ) (ho : o < 4) (h : S4x3072x1024.Slices ![o, 0, 0] S1x3072x1024)
    (h2 : S1x3072x1024.ShapeCasts S3072x1024) :
    shapeCast S3072x1024 (extractStridedSlice S1x3072x1024 ![o, 0, 0] x h) h2 = wSlab x ⟨o, ho⟩ := by
  funext i
  obtain ⟨p, q, rfl⟩ : ∃ (p : Fin 3072) (q : Fin 1024), i = ix2 p q := ⟨i 0, i 1, eq_ix2 i⟩
  rw [shapeCast_1ab_ab_apply]
  show _ = x (ix3 (⟨o, ho⟩ : Fin 4) p q)
  refine extractStridedSlice_apply _ x h _ _ fun a => ?_
  match a with
  | ⟨0, _⟩ => rfl
  | ⟨1, _⟩ => show p.val = 0 + p.val; omega
  | ⟨2, _⟩ => show q.val = 0 + q.val; omega

/-- Slab `o` of the stacked output-projection weights, sliced out and reshaped to [1024, 1024]. -/
theorem slab_wo (x : S4x1024x1024.Idx → EReal) (o : ℕ) (ho : o < 4) (h : S4x1024x1024.Slices ![o, 0, 0] S1x1024x1024)
    (h2 : S1x1024x1024.ShapeCasts S1024x1024) :
    shapeCast S1024x1024 (extractStridedSlice S1x1024x1024 ![o, 0, 0] x h) h2 = woSlab x ⟨o, ho⟩ := by
  funext i
  obtain ⟨p, q, rfl⟩ : ∃ (p : Fin 1024) (q : Fin 1024), i = ix2 p q := ⟨i 0, i 1, eq_ix2 i⟩
  rw [shapeCast_1ab_ab_apply]
  show _ = x (ix3 (⟨o, ho⟩ : Fin 4) p q)
  refine extractStridedSlice_apply _ x h _ _ fun a => ?_
  match a with
  | ⟨0, _⟩ => rfl
  | ⟨1, _⟩ => show p.val = 0 + p.val; omega
  | ⟨2, _⟩ => show q.val = 0 + q.val; omega

/-- Row `o` of the stacked projection bias, sliced out, flattened and given its unit axis back. -/
theorem slab_b (x : S4x3072.Idx → EReal) (o : ℕ) (ho : o < 4) (h : S4x3072.Slices ![o, 0] S1x3072)
    (h1 : S1x3072.ShapeCasts S3072) (h2 : S3072.ShapeCasts S1x3072) :
    shapeCast S1x3072 (shapeCast S3072 (extractStridedSlice S1x3072 ![o, 0] x h) h1) h2 = bSlab x ⟨o, ho⟩ := by
  funext i
  obtain ⟨u, q, rfl⟩ : ∃ (u : Fin 1) (q : Fin 3072), i = ix2 u q := ⟨i 0, i 1, eq_ix2 i⟩
  rw [shapeCast_a_1a_apply, shapeCast_1a_a_apply]
  show _ = x (ix2 (⟨o, ho⟩ : Fin 4) q)
  refine extractStridedSlice_apply _ x h _ _ fun a => ?_
  match a with
  | ⟨0, _⟩ => rfl
  | ⟨1, _⟩ => show q.val = 0 + q.val; omega

/-- Row `o` of the stacked output-projection bias, sliced out, flattened and given its unit axis back. -/
theorem slab_bo (x : S4x1024.Idx → EReal) (o : ℕ) (ho : o < 4) (h : S4x1024.Slices ![o, 0] S1x1024)
    (h1 : S1x1024.ShapeCasts S1024) (h2 : S1024.ShapeCasts S1x1024) :
    shapeCast S1x1024 (shapeCast S1024 (extractStridedSlice S1x1024 ![o, 0] x h) h1) h2 = boSlab x ⟨o, ho⟩ := by
  funext i
  obtain ⟨u, q, rfl⟩ : ∃ (u : Fin 1) (q : Fin 1024), i = ix2 u q := ⟨i 0, i 1, eq_ix2 i⟩
  rw [shapeCast_a_1a_apply, shapeCast_1a_a_apply]
  show _ = x (ix2 (⟨o, ho⟩ : Fin 4) q)
  refine extractStridedSlice_apply _ x h _ _ fun a => ?_
  match a with
  | ⟨0, _⟩ => rfl
  | ⟨1, _⟩ => show q.val = 0 + q.val; omega

/-- The zero the running sum starts from, broadcast over the [2048, 2048] array. -/
theorem zero_arr (h : S_.BroadcastsInDim S2048x2048 ![]) :
    broadcastInDim S2048x2048 ![] h (constant (F := Ideal) S_ .f32 0x00000000#32) = aA0 := rfl

end Cert.KSide

end
-- ==== Proof.KChain.lean ====
/-
  The idealized kernel program's result buffer as a function of its argument arrays.

  The run's last boundary contents are a fold through sixteen stretches: eight host stretches and eight kernels.
  Each layer is walked in four steps — the host lines that cut the layer's slabs, the projection kernel, the host
  lines that cut the output projection's slabs and copy the running sum into the buffer the attention kernel
  updates, and the attention kernel — keeping, at each boundary, what the next steps read: the layer's input, the
  running sum, the rounded stacked weights and the two stacked biases. After the fourth layer the result buffer
  holds the running sum, which is the specification's result.
-/
import proofs.«101734_j68264210202743_2_alg».proof.Proof.KQkvRegion
import proofs.«101734_j68264210202743_2_alg».proof.Proof.KAttnRegion
import proofs.«101734_j68264210202743_2_alg».proof.Proof.KHost
import Idealize.ShloMosaic.Lib.StableHlo.Run

set_option maxRecDepth 16384

noncomputable section

namespace Cert.KSide

open Cert.KernelIdeal Cert.KernelIdeal.Gen Cert.KernelIdeal.GenP
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

set_option maxHeartbeats 8000000 in
/-- Layer 0: from the launch memory to the first layer's output and running sum. -/
theorem layer0 :
    W4 m ρ c (Proc.devRef .tc main_v14_0) = xNext (m ((c : Thread nD τ).loc main_arg1)) (m ((c : Thread nD τ).loc main_arg2)) (m ((c : Thread nD τ).loc main_arg3)) (m ((c : Thread nD τ).loc main_arg4)) 0 (m ((c : Thread nD τ).loc main_arg0)) ∧ W4 m ρ c (Proc.devRef .tc main_v14_1) = aNext (m ((c : Thread nD τ).loc main_arg1)) (m ((c : Thread nD τ).loc main_arg2)) 0 aA0 (m ((c : Thread nD τ).loc main_arg0))
    ∧ W4 m ρ c (Proc.devRef .tc main_v0) = (m ((c : Thread nD τ).loc main_arg1)) ∧ W4 m ρ c (Proc.devRef .tc main_v1) = (m ((c : Thread nD τ).loc main_arg3))
    ∧ W4 m ρ c (Proc.devRef .tc main_arg2) = (m ((c : Thread nD τ).loc main_arg2)) ∧ W4 m ρ c (Proc.devRef .tc main_arg4) = (m ((c : Thread nD τ).loc main_arg4)) := by
  -- the first host lines: the stacked weights rounded, the zero running sum, layer 0's slabs
  have b_x : W1 m ρ c (Proc.devRef .tc main_arg0) = (m ((c : Thread nD τ).loc main_arg0)) := by
    show StableHlo.after hostOps0 (W0 m ρ c) (Proc.devRef .tc main_arg0) = _; after_results
  have b_w : W1 m ρ c (Proc.devRef .tc main_v7) = wSlab (m ((c : Thread nD τ).loc main_arg1)) 0 := by
    show StableHlo.after hostOps0 (W0 m ρ c) (Proc.devRef .tc main_v7) = _; after_results; exact slab_w (m ((c : Thread nD τ).loc main_arg1)) 0 (by decide) _ _
  have b_b : W1 m ρ c (Proc.devRef .tc main_v5) = bSlab (m ((c : Thread nD τ).loc main_arg2)) 0 := by
    show StableHlo.after hostOps0 (W0 m ρ c) (Proc.devRef .tc main_v5) = _; after_results; exact slab_b (m ((c : Thread nD τ).loc main_arg2)) 0 (by decide) _ _ _
  have b_acc : W1 m ρ c (Proc.devRef .tc main_v2) = aA0 := by
    show StableHlo.after hostOps0 (W0 m ρ c) (Proc.devRef .tc main_v2) = _; after_results; exact zero_arr _
  have b_v0 : W1 m ρ c (Proc.devRef .tc main_v0) = (m ((c : Thread nD τ).loc main_arg1)) := by
    show StableHlo.after hostOps0 (W0 m ρ c) (Proc.devRef .tc main_v0) = _; after_results; rfl
  have b_v1 : W1 m ρ c (Proc.devRef .tc main_v1) = (m ((c : Thread nD τ).loc main_arg3)) := by
    show StableHlo.after hostOps0 (W0 m ρ c) (Proc.devRef .tc main_v1) = _; after_results; rfl
  have b_a2 : W1 m ρ c (Proc.devRef .tc main_arg2) = (m ((c : Thread nD τ).loc main_arg2)) := by
    show StableHlo.after hostOps0 (W0 m ρ c) (Proc.devRef .tc main_arg2) = _; after_results
  have b_a4 : W1 m ρ c (Proc.devRef .tc main_arg4) = (m ((c : Thread nD τ).loc main_arg4)) := by
    show StableHlo.after hostOps0 (W0 m ρ c) (Proc.devRef .tc main_arg4) = _; after_results
  -- the projection kernel: its three outputs, everything else as it was
  have c_q : W2 m ρ c (Proc.devRef .tc main_v8_0) = qArr (m ((c : Thread nD τ).loc main_arg1)) (m ((c : Thread nD τ).loc main_arg2)) 0 (m ((c : Thread nD τ).loc main_arg0)) := by
    refine (W2_arr m ρ c 3).trans ((final0_3 (V1 m ρ) c).trans ?_)
    show projArr 0 _ (W1 m ρ c (Proc.devRef .tc main_arg0)) (W1 m ρ c (Proc.devRef .tc main_v7)) (W1 m ρ c (Proc.devRef .tc main_v5)) = _
    rw [b_x, b_w, b_b]; rfl
  have c_k : W2 m ρ c (Proc.devRef .tc main_v8_1) = kArr (m ((c : Thread nD τ).loc main_arg1)) (m ((c : Thread nD τ).loc main_arg2)) 0 (m ((c : Thread nD τ).loc main_arg0)) := by
    refine (W2_arr m ρ c 4).trans ((final0_4 (V1 m ρ) c).trans ?_)
    show projArr 1024 _ (W1 m ρ c (Proc.devRef .tc main_arg0)) (W1 m ρ c (Proc.devRef .tc main_v7)) (W1 m ρ c (Proc.devRef .tc main_v5)) = _
    rw [b_x, b_w, b_b]; rfl
  have c_v : W2 m ρ c (Proc.devRef .tc main_v8_2) = vArr (m ((c : Thread nD τ).loc main_arg1)) (m ((c : Thread nD τ).loc main_arg2)) 0 (m ((c : Thread nD τ).loc main_arg0)) := by
    refine (W2_arr m ρ c 5).trans ((final0_5 (V1 m ρ) c).trans ?_)
    show projArr 2048 _ (W1 m ρ c (Proc.devRef .tc main_arg0)) (W1 m ρ c (Proc.devRef .tc main_v7)) (W1 m ρ c (Proc.devRef .tc main_v5)) = _
    rw [b_x, b_w, b_b]; rfl
  have c_acc : W2 m ρ c (Proc.devRef .tc main_v2) = aA0 := (W2_of_ne m ρ c main_v2 (by decide)).trans b_acc
  have c_v0 : W2 m ρ c (Proc.devRef .tc main_v0) = (m ((c : Thread nD τ).loc main_arg1)) := (W2_of_ne m ρ c main_v0 (by decide)).trans b_v0
  have c_v1 : W2 m ρ c (Proc.devRef .tc main_v1) = (m ((c : Thread nD τ).loc main_arg3)) := (W2_of_ne m ρ c main_v1 (by decide)).trans b_v1
  have c_a2 : W2 m ρ c (Proc.devRef .tc main_arg2) = (m ((c : Thread nD τ).loc main_arg2)) := (W2_of_ne m ρ c main_arg2 (by decide)).trans b_a2
  have c_a4 : W2 m ρ c (Proc.devRef .tc main_arg4) = (m ((c : Thread nD τ).loc main_arg4)) := (W2_of_ne m ρ c main_arg4 (by decide)).trans b_a4
  -- the host lines before the attention kernel: the output projection's slabs, the running sum copied
  have d_q : W3 m ρ c (Proc.devRef .tc main_v8_0) = qArr (m ((c : Thread nD τ).loc main_arg1)) (m ((c : Thread nD τ).loc main_arg2)) 0 (m ((c : Thread nD τ).loc main_arg0)) := by
    show StableHlo.after hostOps1 (W2 m ρ c) (Proc.devRef .tc main_v8_0) = _; after_results; exact c_q
  have d_k : W3 m ρ c (Proc.devRef .tc main_v8_1) = kArr (m ((c : Thread nD τ).loc main_arg1)) (m ((c : Thread nD τ).loc main_arg2)) 0 (m ((c : Thread nD τ).loc main_arg0)) := by
    show StableHlo.after hostOps1 (W2 m ρ c) (Proc.devRef .tc main_v8_1) = _; after_results; exact c_k
  have d_v : W3 m ρ c (Proc.devRef .tc main_v8_2) = vArr (m ((c : Thread nD τ).loc main_arg1)) (m ((c : Thread nD τ).loc main_arg2)) 0 (m ((c : Thread nD τ).loc main_arg0)) := by
    show StableHlo.after hostOps1 (W2 m ρ c) (Proc.devRef .tc main_v8_2) = _; after_results; exact c_v
  have d_wo : W3 m ρ c (Proc.devRef .tc main_v13) = woSlab (m ((c : Thread nD τ).loc main_arg3)) 0 := by
    show StableHlo.after hostOps1 (W2 m ρ c) (Proc.devRef .tc main_v13) = _; after_results; rw [c_v1]; exact slab_wo (m ((c : Thread nD τ).loc main_arg3)) 0 (by decide) _ _
  have d_bo : W3 m ρ c (Proc.devRef .tc main_v11) = boSlab (m ((c : Thread nD τ).loc main_arg4)) 0 := by
    show StableHlo.after hostOps1 (W2 m ρ c) (Proc.devRef .tc main_v11) = _; after_results; rw [c_a4]; exact slab_bo (m ((c : Thread nD τ).loc main_arg4)) 0 (by decide) _ _ _
  have d_acc : W3 m ρ c (Proc.devRef .tc main_v2) = aA0 := by
    show StableHlo.after hostOps1 (W2 m ρ c) (Proc.devRef .tc main_v2) = _; after_results; exact c_acc
  have d_v0 : W3 m ρ c (Proc.devRef .tc main_v0) = (m ((c : Thread nD τ).loc main_arg1)) := by
    show StableHlo.after hostOps1 (W2 m ρ c) (Proc.devRef .tc main_v0) = _; after_results; exact c_v0
  have d_v1 : W3 m ρ c (Proc.devRef .tc main_v1) = (m ((c : Thread nD τ).loc main_arg3)) := by
    show StableHlo.after hostOps1 (W2 m ρ c) (Proc.devRef .tc main_v1) = _; after_results; exact c_v1
  have d_a2 : W3 m ρ c (Proc.devRef .tc main_arg2) = (m ((c : Thread nD τ).loc main_arg2)) := by
    show StableHlo.after hostOps1 (W2 m ρ c) (Proc.devRef .tc main_arg2) = _; after_results; exact c_a2
  have d_a4 : W3 m ρ c (Proc.devRef .tc main_arg4) = (m ((c : Thread nD τ).loc main_arg4)) := by
    show StableHlo.after hostOps1 (W2 m ρ c) (Proc.devRef .tc main_arg4) = _; after_results; exact c_a4
  -- the attention kernel: the layer's output and the new running sum
  have e_x : W4 m ρ c (Proc.devRef .tc main_v14_0) = xNext (m ((c : Thread nD τ).loc main_arg1)) (m ((c : Thread nD τ).loc main_arg2)) (m ((c : Thread nD τ).loc main_arg3)) (m ((c : Thread nD τ).loc main_arg4)) 0 (m ((c : Thread nD τ).loc main_arg0)) := by
    refine (W4_arr m ρ c 6).trans ((final1_6 (V3 m ρ) c).trans ?_)
    show outArr (W3 m ρ c (Proc.devRef .tc main_v8_0)) (W3 m ρ c (Proc.devRef .tc main_v8_1)) (W3 m ρ c (Proc.devRef .tc main_v8_2)) (W3 m ρ c (Proc.devRef .tc main_v13)) (W3 m ρ c (Proc.devRef .tc main_v11)) = _
    rw [d_q, d_k, d_v, d_wo, d_bo]; rfl
  have e_acc : W4 m ρ c (Proc.devRef .tc main_v14_1) = aNext (m ((c : Thread nD τ).loc main_arg1)) (m ((c : Thread nD τ).loc main_arg2)) 0 aA0 (m ((c : Thread nD τ).loc main_arg0)) := by
    refine (W4_arr m ρ c 7).trans ((final1_7 (V3 m ρ) c).trans ?_)
    show accArr (W3 m ρ c (Proc.devRef .tc main_v2)) (W3 m ρ c (Proc.devRef .tc main_v8_0)) (W3 m ρ c (Proc.devRef .tc main_v8_1)) = _
    rw [d_acc, d_q, d_k]; rfl
  exact ⟨e_x, e_acc, (W4_of_ne m ρ c main_v0 (by decide)).trans d_v0, (W4_of_ne m ρ c main_v1 (by decide)).trans d_v1,
    (W4_of_ne m ρ c main_arg2 (by decide)).trans d_a2, (W4_of_ne m ρ c main_arg4 (by decide)).trans d_a4⟩

set_option maxHeartbeats 8000000 in
/-- Layer 1: from the previous layer's output and running sum to this layer's. -/
theorem layer1 (X : S2048x1024.Idx → EReal) (A : S2048x2048.Idx → EReal)
    (hx : W4 m ρ c (Proc.devRef .tc main_v14_0) = X) (hacc : W4 m ρ c (Proc.devRef .tc main_v14_1) = A)
    (hv0 : W4 m ρ c (Proc.devRef .tc main_v0) = (m ((c : Thread nD τ).loc main_arg1))) (hv1 : W4 m ρ c (Proc.devRef .tc main_v1) = (m ((c : Thread nD τ).loc main_arg3)))
    (ha2 : W4 m ρ c (Proc.devRef .tc main_arg2) = (m ((c : Thread nD τ).loc main_arg2))) (ha4 : W4 m ρ c (Proc.devRef .tc main_arg4) = (m ((c : Thread nD τ).loc main_arg4))) :
    W8 m ρ c (Proc.devRef .tc main_v26_0) = xNext (m ((c : Thread nD τ).loc main_arg1)) (m ((c : Thread nD τ).loc main_arg2)) (m ((c : Thread nD τ).loc main_arg3)) (m ((c : Thread nD τ).loc main_arg4)) 1 X ∧ W8 m ρ c (Proc.devRef .tc main_v26_1) = aNext (m ((c : Thread nD τ).loc main_arg1)) (m ((c : Thread nD τ).loc main_arg2)) 1 A X
    ∧ W8 m ρ c (Proc.devRef .tc main_v0) = (m ((c : Thread nD τ).loc main_arg1)) ∧ W8 m ρ c (Proc.devRef .tc main_v1) = (m ((c : Thread nD τ).loc main_arg3))
    ∧ W8 m ρ c (Proc.devRef .tc main_arg2) = (m ((c : Thread nD τ).loc main_arg2)) ∧ W8 m ρ c (Proc.devRef .tc main_arg4) = (m ((c : Thread nD τ).loc main_arg4)) := by
  -- the host lines before the projection kernel: this layer's weight and bias slabs
  have b_x : W5 m ρ c (Proc.devRef .tc main_v14_0) = X := by
    show StableHlo.after hostOps2 (W4 m ρ c) (Proc.devRef .tc main_v14_0) = _; after_results; exact hx
  have b_w : W5 m ρ c (Proc.devRef .tc main_v19) = wSlab (m ((c : Thread nD τ).loc main_arg1)) 1 := by
    show StableHlo.after hostOps2 (W4 m ρ c) (Proc.devRef .tc main_v19) = _; after_results; rw [hv0]; exact slab_w (m ((c : Thread nD τ).loc main_arg1)) 1 (by decide) _ _
  have b_b : W5 m ρ c (Proc.devRef .tc main_v17) = bSlab (m ((c : Thread nD τ).loc main_arg2)) 1 := by
    show StableHlo.after hostOps2 (W4 m ρ c) (Proc.devRef .tc main_v17) = _; after_results; rw [ha2]; exact slab_b (m ((c : Thread nD τ).loc main_arg2)) 1 (by decide) _ _ _
  have b_acc : W5 m ρ c (Proc.devRef .tc main_v14_1) = A := by
    show StableHlo.after hostOps2 (W4 m ρ c) (Proc.devRef .tc main_v14_1) = _; after_results; exact hacc
  have b_v0 : W5 m ρ c (Proc.devRef .tc main_v0) = (m ((c : Thread nD τ).loc main_arg1)) := by
    show StableHlo.after hostOps2 (W4 m ρ c) (Proc.devRef .tc main_v0) = _; after_results; exact hv0
  have b_v1 : W5 m ρ c (Proc.devRef .tc main_v1) = (m ((c : Thread nD τ).loc main_arg3)) := by
    show StableHlo.after hostOps2 (W4 m ρ c) (Proc.devRef .tc main_v1) = _; after_results; exact hv1
  have b_a2 : W5 m ρ c (Proc.devRef .tc main_arg2) = (m ((c : Thread nD τ).loc main_arg2)) := by
    show StableHlo.after hostOps2 (W4 m ρ c) (Proc.devRef .tc main_arg2) = _; after_results; exact ha2
  have b_a4 : W5 m ρ c (Proc.devRef .tc main_arg4) = (m ((c : Thread nD τ).loc main_arg4)) := by
    show StableHlo.after hostOps2 (W4 m ρ c) (Proc.devRef .tc main_arg4) = _; after_results; exact ha4
  -- the projection kernel: its three outputs, everything else as it was
  have c_q : W6 m ρ c (Proc.devRef .tc main_v20_0) = qArr (m ((c : Thread nD τ).loc main_arg1)) (m ((c : Thread nD τ).loc main_arg2)) 1 X := by
    refine (W6_arr m ρ c 3).trans ((final2_3 (V5 m ρ) c).trans ?_)
    show projArr 0 _ (W5 m ρ c (Proc.devRef .tc main_v14_0)) (W5 m ρ c (Proc.devRef .tc main_v19)) (W5 m ρ c (Proc.devRef .tc main_v17)) = _
    rw [b_x, b_w, b_b]; rfl
  have c_k : W6 m ρ c (Proc.devRef .tc main_v20_1) = kArr (m ((c : Thread nD τ).loc main_arg1)) (m ((c : Thread nD τ).loc main_arg2)) 1 X := by
    refine (W6_arr m ρ c 4).trans ((final2_4 (V5 m ρ) c).trans ?_)
    show projArr 1024 _ (W5 m ρ c (Proc.devRef .tc main_v14_0)) (W5 m ρ c (Proc.devRef .tc main_v19)) (W5 m ρ c (Proc.devRef .tc main_v17)) = _
    rw [b_x, b_w, b_b]; rfl
  have c_v : W6 m ρ c (Proc.devRef .tc main_v20_2) = vArr (m ((c : Thread nD τ).loc main_arg1)) (m ((c : Thread nD τ).loc main_arg2)) 1 X := by
    refine (W6_arr m ρ c 5).trans ((final2_5 (V5 m ρ) c).trans ?_)
    show projArr 2048 _ (W5 m ρ c (Proc.devRef .tc main_v14_0)) (W5 m ρ c (Proc.devRef .tc main_v19)) (W5 m ρ c (Proc.devRef .tc main_v17)) = _
    rw [b_x, b_w, b_b]; rfl
  have c_acc : W6 m ρ c (Proc.devRef .tc main_v14_1) = A := (W6_of_ne m ρ c main_v14_1 (by decide)).trans b_acc
  have c_v0 : W6 m ρ c (Proc.devRef .tc main_v0) = (m ((c : Thread nD τ).loc main_arg1)) := (W6_of_ne m ρ c main_v0 (by decide)).trans b_v0
  have c_v1 : W6 m ρ c (Proc.devRef .tc main_v1) = (m ((c : Thread nD τ).loc main_arg3)) := (W6_of_ne m ρ c main_v1 (by decide)).trans b_v1
  have c_a2 : W6 m ρ c (Proc.devRef .tc main_arg2) = (m ((c : Thread nD τ).loc main_arg2)) := (W6_of_ne m ρ c main_arg2 (by decide)).trans b_a2
  have c_a4 : W6 m ρ c (Proc.devRef .tc main_arg4) = (m ((c : Thread nD τ).loc main_arg4)) := (W6_of_ne m ρ c main_arg4 (by decide)).trans b_a4
  -- the host lines before the attention kernel: the output projection's slabs, the running sum copied
  have d_q : W7 m ρ c (Proc.devRef .tc main_v20_0) = qArr (m ((c : Thread nD τ).loc main_arg1)) (m ((c : Thread nD τ).loc main_arg2)) 1 X := by
    show StableHlo.after hostOps3 (W6 m ρ c) (Proc.devRef .tc main_v20_0) = _; after_results; exact c_q
  have d_k : W7 m ρ c (Proc.devRef .tc main_v20_1) = kArr (m ((c : Thread nD τ).loc main_arg1)) (m ((c : Thread nD τ).loc main_arg2)) 1 X := by
    show StableHlo.after hostOps3 (W6 m ρ c) (Proc.devRef .tc main_v20_1) = _; after_results; exact c_k
  have d_v : W7 m ρ c (Proc.devRef .tc main_v20_2) = vArr (m ((c : Thread nD τ).loc main_arg1)) (m ((c : Thread nD τ).loc main_arg2)) 1 X := by
    show StableHlo.after hostOps3 (W6 m ρ c) (Proc.devRef .tc main_v20_2) = _; after_results; exact c_v
  have d_wo : W7 m ρ c (Proc.devRef .tc main_v25) = woSlab (m ((c : Thread nD τ).loc main_arg3)) 1 := by
    show StableHlo.after hostOps3 (W6 m ρ c) (Proc.devRef .tc main_v25) = _; after_results; rw [c_v1]; exact slab_wo (m ((c : Thread nD τ).loc main_arg3)) 1 (by decide) _ _
  have d_bo : W7 m ρ c (Proc.devRef .tc main_v23) = boSlab (m ((c : Thread nD τ).loc main_arg4)) 1 := by
    show StableHlo.after hostOps3 (W6 m ρ c) (Proc.devRef .tc main_v23) = _; after_results; rw [c_a4]; exact slab_bo (m ((c : Thread nD τ).loc main_arg4)) 1 (by decide) _ _ _
  have d_acc : W7 m ρ c (Proc.devRef .tc main_v14_1) = A := by
    show StableHlo.after hostOps3 (W6 m ρ c) (Proc.devRef .tc main_v14_1) = _; after_results; exact c_acc
  have d_v0 : W7 m ρ c (Proc.devRef .tc main_v0) = (m ((c : Thread nD τ).loc main_arg1)) := by
    show StableHlo.after hostOps3 (W6 m ρ c) (Proc.devRef .tc main_v0) = _; after_results; exact c_v0
  have d_v1 : W7 m ρ c (Proc.devRef .tc main_v1) = (m ((c : Thread nD τ).loc main_arg3)) := by
    show StableHlo.after hostOps3 (W6 m ρ c) (Proc.devRef .tc main_v1) = _; after_results; exact c_v1
  have d_a2 : W7 m ρ c (Proc.devRef .tc main_arg2) = (m ((c : Thread nD τ).loc main_arg2)) := by
    show StableHlo.after hostOps3 (W6 m ρ c) (Proc.devRef .tc main_arg2) = _; after_results; exact c_a2
  have d_a4 : W7 m ρ c (Proc.devRef .tc main_arg4) = (m ((c : Thread nD τ).loc main_arg4)) := by
    show StableHlo.after hostOps3 (W6 m ρ c) (Proc.devRef .tc main_arg4) = _; after_results; exact c_a4
  -- the attention kernel: the layer's output and the new running sum
  have e_x : W8 m ρ c (Proc.devRef .tc main_v26_0) = xNext (m ((c : Thread nD τ).loc main_arg1)) (m ((c : Thread nD τ).loc main_arg2)) (m ((c : Thread nD τ).loc main_arg3)) (m ((c : Thread nD τ).loc main_arg4)) 1 X := by
    refine (W8_arr m ρ c 6).trans ((final3_6 (V7 m ρ) c).trans ?_)
    show outArr (W7 m ρ c (Proc.devRef .tc main_v20_0)) (W7 m ρ c (Proc.devRef .tc main_v20_1)) (W7 m ρ c (Proc.devRef .tc main_v20_2)) (W7 m ρ c (Proc.devRef .tc main_v25)) (W7 m ρ c (Proc.devRef .tc main_v23)) = _
    rw [d_q, d_k, d_v, d_wo, d_bo]; rfl
  have e_acc : W8 m ρ c (Proc.devRef .tc main_v26_1) = aNext (m ((c : Thread nD τ).loc main_arg1)) (m ((c : Thread nD τ).loc main_arg2)) 1 A X := by
    refine (W8_arr m ρ c 7).trans ((final3_7 (V7 m ρ) c).trans ?_)
    show accArr (W7 m ρ c (Proc.devRef .tc main_v14_1)) (W7 m ρ c (Proc.devRef .tc main_v20_0)) (W7 m ρ c (Proc.devRef .tc main_v20_1)) = _
    rw [d_acc, d_q, d_k]; rfl
  exact ⟨e_x, e_acc, (W8_of_ne m ρ c main_v0 (by decide)).trans d_v0, (W8_of_ne m ρ c main_v1 (by decide)).trans d_v1,
    (W8_of_ne m ρ c main_arg2 (by decide)).trans d_a2, (W8_of_ne m ρ c main_arg4 (by decide)).trans d_a4⟩

set_option maxHeartbeats 8000000 in
/-- Layer 2: from the previous layer's output and running sum to this layer's. -/
theorem layer2 (X : S2048x1024.Idx → EReal) (A : S2048x2048.Idx → EReal)
    (hx : W8 m ρ c (Proc.devRef .tc main_v26_0) = X) (hacc : W8 m ρ c (Proc.devRef .tc main_v26_1) = A)
    (hv0 : W8 m ρ c (Proc.devRef .tc main_v0) = (m ((c : Thread nD τ).loc main_arg1))) (hv1 : W8 m ρ c (Proc.devRef .tc main_v1) = (m ((c : Thread nD τ).loc main_arg3)))
    (ha2 : W8 m ρ c (Proc.devRef .tc main_arg2) = (m ((c : Thread nD τ).loc main_arg2))) (ha4 : W8 m ρ c (Proc.devRef .tc main_arg4) = (m ((c : Thread nD τ).loc main_arg4))) :
    W12 m ρ c (Proc.devRef .tc main_v38_0) = xNext (m ((c : Thread nD τ).loc main_arg1)) (m ((c : Thread nD τ).loc main_arg2)) (m ((c : Thread nD τ).loc main_arg3)) (m ((c : Thread nD τ).loc main_arg4)) 2 X ∧ W12 m ρ c (Proc.devRef .tc main_v38_1) = aNext (m ((c : Thread nD τ).loc main_arg1)) (m ((c : Thread nD τ).loc main_arg2)) 2 A X
    ∧ W12 m ρ c (Proc.devRef .tc main_v0) = (m ((c : Thread nD τ).loc main_arg1)) ∧ W12 m ρ c (Proc.devRef .tc main_v1) = (m ((c : Thread nD τ).loc main_arg3))
    ∧ W12 m ρ c (Proc.devRef .tc main_arg2) = (m ((c : Thread nD τ).loc main_arg2)) ∧ W12 m ρ c (Proc.devRef .tc main_arg4) = (m ((c : Thread nD τ).loc main_arg4)) := by
  -- the host lines before the projection kernel: this layer's weight and bias slabs
  have b_x : W9 m ρ c (Proc.devRef .tc main_v26_0) = X := by
    show StableHlo.after hostOps4 (W8 m ρ c) (Proc.devRef .tc main_v26_0) = _; after_results; exact hx
  have b_w : W9 m ρ c (Proc.devRef .tc main_v31) = wSlab (m ((c : Thread nD τ).loc main_arg1)) 2 := by
    show StableHlo.after hostOps4 (W8 m ρ c) (Proc.devRef .tc main_v31) = _; after_results; rw [hv0]; exact slab_w (m ((c : Thread nD τ).loc main_arg1)) 2 (by decide) _ _
  have b_b : W9 m ρ c (Proc.devRef .tc main_v29) = bSlab (m ((c : Thread nD τ).loc main_arg2)) 2 := by
    show StableHlo.after hostOps4 (W8 m ρ c) (Proc.devRef .tc main_v29) = _; after_results; rw [ha2]; exact slab_b (m ((c : Thread nD τ).loc main_arg2)) 2 (by decide) _ _ _
  have b_acc : W9 m ρ c (Proc.devRef .tc main_v26_1) = A := by
    show StableHlo.after hostOps4 (W8 m ρ c) (Proc.devRef .tc main_v26_1) = _; after_results; exact hacc
  have b_v0 : W9 m ρ c (Proc.devRef .tc main_v0) = (m ((c : Thread nD τ).loc main_arg1)) := by
    show StableHlo.after hostOps4 (W8 m ρ c) (Proc.devRef .tc main_v0) = _; after_results; exact hv0
  have b_v1 : W9 m ρ c (Proc.devRef .tc main_v1) = (m ((c : Thread nD τ).loc main_arg3)) := by
    show StableHlo.after hostOps4 (W8 m ρ c) (Proc.devRef .tc main_v1) = _; after_results; exact hv1
  have b_a2 : W9 m ρ c (Proc.devRef .tc main_arg2) = (m ((c : Thread nD τ).loc main_arg2)) := by
    show StableHlo.after hostOps4 (W8 m ρ c) (Proc.devRef .tc main_arg2) = _; after_results; exact ha2
  have b_a4 : W9 m ρ c (Proc.devRef .tc main_arg4) = (m ((c : Thread nD τ).loc main_arg4)) := by
    show StableHlo.after hostOps4 (W8 m ρ c) (Proc.devRef .tc main_arg4) = _; after_results; exact ha4
  -- the projection kernel: its three outputs, everything else as it was
  have c_q : W10 m ρ c (Proc.devRef .tc main_v32_0) = qArr (m ((c : Thread nD τ).loc main_arg1)) (m ((c : Thread nD τ).loc main_arg2)) 2 X := by
    refine (W10_arr m ρ c 3).trans ((final4_3 (V9 m ρ) c).trans ?_)
    show projArr 0 _ (W9 m ρ c (Proc.devRef .tc main_v26_0)) (W9 m ρ c (Proc.devRef .tc main_v31)) (W9 m ρ c (Proc.devRef .tc main_v29)) = _
    rw [b_x, b_w, b_b]; rfl
  have c_k : W10 m ρ c (Proc.devRef .tc main_v32_1) = kArr (m ((c : Thread nD τ).loc main_arg1)) (m ((c : Thread nD τ).loc main_arg2)) 2 X := by
    refine (W10_arr m ρ c 4).trans ((final4_4 (V9 m ρ) c).trans ?_)
    show projArr 1024 _ (W9 m ρ c (Proc.devRef .tc main_v26_0)) (W9 m ρ c (Proc.devRef .tc main_v31)) (W9 m ρ c (Proc.devRef .tc main_v29)) = _
    rw [b_x, b_w, b_b]; rfl
  have c_v : W10 m ρ c (Proc.devRef .tc main_v32_2) = vArr (m ((c : Thread nD τ).loc main_arg1)) (m ((c : Thread nD τ).loc main_arg2)) 2 X := by
    refine (W10_arr m ρ c 5).trans ((final4_5 (V9 m ρ) c).trans ?_)
    show projArr 2048 _ (W9 m ρ c (Proc.devRef .tc main_v26_0)) (W9 m ρ c (Proc.devRef .tc main_v31)) (W9 m ρ c (Proc.devRef .tc main_v29)) = _
    rw [b_x, b_w, b_b]; rfl
  have c_acc : W10 m ρ c (Proc.devRef .tc main_v26_1) = A := (W10_of_ne m ρ c main_v26_1 (by decide)).trans b_acc
  have c_v0 : W10 m ρ c (Proc.devRef .tc main_v0) = (m ((c : Thread nD τ).loc main_arg1)) := (W10_of_ne m ρ c main_v0 (by decide)).trans b_v0
  have c_v1 : W10 m ρ c (Proc.devRef .tc main_v1) = (m ((c : Thread nD τ).loc main_arg3)) := (W10_of_ne m ρ c main_v1 (by decide)).trans b_v1
  have c_a2 : W10 m ρ c (Proc.devRef .tc main_arg2) = (m ((c : Thread nD τ).loc main_arg2)) := (W10_of_ne m ρ c main_arg2 (by decide)).trans b_a2
  have c_a4 : W10 m ρ c (Proc.devRef .tc main_arg4) = (m ((c : Thread nD τ).loc main_arg4)) := (W10_of_ne m ρ c main_arg4 (by decide)).trans b_a4
  -- the host lines before the attention kernel: the output projection's slabs, the running sum copied
  have d_q : W11 m ρ c (Proc.devRef .tc main_v32_0) = qArr (m ((c : Thread nD τ).loc main_arg1)) (m ((c : Thread nD τ).loc main_arg2)) 2 X := by
    show StableHlo.after hostOps5 (W10 m ρ c) (Proc.devRef .tc main_v32_0) = _; after_results; exact c_q
  have d_k : W11 m ρ c (Proc.devRef .tc main_v32_1) = kArr (m ((c : Thread nD τ).loc main_arg1)) (m ((c : Thread nD τ).loc main_arg2)) 2 X := by
    show StableHlo.after hostOps5 (W10 m ρ c) (Proc.devRef .tc main_v32_1) = _; after_results; exact c_k
  have d_v : W11 m ρ c (Proc.devRef .tc main_v32_2) = vArr (m ((c : Thread nD τ).loc main_arg1)) (m ((c : Thread nD τ).loc main_arg2)) 2 X := by
    show StableHlo.after hostOps5 (W10 m ρ c) (Proc.devRef .tc main_v32_2) = _; after_results; exact c_v
  have d_wo : W11 m ρ c (Proc.devRef .tc main_v37) = woSlab (m ((c : Thread nD τ).loc main_arg3)) 2 := by
    show StableHlo.after hostOps5 (W10 m ρ c) (Proc.devRef .tc main_v37) = _; after_results; rw [c_v1]; exact slab_wo (m ((c : Thread nD τ).loc main_arg3)) 2 (by decide) _ _
  have d_bo : W11 m ρ c (Proc.devRef .tc main_v35) = boSlab (m ((c : Thread nD τ).loc main_arg4)) 2 := by
    show StableHlo.after hostOps5 (W10 m ρ c) (Proc.devRef .tc main_v35) = _; after_results; rw [c_a4]; exact slab_bo (m ((c : Thread nD τ).loc main_arg4)) 2 (by decide) _ _ _
  have d_acc : W11 m ρ c (Proc.devRef .tc main_v26_1) = A := by
    show StableHlo.after hostOps5 (W10 m ρ c) (Proc.devRef .tc main_v26_1) = _; after_results; exact c_acc
  have d_v0 : W11 m ρ c (Proc.devRef .tc main_v0) = (m ((c : Thread nD τ).loc main_arg1)) := by
    show StableHlo.after hostOps5 (W10 m ρ c) (Proc.devRef .tc main_v0) = _; after_results; exact c_v0
  have d_v1 : W11 m ρ c (Proc.devRef .tc main_v1) = (m ((c : Thread nD τ).loc main_arg3)) := by
    show StableHlo.after hostOps5 (W10 m ρ c) (Proc.devRef .tc main_v1) = _; after_results; exact c_v1
  have d_a2 : W11 m ρ c (Proc.devRef .tc main_arg2) = (m ((c : Thread nD τ).loc main_arg2)) := by
    show StableHlo.after hostOps5 (W10 m ρ c) (Proc.devRef .tc main_arg2) = _; after_results; exact c_a2
  have d_a4 : W11 m ρ c (Proc.devRef .tc main_arg4) = (m ((c : Thread nD τ).loc main_arg4)) := by
    show StableHlo.after hostOps5 (W10 m ρ c) (Proc.devRef .tc main_arg4) = _; after_results; exact c_a4
  -- the attention kernel: the layer's output and the new running sum
  have e_x : W12 m ρ c (Proc.devRef .tc main_v38_0) = xNext (m ((c : Thread nD τ).loc main_arg1)) (m ((c : Thread nD τ).loc main_arg2)) (m ((c : Thread nD τ).loc main_arg3)) (m ((c : Thread nD τ).loc main_arg4)) 2 X := by
    refine (W12_arr m ρ c 6).trans ((final5_6 (V11 m ρ) c).trans ?_)
    show outArr (W11 m ρ c (Proc.devRef .tc main_v32_0)) (W11 m ρ c (Proc.devRef .tc main_v32_1)) (W11 m ρ c (Proc.devRef .tc main_v32_2)) (W11 m ρ c (Proc.devRef .tc main_v37)) (W11 m ρ c (Proc.devRef .tc main_v35)) = _
    rw [d_q, d_k, d_v, d_wo, d_bo]; rfl
  have e_acc : W12 m ρ c (Proc.devRef .tc main_v38_1) = aNext (m ((c : Thread nD τ).loc main_arg1)) (m ((c : Thread nD τ).loc main_arg2)) 2 A X := by
    refine (W12_arr m ρ c 7).trans ((final5_7 (V11 m ρ) c).trans ?_)
    show accArr (W11 m ρ c (Proc.devRef .tc main_v26_1)) (W11 m ρ c (Proc.devRef .tc main_v32_0)) (W11 m ρ c (Proc.devRef .tc main_v32_1)) = _
    rw [d_acc, d_q, d_k]; rfl
  exact ⟨e_x, e_acc, (W12_of_ne m ρ c main_v0 (by decide)).trans d_v0, (W12_of_ne m ρ c main_v1 (by decide)).trans d_v1,
    (W12_of_ne m ρ c main_arg2 (by decide)).trans d_a2, (W12_of_ne m ρ c main_arg4 (by decide)).trans d_a4⟩

set_option maxHeartbeats 8000000 in
/-- Layer 3: from the previous layer's output and running sum to this layer's. -/
theorem layer3 (X : S2048x1024.Idx → EReal) (A : S2048x2048.Idx → EReal)
    (hx : W12 m ρ c (Proc.devRef .tc main_v38_0) = X) (hacc : W12 m ρ c (Proc.devRef .tc main_v38_1) = A)
    (hv0 : W12 m ρ c (Proc.devRef .tc main_v0) = (m ((c : Thread nD τ).loc main_arg1))) (hv1 : W12 m ρ c (Proc.devRef .tc main_v1) = (m ((c : Thread nD τ).loc main_arg3)))
    (ha2 : W12 m ρ c (Proc.devRef .tc main_arg2) = (m ((c : Thread nD τ).loc main_arg2))) (ha4 : W12 m ρ c (Proc.devRef .tc main_arg4) = (m ((c : Thread nD τ).loc main_arg4))) :
    W16 m ρ c (Proc.devRef .tc main_v50_0) = xNext (m ((c : Thread nD τ).loc main_arg1)) (m ((c : Thread nD τ).loc main_arg2)) (m ((c : Thread nD τ).loc main_arg3)) (m ((c : Thread nD τ).loc main_arg4)) 3 X ∧ W16 m ρ c (Proc.devRef .tc main_v50_1) = aNext (m ((c : Thread nD τ).loc main_arg1)) (m ((c : Thread nD τ).loc main_arg2)) 3 A X
    ∧ W16 m ρ c (Proc.devRef .tc main_v0) = (m ((c : Thread nD τ).loc main_arg1)) ∧ W16 m ρ c (Proc.devRef .tc main_v1) = (m ((c : Thread nD τ).loc main_arg3))
    ∧ W16 m ρ c (Proc.devRef .tc main_arg2) = (m ((c : Thread nD τ).loc main_arg2)) ∧ W16 m ρ c (Proc.devRef .tc main_arg4) = (m ((c : Thread nD τ).loc main_arg4)) := by
  -- the host lines before the projection kernel: this layer's weight and bias slabs
  have b_x : W13 m ρ c (Proc.devRef .tc main_v38_0) = X := by
    show StableHlo.after hostOps6 (W12 m ρ c) (Proc.devRef .tc main_v38_0) = _; after_results; exact hx
  have b_w : W13 m ρ c (Proc.devRef .tc main_v43) = wSlab (m ((c : Thread nD τ).loc main_arg1)) 3 := by
    show StableHlo.after hostOps6 (W12 m ρ c) (Proc.devRef .tc main_v43) = _; after_results; rw [hv0]; exact slab_w (m ((c : Thread nD τ).loc main_arg1)) 3 (by decide) _ _
  have b_b : W13 m ρ c (Proc.devRef .tc main_v41) = bSlab (m ((c : Thread nD τ).loc main_arg2)) 3 := by
    show StableHlo.after hostOps6 (W12 m ρ c) (Proc.devRef .tc main_v41) = _; after_results; rw [ha2]; exact slab_b (m ((c : Thread nD τ).loc main_arg2)) 3 (by decide) _ _ _
  have b_acc : W13 m ρ c (Proc.devRef .tc main_v38_1) = A := by
    show StableHlo.after hostOps6 (W12 m ρ c) (Proc.devRef .tc main_v38_1) = _; after_results; exact hacc
  have b_v0 : W13 m ρ c (Proc.devRef .tc main_v0) = (m ((c : Thread nD τ).loc main_arg1)) := by
    show StableHlo.after hostOps6 (W12 m ρ c) (Proc.devRef .tc main_v0) = _; after_results; exact hv0
  have b_v1 : W13 m ρ c (Proc.devRef .tc main_v1) = (m ((c : Thread nD τ).loc main_arg3)) := by
    show StableHlo.after hostOps6 (W12 m ρ c) (Proc.devRef .tc main_v1) = _; after_results; exact hv1
  have b_a2 : W13 m ρ c (Proc.devRef .tc main_arg2) = (m ((c : Thread nD τ).loc main_arg2)) := by
    show StableHlo.after hostOps6 (W12 m ρ c) (Proc.devRef .tc main_arg2) = _; after_results; exact ha2
  have b_a4 : W13 m ρ c (Proc.devRef .tc main_arg4) = (m ((c : Thread nD τ).loc main_arg4)) := by
    show StableHlo.after hostOps6 (W12 m ρ c) (Proc.devRef .tc main_arg4) = _; after_results; exact ha4
  -- the projection kernel: its three outputs, everything else as it was
  have c_q : W14 m ρ c (Proc.devRef .tc main_v44_0) = qArr (m ((c : Thread nD τ).loc main_arg1)) (m ((c : Thread nD τ).loc main_arg2)) 3 X := by
    refine (W14_arr m ρ c 3).trans ((final6_3 (V13 m ρ) c).trans ?_)
    show projArr 0 _ (W13 m ρ c (Proc.devRef .tc main_v38_0)) (W13 m ρ c (Proc.devRef .tc main_v43)) (W13 m ρ c (Proc.devRef .tc main_v41)) = _
    rw [b_x, b_w, b_b]; rfl
  have c_k : W14 m ρ c (Proc.devRef .tc main_v44_1) = kArr (m ((c : Thread nD τ).loc main_arg1)) (m ((c : Thread nD τ).loc main_arg2)) 3 X := by
    refine (W14_arr m ρ c 4).trans ((final6_4 (V13 m ρ) c).trans ?_)
    show projArr 1024 _ (W13 m ρ c (Proc.devRef .tc main_v38_0)) (W13 m ρ c (Proc.devRef .tc main_v43)) (W13 m ρ c (Proc.devRef .tc main_v41)) = _
    rw [b_x, b_w, b_b]; rfl
  have c_v : W14 m ρ c (Proc.devRef .tc main_v44_2) = vArr (m ((c : Thread nD τ).loc main_arg1)) (m ((c : Thread nD τ).loc main_arg2)) 3 X := by
    refine (W14_arr m ρ c 5).trans ((final6_5 (V13 m ρ) c).trans ?_)
    show projArr 2048 _ (W13 m ρ c (Proc.devRef .tc main_v38_0)) (W13 m ρ c (Proc.devRef .tc main_v43)) (W13 m ρ c (Proc.devRef .tc main_v41)) = _
    rw [b_x, b_w, b_b]; rfl
  have c_acc : W14 m ρ c (Proc.devRef .tc main_v38_1) = A := (W14_of_ne m ρ c main_v38_1 (by decide)).trans b_acc
  have c_v0 : W14 m ρ c (Proc.devRef .tc main_v0) = (m ((c : Thread nD τ).loc main_arg1)) := (W14_of_ne m ρ c main_v0 (by decide)).trans b_v0
  have c_v1 : W14 m ρ c (Proc.devRef .tc main_v1) = (m ((c : Thread nD τ).loc main_arg3)) := (W14_of_ne m ρ c main_v1 (by decide)).trans b_v1
  have c_a2 : W14 m ρ c (Proc.devRef .tc main_arg2) = (m ((c : Thread nD τ).loc main_arg2)) := (W14_of_ne m ρ c main_arg2 (by decide)).trans b_a2
  have c_a4 : W14 m ρ c (Proc.devRef .tc main_arg4) = (m ((c : Thread nD τ).loc main_arg4)) := (W14_of_ne m ρ c main_arg4 (by decide)).trans b_a4
  -- the host lines before the attention kernel: the output projection's slabs, the running sum copied
  have d_q : W15 m ρ c (Proc.devRef .tc main_v44_0) = qArr (m ((c : Thread nD τ).loc main_arg1)) (m ((c : Thread nD τ).loc main_arg2)) 3 X := by
    show StableHlo.after hostOps7 (W14 m ρ c) (Proc.devRef .tc main_v44_0) = _; after_results; exact c_q
  have d_k : W15 m ρ c (Proc.devRef .tc main_v44_1) = kArr (m ((c : Thread nD τ).loc main_arg1)) (m ((c : Thread nD τ).loc main_arg2)) 3 X := by
    show StableHlo.after hostOps7 (W14 m ρ c) (Proc.devRef .tc main_v44_1) = _; after_results; exact c_k
  have d_v : W15 m ρ c (Proc.devRef .tc main_v44_2) = vArr (m ((c : Thread nD τ).loc main_arg1)) (m ((c : Thread nD τ).loc main_arg2)) 3 X := by
    show StableHlo.after hostOps7 (W14 m ρ c) (Proc.devRef .tc main_v44_2) = _; after_results; exact c_v
  have d_wo : W15 m ρ c (Proc.devRef .tc main_v49) = woSlab (m ((c : Thread nD τ).loc main_arg3)) 3 := by
    show StableHlo.after hostOps7 (W14 m ρ c) (Proc.devRef .tc main_v49) = _; after_results; rw [c_v1]; exact slab_wo (m ((c : Thread nD τ).loc main_arg3)) 3 (by decide) _ _
  have d_bo : W15 m ρ c (Proc.devRef .tc main_v47) = boSlab (m ((c : Thread nD τ).loc main_arg4)) 3 := by
    show StableHlo.after hostOps7 (W14 m ρ c) (Proc.devRef .tc main_v47) = _; after_results; rw [c_a4]; exact slab_bo (m ((c : Thread nD τ).loc main_arg4)) 3 (by decide) _ _ _
  have d_acc : W15 m ρ c (Proc.devRef .tc main_v38_1) = A := by
    show StableHlo.after hostOps7 (W14 m ρ c) (Proc.devRef .tc main_v38_1) = _; after_results; exact c_acc
  have d_v0 : W15 m ρ c (Proc.devRef .tc main_v0) = (m ((c : Thread nD τ).loc main_arg1)) := by
    show StableHlo.after hostOps7 (W14 m ρ c) (Proc.devRef .tc main_v0) = _; after_results; exact c_v0
  have d_v1 : W15 m ρ c (Proc.devRef .tc main_v1) = (m ((c : Thread nD τ).loc main_arg3)) := by
    show StableHlo.after hostOps7 (W14 m ρ c) (Proc.devRef .tc main_v1) = _; after_results; exact c_v1
  have d_a2 : W15 m ρ c (Proc.devRef .tc main_arg2) = (m ((c : Thread nD τ).loc main_arg2)) := by
    show StableHlo.after hostOps7 (W14 m ρ c) (Proc.devRef .tc main_arg2) = _; after_results; exact c_a2
  have d_a4 : W15 m ρ c (Proc.devRef .tc main_arg4) = (m ((c : Thread nD τ).loc main_arg4)) := by
    show StableHlo.after hostOps7 (W14 m ρ c) (Proc.devRef .tc main_arg4) = _; after_results; exact c_a4
  -- the attention kernel: the layer's output and the new running sum
  have e_x : W16 m ρ c (Proc.devRef .tc main_v50_0) = xNext (m ((c : Thread nD τ).loc main_arg1)) (m ((c : Thread nD τ).loc main_arg2)) (m ((c : Thread nD τ).loc main_arg3)) (m ((c : Thread nD τ).loc main_arg4)) 3 X := by
    refine (W16_arr m ρ c 6).trans ((final7_6 (V15 m ρ) c).trans ?_)
    show outArr (W15 m ρ c (Proc.devRef .tc main_v44_0)) (W15 m ρ c (Proc.devRef .tc main_v44_1)) (W15 m ρ c (Proc.devRef .tc main_v44_2)) (W15 m ρ c (Proc.devRef .tc main_v49)) (W15 m ρ c (Proc.devRef .tc main_v47)) = _
    rw [d_q, d_k, d_v, d_wo, d_bo]; rfl
  have e_acc : W16 m ρ c (Proc.devRef .tc main_v50_1) = aNext (m ((c : Thread nD τ).loc main_arg1)) (m ((c : Thread nD τ).loc main_arg2)) 3 A X := by
    refine (W16_arr m ρ c 7).trans ((final7_7 (V15 m ρ) c).trans ?_)
    show accArr (W15 m ρ c (Proc.devRef .tc main_v38_1)) (W15 m ρ c (Proc.devRef .tc main_v44_0)) (W15 m ρ c (Proc.devRef .tc main_v44_1)) = _
    rw [d_acc, d_q, d_k]; rfl
  exact ⟨e_x, e_acc, (W16_of_ne m ρ c main_v0 (by decide)).trans d_v0, (W16_of_ne m ρ c main_v1 (by decide)).trans d_v1,
    (W16_of_ne m ρ c main_arg2 (by decide)).trans d_a2, (W16_of_ne m ρ c main_arg4 (by decide)).trans d_a4⟩

set_option maxHeartbeats 8000000 in
/-- The result buffer at the last boundary is the specification's result of the argument arrays. -/
theorem W16_value : W16 m ρ c (Proc.devRef .tc main_v50_1) = Cert.Attn.result (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨x1, s1, p1, q1, r1, t1⟩ := layer0 m ρ c
  obtain ⟨x2, s2, p2, q2, r2, t2⟩ := layer1 m ρ c _ _ x1 s1 p1 q1 r1 t1
  obtain ⟨x3, s3, p3, q3, r3, t3⟩ := layer2 m ρ c _ _ x2 s2 p2 q2 r2 t2
  obtain ⟨-, s4, -⟩ := layer3 m ρ c _ _ x3 s3 p3 q3 r3 t3
  exact s4.trans (aA4_eq_result (m ((c : Thread nD τ).loc main_arg0)) (m ((c : Thread nD τ).loc main_arg1)) (m ((c : Thread nD τ).loc main_arg2)) (m ((c : Thread nD τ).loc main_arg3)) (m ((c : Thread nD τ).loc main_arg4)))

end Cert.KSide

end
-- ==== Proof.LibAfterAppend.lean ====
/-
  Host lines run in two stretches.

  The contents a list of host operations leaves are a left fold over the list, so running `l₁ ++ l₂` from contents `W`
  is running `l₂` from what `l₁` leaves. With `List.take_append_drop` (or a program's own split of its host lines into
  named parts) this cuts a long stretch at any line: the contents before the cut can then be kept as one opaque valuation
  while the lines after it are read back one reference at a time, at a cost that grows with the lines after the cut only.
-/
import Idealize.ShloMosaic.Lib.StableHlo.Run

namespace Cert.LibAfterAppend

open Idealize.ShloMosaic Idealize.ShloMosaic.StableHlo

/-- Running two stretches of host lines one after the other. -/
theorem after_append {τ : Topo} {sig : RefSig} {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

/-- A stretch cut after its first `k` lines. -/
theorem after_take_drop {τ : Topo} {sig : RefSig} {Val : EltTy → Type} (k : ℕ) (l : List (HloOp τ sig Val)) (W : Valuation τ sig Val) :
    StableHlo.after l W = StableHlo.after (l.drop k) (StableHlo.after (l.take k) W) := by
  rw [← after_append, List.take_append_drop]

end Cert.LibAfterAppend
-- ==== Proof.RefWalkOps.lean ====
/-
  The reference's 189 host lines, cut into six stretches.

  The run of the whole line is a left fold, so it can be read one stretch at a time: the prologue (the scale
  `1 / sqrt 1024` and the causal mask), four attention layers of 41 lines each, and the epilogue (the four weight
  matrices stacked, summed and divided by four). This module only names the stretches and records, for each, the
  list of buffers its lines write: a buffer outside that list holds after the stretch what it held before.
-/
import proofs.«101734_j68264210202743_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Lines 0 … 14 of the reference: the prologue (the scale and the causal mask). -/
abbrev s0 : List (HloOp τ sig (Elt F)) :=
  [ nullary main_cst (constant S_ .f32 0x44800000#32),
    unary main_cst main_v0 (Host.sqrt : (⟨S_, .f32⟩ : BufTy).Contents (Elt F) → (⟨S_, .f32⟩ : BufTy).Contents (Elt F)),
    nullary main_cst_0 (constant S_ .f32 0x3F800000#32),
    binary main_cst_0 main_v0 main_v1 (Host.divf : (⟨S_, .f32⟩ : BufTy).Contents (Elt F) → (⟨S_, .f32⟩ : BufTy).Contents (Elt F) → (⟨S_, .f32⟩ : BufTy).Contents (Elt F)),
    nullary main_cst_1 (constant S_ .f32 0xFF800000#32),
    unary main_cst_1 main_v2 (broadcastInDim S2048x2048 ![] bcast_S_S2048x2048 : (⟨S_, .f32⟩ : BufTy).Contents (Elt F) → (⟨S2048x2048, .f32⟩ : BufTy).Contents (Elt F)),
    TRef.nullary (TRef.of (T := ⟨S2048x2048, .i32⟩) main_call0_v0) (iotaInDim S2048x2048 32 0),
    TRef.nullary (TRef.of (T := ⟨S_, .i32⟩) main_call0_c) (constantI S_ 32 0#32),
    TRef.unary (TRef.of (T := ⟨S_, .i32⟩) main_call0_c) (TRef.of (T := ⟨S2048x2048, .i32⟩) main_call0_v1) (broadcastInDim S2048x2048 ![] bcast_S_S2048x2048),
    TRef.binary (TRef.of (T := ⟨S2048x2048, .i32⟩) main_call0_v0) (TRef.of (T := ⟨S2048x2048, .i32⟩) main_call0_v1) (TRef.of (T := ⟨S2048x2048, .i32⟩) main_call0_v2) addi,
    TRef.nullary (TRef.of (T := ⟨S2048x2048, .i32⟩) main_call0_v3) (iotaInDim S2048x2048 32 1),
    TRef.binary (TRef.of (T := ⟨S2048x2048, .i32⟩) main_call0_v2) (TRef.of (T := ⟨S2048x2048, .i32⟩) main_call0_v3) (TRef.of (T := ⟨S2048x2048, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S2048x2048, .f32⟩) main_call0_v5) (broadcastInDim S2048x2048 ![] bcast_S_S2048x2048),
    TRef.ternary (TRef.of (T := ⟨S2048x2048, .i1⟩) main_call0_v4) (TRef.of (T := ⟨S2048x2048, .f32⟩) main_call0_v5) (TRef.of (T := ⟨S2048x2048, .f32⟩) main_v2) (TRef.of (T := ⟨S2048x2048, .f32⟩) main_v3) select ]

/-- The buffers the lines of `s0` write. -/
abbrev s0_W : List (Ref sig .tc) := [main_cst, main_v0, main_cst_0, main_v1, main_cst_1, main_v2, main_call0_v0, main_call0_c, main_call0_v1, main_call0_v2, main_call0_v3, main_call0_v4, main_call0_cst, main_call0_v5, main_v3]

set_option maxRecDepth 8192 in
theorem s0_writes : (s0 : List (HloOp τ sig (Elt F))).Forall fun op => op.writes ⊆ (s0_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that `s0` does not write keeps its contents through it. -/
theorem s0_keep (V : Valuation τ sig (Elt F)) (r : Ref sig .tc) (h : r ∉ s0_W) :
    after (s0 (F := F)) V (Proc.devRef .tc r) = V (Proc.devRef .tc r) :=
  after_of_writes_sub s0 V s0_writes h

/-- Lines 15 … 55 of the reference: layer 0. -/
abbrev s1 : List (HloOp τ sig (Elt F)) :=
  [ unary main_arg1 main_v4 ((extractStridedSlice S1x3072x1024 ![0, 0, 0] · slices_S4x3072x1024_S1x3072x1024_0_0_0) : (⟨S4x3072x1024, .f32⟩ : BufTy).Contents (Elt F) → (⟨S1x3072x1024, .f32⟩ : BufTy).Contents (Elt F)),
    reshape main_v4 main_v5 rfl shapeCasts_S1x3072x1024_S3072x1024,
    unary main_v5 main_v6 ((transpose S1024x3072 [1, 0] · transposes_S3072x1024_S1024x3072_1_0) : (⟨S3072x1024, .f32⟩ : BufTy).Contents (Elt F) → (⟨S1024x3072, .f32⟩ : BufTy).Contents (Elt F)),
    binary main_arg0 main_v6 main_v7 ((fun l r => Host.dotGeneral dot_S2048x1024_S1024x3072_S2048x3072_1_0_0_1_n_n none l r) : (⟨S2048x1024, .f32⟩ : BufTy).Contents (Elt F) → (⟨S1024x3072, .f32⟩ : BufTy).Contents (Elt F) → (⟨S2048x3072, .f32⟩ : BufTy).Contents (Elt F)),
    unary main_arg2 main_v8 ((extractStridedSlice S1x3072 ![0, 0] · slices_S4x3072_S1x3072_0_0) : (⟨S4x3072, .f32⟩ : BufTy).Contents (Elt F) → (⟨S1x3072, .f32⟩ : BufTy).Contents (Elt F)),
    reshape main_v8 main_v9 rfl shapeCasts_S1x3072_S3072,
    unary main_v9 main_v10 (broadcastInDim S1x3072 ![1] bcast_S3072_S1x3072_1 : (⟨S3072, .f32⟩ : BufTy).Contents (Elt F) → (⟨S1x3072, .f32⟩ : BufTy).Contents (Elt F)),
    unary main_v10 main_v11 (broadcastInDim S2048x3072 ![0, 1] bcast_S1x3072_S2048x3072_0_1 : (⟨S1x3072, .f32⟩ : BufTy).Contents (Elt F) → (⟨S2048x3072, .f32⟩ : BufTy).Contents (Elt F)),
    binary main_v7 main_v11 main_v12 (addf : (⟨S2048x3072, .f32⟩ : BufTy).Contents (Elt F) → (⟨S2048x3072, .f32⟩ : BufTy).Contents (Elt F) → (⟨S2048x3072, .f32⟩ : BufTy).Contents (Elt F)),
    unary main_v12 main_v13 ((extractStridedSlice S2048x1024 ![0, 0] · slices_S2048x3072_S2048x1024_0_0) : (⟨S2048x3072, .f32⟩ : BufTy).Contents (Elt F) → (⟨S2048x1024, .f32⟩ : BufTy).Contents (Elt F)),
    unary main_v12 main_v14 ((extractStridedSlice S2048x1024 ![0, 1024] · slices_S2048x3072_S2048x1024_0_1024) : (⟨S2048x3072, .f32⟩ : BufTy).Contents (Elt F) → (⟨S2048x1024, .f32⟩ : BufTy).Contents (Elt F)),
    unary main_v12 main_v15 ((extractStridedSlice S2048x1024 ![0, 2048] · slices_S2048x3072_S2048x1024_0_2048) : (⟨S2048x3072, .f32⟩ : BufTy).Contents (Elt F) → (⟨S2048x1024, .f32⟩ : BufTy).Contents (Elt F)),
    unary main_v1 main_v16 (broadcastInDim S2048x1024 ![] bcast_S_S2048x1024 : (⟨S_, .f32⟩ : BufTy).Contents (Elt F) → (⟨S2048x1024, .f32⟩ : BufTy).Contents (Elt F)),
    binary main_v13 main_v16 main_v17 (mulf : (⟨S2048x1024, .f32⟩ : BufTy).Contents (Elt F) → (⟨S2048x1024, .f32⟩ : BufTy).Contents (Elt F) → (⟨S2048x1024, .f32⟩ : BufTy).Contents (Elt F)),
    unary main_v14 main_v18 ((transpose S1024x2048 [1, 0] · transposes_S2048x1024_S1024x2048_1_0) : (⟨S2048x1024, .f32⟩ : BufTy).Contents (Elt F) → (⟨S1024x2048, .f32⟩ : BufTy).Contents (Elt F)),
    binary main_v17 main_v18 main_v19 ((fun l r => Host.dotGeneral dot_S2048x1024_S1024x2048_S2048x2048_1_0_0_1_n_n none l r) : (⟨S2048x1024, .f32⟩ : BufTy).Contents (Elt F) → (⟨S1024x2048, .f32⟩ : BufTy).Contents (Elt F) → (⟨S2048x2048, .f32⟩ : BufTy).Contents (Elt F)),
    binary main_v19 main_v3 main_v20 (addf : (⟨S2048x2048, .f32⟩ : BufTy).Contents (Elt F) → (⟨S2048x2048, .f32⟩ : BufTy).Contents (Elt F) → (⟨S2048x2048, .f32⟩ : BufTy).Contents (Elt F)),
    nullary main_cst_2 (constant S_ .f32 0xFF800000#32),
    binary main_v20 main_cst_2 main_v21 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_3 (constant S_ .f32 0xFF800000#32),
    unary main_cst_3 main_v22 (broadcastInDim S2048 ![] bcast_S_S2048 : (⟨S_, .f32⟩ : BufTy).Contents (Elt F) → (⟨S2048, .f32⟩ : BufTy).Contents (Elt F)),
    binary main_v22 main_v21 main_v23 (maximumf : (⟨S2048, .f32⟩ : BufTy).Contents (Elt F) → (⟨S2048, .f32⟩ : BufTy).Contents (Elt F) → (⟨S2048, .f32⟩ : BufTy).Contents (Elt F)),
    unary main_v23 main_v24 (broadcastInDim S2048x1 ![0] bcast_S2048_S2048x1_0 : (⟨S2048, .f32⟩ : BufTy).Contents (Elt F) → (⟨S2048x1, .f32⟩ : BufTy).Contents (Elt F)),
    unary main_v24 main_v25 (broadcastInDim S2048x2048 ![0, 1] bcast_S2048x1_S2048x2048_0_1 : (⟨S2048x1, .f32⟩ : BufTy).Contents (Elt F) → (⟨S2048x2048, .f32⟩ : BufTy).Contents (Elt F)),
    binary main_v20 main_v25 main_v26 (subf : (⟨S2048x2048, .f32⟩ : BufTy).Contents (Elt F) → (⟨S2048x2048, .f32⟩ : BufTy).Contents (Elt F) → (⟨S2048x2048, .f32⟩ : BufTy).Contents (Elt F)),
    unary main_v26 main_v27 (Host.exp : (⟨S2048x2048, .f32⟩ : BufTy).Contents (Elt F) → (⟨S2048x2048, .f32⟩ : BufTy).Contents (Elt F)),
    nullary main_cst_4 (constant S_ .f32 0x00000000#32),
    binary main_v27 main_cst_4 main_v28 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v28 main_v29 (broadcastInDim S2048x1 ![0] bcast_S2048_S2048x1_0 : (⟨S2048, .f32⟩ : BufTy).Contents (Elt F) → (⟨S2048x1, .f32⟩ : BufTy).Contents (Elt F)),
    unary main_v29 main_v30 (broadcastInDim S2048x2048 ![0, 1] bcast_S2048x1_S2048x2048_0_1 : (⟨S2048x1, .f32⟩ : BufTy).Contents (Elt F) → (⟨S2048x2048, .f32⟩ : BufTy).Contents (Elt F)),
    binary main_v27 main_v30 main_v31 (Host.divf : (⟨S2048x2048, .f32⟩ : BufTy).Contents (Elt F) → (⟨S2048x2048, .f32⟩ : BufTy).Contents (Elt F) → (⟨S2048x2048, .f32⟩ : BufTy).Contents (Elt F)),
    binary main_v31 main_v15 main_v32 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    unary main_arg3 main_v33 ((extractStridedSlice S1x1024x1024 ![0, 0, 0] · slices_S4x1024x1024_S1x1024x1024_0_0_0) : (⟨S4x1024x1024, .f32⟩ : BufTy).Contents (Elt F) → (⟨S1x1024x1024, .f32⟩ : BufTy).Contents (Elt F)),
    reshape main_v33 main_v34 rfl shapeCasts_S1x1024x1024_S1024x1024,
    unary main_v34 main_v35 ((transpose S1024x1024 [1, 0] · transposes_S1024x1024_S1024x1024_1_0) : (⟨S1024x1024, .f32⟩ : BufTy).Contents (Elt F) → (⟨S1024x1024, .f32⟩ : BufTy).Contents (Elt F)),
    binary main_v32 main_v35 main_v36 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_arg4 main_v37 ((extractStridedSlice S1x1024 ![0, 0] · slices_S4x1024_S1x1024_0_0) : (⟨S4x1024, .f32⟩ : BufTy).Contents (Elt F) → (⟨S1x1024, .f32⟩ : BufTy).Contents (Elt F)),
    reshape main_v37 main_v38 rfl shapeCasts_S1x1024_S1024,
    unary main_v38 main_v39 (broadcastInDim S1x1024 ![1] bcast_S1024_S1x1024_1 : (⟨S1024, .f32⟩ : BufTy).Contents (Elt F) → (⟨S1x1024, .f32⟩ : BufTy).Contents (Elt F)),
    unary main_v39 main_v40 (broadcastInDim S2048x1024 ![0, 1] bcast_S1x1024_S2048x1024_0_1 : (⟨S1x1024, .f32⟩ : BufTy).Contents (Elt F) → (⟨S2048x1024, .f32⟩ : BufTy).Contents (Elt F)),
    binary main_v36 main_v40 main_v41 (addf : (⟨S2048x1024, .f32⟩ : BufTy).Contents (Elt F) → (⟨S2048x1024, .f32⟩ : BufTy).Contents (Elt F) → (⟨S2048x1024, .f32⟩ : BufTy).Contents (Elt F)) ]

/-- The buffers the lines of `s1` write. -/
abbrev s1_W : List (Ref sig .tc) := [main_v4, main_v5, main_v6, main_v7, main_v8, main_v9, main_v10, main_v11, main_v12, main_v13, main_v14, main_v15, main_v16, main_v17, main_v18, main_v19, main_v20, main_cst_2, main_v21, main_cst_3, main_v22, main_v23, main_v24, main_v25, main_v26, main_v27, main_cst_4, main_v28, main_v29, main_v30, main_v31, main_v32, main_v33, main_v34, main_v35, main_v36, main_v37, main_v38, main_v39, main_v40, main_v41]

set_option maxRecDepth 8192 in
theorem s1_writes : (s1 : List (HloOp τ sig (Elt F))).Forall fun op => op.writes ⊆ (s1_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that `s1` does not write keeps its contents through it. -/
theorem s1_keep (V : Valuation τ sig (Elt F)) (r : Ref sig .tc) (h : r ∉ s1_W) :
    after (s1 (F := F)) V (Proc.devRef .tc r) = V (Proc.devRef .tc r) :=
  after_of_writes_sub s1 V s1_writes h

/-- Lines 56 … 96 of the reference: layer 1. -/
abbrev s2 : List (HloOp τ sig (Elt F)) :=
  [ unary main_arg1 main_v42 ((extractStridedSlice S1x3072x1024 ![1, 0, 0] · slices_S4x3072x1024_S1x3072x1024_1_0_0) : (⟨S4x3072x1024, .f32⟩ : BufTy).Contents (Elt F) → (⟨S1x3072x1024, .f32⟩ : BufTy).Contents (Elt F)),
    reshape main_v42 main_v43 rfl shapeCasts_S1x3072x1024_S3072x1024,
    unary main_v43 main_v44 ((transpose S1024x3072 [1, 0] · transposes_S3072x1024_S1024x3072_1_0) : (⟨S3072x1024, .f32⟩ : BufTy).Contents (Elt F) → (⟨S1024x3072, .f32⟩ : BufTy).Contents (Elt F)),
    binary main_v41 main_v44 main_v45 ((fun l r => Host.dotGeneral dot_S2048x1024_S1024x3072_S2048x3072_1_0_0_1_n_n none l r) : (⟨S2048x1024, .f32⟩ : BufTy).Contents (Elt F) → (⟨S1024x3072, .f32⟩ : BufTy).Contents (Elt F) → (⟨S2048x3072, .f32⟩ : BufTy).Contents (Elt F)),
    unary main_arg2 main_v46 ((extractStridedSlice S1x3072 ![1, 0] · slices_S4x3072_S1x3072_1_0) : (⟨S4x3072, .f32⟩ : BufTy).Contents (Elt F) → (⟨S1x3072, .f32⟩ : BufTy).Contents (Elt F)),
    reshape main_v46 main_v47 rfl shapeCasts_S1x3072_S3072,
    unary main_v47 main_v48 (broadcastInDim S1x3072 ![1] bcast_S3072_S1x3072_1 : (⟨S3072, .f32⟩ : BufTy).Contents (Elt F) → (⟨S1x3072, .f32⟩ : BufTy).Contents (Elt F)),
    unary main_v48 main_v49 (broadcastInDim S2048x3072 ![0, 1] bcast_S1x3072_S2048x3072_0_1 : (⟨S1x3072, .f32⟩ : BufTy).Contents (Elt F) → (⟨S2048x3072, .f32⟩ : BufTy).Contents (Elt F)),
    binary main_v45 main_v49 main_v50 (addf : (⟨S2048x3072, .f32⟩ : BufTy).Contents (Elt F) → (⟨S2048x3072, .f32⟩ : BufTy).Contents (Elt F) → (⟨S2048x3072, .f32⟩ : BufTy).Contents (Elt F)),
    unary main_v50 main_v51 ((extractStridedSlice S2048x1024 ![0, 0] · slices_S2048x3072_S2048x1024_0_0) : (⟨S2048x3072, .f32⟩ : BufTy).Contents (Elt F) → (⟨S2048x1024, .f32⟩ : BufTy).Contents (Elt F)),
    unary main_v50 main_v52 ((extractStridedSlice S2048x1024 ![0, 1024] · slices_S2048x3072_S2048x1024_0_1024) : (⟨S2048x3072, .f32⟩ : BufTy).Contents (Elt F) → (⟨S2048x1024, .f32⟩ : BufTy).Contents (Elt F)),
    unary main_v50 main_v53 ((extractStridedSlice S2048x1024 ![0, 2048] · slices_S2048x3072_S2048x1024_0_2048) : (⟨S2048x3072, .f32⟩ : BufTy).Contents (Elt F) → (⟨S2048x1024, .f32⟩ : BufTy).Contents (Elt F)),
    unary main_v1 main_v54 (broadcastInDim S2048x1024 ![] bcast_S_S2048x1024 : (⟨S_, .f32⟩ : BufTy).Contents (Elt F) → (⟨S2048x1024, .f32⟩ : BufTy).Contents (Elt F)),
    binary main_v51 main_v54 main_v55 (mulf : (⟨S2048x1024, .f32⟩ : BufTy).Contents (Elt F) → (⟨S2048x1024, .f32⟩ : BufTy).Contents (Elt F) → (⟨S2048x1024, .f32⟩ : BufTy).Contents (Elt F)),
    unary main_v52 main_v56 ((transpose S1024x2048 [1, 0] · transposes_S2048x1024_S1024x2048_1_0) : (⟨S2048x1024, .f32⟩ : BufTy).Contents (Elt F) → (⟨S1024x2048, .f32⟩ : BufTy).Contents (Elt F)),
    binary main_v55 main_v56 main_v57 ((fun l r => Host.dotGeneral dot_S2048x1024_S1024x2048_S2048x2048_1_0_0_1_n_n none l r) : (⟨S2048x1024, .f32⟩ : BufTy).Contents (Elt F) → (⟨S1024x2048, .f32⟩ : BufTy).Contents (Elt F) → (⟨S2048x2048, .f32⟩ : BufTy).Contents (Elt F)),
    binary main_v57 main_v3 main_v58 (addf : (⟨S2048x2048, .f32⟩ : BufTy).Contents (Elt F) → (⟨S2048x2048, .f32⟩ : BufTy).Contents (Elt F) → (⟨S2048x2048, .f32⟩ : BufTy).Contents (Elt F)),
    nullary main_cst_5 (constant S_ .f32 0xFF800000#32),
    binary main_v58 main_cst_5 main_v59 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_6 (constant S_ .f32 0xFF800000#32),
    unary main_cst_6 main_v60 (broadcastInDim S2048 ![] bcast_S_S2048 : (⟨S_, .f32⟩ : BufTy).Contents (Elt F) → (⟨S2048, .f32⟩ : BufTy).Contents (Elt F)),
    binary main_v60 main_v59 main_v61 (maximumf : (⟨S2048, .f32⟩ : BufTy).Contents (Elt F) → (⟨S2048, .f32⟩ : BufTy).Contents (Elt F) → (⟨S2048, .f32⟩ : BufTy).Contents (Elt F)),
    unary main_v61 main_v62 (broadcastInDim S2048x1 ![0] bcast_S2048_S2048x1_0 : (⟨S2048, .f32⟩ : BufTy).Contents (Elt F) → (⟨S2048x1, .f32⟩ : BufTy).Contents (Elt F)),
    unary main_v62 main_v63 (broadcastInDim S2048x2048 ![0, 1] bcast_S2048x1_S2048x2048_0_1 : (⟨S2048x1, .f32⟩ : BufTy).Contents (Elt F) → (⟨S2048x2048, .f32⟩ : BufTy).Contents (Elt F)),
    binary main_v58 main_v63 main_v64 (subf : (⟨S2048x2048, .f32⟩ : BufTy).Contents (Elt F) → (⟨S2048x2048, .f32⟩ : BufTy).Contents (Elt F) → (⟨S2048x2048, .f32⟩ : BufTy).Contents (Elt F)),
    unary main_v64 main_v65 (Host.exp : (⟨S2048x2048, .f32⟩ : BufTy).Contents (Elt F) → (⟨S2048x2048, .f32⟩ : BufTy).Contents (Elt F)),
    nullary main_cst_7 (constant S_ .f32 0x00000000#32),
    binary main_v65 main_cst_7 main_v66 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v66 main_v67 (broadcastInDim S2048x1 ![0] bcast_S2048_S2048x1_0 : (⟨S2048, .f32⟩ : BufTy).Contents (Elt F) → (⟨S2048x1, .f32⟩ : BufTy).Contents (Elt F)),
    unary main_v67 main_v68 (broadcastInDim S2048x2048 ![0, 1] bcast_S2048x1_S2048x2048_0_1 : (⟨S2048x1, .f32⟩ : BufTy).Contents (Elt F) → (⟨S2048x2048, .f32⟩ : BufTy).Contents (Elt F)),
    binary main_v65 main_v68 main_v69 (Host.divf : (⟨S2048x2048, .f32⟩ : BufTy).Contents (Elt F) → (⟨S2048x2048, .f32⟩ : BufTy).Contents (Elt F) → (⟨S2048x2048, .f32⟩ : BufTy).Contents (Elt F)),
    binary main_v69 main_v53 main_v70 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    unary main_arg3 main_v71 ((extractStridedSlice S1x1024x1024 ![1, 0, 0] · slices_S4x1024x1024_S1x1024x1024_1_0_0) : (⟨S4x1024x1024, .f32⟩ : BufTy).Contents (Elt F) → (⟨S1x1024x1024, .f32⟩ : BufTy).Contents (Elt F)),
    reshape main_v71 main_v72 rfl shapeCasts_S1x1024x1024_S1024x1024,
    unary main_v72 main_v73 ((transpose S1024x1024 [1, 0] · transposes_S1024x1024_S1024x1024_1_0) : (⟨S1024x1024, .f32⟩ : BufTy).Contents (Elt F) → (⟨S1024x1024, .f32⟩ : BufTy).Contents (Elt F)),
    binary main_v70 main_v73 main_v74 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_arg4 main_v75 ((extractStridedSlice S1x1024 ![1, 0] · slices_S4x1024_S1x1024_1_0) : (⟨S4x1024, .f32⟩ : BufTy).Contents (Elt F) → (⟨S1x1024, .f32⟩ : BufTy).Contents (Elt F)),
    reshape main_v75 main_v76 rfl shapeCasts_S1x1024_S1024,
    unary main_v76 main_v77 (broadcastInDim S1x1024 ![1] bcast_S1024_S1x1024_1 : (⟨S1024, .f32⟩ : BufTy).Contents (Elt F) → (⟨S1x1024, .f32⟩ : BufTy).Contents (Elt F)),
    unary main_v77 main_v78 (broadcastInDim S2048x1024 ![0, 1] bcast_S1x1024_S2048x1024_0_1 : (⟨S1x1024, .f32⟩ : BufTy).Contents (Elt F) → (⟨S2048x1024, .f32⟩ : BufTy).Contents (Elt F)),
    binary main_v74 main_v78 main_v79 (addf : (⟨S2048x1024, .f32⟩ : BufTy).Contents (Elt F) → (⟨S2048x1024, .f32⟩ : BufTy).Contents (Elt F) → (⟨S2048x1024, .f32⟩ : BufTy).Contents (Elt F)) ]

/-- The buffers the lines of `s2` write. -/
abbrev s2_W : List (Ref sig .tc) := [main_v42, main_v43, main_v44, main_v45, main_v46, main_v47, main_v48, main_v49, main_v50, main_v51, main_v52, main_v53, main_v54, main_v55, main_v56, main_v57, main_v58, main_cst_5, main_v59, main_cst_6, main_v60, main_v61, main_v62, main_v63, main_v64, main_v65, main_cst_7, main_v66, main_v67, main_v68, main_v69, main_v70, main_v71, main_v72, main_v73, main_v74, main_v75, main_v76, main_v77, main_v78, main_v79]

set_option maxRecDepth 8192 in
theorem s2_writes : (s2 : List (HloOp τ sig (Elt F))).Forall fun op => op.writes ⊆ (s2_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that `s2` does not write keeps its contents through it. -/
theorem s2_keep (V : Valuation τ sig (Elt F)) (r : Ref sig .tc) (h : r ∉ s2_W) :
    after (s2 (F := F)) V (Proc.devRef .tc r) = V (Proc.devRef .tc r) :=
  after_of_writes_sub s2 V s2_writes h

/-- Lines 97 … 137 of the reference: layer 2. -/
abbrev s3 : List (HloOp τ sig (Elt F)) :=
  [ unary main_arg1 main_v80 ((extractStridedSlice S1x3072x1024 ![2, 0, 0] · slices_S4x3072x1024_S1x3072x1024_2_0_0) : (⟨S4x3072x1024, .f32⟩ : BufTy).Contents (Elt F) → (⟨S1x3072x1024, .f32⟩ : BufTy).Contents (Elt F)),
    reshape main_v80 main_v81 rfl shapeCasts_S1x3072x1024_S3072x1024,
    unary main_v81 main_v82 ((transpose S1024x3072 [1, 0] · transposes_S3072x1024_S1024x3072_1_0) : (⟨S3072x1024, .f32⟩ : BufTy).Contents (Elt F) → (⟨S1024x3072, .f32⟩ : BufTy).Contents (Elt F)),
    binary main_v79 main_v82 main_v83 ((fun l r => Host.dotGeneral dot_S2048x1024_S1024x3072_S2048x3072_1_0_0_1_n_n none l r) : (⟨S2048x1024, .f32⟩ : BufTy).Contents (Elt F) → (⟨S1024x3072, .f32⟩ : BufTy).Contents (Elt F) → (⟨S2048x3072, .f32⟩ : BufTy).Contents (Elt F)),
    unary main_arg2 main_v84 ((extractStridedSlice S1x3072 ![2, 0] · slices_S4x3072_S1x3072_2_0) : (⟨S4x3072, .f32⟩ : BufTy).Contents (Elt F) → (⟨S1x3072, .f32⟩ : BufTy).Contents (Elt F)),
    reshape main_v84 main_v85 rfl shapeCasts_S1x3072_S3072,
    unary main_v85 main_v86 (broadcastInDim S1x3072 ![1] bcast_S3072_S1x3072_1 : (⟨S3072, .f32⟩ : BufTy).Contents (Elt F) → (⟨S1x3072, .f32⟩ : BufTy).Contents (Elt F)),
    unary main_v86 main_v87 (broadcastInDim S2048x3072 ![0, 1] bcast_S1x3072_S2048x3072_0_1 : (⟨S1x3072, .f32⟩ : BufTy).Contents (Elt F) → (⟨S2048x3072, .f32⟩ : BufTy).Contents (Elt F)),
    binary main_v83 main_v87 main_v88 (addf : (⟨S2048x3072, .f32⟩ : BufTy).Contents (Elt F) → (⟨S2048x3072, .f32⟩ : BufTy).Contents (Elt F) → (⟨S2048x3072, .f32⟩ : BufTy).Contents (Elt F)),
    unary main_v88 main_v89 ((extractStridedSlice S2048x1024 ![0, 0] · slices_S2048x3072_S2048x1024_0_0) : (⟨S2048x3072, .f32⟩ : BufTy).Contents (Elt F) → (⟨S2048x1024, .f32⟩ : BufTy).Contents (Elt F)),
    unary main_v88 main_v90 ((extractStridedSlice S2048x1024 ![0, 1024] · slices_S2048x3072_S2048x1024_0_1024) : (⟨S2048x3072, .f32⟩ : BufTy).Contents (Elt F) → (⟨S2048x1024, .f32⟩ : BufTy).Contents (Elt F)),
    unary main_v88 main_v91 ((extractStridedSlice S2048x1024 ![0, 2048] · slices_S2048x3072_S2048x1024_0_2048) : (⟨S2048x3072, .f32⟩ : BufTy).Contents (Elt F) → (⟨S2048x1024, .f32⟩ : BufTy).Contents (Elt F)),
    unary main_v1 main_v92 (broadcastInDim S2048x1024 ![] bcast_S_S2048x1024 : (⟨S_, .f32⟩ : BufTy).Contents (Elt F) → (⟨S2048x1024, .f32⟩ : BufTy).Contents (Elt F)),
    binary main_v89 main_v92 main_v93 (mulf : (⟨S2048x1024, .f32⟩ : BufTy).Contents (Elt F) → (⟨S2048x1024, .f32⟩ : BufTy).Contents (Elt F) → (⟨S2048x1024, .f32⟩ : BufTy).Contents (Elt F)),
    unary main_v90 main_v94 ((transpose S1024x2048 [1, 0] · transposes_S2048x1024_S1024x2048_1_0) : (⟨S2048x1024, .f32⟩ : BufTy).Contents (Elt F) → (⟨S1024x2048, .f32⟩ : BufTy).Contents (Elt F)),
    binary main_v93 main_v94 main_v95 ((fun l r => Host.dotGeneral dot_S2048x1024_S1024x2048_S2048x2048_1_0_0_1_n_n none l r) : (⟨S2048x1024, .f32⟩ : BufTy).Contents (Elt F) → (⟨S1024x2048, .f32⟩ : BufTy).Contents (Elt F) → (⟨S2048x2048, .f32⟩ : BufTy).Contents (Elt F)),
    binary main_v95 main_v3 main_v96 (addf : (⟨S2048x2048, .f32⟩ : BufTy).Contents (Elt F) → (⟨S2048x2048, .f32⟩ : BufTy).Contents (Elt F) → (⟨S2048x2048, .f32⟩ : BufTy).Contents (Elt F)),
    nullary main_cst_8 (constant S_ .f32 0xFF800000#32),
    binary main_v96 main_cst_8 main_v97 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_9 (constant S_ .f32 0xFF800000#32),
    unary main_cst_9 main_v98 (broadcastInDim S2048 ![] bcast_S_S2048 : (⟨S_, .f32⟩ : BufTy).Contents (Elt F) → (⟨S2048, .f32⟩ : BufTy).Contents (Elt F)),
    binary main_v98 main_v97 main_v99 (maximumf : (⟨S2048, .f32⟩ : BufTy).Contents (Elt F) → (⟨S2048, .f32⟩ : BufTy).Contents (Elt F) → (⟨S2048, .f32⟩ : BufTy).Contents (Elt F)),
    unary main_v99 main_v100 (broadcastInDim S2048x1 ![0] bcast_S2048_S2048x1_0 : (⟨S2048, .f32⟩ : BufTy).Contents (Elt F) → (⟨S2048x1, .f32⟩ : BufTy).Contents (Elt F)),
    unary main_v100 main_v101 (broadcastInDim S2048x2048 ![0, 1] bcast_S2048x1_S2048x2048_0_1 : (⟨S2048x1, .f32⟩ : BufTy).Contents (Elt F) → (⟨S2048x2048, .f32⟩ : BufTy).Contents (Elt F)),
    binary main_v96 main_v101 main_v102 (subf : (⟨S2048x2048, .f32⟩ : BufTy).Contents (Elt F) → (⟨S2048x2048, .f32⟩ : BufTy).Contents (Elt F) → (⟨S2048x2048, .f32⟩ : BufTy).Contents (Elt F)),
    unary main_v102 main_v103 (Host.exp : (⟨S2048x2048, .f32⟩ : BufTy).Contents (Elt F) → (⟨S2048x2048, .f32⟩ : BufTy).Contents (Elt F)),
    nullary main_cst_10 (constant S_ .f32 0x00000000#32),
    binary main_v103 main_cst_10 main_v104 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v104 main_v105 (broadcastInDim S2048x1 ![0] bcast_S2048_S2048x1_0 : (⟨S2048, .f32⟩ : BufTy).Contents (Elt F) → (⟨S2048x1, .f32⟩ : BufTy).Contents (Elt F)),
    unary main_v105 main_v106 (broadcastInDim S2048x2048 ![0, 1] bcast_S2048x1_S2048x2048_0_1 : (⟨S2048x1, .f32⟩ : BufTy).Contents (Elt F) → (⟨S2048x2048, .f32⟩ : BufTy).Contents (Elt F)),
    binary main_v103 main_v106 main_v107 (Host.divf : (⟨S2048x2048, .f32⟩ : BufTy).Contents (Elt F) → (⟨S2048x2048, .f32⟩ : BufTy).Contents (Elt F) → (⟨S2048x2048, .f32⟩ : BufTy).Contents (Elt F)),
    binary main_v107 main_v91 main_v108 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    unary main_arg3 main_v109 ((extractStridedSlice S1x1024x1024 ![2, 0, 0] · slices_S4x1024x1024_S1x1024x1024_2_0_0) : (⟨S4x1024x1024, .f32⟩ : BufTy).Contents (Elt F) → (⟨S1x1024x1024, .f32⟩ : BufTy).Contents (Elt F)),
    reshape main_v109 main_v110 rfl shapeCasts_S1x1024x1024_S1024x1024,
    unary main_v110 main_v111 ((transpose S1024x1024 [1, 0] · transposes_S1024x1024_S1024x1024_1_0) : (⟨S1024x1024, .f32⟩ : BufTy).Contents (Elt F) → (⟨S1024x1024, .f32⟩ : BufTy).Contents (Elt F)),
    binary main_v108 main_v111 main_v112 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_arg4 main_v113 ((extractStridedSlice S1x1024 ![2, 0] · slices_S4x1024_S1x1024_2_0) : (⟨S4x1024, .f32⟩ : BufTy).Contents (Elt F) → (⟨S1x1024, .f32⟩ : BufTy).Contents (Elt F)),
    reshape main_v113 main_v114 rfl shapeCasts_S1x1024_S1024,
    unary main_v114 main_v115 (broadcastInDim S1x1024 ![1] bcast_S1024_S1x1024_1 : (⟨S1024, .f32⟩ : BufTy).Contents (Elt F) → (⟨S1x1024, .f32⟩ : BufTy).Contents (Elt F)),
    unary main_v115 main_v116 (broadcastInDim S2048x1024 ![0, 1] bcast_S1x1024_S2048x1024_0_1 : (⟨S1x1024, .f32⟩ : BufTy).Contents (Elt F) → (⟨S2048x1024, .f32⟩ : BufTy).Contents (Elt F)),
    binary main_v112 main_v116 main_v117 (addf : (⟨S2048x1024, .f32⟩ : BufTy).Contents (Elt F) → (⟨S2048x1024, .f32⟩ : BufTy).Contents (Elt F) → (⟨S2048x1024, .f32⟩ : BufTy).Contents (Elt F)) ]

/-- The buffers the lines of `s3` write. -/
abbrev s3_W : List (Ref sig .tc) := [main_v80, main_v81, main_v82, main_v83, main_v84, main_v85, main_v86, main_v87, main_v88, main_v89, main_v90, main_v91, main_v92, main_v93, main_v94, main_v95, main_v96, main_cst_8, main_v97, main_cst_9, main_v98, main_v99, main_v100, main_v101, main_v102, main_v103, main_cst_10, main_v104, main_v105, main_v106, main_v107, main_v108, main_v109, main_v110, main_v111, main_v112, main_v113, main_v114, main_v115, main_v116, main_v117]

set_option maxRecDepth 8192 in
theorem s3_writes : (s3 : List (HloOp τ sig (Elt F))).Forall fun op => op.writes ⊆ (s3_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that `s3` does not write keeps its contents through it. -/
theorem s3_keep (V : Valuation τ sig (Elt F)) (r : Ref sig .tc) (h : r ∉ s3_W) :
    after (s3 (F := F)) V (Proc.devRef .tc r) = V (Proc.devRef .tc r) :=
  after_of_writes_sub s3 V s3_writes h

/-- Lines 138 … 178 of the reference: layer 3. -/
abbrev s4 : List (HloOp τ sig (Elt F)) :=
  [ unary main_arg1 main_v118 ((extractStridedSlice S1x3072x1024 ![3, 0, 0] · slices_S4x3072x1024_S1x3072x1024_3_0_0) : (⟨S4x3072x1024, .f32⟩ : BufTy).Contents (Elt F) → (⟨S1x3072x1024, .f32⟩ : BufTy).Contents (Elt F)),
    reshape main_v118 main_v119 rfl shapeCasts_S1x3072x1024_S3072x1024,
    unary main_v119 main_v120 ((transpose S1024x3072 [1, 0] · transposes_S3072x1024_S1024x3072_1_0) : (⟨S3072x1024, .f32⟩ : BufTy).Contents (Elt F) → (⟨S1024x3072, .f32⟩ : BufTy).Contents (Elt F)),
    binary main_v117 main_v120 main_v121 ((fun l r => Host.dotGeneral dot_S2048x1024_S1024x3072_S2048x3072_1_0_0_1_n_n none l r) : (⟨S2048x1024, .f32⟩ : BufTy).Contents (Elt F) → (⟨S1024x3072, .f32⟩ : BufTy).Contents (Elt F) → (⟨S2048x3072, .f32⟩ : BufTy).Contents (Elt F)),
    unary main_arg2 main_v122 ((extractStridedSlice S1x3072 ![3, 0] · slices_S4x3072_S1x3072_3_0) : (⟨S4x3072, .f32⟩ : BufTy).Contents (Elt F) → (⟨S1x3072, .f32⟩ : BufTy).Contents (Elt F)),
    reshape main_v122 main_v123 rfl shapeCasts_S1x3072_S3072,
    unary main_v123 main_v124 (broadcastInDim S1x3072 ![1] bcast_S3072_S1x3072_1 : (⟨S3072, .f32⟩ : BufTy).Contents (Elt F) → (⟨S1x3072, .f32⟩ : BufTy).Contents (Elt F)),
    unary main_v124 main_v125 (broadcastInDim S2048x3072 ![0, 1] bcast_S1x3072_S2048x3072_0_1 : (⟨S1x3072, .f32⟩ : BufTy).Contents (Elt F) → (⟨S2048x3072, .f32⟩ : BufTy).Contents (Elt F)),
    binary main_v121 main_v125 main_v126 (addf : (⟨S2048x3072, .f32⟩ : BufTy).Contents (Elt F) → (⟨S2048x3072, .f32⟩ : BufTy).Contents (Elt F) → (⟨S2048x3072, .f32⟩ : BufTy).Contents (Elt F)),
    unary main_v126 main_v127 ((extractStridedSlice S2048x1024 ![0, 0] · slices_S2048x3072_S2048x1024_0_0) : (⟨S2048x3072, .f32⟩ : BufTy).Contents (Elt F) → (⟨S2048x1024, .f32⟩ : BufTy).Contents (Elt F)),
    unary main_v126 main_v128 ((extractStridedSlice S2048x1024 ![0, 1024] · slices_S2048x3072_S2048x1024_0_1024) : (⟨S2048x3072, .f32⟩ : BufTy).Contents (Elt F) → (⟨S2048x1024, .f32⟩ : BufTy).Contents (Elt F)),
    unary main_v126 main_v129 ((extractStridedSlice S2048x1024 ![0, 2048] · slices_S2048x3072_S2048x1024_0_2048) : (⟨S2048x3072, .f32⟩ : BufTy).Contents (Elt F) → (⟨S2048x1024, .f32⟩ : BufTy).Contents (Elt F)),
    unary main_v1 main_v130 (broadcastInDim S2048x1024 ![] bcast_S_S2048x1024 : (⟨S_, .f32⟩ : BufTy).Contents (Elt F) → (⟨S2048x1024, .f32⟩ : BufTy).Contents (Elt F)),
    binary main_v127 main_v130 main_v131 (mulf : (⟨S2048x1024, .f32⟩ : BufTy).Contents (Elt F) → (⟨S2048x1024, .f32⟩ : BufTy).Contents (Elt F) → (⟨S2048x1024, .f32⟩ : BufTy).Contents (Elt F)),
    unary main_v128 main_v132 ((transpose S1024x2048 [1, 0] · transposes_S2048x1024_S1024x2048_1_0) : (⟨S2048x1024, .f32⟩ : BufTy).Contents (Elt F) → (⟨S1024x2048, .f32⟩ : BufTy).Contents (Elt F)),
    binary main_v131 main_v132 main_v133 ((fun l r => Host.dotGeneral dot_S2048x1024_S1024x2048_S2048x2048_1_0_0_1_n_n none l r) : (⟨S2048x1024, .f32⟩ : BufTy).Contents (Elt F) → (⟨S1024x2048, .f32⟩ : BufTy).Contents (Elt F) → (⟨S2048x2048, .f32⟩ : BufTy).Contents (Elt F)),
    binary main_v133 main_v3 main_v134 (addf : (⟨S2048x2048, .f32⟩ : BufTy).Contents (Elt F) → (⟨S2048x2048, .f32⟩ : BufTy).Contents (Elt F) → (⟨S2048x2048, .f32⟩ : BufTy).Contents (Elt F)),
    nullary main_cst_11 (constant S_ .f32 0xFF800000#32),
    binary main_v134 main_cst_11 main_v135 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_12 (constant S_ .f32 0xFF800000#32),
    unary main_cst_12 main_v136 (broadcastInDim S2048 ![] bcast_S_S2048 : (⟨S_, .f32⟩ : BufTy).Contents (Elt F) → (⟨S2048, .f32⟩ : BufTy).Contents (Elt F)),
    binary main_v136 main_v135 main_v137 (maximumf : (⟨S2048, .f32⟩ : BufTy).Contents (Elt F) → (⟨S2048, .f32⟩ : BufTy).Contents (Elt F) → (⟨S2048, .f32⟩ : BufTy).Contents (Elt F)),
    unary main_v137 main_v138 (broadcastInDim S2048x1 ![0] bcast_S2048_S2048x1_0 : (⟨S2048, .f32⟩ : BufTy).Contents (Elt F) → (⟨S2048x1, .f32⟩ : BufTy).Contents (Elt F)),
    unary main_v138 main_v139 (broadcastInDim S2048x2048 ![0, 1] bcast_S2048x1_S2048x2048_0_1 : (⟨S2048x1, .f32⟩ : BufTy).Contents (Elt F) → (⟨S2048x2048, .f32⟩ : BufTy).Contents (Elt F)),
    binary main_v134 main_v139 main_v140 (subf : (⟨S2048x2048, .f32⟩ : BufTy).Contents (Elt F) → (⟨S2048x2048, .f32⟩ : BufTy).Contents (Elt F) → (⟨S2048x2048, .f32⟩ : BufTy).Contents (Elt F)),
    unary main_v140 main_v141 (Host.exp : (⟨S2048x2048, .f32⟩ : BufTy).Contents (Elt F) → (⟨S2048x2048, .f32⟩ : BufTy).Contents (Elt F)),
    nullary main_cst_13 (constant S_ .f32 0x00000000#32),
    binary main_v141 main_cst_13 main_v142 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v142 main_v143 (broadcastInDim S2048x1 ![0] bcast_S2048_S2048x1_0 : (⟨S2048, .f32⟩ : BufTy).Contents (Elt F) → (⟨S2048x1, .f32⟩ : BufTy).Contents (Elt F)),
    unary main_v143 main_v144 (broadcastInDim S2048x2048 ![0, 1] bcast_S2048x1_S2048x2048_0_1 : (⟨S2048x1, .f32⟩ : BufTy).Contents (Elt F) → (⟨S2048x2048, .f32⟩ : BufTy).Contents (Elt F)),
    binary main_v141 main_v144 main_v145 (Host.divf : (⟨S2048x2048, .f32⟩ : BufTy).Contents (Elt F) → (⟨S2048x2048, .f32⟩ : BufTy).Contents (Elt F) → (⟨S2048x2048, .f32⟩ : BufTy).Contents (Elt F)),
    binary main_v145 main_v129 main_v146 ((fun l r => Host.dotGeneral dot_S2048x2048_S2048x1024_S2048x1024_1_0_0_1_n_n none l r) : (⟨S2048x2048, .f32⟩ : BufTy).Contents (Elt F) → (⟨S2048x1024, .f32⟩ : BufTy).Contents (Elt F) → (⟨S2048x1024, .f32⟩ : BufTy).Contents (Elt F)),
    unary main_arg3 main_v147 ((extractStridedSlice S1x1024x1024 ![3, 0, 0] · slices_S4x1024x1024_S1x1024x1024_3_0_0) : (⟨S4x1024x1024, .f32⟩ : BufTy).Contents (Elt F) → (⟨S1x1024x1024, .f32⟩ : BufTy).Contents (Elt F)),
    reshape main_v147 main_v148 rfl shapeCasts_S1x1024x1024_S1024x1024,
    unary main_v148 main_v149 ((transpose S1024x1024 [1, 0] · transposes_S1024x1024_S1024x1024_1_0) : (⟨S1024x1024, .f32⟩ : BufTy).Contents (Elt F) → (⟨S1024x1024, .f32⟩ : BufTy).Contents (Elt F)),
    binary main_v146 main_v149 main_v150 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_arg4 main_v151 ((extractStridedSlice S1x1024 ![3, 0] · slices_S4x1024_S1x1024_3_0) : (⟨S4x1024, .f32⟩ : BufTy).Contents (Elt F) → (⟨S1x1024, .f32⟩ : BufTy).Contents (Elt F)),
    reshape main_v151 main_v152 rfl shapeCasts_S1x1024_S1024,
    unary main_v152 main_v153 (broadcastInDim S1x1024 ![1] bcast_S1024_S1x1024_1 : (⟨S1024, .f32⟩ : BufTy).Contents (Elt F) → (⟨S1x1024, .f32⟩ : BufTy).Contents (Elt F)),
    unary main_v153 main_v154 (broadcastInDim S2048x1024 ![0, 1] bcast_S1x1024_S2048x1024_0_1 : (⟨S1x1024, .f32⟩ : BufTy).Contents (Elt F) → (⟨S2048x1024, .f32⟩ : BufTy).Contents (Elt F)),
    binary main_v150 main_v154 main_v155 (addf : (⟨S2048x1024, .f32⟩ : BufTy).Contents (Elt F) → (⟨S2048x1024, .f32⟩ : BufTy).Contents (Elt F) → (⟨S2048x1024, .f32⟩ : BufTy).Contents (Elt F)) ]

/-- The buffers the lines of `s4` write. -/
abbrev s4_W : List (Ref sig .tc) := [main_v118, main_v119, main_v120, main_v121, main_v122, main_v123, main_v124, main_v125, main_v126, main_v127, main_v128, main_v129, main_v130, main_v131, main_v132, main_v133, main_v134, main_cst_11, main_v135, main_cst_12, main_v136, main_v137, main_v138, main_v139, main_v140, main_v141, main_cst_13, main_v142, main_v143, main_v144, main_v145, main_v146, main_v147, main_v148, main_v149, main_v150, main_v151, main_v152, main_v153, main_v154, main_v155]

set_option maxRecDepth 8192 in
theorem s4_writes : (s4 : List (HloOp τ sig (Elt F))).Forall fun op => op.writes ⊆ (s4_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that `s4` does not write keeps its contents through it. -/
theorem s4_keep (V : Valuation τ sig (Elt F)) (r : Ref sig .tc) (h : r ∉ s4_W) :
    after (s4 (F := F)) V (Proc.devRef .tc r) = V (Proc.devRef .tc r) :=
  after_of_writes_sub s4 V s4_writes h

/-- Lines 179 … 188 of the reference: the epilogue (stack the four weight matrices, sum, divide). -/
abbrev s5 : List (HloOp τ sig (Elt F)) :=
  [ unary main_v31 main_v156 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v69 main_v157 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v107 main_v158 (broadcastInDim S1x2048x2048 ![1, 2] bcast_S2048x2048_S1x2048x2048_1_2 : (⟨S2048x2048, .f32⟩ : BufTy).Contents (Elt F) → (⟨S1x2048x2048, .f32⟩ : BufTy).Contents (Elt F)),
    unary main_v145 main_v159 (broadcastInDim S1x2048x2048 ![1, 2] bcast_S2048x2048_S1x2048x2048_1_2 : (⟨S2048x2048, .f32⟩ : BufTy).Contents (Elt F) → (⟨S1x2048x2048, .f32⟩ : BufTy).Contents (Elt F)),
    nary ![main_v156, main_v157, main_v158, main_v159] main_v160 (fun u => concatenate S4x2048x2048 0 [⟨S1x2048x2048, u 0⟩, ⟨S1x2048x2048, u 1⟩, ⟨S1x2048x2048, u 2⟩, ⟨S1x2048x2048, u 3⟩] concatenates_S1x2048x2048_S1x2048x2048_S1x2048x2048_S1x2048x2048_S4x2048x2048_d0),
    nullary main_cst_14 (constant S_ .f32 0x00000000#32),
    binary main_v160 main_cst_14 main_v161 ((fun x v => Host.reduceAdd x v reducesTo_S4x2048x2048_S2048x2048_d0 h_S_) : (⟨S4x2048x2048, .f32⟩ : BufTy).Contents (Elt F) → (⟨S_, .f32⟩ : BufTy).Contents (Elt F) → (⟨S2048x2048, .f32⟩ : BufTy).Contents (Elt F)),
    nullary main_cst_15 (constant S_ .f32 0x40800000#32),
    unary main_cst_15 main_v162 (broadcastInDim S2048x2048 ![] bcast_S_S2048x2048 : (⟨S_, .f32⟩ : BufTy).Contents (Elt F) → (⟨S2048x2048, .f32⟩ : BufTy).Contents (Elt F)),
    binary main_v161 main_v162 main_v163 (Host.divf : (⟨S2048x2048, .f32⟩ : BufTy).Contents (Elt F) → (⟨S2048x2048, .f32⟩ : BufTy).Contents (Elt F) → (⟨S2048x2048, .f32⟩ : BufTy).Contents (Elt F)) ]

/-- The buffers the lines of `s5` write. -/
abbrev s5_W : List (Ref sig .tc) := [main_v156, main_v157, main_v158, main_v159, main_v160, main_cst_14, main_v161, main_cst_15, main_v162, main_v163]

set_option maxRecDepth 8192 in
theorem s5_writes : (s5 : List (HloOp τ sig (Elt F))).Forall fun op => op.writes ⊆ (s5_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that `s5` does not write keeps its contents through it. -/
theorem s5_keep (V : Valuation τ sig (Elt F)) (r : Ref sig .tc) (h : r ∉ s5_W) :
    after (s5 (F := F)) V (Proc.devRef .tc r) = V (Proc.devRef .tc r) :=
  after_of_writes_sub s5 V s5_writes h

end Cert.RefSide

end
-- ==== Proof.RefWalkV0.lean ====
/-
  The prologue read back: after its fifteen lines the scale buffer holds `1 / sqrt 1024` and the mask buffer the
  causal mask, as the stage functions of the reference spell them. Every line of the prologue starts from constants, so
  nothing is asked of the contents before it.
-/
import proofs.«101734_j68264210202743_2_alg».proof.Proof.RefWalkOps
import proofs.«101734_j68264210202743_2_alg».proof.Proof.RefReadP

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The scale after the prologue. -/
theorem s0_main_v1 (V : Valuation τ sig (Elt F)) :
    after (s0 (F := F)) V (Proc.devRef .tc main_v1) = ReadP.val_main_v1 (F := F) := by
  after_results_simp
  simp only [ReadP.val_main_cst, ReadP.val_main_v0, ReadP.val_main_cst_0, ReadP.val_main_v1, ReadP.val_main_cst_1, ReadP.val_main_v2, ReadP.val_main_call0_v0, ReadP.val_main_call0_c, ReadP.val_main_call0_v1, ReadP.val_main_call0_v2, ReadP.val_main_call0_v3, ReadP.val_main_call0_v4, ReadP.val_main_call0_cst, ReadP.val_main_call0_v5, ReadP.val_main_v3] <;> rfl

/-- The causal mask after the prologue. -/
theorem s0_main_v3 (V : Valuation τ sig (Elt F)) :
    after (s0 (F := F)) V (Proc.devRef .tc main_v3) = ReadP.val_main_v3 (F := F) := by
  after_results_simp
  simp only [ReadP.val_main_cst, ReadP.val_main_v0, ReadP.val_main_cst_0, ReadP.val_main_v1, ReadP.val_main_cst_1, ReadP.val_main_v2, ReadP.val_main_call0_v0, ReadP.val_main_call0_c, ReadP.val_main_call0_v1, ReadP.val_main_call0_v2, ReadP.val_main_call0_v3, ReadP.val_main_call0_v4, ReadP.val_main_call0_cst, ReadP.val_main_call0_v5, ReadP.val_main_v3] <;> rfl

end Cert.RefSide

end
-- ==== Proof.RefWalkV1.lean ====
/-
  Layer 0 read back. From any contents that hold the five arguments,
  the scale and the mask, the layer's 41 lines leave its output and its attention-weight matrix at the stage functions'
  values. The lines are read in one pass; the stage functions are then opened down to the layer's inputs, which stay
  closed on both sides, so the two sides are the same term.
-/
import proofs.«101734_j68264210202743_2_alg».proof.Proof.RefWalkOps
import proofs.«101734_j68264210202743_2_alg».proof.Proof.RefReadP

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Layer 0's output. -/
theorem s1_main_v41 (V : Valuation τ sig (Elt F)) (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_v1 : V (Proc.devRef .tc main_v1) = ReadP.val_main_v1 (F := F))
    (h_main_v3 : V (Proc.devRef .tc main_v3) = ReadP.val_main_v3 (F := F)) :
    after (s1 (F := F)) V (Proc.devRef .tc main_v41) = ReadP.val_main_v41 (F := F) x0 x1 x2 x3 x4 := by
  after_results_simp
  simp only [h_main_arg0, h_main_arg1, h_main_arg2, h_main_arg3, h_main_arg4, h_main_v1, h_main_v3]
  simp only [ReadP.val_main_v4, ReadP.val_main_v5, ReadP.val_main_v6, ReadP.val_main_v7, ReadP.val_main_v8, ReadP.val_main_v9, ReadP.val_main_v10, ReadP.val_main_v11, ReadP.val_main_v12, ReadP.val_main_v13, ReadP.val_main_v14, ReadP.val_main_v15, ReadP.val_main_v16, ReadP.val_main_v17, ReadP.val_main_v18, ReadP.val_main_v19, ReadP.val_main_v20, ReadP.val_main_cst_2, ReadP.val_main_v21, ReadP.val_main_cst_3, ReadP.val_main_v22, ReadP.val_main_v23, ReadP.val_main_v24, ReadP.val_main_v25, ReadP.val_main_v26, ReadP.val_main_v27, ReadP.val_main_cst_4, ReadP.val_main_v28, ReadP.val_main_v29, ReadP.val_main_v30, ReadP.val_main_v31, ReadP.val_main_v32, ReadP.val_main_v33, ReadP.val_main_v34, ReadP.val_main_v35, ReadP.val_main_v36, ReadP.val_main_v37, ReadP.val_main_v38, ReadP.val_main_v39, ReadP.val_main_v40, ReadP.val_main_v41] <;> rfl

/-- Layer 0's attention weights. -/
theorem s1_main_v31 (V : Valuation τ sig (Elt F)) (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4)
    (h_main_v1 : V (Proc.devRef .tc main_v1) = ReadP.val_main_v1 (F := F))
    (h_main_v3 : V (Proc.devRef .tc main_v3) = ReadP.val_main_v3 (F := F)) :
    after (s1 (F := F)) V (Proc.devRef .tc main_v31) = ReadP.val_main_v31 (F := F) x0 x1 x2 := by
  after_results_simp
  simp only [h_main_arg0, h_main_arg1, h_main_arg2, h_main_arg3, h_main_arg4, h_main_v1, h_main_v3]
  simp only [ReadP.val_main_v4, ReadP.val_main_v5, ReadP.val_main_v6, ReadP.val_main_v7, ReadP.val_main_v8, ReadP.val_main_v9, ReadP.val_main_v10, ReadP.val_main_v11, ReadP.val_main_v12, ReadP.val_main_v13, ReadP.val_main_v14, ReadP.val_main_v15, ReadP.val_main_v16, ReadP.val_main_v17, ReadP.val_main_v18, ReadP.val_main_v19, ReadP.val_main_v20, ReadP.val_main_cst_2, ReadP.val_main_v21, ReadP.val_main_cst_3, ReadP.val_main_v22, ReadP.val_main_v23, ReadP.val_main_v24, ReadP.val_main_v25, ReadP.val_main_v26, ReadP.val_main_v27, ReadP.val_main_cst_4, ReadP.val_main_v28, ReadP.val_main_v29, ReadP.val_main_v30, ReadP.val_main_v31, ReadP.val_main_v32, ReadP.val_main_v33, ReadP.val_main_v34, ReadP.val_main_v35, ReadP.val_main_v36, ReadP.val_main_v37, ReadP.val_main_v38, ReadP.val_main_v39, ReadP.val_main_v40, ReadP.val_main_v41] <;> rfl

end Cert.RefSide

end
-- ==== Proof.RefWalkV2.lean ====
/-
  Layer 1 read back. From any contents that hold the previous layer's output, the four parameter arguments,
  the scale and the mask, the layer's 41 lines leave its output and its attention-weight matrix at the stage functions'
  values. The lines are read in one pass; the stage functions are then opened down to the layer's inputs, which stay
  closed on both sides, so the two sides are the same term.
-/
import proofs.«101734_j68264210202743_2_alg».proof.Proof.RefWalkOps
import proofs.«101734_j68264210202743_2_alg».proof.Proof.RefReadP

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Layer 1's output. -/
theorem s2_main_v79 (V : Valuation τ sig (Elt F)) (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F))
    (h_main_v41 : V (Proc.devRef .tc main_v41) = ReadP.val_main_v41 (F := F) x0 x1 x2 x3 x4)
    (h_main_v1 : V (Proc.devRef .tc main_v1) = ReadP.val_main_v1 (F := F))
    (h_main_v3 : V (Proc.devRef .tc main_v3) = ReadP.val_main_v3 (F := F))
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4) :
    after (s2 (F := F)) V (Proc.devRef .tc main_v79) = ReadP.val_main_v79 (F := F) x0 x1 x2 x3 x4 := by
  after_results_simp
  simp only [h_main_v41, h_main_v1, h_main_v3, h_main_arg1, h_main_arg2, h_main_arg3, h_main_arg4]
  simp only [ReadP.val_main_v42, ReadP.val_main_v43, ReadP.val_main_v44, ReadP.val_main_v45, ReadP.val_main_v46, ReadP.val_main_v47, ReadP.val_main_v48, ReadP.val_main_v49, ReadP.val_main_v50, ReadP.val_main_v51, ReadP.val_main_v52, ReadP.val_main_v53, ReadP.val_main_v54, ReadP.val_main_v55, ReadP.val_main_v56, ReadP.val_main_v57, ReadP.val_main_v58, ReadP.val_main_cst_5, ReadP.val_main_v59, ReadP.val_main_cst_6, ReadP.val_main_v60, ReadP.val_main_v61, ReadP.val_main_v62, ReadP.val_main_v63, ReadP.val_main_v64, ReadP.val_main_v65, ReadP.val_main_cst_7, ReadP.val_main_v66, ReadP.val_main_v67, ReadP.val_main_v68, ReadP.val_main_v69, ReadP.val_main_v70, ReadP.val_main_v71, ReadP.val_main_v72, ReadP.val_main_v73, ReadP.val_main_v74, ReadP.val_main_v75, ReadP.val_main_v76, ReadP.val_main_v77, ReadP.val_main_v78, ReadP.val_main_v79] <;> rfl

/-- Layer 1's attention weights. -/
theorem s2_main_v69 (V : Valuation τ sig (Elt F)) (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F))
    (h_main_v41 : V (Proc.devRef .tc main_v41) = ReadP.val_main_v41 (F := F) x0 x1 x2 x3 x4)
    (h_main_v1 : V (Proc.devRef .tc main_v1) = ReadP.val_main_v1 (F := F))
    (h_main_v3 : V (Proc.devRef .tc main_v3) = ReadP.val_main_v3 (F := F))
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4) :
    after (s2 (F := F)) V (Proc.devRef .tc main_v69) = ReadP.val_main_v69 (F := F) x0 x1 x2 x3 x4 := by
  after_results_simp
  simp only [h_main_v41, h_main_v1, h_main_v3, h_main_arg1, h_main_arg2, h_main_arg3, h_main_arg4]
  simp only [ReadP.val_main_v42, ReadP.val_main_v43, ReadP.val_main_v44, ReadP.val_main_v45, ReadP.val_main_v46, ReadP.val_main_v47, ReadP.val_main_v48, ReadP.val_main_v49, ReadP.val_main_v50, ReadP.val_main_v51, ReadP.val_main_v52, ReadP.val_main_v53, ReadP.val_main_v54, ReadP.val_main_v55, ReadP.val_main_v56, ReadP.val_main_v57, ReadP.val_main_v58, ReadP.val_main_cst_5, ReadP.val_main_v59, ReadP.val_main_cst_6, ReadP.val_main_v60, ReadP.val_main_v61, ReadP.val_main_v62, ReadP.val_main_v63, ReadP.val_main_v64, ReadP.val_main_v65, ReadP.val_main_cst_7, ReadP.val_main_v66, ReadP.val_main_v67, ReadP.val_main_v68, ReadP.val_main_v69, ReadP.val_main_v70, ReadP.val_main_v71, ReadP.val_main_v72, ReadP.val_main_v73, ReadP.val_main_v74, ReadP.val_main_v75, ReadP.val_main_v76, ReadP.val_main_v77, ReadP.val_main_v78, ReadP.val_main_v79] <;> rfl

end Cert.RefSide

end
-- ==== Proof.RefWalkV3.lean ====
/-
  Layer 2 read back. From any contents that hold the previous layer's output, the four parameter arguments,
  the scale and the mask, the layer's 41 lines leave its output and its attention-weight matrix at the stage functions'
  values. The lines are read in one pass; the stage functions are then opened down to the layer's inputs, which stay
  closed on both sides, so the two sides are the same term.
-/
import proofs.«101734_j68264210202743_2_alg».proof.Proof.RefWalkOps
import proofs.«101734_j68264210202743_2_alg».proof.Proof.RefReadP

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Layer 2's output. -/
theorem s3_main_v117 (V : Valuation τ sig (Elt F)) (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F))
    (h_main_v79 : V (Proc.devRef .tc main_v79) = ReadP.val_main_v79 (F := F) x0 x1 x2 x3 x4)
    (h_main_v1 : V (Proc.devRef .tc main_v1) = ReadP.val_main_v1 (F := F))
    (h_main_v3 : V (Proc.devRef .tc main_v3) = ReadP.val_main_v3 (F := F))
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4) :
    after (s3 (F := F)) V (Proc.devRef .tc main_v117) = ReadP.val_main_v117 (F := F) x0 x1 x2 x3 x4 := by
  after_results_simp
  simp only [h_main_v79, h_main_v1, h_main_v3, h_main_arg1, h_main_arg2, h_main_arg3, h_main_arg4]
  simp only [ReadP.val_main_v80, ReadP.val_main_v81, ReadP.val_main_v82, ReadP.val_main_v83, ReadP.val_main_v84, ReadP.val_main_v85, ReadP.val_main_v86, ReadP.val_main_v87, ReadP.val_main_v88, ReadP.val_main_v89, ReadP.val_main_v90, ReadP.val_main_v91, ReadP.val_main_v92, ReadP.val_main_v93, ReadP.val_main_v94, ReadP.val_main_v95, ReadP.val_main_v96, ReadP.val_main_cst_8, ReadP.val_main_v97, ReadP.val_main_cst_9, ReadP.val_main_v98, ReadP.val_main_v99, ReadP.val_main_v100, ReadP.val_main_v101, ReadP.val_main_v102, ReadP.val_main_v103, ReadP.val_main_cst_10, ReadP.val_main_v104, ReadP.val_main_v105, ReadP.val_main_v106, ReadP.val_main_v107, ReadP.val_main_v108, ReadP.val_main_v109, ReadP.val_main_v110, ReadP.val_main_v111, ReadP.val_main_v112, ReadP.val_main_v113, ReadP.val_main_v114, ReadP.val_main_v115, ReadP.val_main_v116, ReadP.val_main_v117] <;> rfl

/-- Layer 2's attention weights. -/
theorem s3_main_v107 (V : Valuation τ sig (Elt F)) (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F))
    (h_main_v79 : V (Proc.devRef .tc main_v79) = ReadP.val_main_v79 (F := F) x0 x1 x2 x3 x4)
    (h_main_v1 : V (Proc.devRef .tc main_v1) = ReadP.val_main_v1 (F := F))
    (h_main_v3 : V (Proc.devRef .tc main_v3) = ReadP.val_main_v3 (F := F))
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4) :
    after (s3 (F := F)) V (Proc.devRef .tc main_v107) = ReadP.val_main_v107 (F := F) x0 x1 x2 x3 x4 := by
  after_results_simp
  simp only [h_main_v79, h_main_v1, h_main_v3, h_main_arg1, h_main_arg2, h_main_arg3, h_main_arg4]
  simp only [ReadP.val_main_v80, ReadP.val_main_v81, ReadP.val_main_v82, ReadP.val_main_v83, ReadP.val_main_v84, ReadP.val_main_v85, ReadP.val_main_v86, ReadP.val_main_v87, ReadP.val_main_v88, ReadP.val_main_v89, ReadP.val_main_v90, ReadP.val_main_v91, ReadP.val_main_v92, ReadP.val_main_v93, ReadP.val_main_v94, ReadP.val_main_v95, ReadP.val_main_v96, ReadP.val_main_cst_8, ReadP.val_main_v97, ReadP.val_main_cst_9, ReadP.val_main_v98, ReadP.val_main_v99, ReadP.val_main_v100, ReadP.val_main_v101, ReadP.val_main_v102, ReadP.val_main_v103, ReadP.val_main_cst_10, ReadP.val_main_v104, ReadP.val_main_v105, ReadP.val_main_v106, ReadP.val_main_v107, ReadP.val_main_v108, ReadP.val_main_v109, ReadP.val_main_v110, ReadP.val_main_v111, ReadP.val_main_v112, ReadP.val_main_v113, ReadP.val_main_v114, ReadP.val_main_v115, ReadP.val_main_v116, ReadP.val_main_v117] <;> rfl

end Cert.RefSide

end
-- ==== Proof.RefWalkV4.lean ====
/-
  Layer 3 read back. From any contents that hold the previous layer's output, the four parameter arguments,
  the scale and the mask, the layer's 41 lines leave its output and its attention-weight matrix at the stage functions'
  values. The lines are read in one pass; the stage functions are then opened down to the layer's inputs, which stay
  closed on both sides, so the two sides are the same term.
-/
import proofs.«101734_j68264210202743_2_alg».proof.Proof.RefWalkOps
import proofs.«101734_j68264210202743_2_alg».proof.Proof.RefReadP

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Layer 3's output. -/
theorem s4_main_v155 (V : Valuation τ sig (Elt F)) (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F))
    (h_main_v117 : V (Proc.devRef .tc main_v117) = ReadP.val_main_v117 (F := F) x0 x1 x2 x3 x4)
    (h_main_v1 : V (Proc.devRef .tc main_v1) = ReadP.val_main_v1 (F := F))
    (h_main_v3 : V (Proc.devRef .tc main_v3) = ReadP.val_main_v3 (F := F))
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4) :
    after (s4 (F := F)) V (Proc.devRef .tc main_v155) = ReadP.val_main_v155 (F := F) x0 x1 x2 x3 x4 := by
  after_results_simp
  simp only [h_main_v117, h_main_v1, h_main_v3, h_main_arg1, h_main_arg2, h_main_arg3, h_main_arg4]
  simp only [ReadP.val_main_v118, ReadP.val_main_v119, ReadP.val_main_v120, ReadP.val_main_v121, ReadP.val_main_v122, ReadP.val_main_v123, ReadP.val_main_v124, ReadP.val_main_v125, ReadP.val_main_v126, ReadP.val_main_v127, ReadP.val_main_v128, ReadP.val_main_v129, ReadP.val_main_v130, ReadP.val_main_v131, ReadP.val_main_v132, ReadP.val_main_v133, ReadP.val_main_v134, ReadP.val_main_cst_11, ReadP.val_main_v135, ReadP.val_main_cst_12, ReadP.val_main_v136, ReadP.val_main_v137, ReadP.val_main_v138, ReadP.val_main_v139, ReadP.val_main_v140, ReadP.val_main_v141, ReadP.val_main_cst_13, ReadP.val_main_v142, ReadP.val_main_v143, ReadP.val_main_v144, ReadP.val_main_v145, ReadP.val_main_v146, ReadP.val_main_v147, ReadP.val_main_v148, ReadP.val_main_v149, ReadP.val_main_v150, ReadP.val_main_v151, ReadP.val_main_v152, ReadP.val_main_v153, ReadP.val_main_v154, ReadP.val_main_v155] <;> rfl

/-- Layer 3's attention weights. -/
theorem s4_main_v145 (V : Valuation τ sig (Elt F)) (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F))
    (h_main_v117 : V (Proc.devRef .tc main_v117) = ReadP.val_main_v117 (F := F) x0 x1 x2 x3 x4)
    (h_main_v1 : V (Proc.devRef .tc main_v1) = ReadP.val_main_v1 (F := F))
    (h_main_v3 : V (Proc.devRef .tc main_v3) = ReadP.val_main_v3 (F := F))
    (h_main_arg1 : V (Proc.devRef .tc main_arg1) = x1)
    (h_main_arg2 : V (Proc.devRef .tc main_arg2) = x2)
    (h_main_arg3 : V (Proc.devRef .tc main_arg3) = x3)
    (h_main_arg4 : V (Proc.devRef .tc main_arg4) = x4) :
    after (s4 (F := F)) V (Proc.devRef .tc main_v145) = ReadP.val_main_v145 (F := F) x0 x1 x2 x3 x4 := by
  after_results_simp
  simp only [h_main_v117, h_main_v1, h_main_v3, h_main_arg1, h_main_arg2, h_main_arg3, h_main_arg4]
  simp only [ReadP.val_main_v118, ReadP.val_main_v119, ReadP.val_main_v120, ReadP.val_main_v121, ReadP.val_main_v122, ReadP.val_main_v123, ReadP.val_main_v124, ReadP.val_main_v125, ReadP.val_main_v126, ReadP.val_main_v127, ReadP.val_main_v128, ReadP.val_main_v129, ReadP.val_main_v130, ReadP.val_main_v131, ReadP.val_main_v132, ReadP.val_main_v133, ReadP.val_main_v134, ReadP.val_main_cst_11, ReadP.val_main_v135, ReadP.val_main_cst_12, ReadP.val_main_v136, ReadP.val_main_v137, ReadP.val_main_v138, ReadP.val_main_v139, ReadP.val_main_v140, ReadP.val_main_v141, ReadP.val_main_cst_13, ReadP.val_main_v142, ReadP.val_main_v143, ReadP.val_main_v144, ReadP.val_main_v145, ReadP.val_main_v146, ReadP.val_main_v147, ReadP.val_main_v148, ReadP.val_main_v149, ReadP.val_main_v150, ReadP.val_main_v151, ReadP.val_main_v152, ReadP.val_main_v153, ReadP.val_main_v154, ReadP.val_main_v155] <;> rfl

end Cert.RefSide

end
-- ==== Proof.RefWalkV5.lean ====
/-
  The epilogue read back: from contents that hold the four layers' attention-weight matrices, its ten lines leave the
  result buffer at the stage function's value (the four matrices stacked, summed along the new axis, divided by four).

  The stack reads its four operands through a family of references indexed by `Fin 4`, so the contents at an operand
  cannot be rewritten under it. The ten lines are therefore first read, by computation alone, as one closed function
  `epi` of what the contents hold at the four weight buffers; the hypotheses are then rewritten in `epi`'s arguments.
-/
import proofs.«101734_j68264210202743_2_alg».proof.Proof.RefWalkOps
import proofs.«101734_j68264210202743_2_alg».proof.Proof.RefReadP

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The epilogue as a function of the four weight matrices: each gets a leading axis of size one, the four are stacked
    along it and summed along it, and the sum is divided by four. -/
def epi (w0 w1 w2 w3 : (⟨S2048x2048, .f32⟩ : BufTy).Contents (Elt F)) : (⟨S2048x2048, .f32⟩ : BufTy).Contents (Elt F) :=
  Host.divf
    (Host.reduceAdd
      (concatenate S4x2048x2048 0
        [⟨S1x2048x2048, broadcastInDim S1x2048x2048 ![1, 2] bcast_S2048x2048_S1x2048x2048_1_2 w0⟩,
         ⟨S1x2048x2048, broadcastInDim S1x2048x2048 ![1, 2] bcast_S2048x2048_S1x2048x2048_1_2 w1⟩,
         ⟨S1x2048x2048, broadcastInDim S1x2048x2048 ![1, 2] bcast_S2048x2048_S1x2048x2048_1_2 w2⟩,
         ⟨S1x2048x2048, broadcastInDim S1x2048x2048 ![1, 2] bcast_S2048x2048_S1x2048x2048_1_2 w3⟩]
        concatenates_S1x2048x2048_S1x2048x2048_S1x2048x2048_S1x2048x2048_S4x2048x2048_d0)
      (constant S_ .f32 0x00000000#32) reducesTo_S4x2048x2048_S2048x2048_d0 h_S_)
    (broadcastInDim S2048x2048 ![] bcast_S_S2048x2048 (constant S_ .f32 0x40800000#32))

/-- The ten lines, from any contents, leave `epi` of what the contents hold at the four weight buffers. -/
theorem s5_read (V : Valuation τ sig (Elt F)) :
    after (s5 (F := F)) V (Proc.devRef .tc main_v163)
      = epi (V (Proc.devRef .tc main_v31)) (V (Proc.devRef .tc main_v69)) (V (Proc.devRef .tc main_v107)) (V (Proc.devRef .tc main_v145)) := by
  after_results_simp <;> rfl

/-- `epi` of the four layers' weight stage functions is the result's stage function. -/
theorem epi_val (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F)) :
    epi (ReadP.val_main_v31 (F := F) x0 x1 x2) (ReadP.val_main_v69 (F := F) x0 x1 x2 x3 x4) (ReadP.val_main_v107 (F := F) x0 x1 x2 x3 x4) (ReadP.val_main_v145 (F := F) x0 x1 x2 x3 x4)
      = ReadP.val_main_v163 (F := F) x0 x1 x2 x3 x4 := by
  simp only [epi, ReadP.val_main_v156, ReadP.val_main_v157, ReadP.val_main_v158, ReadP.val_main_v159, ReadP.val_main_v160, ReadP.val_main_cst_14, ReadP.val_main_v161, ReadP.val_main_cst_15, ReadP.val_main_v162, ReadP.val_main_v163] <;> rfl

/-- The result after the epilogue. -/
theorem s5_main_v163 (V : Valuation τ sig (Elt F)) (x0 : (⟨S2048x1024, .f32⟩ : BufTy).Contents (Elt F)) (x1 : (⟨S4x3072x1024, .f32⟩ : BufTy).Contents (Elt F)) (x2 : (⟨S4x3072, .f32⟩ : BufTy).Contents (Elt F)) (x3 : (⟨S4x1024x1024, .f32⟩ : BufTy).Contents (Elt F)) (x4 : (⟨S4x1024, .f32⟩ : BufTy).Contents (Elt F))
    (h_main_v31 : V (Proc.devRef .tc main_v31) = ReadP.val_main_v31 (F := F) x0 x1 x2)
    (h_main_v69 : V (Proc.devRef .tc main_v69) = ReadP.val_main_v69 (F := F) x0 x1 x2 x3 x4)
    (h_main_v107 : V (Proc.devRef .tc main_v107) = ReadP.val_main_v107 (F := F) x0 x1 x2 x3 x4)
    (h_main_v145 : V (Proc.devRef .tc main_v145) = ReadP.val_main_v145 (F := F) x0 x1 x2 x3 x4) :
    after (s5 (F := F)) V (Proc.devRef .tc main_v163) = ReadP.val_main_v163 (F := F) x0 x1 x2 x3 x4 := by
  rw [s5_read, h_main_v31, h_main_v69, h_main_v107, h_main_v145]
  exact epi_val x0 x1 x2 x3 x4

end Cert.RefSide

end
-- ==== Proof.RefWalk.lean ====
/-
  The reference's run read back as its stage function.

  The run's result is the fold of the 189 host lines over the launch contents, read at the result buffer. Spelt as one
  term of the arguments that fold is exponentially long (each layer's input feeds three projections), so it is never
  formed: the line is cut into the prologue, the four layers and the epilogue, the contents between two stretches are
  kept as one opaque valuation, and each stretch is read against the few buffers that are live across the cut —
  the five arguments, the scale, the mask, the previous layer's output, and the attention-weight matrices already
  written, which the epilogue averages. What each stretch leaves at those buffers is the stage functions' value
  (the value lemmas of the six stretch modules) or what was there before (no line of the stretch writes them).
-/
import proofs.«101734_j68264210202743_2_alg».proof.Proof.RefRunP
import proofs.«101734_j68264210202743_2_alg».proof.Proof.RefReadP
import proofs.«101734_j68264210202743_2_alg».proof.Proof.LibAfterAppend
import proofs.«101734_j68264210202743_2_alg».proof.Proof.RefWalkOps
import proofs.«101734_j68264210202743_2_alg».proof.Proof.RefWalkV0
import proofs.«101734_j68264210202743_2_alg».proof.Proof.RefWalkV1
import proofs.«101734_j68264210202743_2_alg».proof.Proof.RefWalkV2
import proofs.«101734_j68264210202743_2_alg».proof.Proof.RefWalkV3
import proofs.«101734_j68264210202743_2_alg».proof.Proof.RefWalkV4
import proofs.«101734_j68264210202743_2_alg».proof.Proof.RefWalkV5

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The reference's line is its six stretches one after the other. -/
theorem ops_eq : ValueP.ops (F := F) = s0 ++ (s1 ++ (s2 ++ (s3 ++ (s4 ++ s5)))) := rfl

/-- The fold of the reference's lines over any contents `W`, at the result buffer, is the stage function of what `W`
    holds at the five arguments. -/
theorem walk (W : Valuation τ sig (Elt F)) :
    StableHlo.after (ValueP.ops (F := F)) W (Proc.devRef .tc main_v163)
      = ReadP.val_main_v163 (F := F) (W (Proc.devRef .tc main_arg0)) (W (Proc.devRef .tc main_arg1)) (W (Proc.devRef .tc main_arg2)) (W (Proc.devRef .tc main_arg3)) (W (Proc.devRef .tc main_arg4)) := by
  rw [ops_eq, Cert.LibAfterAppend.after_append, Cert.LibAfterAppend.after_append, Cert.LibAfterAppend.after_append,
    Cert.LibAfterAppend.after_append, Cert.LibAfterAppend.after_append]
  -- the contents after the prologue: the scale, the mask, the arguments untouched
  have b1 := s0_main_v1 (F := F) W
  have b3 := s0_main_v3 (F := F) W
  have ba0 := s0_keep W main_arg0 (by decide)
  have ba1 := s0_keep W main_arg1 (by decide)
  have ba2 := s0_keep W main_arg2 (by decide)
  have ba3 := s0_keep W main_arg3 (by decide)
  have ba4 := s0_keep W main_arg4 (by decide)
  generalize after (s0 (F := F)) W = W1 at *
  -- after layer 0: its output and weights; the scale, the mask and the parameters untouched
  have c41 := s1_main_v41 W1 _ _ _ _ _ ba0 ba1 ba2 ba3 ba4 b1 b3
  have c31 := s1_main_v31 W1 _ _ _ _ _ ba0 ba1 ba2 ba3 ba4 b1 b3
  have c1 := (s1_keep W1 main_v1 (by decide)).trans b1
  have c3 := (s1_keep W1 main_v3 (by decide)).trans b3
  have ca1 := (s1_keep W1 main_arg1 (by decide)).trans ba1
  have ca2 := (s1_keep W1 main_arg2 (by decide)).trans ba2
  have ca3 := (s1_keep W1 main_arg3 (by decide)).trans ba3
  have ca4 := (s1_keep W1 main_arg4 (by decide)).trans ba4
  generalize after (s1 (F := F)) W1 = W2 at *
  -- after layer 1
  have d79 := s2_main_v79 W2 _ _ _ _ _ c41 c1 c3 ca1 ca2 ca3 ca4
  have d69 := s2_main_v69 W2 _ _ _ _ _ c41 c1 c3 ca1 ca2 ca3 ca4
  have d31 := (s2_keep W2 main_v31 (by decide)).trans c31
  have d1 := (s2_keep W2 main_v1 (by decide)).trans c1
  have d3 := (s2_keep W2 main_v3 (by decide)).trans c3
  have da1 := (s2_keep W2 main_arg1 (by decide)).trans ca1
  have da2 := (s2_keep W2 main_arg2 (by decide)).trans ca2
  have da3 := (s2_keep W2 main_arg3 (by decide)).trans ca3
  have da4 := (s2_keep W2 main_arg4 (by decide)).trans ca4
  generalize after (s2 (F := F)) W2 = W3 at *
  -- after layer 2
  have e117 := s3_main_v117 W3 _ _ _ _ _ d79 d1 d3 da1 da2 da3 da4
  have e107 := s3_main_v107 W3 _ _ _ _ _ d79 d1 d3 da1 da2 da3 da4
  have e31 := (s3_keep W3 main_v31 (by decide)).trans d31
  have e69 := (s3_keep W3 main_v69 (by decide)).trans d69
  have e1 := (s3_keep W3 main_v1 (by decide)).trans d1
  have e3 := (s3_keep W3 main_v3 (by decide)).trans d3
  have ea1 := (s3_keep W3 main_arg1 (by decide)).trans da1
  have ea2 := (s3_keep W3 main_arg2 (by decide)).trans da2
  have ea3 := (s3_keep W3 main_arg3 (by decide)).trans da3
  have ea4 := (s3_keep W3 main_arg4 (by decide)).trans da4
  generalize after (s3 (F := F)) W3 = W4 at *
  -- after layer 3: the four weight matrices
  have f145 := s4_main_v145 W4 _ _ _ _ _ e117 e1 e3 ea1 ea2 ea3 ea4
  have f31 := (s4_keep W4 main_v31 (by decide)).trans e31
  have f69 := (s4_keep W4 main_v69 (by decide)).trans e69
  have f107 := (s4_keep W4 main_v107 (by decide)).trans e107
  generalize after (s4 (F := F)) W4 = W5 at *
  -- the epilogue
  exact s5_main_v163 W5 _ _ _ _ _ f31 f69 f107 f145

/-- The run's result buffer holds the stage function of the launch contents of the five arguments. -/
theorem res_eq (m : (ℓ : Loc nD τ sig) → Buf (Elt F) ℓ) (c : Dev nD) :
    ValueP.res_main_v163 m c
      = ReadP.val_main_v163 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  walk (launchContents m c)

end Cert.RefSide

end
-- ==== Proof.RefLaws.lean ====
/-
  Laws of the extended reals that turn the reference's spelling of one attention layer into the specification's:
  a nonnegative real factor moves out of a finite sum, so scaling the queries before the product is scaling the
  scores; adding the mask (zero on and below the diagonal, the bottom element above it) is the case split of the
  specification's scores; a maximum against the bottom element and a sum started from zero change nothing; and a
  sum of four terms divided by four is the running sum of the terms times a quarter.
-/
import proofs.«101734_j68264210202743_2_alg».proof.Proof.Spec
import Idealize.ShloMosaic.PureOps.Ideal.Laws

noncomputable section

namespace Cert.RefSide

open Idealize.ShloMosaic Idealize.ShloMosaic.ValueIdx Cert.Attn

/-- A nonnegative real factor moves out of a finite sum of extended reals. -/
theorem sum_mul_coe {ι : Type} (s : Finset ι) (r : ℝ) (hr : 0 ≤ r) (f : ι → EReal) :
    ∑ t ∈ s, f t * (r : EReal) = (∑ t ∈ s, f t) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- Scaling the left factor of every product of a dot product by a nonnegative real scales the dot product. -/
theorem sum_scaled_mul {e : ℕ} (r : ℝ) (hr : 0 ≤ r) (a b : Fin e → EReal) :
    ∑ t : Fin e, (a t * (r : EReal)) * b t = (∑ t : Fin e, a t * b t) * (r : EReal) := by
  rw [← sum_mul_coe Finset.univ r hr]
  refine Finset.sum_congr rfl fun t _ => ?_
  rw [mul_assoc, mul_comm (r : EReal) (b t), ← mul_assoc]

/-- The reference's score — the scaled queries against the keys, plus the mask — is the specification's. -/
theorem score_eq {n e : ℕ} (r : ℝ) (hr : 0 ≤ r) (q k : Mat n e) (i j : Fin n) (m : EReal)
    (hm : m = if j.val ≤ i.val then 0 else ⊥) :
    (∑ t : Fin e, (q i t * (r : EReal)) * k j t) + m = scores (r : EReal) q k i j := by
  unfold scores
  rw [hm, sum_scaled_mul r hr]
  by_cases h : j.val ≤ i.val
  · rw [if_pos h, if_pos h, add_zero]
  · rw [if_neg h, if_neg h, EReal.add_bot]

/-- The reference's softmax — the row maximum taken once more against the bottom element, the row sum started from
    zero — is the specification's weights. -/
theorem weights_eq {n p : ℕ} (s : Mat n p) (i : Fin n) (j : Fin p) :
    Ideal.div (Ideal.exp (s i j - max ⊥ (rowMax s i))) (0 + ∑ t : Fin p, Ideal.exp (s i t - max ⊥ (rowMax s i)))
      = weights s i j := by
  unfold weights expo
  rw [max_bot_left, zero_add]

/-! ## The float patterns of the two programs as extended reals -/

theorem ofBits_one : Ideal.ofBits .f32 0x3F800000#32 = ((1 : ℝ) : EReal) := by
  simp [Ideal.ofBits, Ideal.ieee]
  rw [← EReal.coe_mul]
  norm_num
theorem ofBits_1024 : Ideal.ofBits .f32 0x44800000#32 = ((1024 : ℝ) : EReal) := by
  simp [Ideal.ofBits, Ideal.ieee]
  rw [← EReal.coe_mul]
  norm_num
theorem ofBits_four : Ideal.ofBits .f32 0x40800000#32 = ((4 : ℝ) : EReal) := by
  simp [Ideal.ofBits, Ideal.ieee]
  rw [← EReal.coe_mul]
  norm_num
theorem ofBits_quarter : Ideal.ofBits .f32 0x3E800000#32 = ((1 / 4 : ℝ) : EReal) := by
  simp [Ideal.ofBits, Ideal.ieee]
  rw [← EReal.coe_mul]
  norm_num
theorem ofBits_thirtysecond : Ideal.ofBits .f32 0x3D000000#32 = ((1 / 32 : ℝ) : EReal) := by
  simp [Ideal.ofBits, Ideal.ieee]
  rw [← EReal.coe_mul]
  norm_num
theorem ofBits_neg_inf : Ideal.ofBits .f32 0xFF800000#32 = ⊥ := by
  simp [Ideal.ofBits, Ideal.ieee]

/-- The reference's scale, one over the square root of 1024, is the real 1/32. -/
theorem scale_eq :
    Ideal.div (Ideal.ofBits .f32 0x3F800000#32) (Ideal.sqrt (Ideal.ofBits .f32 0x44800000#32)) = ((1 / 32 : ℝ) : EReal) := by
  have h : Real.sqrt 1024 = 32 := by
    rw [show (1024 : ℝ) = 32 ^ 2 by norm_num]; exact Real.sqrt_sq (by norm_num)
  rw [ofBits_one, ofBits_1024, Ideal.sqrt_coe, if_neg (by norm_num), h, Ideal.div_coe (by norm_num), ← EReal.coe_mul, one_mul]

/-- The mean of four terms — their sum from zero, divided by four — is the running sum of the terms times a quarter. -/
theorem mean_eq (w0 w1 w2 w3 : EReal) :
    Ideal.div (Ideal.ofBits .f32 0x00000000#32 + (w0 + w1 + w2 + w3)) (Ideal.ofBits .f32 0x40800000#32)
      = Ideal.ofBits .f32 0x00000000#32 + w0 * Ideal.ofBits .f32 0x3E800000#32 + w1 * Ideal.ofBits .f32 0x3E800000#32
        + w2 * Ideal.ofBits .f32 0x3E800000#32 + w3 * Ideal.ofBits .f32 0x3E800000#32 := by
  have h := fun y z : EReal => EReal.right_distrib_of_nonneg_of_ne_top (x := ((1 / 4 : ℝ) : EReal))
    (EReal.coe_nonneg.mpr (by norm_num)) (EReal.coe_ne_top _) y z
  rw [Ideal.ofBits_zero_f32, ofBits_four, ofBits_quarter, zero_add, zero_add, Ideal.div_coe (by norm_num), h, h, h]

/-! ## One layer, from what its five stages read at an index -/

/-- Column `off + t` of the stacked projections. -/
def col (off : ℕ) (h : off + 1024 ≤ 3072) (t : Fin 1024) : Fin 3072 := ⟨off + t.val, by have := t.isLt; omega⟩

section Layer

variable (r : ℝ) (hr : 0 ≤ r)
variable (W : Fin 4 → Mat 3072 1024) (B : Fin 4 → Fin 3072 → EReal)
variable (Wo : Fin 4 → Mat 1024 1024) (Bo : Fin 4 → Fin 1024 → EReal) (l : Fin 4)
variable (xin : (⟨2, ![2048, 1024]⟩ : Shape).Idx → EReal)
variable (v12 : (⟨2, ![2048, 3072]⟩ : Shape).Idx → EReal) (v20 v31 : (⟨2, ![2048, 2048]⟩ : Shape).Idx → EReal)
variable (v32 v41 : (⟨2, ![2048, 1024]⟩ : Shape).Idx → EReal)

include hr in
/-- If five arrays read, entry by entry, as the stacked projections of the input, the masked product of the scaled
    queries with the keys, the softmax as it is computed, the mixture of the values and the output projection, then
    the third is the specification's attention weights of the layer and the fifth its output. -/
theorem layer_reads
    (h12 : ∀ (p : Fin 2048) (j : Fin 3072), v12 (ix2 p j) = (∑ t : Fin 1024, xin (ix2 p t) * W l j t) + B l j)
    (h20 : ∀ i j : Fin 2048, v20 (ix2 i j)
        = (∑ t : Fin 1024, (v12 (ix2 i (col 0 (by omega) t)) * (r : EReal)) * v12 (ix2 j (col 1024 (by omega) t)))
          + (if j.val ≤ i.val then 0 else ⊥))
    (h31 : ∀ i j : Fin 2048, v31 (ix2 i j)
        = Ideal.div (Ideal.exp (v20 (ix2 i j) - max ⊥ ((Finset.univ : Finset (Fin 2048)).fold max ⊥ fun b => v20 (ix2 i b))))
            (0 + ∑ t : Fin 2048, Ideal.exp (v20 (ix2 i t) - max ⊥ ((Finset.univ : Finset (Fin 2048)).fold max ⊥ fun b => v20 (ix2 i b)))))
    (h32 : ∀ (p : Fin 2048) (s : Fin 1024), v32 (ix2 p s) = ∑ j : Fin 2048, v31 (ix2 p j) * v12 (ix2 j (col 2048 (by omega) s)))
    (h41 : ∀ (p : Fin 2048) (t : Fin 1024), v41 (ix2 p t) = (∑ s : Fin 1024, v32 (ix2 p s) * Wo l t s) + Bo l t) :
    (∀ i j : Fin 2048, v31 (ix2 i j) = layerW (r : EReal) W B l (fun p t => xin (ix2 p t)) i j)
    ∧ (∀ (p : Fin 2048) (t : Fin 1024), v41 (ix2 p t) = layerX (r : EReal) W B Wo Bo l (fun p t => xin (ix2 p t)) p t) := by
  have hq : ∀ (i : Fin 2048) (t : Fin 1024), v12 (ix2 i (col 0 (by omega) t))
      = proj (fun p t => xin (ix2 p t)) (rowsAt 0 (by omega) (W l)) (entriesAt 0 (by omega) (B l)) i t := fun i t => h12 i _
  have hk : ∀ (i : Fin 2048) (t : Fin 1024), v12 (ix2 i (col 1024 (by omega) t))
      = proj (fun p t => xin (ix2 p t)) (rowsAt 1024 (by omega) (W l)) (entriesAt 1024 (by omega) (B l)) i t := fun i t => h12 i _
  have hv : ∀ (i : Fin 2048) (t : Fin 1024), v12 (ix2 i (col 2048 (by omega) t))
      = proj (fun p t => xin (ix2 p t)) (rowsAt 2048 (by omega) (W l)) (entriesAt 2048 (by omega) (B l)) i t := fun i t => h12 i _
  have hS : (fun i j : Fin 2048 => v20 (ix2 i j))
      = scores (r : EReal) (proj (fun p t => xin (ix2 p t)) (rowsAt 0 (by omega) (W l)) (entriesAt 0 (by omega) (B l)))
          (proj (fun p t => xin (ix2 p t)) (rowsAt 1024 (by omega) (W l)) (entriesAt 1024 (by omega) (B l))) := by
    funext i j
    have e : (∑ t : Fin 1024, (v12 (ix2 i (col 0 (by omega) t)) * (r : EReal)) * v12 (ix2 j (col 1024 (by omega) t)))
        = ∑ t : Fin 1024, (proj (fun p t => xin (ix2 p t)) (rowsAt 0 (by omega) (W l)) (entriesAt 0 (by omega) (B l)) i t * (r : EReal))
            * proj (fun p t => xin (ix2 p t)) (rowsAt 1024 (by omega) (W l)) (entriesAt 1024 (by omega) (B l)) j t :=
      Finset.sum_congr rfl fun t _ => by rw [hq i t, hk j t]
    rw [h20, e]
    exact score_eq r hr _ _ i j _ rfl
  have hW : ∀ i j : Fin 2048, v31 (ix2 i j) = layerW (r : EReal) W B l (fun p t => xin (ix2 p t)) i j := by
    intro i j
    refine ((h31 i j).trans (weights_eq (fun i j : Fin 2048 => v20 (ix2 i j)) i j)).trans ?_
    rw [hS]
    rfl
  refine ⟨hW, fun p t => ?_⟩
  have e32 : ∀ s : Fin 1024, v32 (ix2 p s)
      = mix (layerW (r : EReal) W B l (fun p t => xin (ix2 p t)))
          (proj (fun p t => xin (ix2 p t)) (rowsAt 2048 (by omega) (W l)) (entriesAt 2048 (by omega) (B l))) p s := by
    intro s
    rw [h32]
    exact Finset.sum_congr rfl fun j _ => by rw [hW p j, hv j s]
  rw [h41, Finset.sum_congr rfl fun s _ => by rw [e32 s]]
  rfl

end Layer

end Cert.RefSide

end
-- ==== Proof.RefReduce.lean ====
/-
  The two operations of the reference whose element is not one element of each operand, read at an index: the row
  maximum (a fold of the maximum over a row, from the bottom element) and the stack of the four layers' weights (the
  piece the leading coordinate names).
-/
import proofs.«101734_j68264210202743_2_alg».proof.Proof.Gen.ReferenceIdeal
import proofs.«101734_j68264210202743_2_alg».proof.Proof.RefLaws
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx

/-- The maximum of row `i` of a [2048, 2048] array, reduced from the pattern of minus infinity: the fold of the maximum
    from the bottom element over the row's entries. -/
theorem rowmax_read (y : S2048x2048.Idx → EReal) (i : Fin 2048) :
    Host.reduce (FloatOps.maximumf (F := Ideal) (φ := .f32)) y (constant (F := Ideal) S_ .f32 0xFF800000#32)
        reducesTo_S2048x2048_S2048_d1 h_S_ (ix1 i)
      = (Finset.univ : Finset (Fin 2048)).fold max ⊥ fun b => y (ix2 i b) := by
  have hR : S2048x2048.Reduces [1] S2048 := by decide
  refine (Host.reduce_eq_fold_single (FloatOps.maximumf (F := Ideal) (φ := .f32)) y _ reducesTo_S2048x2048_S2048_d1 hR h_S_
    (ix1 i)).trans ?_
  show (Finset.univ : Finset (Fin 2048)).fold max (Ideal.ofBits .f32 0xFF800000#32) (fun b => y (hR.lift (ix1 i) b)) = _
  rw [ofBits_neg_inf]
  refine congrArg (fun f => (Finset.univ : Finset (Fin 2048)).fold max ⊥ f) (funext fun b => congrArg y (funext fun a => Fin.ext ?_))
  match a with
  | ⟨0, _⟩ => rfl
  | ⟨1, _⟩ => rfl

theorem concat_read0 (p0 p1 p2 p3 : S1x2048x2048.Idx → EReal) (a b : Fin 2048) :
    concatenate S4x2048x2048 0 [⟨S1x2048x2048, p0⟩, ⟨S1x2048x2048, p1⟩, ⟨S1x2048x2048, p2⟩, ⟨S1x2048x2048, p3⟩]
        concatenates_S1x2048x2048_S1x2048x2048_S1x2048x2048_S1x2048x2048_S4x2048x2048_d0 (ix3 (0 : Fin 4) a b)
      = p0 (ix3 (0 : Fin 1) a b) :=
  concatenate_apply_piece (0 : Fin S4x2048x2048.rank) _ _ (ix3 (0 : Fin 4) a b) 0 (by show (0 : ℕ) < 4; omega) S1x2048x2048 p0 rfl rfl 0 rfl
    (ix3 (0 : Fin 1) a b)
    (fun c hc => by
      match c with
      | ⟨0, _⟩ => exact absurd rfl hc
      | ⟨1, _⟩ => rfl
      | ⟨2, _⟩ => rfl)
    rfl

theorem concat_read1 (p0 p1 p2 p3 : S1x2048x2048.Idx → EReal) (a b : Fin 2048) :
    concatenate S4x2048x2048 0 [⟨S1x2048x2048, p0⟩, ⟨S1x2048x2048, p1⟩, ⟨S1x2048x2048, p2⟩, ⟨S1x2048x2048, p3⟩]
        concatenates_S1x2048x2048_S1x2048x2048_S1x2048x2048_S1x2048x2048_S4x2048x2048_d0 (ix3 (1 : Fin 4) a b)
      = p1 (ix3 (0 : Fin 1) a b) :=
  concatenate_apply_piece (0 : Fin S4x2048x2048.rank) _ _ (ix3 (1 : Fin 4) a b) 1 (by show (1 : ℕ) < 4; omega) S1x2048x2048 p1 rfl rfl 1 rfl
    (ix3 (0 : Fin 1) a b)
    (fun c hc => by
      match c with
      | ⟨0, _⟩ => exact absurd rfl hc
      | ⟨1, _⟩ => rfl
      | ⟨2, _⟩ => rfl)
    rfl

theorem concat_read2 (p0 p1 p2 p3 : S1x2048x2048.Idx → EReal) (a b : Fin 2048) :
    concatenate S4x2048x2048 0 [⟨S1x2048x2048, p0⟩, ⟨S1x2048x2048, p1⟩, ⟨S1x2048x2048, p2⟩, ⟨S1x2048x2048, p3⟩]
        concatenates_S1x2048x2048_S1x2048x2048_S1x2048x2048_S1x2048x2048_S4x2048x2048_d0 (ix3 (2 : Fin 4) a b)
      = p2 (ix3 (0 : Fin 1) a b) :=
  concatenate_apply_piece (0 : Fin S4x2048x2048.rank) _ _ (ix3 (2 : Fin 4) a b) 2 (by show (2 : ℕ) < 4; omega) S1x2048x2048 p2 rfl rfl 2 rfl
    (ix3 (0 : Fin 1) a b)
    (fun c hc => by
      match c with
      | ⟨0, _⟩ => exact absurd rfl hc
      | ⟨1, _⟩ => rfl
      | ⟨2, _⟩ => rfl)
    rfl

theorem concat_read3 (p0 p1 p2 p3 : S1x2048x2048.Idx → EReal) (a b : Fin 2048) :
    concatenate S4x2048x2048 0 [⟨S1x2048x2048, p0⟩, ⟨S1x2048x2048, p1⟩, ⟨S1x2048x2048, p2⟩, ⟨S1x2048x2048, p3⟩]
        concatenates_S1x2048x2048_S1x2048x2048_S1x2048x2048_S1x2048x2048_S4x2048x2048_d0 (ix3 (3 : Fin 4) a b)
      = p3 (ix3 (0 : Fin 1) a b) :=
  concatenate_apply_piece (0 : Fin S4x2048x2048.rank) _ _ (ix3 (3 : Fin 4) a b) 3 (by show (3 : ℕ) < 4; omega) S1x2048x2048 p3 rfl rfl 3 rfl
    (ix3 (0 : Fin 1) a b)
    (fun c hc => by
      match c with
      | ⟨0, _⟩ => exact absurd rfl hc
      | ⟨1, _⟩ => rfl
      | ⟨2, _⟩ => rfl)
    rfl

end Cert.RefSide

end
-- ==== Proof.RefCommon.lean ====
/-
  The two layer-independent pieces of the reference read at an index: the causal mask (zero on and below the diagonal,
  the bottom element above it) and the scale (the real 1/32).
-/
import proofs.«101734_j68264210202743_2_alg».proof.Proof.RefReadP
import proofs.«101734_j68264210202743_2_alg».proof.Proof.RefReduce
import Idealize.ShloMosaic.Lib.Affine

noncomputable section

namespace Cert.RefSide

open Cert.ReferenceIdeal Cert.ReferenceIdeal.Gen Cert.ReferenceIdeal.ReadP Idealize.ShloMosaic Idealize.ShloMosaic.ValueIdx

/-- A natural number below 2048 as a 32-bit word reads back, signed, as itself. -/
theorem toInt_ofNat_small (n : ℕ) (h : n < 2048) : (BitVec.ofNat 32 n).toInt = (n : Int) := by
  rw [BitVec.toInt_eq_toNat_cond, BitVec.toNat_ofNat, Nat.mod_eq_of_lt (by omega), if_pos (by omega)]

/-- The mask at (i, j): row index plus zero at least the column index selects zero, otherwise minus infinity. -/
theorem mask_read (i j : Fin 2048) :
    val_main_v3 (F := Ideal) (ix2 i j) = if j.val ≤ i.val then 0 else ⊥ := by
  rw [val_main_v3_apply, val_main_call0_v4_apply, val_main_call0_v2_apply, val_main_call0_v0_apply, val_main_call0_v1_apply,
    val_main_call0_c_apply, val_main_call0_v3_apply, val_main_call0_v5_apply, val_main_call0_cst_apply, val_main_v2_apply,
    val_main_cst_1_apply, Ideal.ofBits_def, Ideal.ofBits_def, Ideal.ofBits_zero_f32, ofBits_neg_inf]
  show Scalar.select (IntOp.cmpi .sge (IntOp.addi (BitVec.ofNat 32 i.val) 0#32) (BitVec.ofNat 32 j.val)) (0 : EReal) ⊥ = _
  have key : IntOp.cmpi .sge (IntOp.addi (BitVec.ofNat 32 i.val) 0#32) (BitVec.ofNat 32 j.val) = 1#1 ↔ j.val ≤ i.val := by
    rw [IntOp.cmpi_sge, show IntOp.addi (BitVec.ofNat 32 i.val) 0#32 = BitVec.ofNat 32 i.val from BitVec.add_zero _,
      toInt_ofNat_small _ i.isLt, toInt_ofNat_small _ j.isLt]
    exact Int.ofNat_le
  unfold Scalar.select
  by_cases h : j.val ≤ i.val
  · exact (if_pos (key.mpr h)).trans (if_pos h).symm
  · exact (if_neg (fun e => h (key.mp e))).trans (if_neg h).symm

/-- The scale, one over the square root of 1024, read at the scalar's index. -/
theorem scale_read (i : S_.Idx) : val_main_v1 (F := Ideal) i = ((1 / 32 : ℝ) : EReal) := by
  rw [val_main_v1_apply, val_main_v0_apply, val_main_cst_apply, val_main_cst_0_apply, Ideal.hostDivf_def,
    Ideal.hostUnary_sqrt_def, Ideal.ofBits_def, Ideal.ofBits_def]
  exact scale_eq

end Cert.RefSide

end
-- ==== Proof.RefLayer0.lean ====
/-
  Layer 0 of the reference, stage by stage: the stacked projections, the masked scores, the softmax, the mixture of the
  values and the output projection, each read at an index; together they are the specification's layer.
-/
import proofs.«101734_j68264210202743_2_alg».proof.Proof.RefCommon

noncomputable section

namespace Cert.RefSide

open Cert.ReferenceIdeal Cert.ReferenceIdeal.Gen Cert.ReferenceIdeal.ReadP Idealize.ShloMosaic Idealize.ShloMosaic.ValueIdx Cert.Attn

variable (x0 : (⟨S2048x1024, .f32⟩ : BufTy).Contents (Elt Ideal)) (x1 : (⟨S4x3072x1024, .f32⟩ : BufTy).Contents (Elt Ideal))
  (x2 : (⟨S4x3072, .f32⟩ : BufTy).Contents (Elt Ideal)) (x3 : (⟨S4x1024x1024, .f32⟩ : BufTy).Contents (Elt Ideal))
  (x4 : (⟨S4x1024, .f32⟩ : BufTy).Contents (Elt Ideal))

include x0 x1 x2 x3 x4

/-- The stacked projections of layer 0: entry (p, j) is the input's row p against row j of the layer's stacked matrix, plus
    entry j of its stacked bias. -/
theorem read12_0 (p : Fin 2048) (j : Fin 3072) :
    (val_main_v12 (F := Ideal) x0 x1 x2) (ix2 p j) = (∑ t : Fin 1024, x0 (ix2 p t) * x1 (ix3 (0 : Fin 4) j t)) + x2 (ix2 (0 : Fin 4) j) := by
  rw [val_main_v12_apply, val_main_v7_apply, val_main_v11_apply, val_main_v10_apply, val_main_v9_apply, val_main_v8_apply, Ideal.addf_def]
  have e3 : idx_main_v8 (idx_main_v9 (idx_main_v10 (idx_main_v11 (ix2 p j)))) = ix2 (0 : Fin 4) j := funext fun a => Fin.ext (by
    match a with
    | ⟨0, _⟩ => rfl
    | ⟨1, _⟩ => show j.val % 3072 = j.val; have := j.isLt; omega)
  rw [e3]
  refine congrArg (· + _) (Finset.sum_congr rfl fun t _ => ?_)
  rw [val_main_v6_apply, val_main_v5_apply, val_main_v4_apply]
  have e1 : lidx_main_v7 (ix2 p j) t = ix2 p t := funext fun a => Fin.ext (by
    match a with
    | ⟨0, _⟩ => rfl
    | ⟨1, _⟩ => rfl)
  have e2 : idx_main_v4 (idx_main_v5 (idx_main_v6 (ridx_main_v7 (ix2 p j) t))) = ix3 (0 : Fin 4) j t := funext fun a => Fin.ext (by
    match a with
    | ⟨0, _⟩ => rfl
    | ⟨1, _⟩ => show (j.val * 1024 + t.val) / 1024 % 3072 = j.val; have := j.isLt; have := t.isLt; omega
    | ⟨2, _⟩ => show (j.val * 1024 + t.val) % 1024 = t.val; have := t.isLt; omega)
  rw [e1, e2]

/-- The scores of layer 0: the scaled query columns against the key columns of the stacked projections, plus the mask. -/
theorem read20_0 (i j : Fin 2048) :
    (val_main_v20 (F := Ideal) x0 x1 x2) (ix2 i j)
      = (∑ t : Fin 1024, ((val_main_v12 (F := Ideal) x0 x1 x2) (ix2 i (col 0 (by omega) t)) * ((1 / 32 : ℝ) : EReal))
            * (val_main_v12 (F := Ideal) x0 x1 x2) (ix2 j (col 1024 (by omega) t)))
          + (if j.val ≤ i.val then 0 else ⊥) := by
  rw [val_main_v20_apply, val_main_v19_apply, Ideal.addf_def, mask_read]
  refine congrArg (· + _) (Finset.sum_congr rfl fun t _ => ?_)
  rw [val_main_v17_apply, val_main_v18_apply, val_main_v13_apply, val_main_v14_apply, val_main_v16_apply, scale_read, Ideal.mulf_def]
  have e1 : idx_main_v13 (lidx_main_v19 (ix2 i j) t) = ix2 i (col 0 (by omega) t) := funext fun a => Fin.ext (by
    match a with
    | ⟨0, _⟩ => rfl
    | ⟨1, _⟩ => show t.val = 0 + t.val; omega)
  have e2 : idx_main_v14 (idx_main_v18 (ridx_main_v19 (ix2 i j) t)) = ix2 j (col 1024 (by omega) t) := funext fun a => Fin.ext (by
    match a with
    | ⟨0, _⟩ => rfl
    | ⟨1, _⟩ => rfl)
  rw [e1, e2]

/-- The softmax of layer 0 as the reference computes it. -/
theorem read31_0 (i j : Fin 2048) :
    (val_main_v31 (F := Ideal) x0 x1 x2) (ix2 i j)
      = Ideal.div (Ideal.exp ((val_main_v20 (F := Ideal) x0 x1 x2) (ix2 i j) - max ⊥ ((Finset.univ : Finset (Fin 2048)).fold max ⊥ fun b => (val_main_v20 (F := Ideal) x0 x1 x2) (ix2 i b))))
          (0 + ∑ t : Fin 2048, Ideal.exp ((val_main_v20 (F := Ideal) x0 x1 x2) (ix2 i t) - max ⊥ ((Finset.univ : Finset (Fin 2048)).fold max ⊥ fun b => (val_main_v20 (F := Ideal) x0 x1 x2) (ix2 i b)))) := by
  have hmax : ∀ b : Fin 2048, (val_main_v25 (F := Ideal) x0 x1 x2) (ix2 i b) = max ⊥ ((Finset.univ : Finset (Fin 2048)).fold max ⊥ fun b => (val_main_v20 (F := Ideal) x0 x1 x2) (ix2 i b)) := by
    intro b
    rw [val_main_v25_apply, val_main_v24_apply, val_main_v23_apply, val_main_v22_apply, val_main_cst_3_apply, Ideal.maximumf_def, Ideal.ofBits_def, ofBits_neg_inf]
    have e : idx_main_v24 (idx_main_v25 (ix2 i b)) = ix1 i := funext fun a => Fin.ext (by
      match a with
      | ⟨0, _⟩ => rfl)
    rw [e]
    exact congrArg (max ⊥) (rowmax_read (val_main_v20 (F := Ideal) x0 x1 x2) i)
  have hexp : ∀ b : Fin 2048, (val_main_v27 (F := Ideal) x0 x1 x2) (ix2 i b) = Ideal.exp ((val_main_v20 (F := Ideal) x0 x1 x2) (ix2 i b) - max ⊥ ((Finset.univ : Finset (Fin 2048)).fold max ⊥ fun b => (val_main_v20 (F := Ideal) x0 x1 x2) (ix2 i b))) := by
    intro b
    rw [val_main_v27_apply, val_main_v26_apply, Ideal.hostUnary_exp_def, Ideal.subf_def, hmax b]
  rw [val_main_v31_apply, Ideal.hostDivf_def, hexp j, val_main_v30_apply, val_main_v29_apply, val_main_v28_apply, val_main_cst_4_apply, Ideal.ofBits_def, Ideal.ofBits_zero_f32]
  refine congrArg (fun s => Ideal.div _ (0 + s)) (Finset.sum_congr rfl fun t _ => ?_)
  have e : idx_main_v28 (idx_main_v29 (idx_main_v30 (ix2 i j))) t = ix2 i t := funext fun a => Fin.ext (by
    match a with
    | ⟨0, _⟩ => rfl
    | ⟨1, _⟩ => rfl)
  rw [e, hexp t]

/-- The mixture of the values of layer 0: the weights' row against the value columns of the stacked projections. -/
theorem read32_0 (p : Fin 2048) (s : Fin 1024) :
    (val_main_v32 (F := Ideal) x0 x1 x2) (ix2 p s) = ∑ j : Fin 2048, (val_main_v31 (F := Ideal) x0 x1 x2) (ix2 p j) * (val_main_v12 (F := Ideal) x0 x1 x2) (ix2 j (col 2048 (by omega) s)) := by
  rw [val_main_v32_apply]
  refine Finset.sum_congr rfl fun j _ => ?_
  rw [val_main_v15_apply]
  have e1 : lidx_main_v32 (ix2 p s) j = ix2 p j := funext fun a => Fin.ext (by
    match a with
    | ⟨0, _⟩ => rfl
    | ⟨1, _⟩ => rfl)
  have e2 : idx_main_v15 (ridx_main_v32 (ix2 p s) j) = ix2 j (col 2048 (by omega) s) := funext fun a => Fin.ext (by
    match a with
    | ⟨0, _⟩ => rfl
    | ⟨1, _⟩ => rfl)
  rw [e1, e2]

/-- The output projection of layer 0. -/
theorem read41_0 (p : Fin 2048) (t : Fin 1024) :
    (val_main_v41 (F := Ideal) x0 x1 x2 x3 x4) (ix2 p t) = (∑ s : Fin 1024, (val_main_v32 (F := Ideal) x0 x1 x2) (ix2 p s) * x3 (ix3 (0 : Fin 4) t s)) + x4 (ix2 (0 : Fin 4) t) := by
  rw [val_main_v41_apply, val_main_v36_apply, val_main_v40_apply, val_main_v39_apply, val_main_v38_apply, val_main_v37_apply, Ideal.addf_def]
  have e3 : idx_main_v37 (idx_main_v38 (idx_main_v39 (idx_main_v40 (ix2 p t)))) = ix2 (0 : Fin 4) t := funext fun a => Fin.ext (by
    match a with
    | ⟨0, _⟩ => rfl
    | ⟨1, _⟩ => show t.val % 1024 = t.val; have := t.isLt; omega)
  rw [e3]
  refine congrArg (· + _) (Finset.sum_congr rfl fun s _ => ?_)
  rw [val_main_v35_apply, val_main_v34_apply, val_main_v33_apply]
  have e1 : lidx_main_v36 (ix2 p t) s = ix2 p s := funext fun a => Fin.ext (by
    match a with
    | ⟨0, _⟩ => rfl
    | ⟨1, _⟩ => rfl)
  have e2 : idx_main_v33 (idx_main_v34 (idx_main_v35 (ridx_main_v36 (ix2 p t) s))) = ix3 (0 : Fin 4) t s := funext fun a => Fin.ext (by
    match a with
    | ⟨0, _⟩ => rfl
    | ⟨1, _⟩ => show (t.val * 1024 + s.val) / 1024 % 1024 = t.val; have := t.isLt; have := s.isLt; omega
    | ⟨2, _⟩ => show (t.val * 1024 + s.val) % 1024 = s.val; have := s.isLt; omega)
  rw [e1, e2]

/-- Layer 0 of the reference is the specification's layer 0 on the input it reads: its softmax is the layer's
    attention weights and its last stage the layer's output. -/
theorem layer_0 :
    (∀ i j : Fin 2048, (val_main_v31 (F := Ideal) x0 x1 x2) (ix2 i j)
        = layerW ((1 / 32 : ℝ) : EReal) (fun l j t => x1 (ix3 l j t)) (fun l j => x2 (ix2 l j)) (0 : Fin 4)
            (fun p t => x0 (ix2 p t)) i j)
    ∧ (∀ (p : Fin 2048) (t : Fin 1024), (val_main_v41 (F := Ideal) x0 x1 x2 x3 x4) (ix2 p t)
        = layerX ((1 / 32 : ℝ) : EReal) (fun l j t => x1 (ix3 l j t)) (fun l j => x2 (ix2 l j))
            (fun l j t => x3 (ix3 l j t)) (fun l j => x4 (ix2 l j)) (0 : Fin 4) (fun p t => x0 (ix2 p t)) p t) :=
  layer_reads (1 / 32) (by norm_num) (fun l j t => x1 (ix3 l j t)) (fun l j => x2 (ix2 l j))
    (fun l j t => x3 (ix3 l j t)) (fun l j => x4 (ix2 l j)) (0 : Fin 4) x0 (val_main_v12 (F := Ideal) x0 x1 x2) (val_main_v20 (F := Ideal) x0 x1 x2) (val_main_v31 (F := Ideal) x0 x1 x2) (val_main_v32 (F := Ideal) x0 x1 x2) (val_main_v41 (F := Ideal) x0 x1 x2 x3 x4)
    (read12_0 x0 x1 x2 x3 x4) (read20_0 x0 x1 x2 x3 x4) (read31_0 x0 x1 x2 x3 x4) (read32_0 x0 x1 x2 x3 x4)
    (read41_0 x0 x1 x2 x3 x4)

end Cert.RefSide

end
-- ==== Proof.RefLayer1.lean ====
/-
  Layer 1 of the reference, stage by stage: the stacked projections, the masked scores, the softmax, the mixture of the
  values and the output projection, each read at an index; together they are the specification's layer.
-/
import proofs.«101734_j68264210202743_2_alg».proof.Proof.RefCommon

noncomputable section

namespace Cert.RefSide

open Cert.ReferenceIdeal Cert.ReferenceIdeal.Gen Cert.ReferenceIdeal.ReadP Idealize.ShloMosaic Idealize.ShloMosaic.ValueIdx Cert.Attn

variable (x0 : (⟨S2048x1024, .f32⟩ : BufTy).Contents (Elt Ideal)) (x1 : (⟨S4x3072x1024, .f32⟩ : BufTy).Contents (Elt Ideal))
  (x2 : (⟨S4x3072, .f32⟩ : BufTy).Contents (Elt Ideal)) (x3 : (⟨S4x1024x1024, .f32⟩ : BufTy).Contents (Elt Ideal))
  (x4 : (⟨S4x1024, .f32⟩ : BufTy).Contents (Elt Ideal))

include x0 x1 x2 x3 x4

/-- The stacked projections of layer 1: entry (p, j) is the input's row p against row j of the layer's stacked matrix, plus
    entry j of its stacked bias. -/
theorem read12_1 (p : Fin 2048) (j : Fin 3072) :
    (val_main_v50 (F := Ideal) x0 x1 x2 x3 x4) (ix2 p j) = (∑ t : Fin 1024, (val_main_v41 (F := Ideal) x0 x1 x2 x3 x4) (ix2 p t) * x1 (ix3 (1 : Fin 4) j t)) + x2 (ix2 (1 : Fin 4) j) := by
  rw [val_main_v50_apply, val_main_v45_apply, val_main_v49_apply, val_main_v48_apply, val_main_v47_apply, val_main_v46_apply, Ideal.addf_def]
  have e3 : idx_main_v46 (idx_main_v47 (idx_main_v48 (idx_main_v49 (ix2 p j)))) = ix2 (1 : Fin 4) j := funext fun a => Fin.ext (by
    match a with
    | ⟨0, _⟩ => rfl
    | ⟨1, _⟩ => show j.val % 3072 = j.val; have := j.isLt; omega)
  rw [e3]
  refine congrArg (· + _) (Finset.sum_congr rfl fun t _ => ?_)
  rw [val_main_v44_apply, val_main_v43_apply, val_main_v42_apply]
  have e1 : lidx_main_v45 (ix2 p j) t = ix2 p t := funext fun a => Fin.ext (by
    match a with
    | ⟨0, _⟩ => rfl
    | ⟨1, _⟩ => rfl)
  have e2 : idx_main_v42 (idx_main_v43 (idx_main_v44 (ridx_main_v45 (ix2 p j) t))) = ix3 (1 : Fin 4) j t := funext fun a => Fin.ext (by
    match a with
    | ⟨0, _⟩ => rfl
    | ⟨1, _⟩ => show (j.val * 1024 + t.val) / 1024 % 3072 = j.val; have := j.isLt; have := t.isLt; omega
    | ⟨2, _⟩ => show (j.val * 1024 + t.val) % 1024 = t.val; have := t.isLt; omega)
  rw [e1, e2]

/-- The scores of layer 1: the scaled query columns against the key columns of the stacked projections, plus the mask. -/
theorem read20_1 (i j : Fin 2048) :
    (val_main_v58 (F := Ideal) x0 x1 x2 x3 x4) (ix2 i j)
      = (∑ t : Fin 1024, ((val_main_v50 (F := Ideal) x0 x1 x2 x3 x4) (ix2 i (col 0 (by omega) t)) * ((1 / 32 : ℝ) : EReal))
            * (val_main_v50 (F := Ideal) x0 x1 x2 x3 x4) (ix2 j (col 1024 (by omega) t)))
          + (if j.val ≤ i.val then 0 else ⊥) := by
  rw [val_main_v58_apply, val_main_v57_apply, Ideal.addf_def, mask_read]
  refine congrArg (· + _) (Finset.sum_congr rfl fun t _ => ?_)
  rw [val_main_v55_apply, val_main_v56_apply, val_main_v51_apply, val_main_v52_apply, val_main_v54_apply, scale_read, Ideal.mulf_def]
  have e1 : idx_main_v51 (lidx_main_v57 (ix2 i j) t) = ix2 i (col 0 (by omega) t) := funext fun a => Fin.ext (by
    match a with
    | ⟨0, _⟩ => rfl
    | ⟨1, _⟩ => show t.val = 0 + t.val; omega)
  have e2 : idx_main_v52 (idx_main_v56 (ridx_main_v57 (ix2 i j) t)) = ix2 j (col 1024 (by omega) t) := funext fun a => Fin.ext (by
    match a with
    | ⟨0, _⟩ => rfl
    | ⟨1, _⟩ => rfl)
  rw [e1, e2]

/-- The softmax of layer 1 as the reference computes it. -/
theorem read31_1 (i j : Fin 2048) :
    (val_main_v69 (F := Ideal) x0 x1 x2 x3 x4) (ix2 i j)
      = Ideal.div (Ideal.exp ((val_main_v58 (F := Ideal) x0 x1 x2 x3 x4) (ix2 i j) - max ⊥ ((Finset.univ : Finset (Fin 2048)).fold max ⊥ fun b => (val_main_v58 (F := Ideal) x0 x1 x2 x3 x4) (ix2 i b))))
          (0 + ∑ t : Fin 2048, Ideal.exp ((val_main_v58 (F := Ideal) x0 x1 x2 x3 x4) (ix2 i t) - max ⊥ ((Finset.univ : Finset (Fin 2048)).fold max ⊥ fun b => (val_main_v58 (F := Ideal) x0 x1 x2 x3 x4) (ix2 i b)))) := by
  have hmax : ∀ b : Fin 2048, (val_main_v63 (F := Ideal) x0 x1 x2 x3 x4) (ix2 i b) = max ⊥ ((Finset.univ : Finset (Fin 2048)).fold max ⊥ fun b => (val_main_v58 (F := Ideal) x0 x1 x2 x3 x4) (ix2 i b)) := by
    intro b
    rw [val_main_v63_apply, val_main_v62_apply, val_main_v61_apply, val_main_v60_apply, val_main_cst_6_apply, Ideal.maximumf_def, Ideal.ofBits_def, ofBits_neg_inf]
    have e : idx_main_v62 (idx_main_v63 (ix2 i b)) = ix1 i := funext fun a => Fin.ext (by
      match a with
      | ⟨0, _⟩ => rfl)
    rw [e]
    exact congrArg (max ⊥) (rowmax_read (val_main_v58 (F := Ideal) x0 x1 x2 x3 x4) i)
  have hexp : ∀ b : Fin 2048, (val_main_v65 (F := Ideal) x0 x1 x2 x3 x4) (ix2 i b) = Ideal.exp ((val_main_v58 (F := Ideal) x0 x1 x2 x3 x4) (ix2 i b) - max ⊥ ((Finset.univ : Finset (Fin 2048)).fold max ⊥ fun b => (val_main_v58 (F := Ideal) x0 x1 x2 x3 x4) (ix2 i b))) := by
    intro b
    rw [val_main_v65_apply, val_main_v64_apply, Ideal.hostUnary_exp_def, Ideal.subf_def, hmax b]
  rw [val_main_v69_apply, Ideal.hostDivf_def, hexp j, val_main_v68_apply, val_main_v67_apply, val_main_v66_apply, val_main_cst_7_apply, Ideal.ofBits_def, Ideal.ofBits_zero_f32]
  refine congrArg (fun s => Ideal.div _ (0 + s)) (Finset.sum_congr rfl fun t _ => ?_)
  have e : idx_main_v66 (idx_main_v67 (idx_main_v68 (ix2 i j))) t = ix2 i t := funext fun a => Fin.ext (by
    match a with
    | ⟨0, _⟩ => rfl
    | ⟨1, _⟩ => rfl)
  rw [e, hexp t]

/-- The mixture of the values of layer 1: the weights' row against the value columns of the stacked projections. -/
theorem read32_1 (p : Fin 2048) (s : Fin 1024) :
    (val_main_v70 (F := Ideal) x0 x1 x2 x3 x4) (ix2 p s) = ∑ j : Fin 2048, (val_main_v69 (F := Ideal) x0 x1 x2 x3 x4) (ix2 p j) * (val_main_v50 (F := Ideal) x0 x1 x2 x3 x4) (ix2 j (col 2048 (by omega) s)) := by
  rw [val_main_v70_apply]
  refine Finset.sum_congr rfl fun j _ => ?_
  rw [val_main_v53_apply]
  have e1 : lidx_main_v70 (ix2 p s) j = ix2 p j := funext fun a => Fin.ext (by
    match a with
    | ⟨0, _⟩ => rfl
    | ⟨1, _⟩ => rfl)
  have e2 : idx_main_v53 (ridx_main_v70 (ix2 p s) j) = ix2 j (col 2048 (by omega) s) := funext fun a => Fin.ext (by
    match a with
    | ⟨0, _⟩ => rfl
    | ⟨1, _⟩ => rfl)
  rw [e1, e2]

/-- The output projection of layer 1. -/
theorem read41_1 (p : Fin 2048) (t : Fin 1024) :
    (val_main_v79 (F := Ideal) x0 x1 x2 x3 x4) (ix2 p t) = (∑ s : Fin 1024, (val_main_v70 (F := Ideal) x0 x1 x2 x3 x4) (ix2 p s) * x3 (ix3 (1 : Fin 4) t s)) + x4 (ix2 (1 : Fin 4) t) := by
  rw [val_main_v79_apply, val_main_v74_apply, val_main_v78_apply, val_main_v77_apply, val_main_v76_apply, val_main_v75_apply, Ideal.addf_def]
  have e3 : idx_main_v75 (idx_main_v76 (idx_main_v77 (idx_main_v78 (ix2 p t)))) = ix2 (1 : Fin 4) t := funext fun a => Fin.ext (by
    match a with
    | ⟨0, _⟩ => rfl
    | ⟨1, _⟩ => show t.val % 1024 = t.val; have := t.isLt; omega)
  rw [e3]
  refine congrArg (· + _) (Finset.sum_congr rfl fun s _ => ?_)
  rw [val_main_v73_apply, val_main_v72_apply, val_main_v71_apply]
  have e1 : lidx_main_v74 (ix2 p t) s = ix2 p s := funext fun a => Fin.ext (by
    match a with
    | ⟨0, _⟩ => rfl
    | ⟨1, _⟩ => rfl)
  have e2 : idx_main_v71 (idx_main_v72 (idx_main_v73 (ridx_main_v74 (ix2 p t) s))) = ix3 (1 : Fin 4) t s := funext fun a => Fin.ext (by
    match a with
    | ⟨0, _⟩ => rfl
    | ⟨1, _⟩ => show (t.val * 1024 + s.val) / 1024 % 1024 = t.val; have := t.isLt; have := s.isLt; omega
    | ⟨2, _⟩ => show (t.val * 1024 + s.val) % 1024 = s.val; have := s.isLt; omega)
  rw [e1, e2]

/-- Layer 1 of the reference is the specification's layer 1 on the input it reads: its softmax is the layer's
    attention weights and its last stage the layer's output. -/
theorem layer_1 :
    (∀ i j : Fin 2048, (val_main_v69 (F := Ideal) x0 x1 x2 x3 x4) (ix2 i j)
        = layerW ((1 / 32 : ℝ) : EReal) (fun l j t => x1 (ix3 l j t)) (fun l j => x2 (ix2 l j)) (1 : Fin 4)
            (fun p t => (val_main_v41 (F := Ideal) x0 x1 x2 x3 x4) (ix2 p t)) i j)
    ∧ (∀ (p : Fin 2048) (t : Fin 1024), (val_main_v79 (F := Ideal) x0 x1 x2 x3 x4) (ix2 p t)
        = layerX ((1 / 32 : ℝ) : EReal) (fun l j t => x1 (ix3 l j t)) (fun l j => x2 (ix2 l j))
            (fun l j t => x3 (ix3 l j t)) (fun l j => x4 (ix2 l j)) (1 : Fin 4) (fun p t => (val_main_v41 (F := Ideal) x0 x1 x2 x3 x4) (ix2 p t)) p t) :=
  layer_reads (1 / 32) (by norm_num) (fun l j t => x1 (ix3 l j t)) (fun l j => x2 (ix2 l j))
    (fun l j t => x3 (ix3 l j t)) (fun l j => x4 (ix2 l j)) (1 : Fin 4) (val_main_v41 (F := Ideal) x0 x1 x2 x3 x4) (val_main_v50 (F := Ideal) x0 x1 x2 x3 x4) (val_main_v58 (F := Ideal) x0 x1 x2 x3 x4) (val_main_v69 (F := Ideal) x0 x1 x2 x3 x4) (val_main_v70 (F := Ideal) x0 x1 x2 x3 x4) (val_main_v79 (F := Ideal) x0 x1 x2 x3 x4)
    (read12_1 x0 x1 x2 x3 x4) (read20_1 x0 x1 x2 x3 x4) (read31_1 x0 x1 x2 x3 x4) (read32_1 x0 x1 x2 x3 x4)
    (read41_1 x0 x1 x2 x3 x4)

end Cert.RefSide

end
-- ==== Proof.RefLayer2.lean ====
/-
  Layer 2 of the reference, stage by stage: the stacked projections, the masked scores, the softmax, the mixture of the
  values and the output projection, each read at an index; together they are the specification's layer.
-/
import proofs.«101734_j68264210202743_2_alg».proof.Proof.RefCommon

noncomputable section

namespace Cert.RefSide

open Cert.ReferenceIdeal Cert.ReferenceIdeal.Gen Cert.ReferenceIdeal.ReadP Idealize.ShloMosaic Idealize.ShloMosaic.ValueIdx Cert.Attn

variable (x0 : (⟨S2048x1024, .f32⟩ : BufTy).Contents (Elt Ideal)) (x1 : (⟨S4x3072x1024, .f32⟩ : BufTy).Contents (Elt Ideal))
  (x2 : (⟨S4x3072, .f32⟩ : BufTy).Contents (Elt Ideal)) (x3 : (⟨S4x1024x1024, .f32⟩ : BufTy).Contents (Elt Ideal))
  (x4 : (⟨S4x1024, .f32⟩ : BufTy).Contents (Elt Ideal))

include x0 x1 x2 x3 x4

/-- The stacked projections of layer 2: entry (p, j) is the input's row p against row j of the layer's stacked matrix, plus
    entry j of its stacked bias. -/
theorem read12_2 (p : Fin 2048) (j : Fin 3072) :
    (val_main_v88 (F := Ideal) x0 x1 x2 x3 x4) (ix2 p j) = (∑ t : Fin 1024, (val_main_v79 (F := Ideal) x0 x1 x2 x3 x4) (ix2 p t) * x1 (ix3 (2 : Fin 4) j t)) + x2 (ix2 (2 : Fin 4) j) := by
  rw [val_main_v88_apply, val_main_v83_apply, val_main_v87_apply, val_main_v86_apply, val_main_v85_apply, val_main_v84_apply, Ideal.addf_def]
  have e3 : idx_main_v84 (idx_main_v85 (idx_main_v86 (idx_main_v87 (ix2 p j)))) = ix2 (2 : Fin 4) j := funext fun a => Fin.ext (by
    match a with
    | ⟨0, _⟩ => rfl
    | ⟨1, _⟩ => show j.val % 3072 = j.val; have := j.isLt; omega)
  rw [e3]
  refine congrArg (· + _) (Finset.sum_congr rfl fun t _ => ?_)
  rw [val_main_v82_apply, val_main_v81_apply, val_main_v80_apply]
  have e1 : lidx_main_v83 (ix2 p j) t = ix2 p t := funext fun a => Fin.ext (by
    match a with
    | ⟨0, _⟩ => rfl
    | ⟨1, _⟩ => rfl)
  have e2 : idx_main_v80 (idx_main_v81 (idx_main_v82 (ridx_main_v83 (ix2 p j) t))) = ix3 (2 : Fin 4) j t := funext fun a => Fin.ext (by
    match a with
    | ⟨0, _⟩ => rfl
    | ⟨1, _⟩ => show (j.val * 1024 + t.val) / 1024 % 3072 = j.val; have := j.isLt; have := t.isLt; omega
    | ⟨2, _⟩ => show (j.val * 1024 + t.val) % 1024 = t.val; have := t.isLt; omega)
  rw [e1, e2]

/-- The scores of layer 2: the scaled query columns against the key columns of the stacked projections, plus the mask. -/
theorem read20_2 (i j : Fin 2048) :
    (val_main_v96 (F := Ideal) x0 x1 x2 x3 x4) (ix2 i j)
      = (∑ t : Fin 1024, ((val_main_v88 (F := Ideal) x0 x1 x2 x3 x4) (ix2 i (col 0 (by omega) t)) * ((1 / 32 : ℝ) : EReal))
            * (val_main_v88 (F := Ideal) x0 x1 x2 x3 x4) (ix2 j (col 1024 (by omega) t)))
          + (if j.val ≤ i.val then 0 else ⊥) := by
  rw [val_main_v96_apply, val_main_v95_apply, Ideal.addf_def, mask_read]
  refine congrArg (· + _) (Finset.sum_congr rfl fun t _ => ?_)
  rw [val_main_v93_apply, val_main_v94_apply, val_main_v89_apply, val_main_v90_apply, val_main_v92_apply, scale_read, Ideal.mulf_def]
  have e1 : idx_main_v89 (lidx_main_v95 (ix2 i j) t) = ix2 i (col 0 (by omega) t) := funext fun a => Fin.ext (by
    match a with
    | ⟨0, _⟩ => rfl
    | ⟨1, _⟩ => show t.val = 0 + t.val; omega)
  have e2 : idx_main_v90 (idx_main_v94 (ridx_main_v95 (ix2 i j) t)) = ix2 j (col 1024 (by omega) t) := funext fun a => Fin.ext (by
    match a with
    | ⟨0, _⟩ => rfl
    | ⟨1, _⟩ => rfl)
  rw [e1, e2]

/-- The softmax of layer 2 as the reference computes it. -/
theorem read31_2 (i j : Fin 2048) :
    (val_main_v107 (F := Ideal) x0 x1 x2 x3 x4) (ix2 i j)
      = Ideal.div (Ideal.exp ((val_main_v96 (F := Ideal) x0 x1 x2 x3 x4) (ix2 i j) - max ⊥ ((Finset.univ : Finset (Fin 2048)).fold max ⊥ fun b => (val_main_v96 (F := Ideal) x0 x1 x2 x3 x4) (ix2 i b))))
          (0 + ∑ t : Fin 2048, Ideal.exp ((val_main_v96 (F := Ideal) x0 x1 x2 x3 x4) (ix2 i t) - max ⊥ ((Finset.univ : Finset (Fin 2048)).fold max ⊥ fun b => (val_main_v96 (F := Ideal) x0 x1 x2 x3 x4) (ix2 i b)))) := by
  have hmax : ∀ b : Fin 2048, (val_main_v101 (F := Ideal) x0 x1 x2 x3 x4) (ix2 i b) = max ⊥ ((Finset.univ : Finset (Fin 2048)).fold max ⊥ fun b => (val_main_v96 (F := Ideal) x0 x1 x2 x3 x4) (ix2 i b)) := by
    intro b
    rw [val_main_v101_apply, val_main_v100_apply, val_main_v99_apply, val_main_v98_apply, val_main_cst_9_apply, Ideal.maximumf_def, Ideal.ofBits_def, ofBits_neg_inf]
    have e : idx_main_v100 (idx_main_v101 (ix2 i b)) = ix1 i := funext fun a => Fin.ext (by
      match a with
      | ⟨0, _⟩ => rfl)
    rw [e]
    exact congrArg (max ⊥) (rowmax_read (val_main_v96 (F := Ideal) x0 x1 x2 x3 x4) i)
  have hexp : ∀ b : Fin 2048, (val_main_v103 (F := Ideal) x0 x1 x2 x3 x4) (ix2 i b) = Ideal.exp ((val_main_v96 (F := Ideal) x0 x1 x2 x3 x4) (ix2 i b) - max ⊥ ((Finset.univ : Finset (Fin 2048)).fold max ⊥ fun b => (val_main_v96 (F := Ideal) x0 x1 x2 x3 x4) (ix2 i b))) := by
    intro b
    rw [val_main_v103_apply, val_main_v102_apply, Ideal.hostUnary_exp_def, Ideal.subf_def, hmax b]
  rw [val_main_v107_apply, Ideal.hostDivf_def, hexp j, val_main_v106_apply, val_main_v105_apply, val_main_v104_apply, val_main_cst_10_apply, Ideal.ofBits_def, Ideal.ofBits_zero_f32]
  refine congrArg (fun s => Ideal.div _ (0 + s)) (Finset.sum_congr rfl fun t _ => ?_)
  have e : idx_main_v104 (idx_main_v105 (idx_main_v106 (ix2 i j))) t = ix2 i t := funext fun a => Fin.ext (by
    match a with
    | ⟨0, _⟩ => rfl
    | ⟨1, _⟩ => rfl)
  rw [e, hexp t]

/-- The mixture of the values of layer 2: the weights' row against the value columns of the stacked projections. -/
theorem read32_2 (p : Fin 2048) (s : Fin 1024) :
    (val_main_v108 (F := Ideal) x0 x1 x2 x3 x4) (ix2 p s) = ∑ j : Fin 2048, (val_main_v107 (F := Ideal) x0 x1 x2 x3 x4) (ix2 p j) * (val_main_v88 (F := Ideal) x0 x1 x2 x3 x4) (ix2 j (col 2048 (by omega) s)) := by
  rw [val_main_v108_apply]
  refine Finset.sum_congr rfl fun j _ => ?_
  rw [val_main_v91_apply]
  have e1 : lidx_main_v108 (ix2 p s) j = ix2 p j := funext fun a => Fin.ext (by
    match a with
    | ⟨0, _⟩ => rfl
    | ⟨1, _⟩ => rfl)
  have e2 : idx_main_v91 (ridx_main_v108 (ix2 p s) j) = ix2 j (col 2048 (by omega) s) := funext fun a => Fin.ext (by
    match a with
    | ⟨0, _⟩ => rfl
    | ⟨1, _⟩ => rfl)
  rw [e1, e2]

/-- The output projection of layer 2. -/
theorem read41_2 (p : Fin 2048) (t : Fin 1024) :
    (val_main_v117 (F := Ideal) x0 x1 x2 x3 x4) (ix2 p t) = (∑ s : Fin 1024, (val_main_v108 (F := Ideal) x0 x1 x2 x3 x4) (ix2 p s) * x3 (ix3 (2 : Fin 4) t s)) + x4 (ix2 (2 : Fin 4) t) := by
  rw [val_main_v117_apply, val_main_v112_apply, val_main_v116_apply, val_main_v115_apply, val_main_v114_apply, val_main_v113_apply, Ideal.addf_def]
  have e3 : idx_main_v113 (idx_main_v114 (idx_main_v115 (idx_main_v116 (ix2 p t)))) = ix2 (2 : Fin 4) t := funext fun a => Fin.ext (by
    match a with
    | ⟨0, _⟩ => rfl
    | ⟨1, _⟩ => show t.val % 1024 = t.val; have := t.isLt; omega)
  rw [e3]
  refine congrArg (· + _) (Finset.sum_congr rfl fun s _ => ?_)
  rw [val_main_v111_apply, val_main_v110_apply, val_main_v109_apply]
  have e1 : lidx_main_v112 (ix2 p t) s = ix2 p s := funext fun a => Fin.ext (by
    match a with
    | ⟨0, _⟩ => rfl
    | ⟨1, _⟩ => rfl)
  have e2 : idx_main_v109 (idx_main_v110 (idx_main_v111 (ridx_main_v112 (ix2 p t) s))) = ix3 (2 : Fin 4) t s := funext fun a => Fin.ext (by
    match a with
    | ⟨0, _⟩ => rfl
    | ⟨1, _⟩ => show (t.val * 1024 + s.val) / 1024 % 1024 = t.val; have := t.isLt; have := s.isLt; omega
    | ⟨2, _⟩ => show (t.val * 1024 + s.val) % 1024 = s.val; have := s.isLt; omega)
  rw [e1, e2]

/-- Layer 2 of the reference is the specification's layer 2 on the input it reads: its softmax is the layer's
    attention weights and its last stage the layer's output. -/
theorem layer_2 :
    (∀ i j : Fin 2048, (val_main_v107 (F := Ideal) x0 x1 x2 x3 x4) (ix2 i j)
        = layerW ((1 / 32 : ℝ) : EReal) (fun l j t => x1 (ix3 l j t)) (fun l j => x2 (ix2 l j)) (2 : Fin 4)
            (fun p t => (val_main_v79 (F := Ideal) x0 x1 x2 x3 x4) (ix2 p t)) i j)
    ∧ (∀ (p : Fin 2048) (t : Fin 1024), (val_main_v117 (F := Ideal) x0 x1 x2 x3 x4) (ix2 p t)
        = layerX ((1 / 32 : ℝ) : EReal) (fun l j t => x1 (ix3 l j t)) (fun l j => x2 (ix2 l j))
            (fun l j t => x3 (ix3 l j t)) (fun l j => x4 (ix2 l j)) (2 : Fin 4) (fun p t => (val_main_v79 (F := Ideal) x0 x1 x2 x3 x4) (ix2 p t)) p t) :=
  layer_reads (1 / 32) (by norm_num) (fun l j t => x1 (ix3 l j t)) (fun l j => x2 (ix2 l j))
    (fun l j t => x3 (ix3 l j t)) (fun l j => x4 (ix2 l j)) (2 : Fin 4) (val_main_v79 (F := Ideal) x0 x1 x2 x3 x4) (val_main_v88 (F := Ideal) x0 x1 x2 x3 x4) (val_main_v96 (F := Ideal) x0 x1 x2 x3 x4) (val_main_v107 (F := Ideal) x0 x1 x2 x3 x4) (val_main_v108 (F := Ideal) x0 x1 x2 x3 x4) (val_main_v117 (F := Ideal) x0 x1 x2 x3 x4)
    (read12_2 x0 x1 x2 x3 x4) (read20_2 x0 x1 x2 x3 x4) (read31_2 x0 x1 x2 x3 x4) (read32_2 x0 x1 x2 x3 x4)
    (read41_2 x0 x1 x2 x3 x4)

end Cert.RefSide

end
-- ==== Proof.RefLayer3.lean ====
/-
  Layer 3 of the reference, stage by stage: the stacked projections, the masked scores, the softmax, the mixture of the
  values and the output projection, each read at an index; together they are the specification's layer.
-/
import proofs.«101734_j68264210202743_2_alg».proof.Proof.RefCommon

noncomputable section

namespace Cert.RefSide

open Cert.ReferenceIdeal Cert.ReferenceIdeal.Gen Cert.ReferenceIdeal.ReadP Idealize.ShloMosaic Idealize.ShloMosaic.ValueIdx Cert.Attn

variable (x0 : (⟨S2048x1024, .f32⟩ : BufTy).Contents (Elt Ideal)) (x1 : (⟨S4x3072x1024, .f32⟩ : BufTy).Contents (Elt Ideal))
  (x2 : (⟨S4x3072, .f32⟩ : BufTy).Contents (Elt Ideal)) (x3 : (⟨S4x1024x1024, .f32⟩ : BufTy).Contents (Elt Ideal))
  (x4 : (⟨S4x1024, .f32⟩ : BufTy).Contents (Elt Ideal))

include x0 x1 x2 x3 x4

/-- The stacked projections of layer 3: entry (p, j) is the input's row p against row j of the layer's stacked matrix, plus
    entry j of its stacked bias. -/
theorem read12_3 (p : Fin 2048) (j : Fin 3072) :
    (val_main_v126 (F := Ideal) x0 x1 x2 x3 x4) (ix2 p j) = (∑ t : Fin 1024, (val_main_v117 (F := Ideal) x0 x1 x2 x3 x4) (ix2 p t) * x1 (ix3 (3 : Fin 4) j t)) + x2 (ix2 (3 : Fin 4) j) := by
  rw [val_main_v126_apply, val_main_v121_apply, val_main_v125_apply, val_main_v124_apply, val_main_v123_apply, val_main_v122_apply, Ideal.addf_def]
  have e3 : idx_main_v122 (idx_main_v123 (idx_main_v124 (idx_main_v125 (ix2 p j)))) = ix2 (3 : Fin 4) j := funext fun a => Fin.ext (by
    match a with
    | ⟨0, _⟩ => rfl
    | ⟨1, _⟩ => show j.val % 3072 = j.val; have := j.isLt; omega)
  rw [e3]
  refine congrArg (· + _) (Finset.sum_congr rfl fun t _ => ?_)
  rw [val_main_v120_apply, val_main_v119_apply, val_main_v118_apply]
  have e1 : lidx_main_v121 (ix2 p j) t = ix2 p t := funext fun a => Fin.ext (by
    match a with
    | ⟨0, _⟩ => rfl
    | ⟨1, _⟩ => rfl)
  have e2 : idx_main_v118 (idx_main_v119 (idx_main_v120 (ridx_main_v121 (ix2 p j) t))) = ix3 (3 : Fin 4) j t := funext fun a => Fin.ext (by
    match a with
    | ⟨0, _⟩ => rfl
    | ⟨1, _⟩ => show (j.val * 1024 + t.val) / 1024 % 3072 = j.val; have := j.isLt; have := t.isLt; omega
    | ⟨2, _⟩ => show (j.val * 1024 + t.val) % 1024 = t.val; have := t.isLt; omega)
  rw [e1, e2]

/-- The scores of layer 3: the scaled query columns against the key columns of the stacked projections, plus the mask. -/
theorem read20_3 (i j : Fin 2048) :
    (val_main_v134 (F := Ideal) x0 x1 x2 x3 x4) (ix2 i j)
      = (∑ t : Fin 1024, ((val_main_v126 (F := Ideal) x0 x1 x2 x3 x4) (ix2 i (col 0 (by omega) t)) * ((1 / 32 : ℝ) : EReal))
            * (val_main_v126 (F := Ideal) x0 x1 x2 x3 x4) (ix2 j (col 1024 (by omega) t)))
          + (if j.val ≤ i.val then 0 else ⊥) := by
  rw [val_main_v134_apply, val_main_v133_apply, Ideal.addf_def, mask_read]
  refine congrArg (· + _) (Finset.sum_congr rfl fun t _ => ?_)
  rw [val_main_v131_apply, val_main_v132_apply, val_main_v127_apply, val_main_v128_apply, val_main_v130_apply, scale_read, Ideal.mulf_def]
  have e1 : idx_main_v127 (lidx_main_v133 (ix2 i j) t) = ix2 i (col 0 (by omega) t) := funext fun a => Fin.ext (by
    match a with
    | ⟨0, _⟩ => rfl
    | ⟨1, _⟩ => show t.val = 0 + t.val; omega)
  have e2 : idx_main_v128 (idx_main_v132 (ridx_main_v133 (ix2 i j) t)) = ix2 j (col 1024 (by omega) t) := funext fun a => Fin.ext (by
    match a with
    | ⟨0, _⟩ => rfl
    | ⟨1, _⟩ => rfl)
  rw [e1, e2]

/-- The softmax of layer 3 as the reference computes it. -/
theorem read31_3 (i j : Fin 2048) :
    (val_main_v145 (F := Ideal) x0 x1 x2 x3 x4) (ix2 i j)
      = Ideal.div (Ideal.exp ((val_main_v134 (F := Ideal) x0 x1 x2 x3 x4) (ix2 i j) - max ⊥ ((Finset.univ : Finset (Fin 2048)).fold max ⊥ fun b => (val_main_v134 (F := Ideal) x0 x1 x2 x3 x4) (ix2 i b))))
          (0 + ∑ t : Fin 2048, Ideal.exp ((val_main_v134 (F := Ideal) x0 x1 x2 x3 x4) (ix2 i t) - max ⊥ ((Finset.univ : Finset (Fin 2048)).fold max ⊥ fun b => (val_main_v134 (F := Ideal) x0 x1 x2 x3 x4) (ix2 i b)))) := by
  have hmax : ∀ b : Fin 2048, (val_main_v139 (F := Ideal) x0 x1 x2 x3 x4) (ix2 i b) = max ⊥ ((Finset.univ : Finset (Fin 2048)).fold max ⊥ fun b => (val_main_v134 (F := Ideal) x0 x1 x2 x3 x4) (ix2 i b)) := by
    intro b
    rw [val_main_v139_apply, val_main_v138_apply, val_main_v137_apply, val_main_v136_apply, val_main_cst_12_apply, Ideal.maximumf_def, Ideal.ofBits_def, ofBits_neg_inf]
    have e : idx_main_v138 (idx_main_v139 (ix2 i b)) = ix1 i := funext fun a => Fin.ext (by
      match a with
      | ⟨0, _⟩ => rfl)
    rw [e]
    exact congrArg (max ⊥) (rowmax_read (val_main_v134 (F := Ideal) x0 x1 x2 x3 x4) i)
  have hexp : ∀ b : Fin 2048, (val_main_v141 (F := Ideal) x0 x1 x2 x3 x4) (ix2 i b) = Ideal.exp ((val_main_v134 (F := Ideal) x0 x1 x2 x3 x4) (ix2 i b) - max ⊥ ((Finset.univ : Finset (Fin 2048)).fold max ⊥ fun b => (val_main_v134 (F := Ideal) x0 x1 x2 x3 x4) (ix2 i b))) := by
    intro b
    rw [val_main_v141_apply, val_main_v140_apply, Ideal.hostUnary_exp_def, Ideal.subf_def, hmax b]
  rw [val_main_v145_apply, Ideal.hostDivf_def, hexp j, val_main_v144_apply, val_main_v143_apply, val_main_v142_apply, val_main_cst_13_apply, Ideal.ofBits_def, Ideal.ofBits_zero_f32]
  refine congrArg (fun s => Ideal.div _ (0 + s)) (Finset.sum_congr rfl fun t _ => ?_)
  have e : idx_main_v142 (idx_main_v143 (idx_main_v144 (ix2 i j))) t = ix2 i t := funext fun a => Fin.ext (by
    match a with
    | ⟨0, _⟩ => rfl
    | ⟨1, _⟩ => rfl)
  rw [e, hexp t]

/-- The mixture of the values of layer 3: the weights' row against the value columns of the stacked projections. -/
theorem read32_3 (p : Fin 2048) (s : Fin 1024) :
    (val_main_v146 (F := Ideal) x0 x1 x2 x3 x4) (ix2 p s) = ∑ j : Fin 2048, (val_main_v145 (F := Ideal) x0 x1 x2 x3 x4) (ix2 p j) * (val_main_v126 (F := Ideal) x0 x1 x2 x3 x4) (ix2 j (col 2048 (by omega) s)) := by
  rw [val_main_v146_apply]
  refine Finset.sum_congr rfl fun j _ => ?_
  rw [val_main_v129_apply]
  have e1 : lidx_main_v146 (ix2 p s) j = ix2 p j := funext fun a => Fin.ext (by
    match a with
    | ⟨0, _⟩ => rfl
    | ⟨1, _⟩ => rfl)
  have e2 : idx_main_v129 (ridx_main_v146 (ix2 p s) j) = ix2 j (col 2048 (by omega) s) := funext fun a => Fin.ext (by
    match a with
    | ⟨0, _⟩ => rfl
    | ⟨1, _⟩ => rfl)
  rw [e1, e2]

/-- The output projection of layer 3. -/
theorem read41_3 (p : Fin 2048) (t : Fin 1024) :
    (val_main_v155 (F := Ideal) x0 x1 x2 x3 x4) (ix2 p t) = (∑ s : Fin 1024, (val_main_v146 (F := Ideal) x0 x1 x2 x3 x4) (ix2 p s) * x3 (ix3 (3 : Fin 4) t s)) + x4 (ix2 (3 : Fin 4) t) := by
  rw [val_main_v155_apply, val_main_v150_apply, val_main_v154_apply, val_main_v153_apply, val_main_v152_apply, val_main_v151_apply, Ideal.addf_def]
  have e3 : idx_main_v151 (idx_main_v152 (idx_main_v153 (idx_main_v154 (ix2 p t)))) = ix2 (3 : Fin 4) t := funext fun a => Fin.ext (by
    match a with
    | ⟨0, _⟩ => rfl
    | ⟨1, _⟩ => show t.val % 1024 = t.val; have := t.isLt; omega)
  rw [e3]
  refine congrArg (· + _) (Finset.sum_congr rfl fun s _ => ?_)
  rw [val_main_v149_apply, val_main_v148_apply, val_main_v147_apply]
  have e1 : lidx_main_v150 (ix2 p t) s = ix2 p s := funext fun a => Fin.ext (by
    match a with
    | ⟨0, _⟩ => rfl
    | ⟨1, _⟩ => rfl)
  have e2 : idx_main_v147 (idx_main_v148 (idx_main_v149 (ridx_main_v150 (ix2 p t) s))) = ix3 (3 : Fin 4) t s := funext fun a => Fin.ext (by
    match a with
    | ⟨0, _⟩ => rfl
    | ⟨1, _⟩ => show (t.val * 1024 + s.val) / 1024 % 1024 = t.val; have := t.isLt; have := s.isLt; omega
    | ⟨2, _⟩ => show (t.val * 1024 + s.val) % 1024 = s.val; have := s.isLt; omega)
  rw [e1, e2]

/-- Layer 3 of the reference is the specification's layer 3 on the input it reads: its softmax is the layer's
    attention weights and its last stage the layer's output. -/
theorem layer_3 :
    (∀ i j : Fin 2048, (val_main_v145 (F := Ideal) x0 x1 x2 x3 x4) (ix2 i j)
        = layerW ((1 / 32 : ℝ) : EReal) (fun l j t => x1 (ix3 l j t)) (fun l j => x2 (ix2 l j)) (3 : Fin 4)
            (fun p t => (val_main_v117 (F := Ideal) x0 x1 x2 x3 x4) (ix2 p t)) i j)
    ∧ (∀ (p : Fin 2048) (t : Fin 1024), (val_main_v155 (F := Ideal) x0 x1 x2 x3 x4) (ix2 p t)
        = layerX ((1 / 32 : ℝ) : EReal) (fun l j t => x1 (ix3 l j t)) (fun l j => x2 (ix2 l j))
            (fun l j t => x3 (ix3 l j t)) (fun l j => x4 (ix2 l j)) (3 : Fin 4) (fun p t => (val_main_v117 (F := Ideal) x0 x1 x2 x3 x4) (ix2 p t)) p t) :=
  layer_reads (1 / 32) (by norm_num) (fun l j t => x1 (ix3 l j t)) (fun l j => x2 (ix2 l j))
    (fun l j t => x3 (ix3 l j t)) (fun l j => x4 (ix2 l j)) (3 : Fin 4) (val_main_v117 (F := Ideal) x0 x1 x2 x3 x4) (val_main_v126 (F := Ideal) x0 x1 x2 x3 x4) (val_main_v134 (F := Ideal) x0 x1 x2 x3 x4) (val_main_v145 (F := Ideal) x0 x1 x2 x3 x4) (val_main_v146 (F := Ideal) x0 x1 x2 x3 x4) (val_main_v155 (F := Ideal) x0 x1 x2 x3 x4)
    (read12_3 x0 x1 x2 x3 x4) (read20_3 x0 x1 x2 x3 x4) (read31_3 x0 x1 x2 x3 x4) (read32_3 x0 x1 x2 x3 x4)
    (read41_3 x0 x1 x2 x3 x4)

end Cert.RefSide

end
-- ==== Proof.RefSpec.lean ====
/-
  The reference computes the specification's result: its four layers are the specification's layers (each reading the
  previous one's output), the stack of their attention weights summed from zero and divided by four is the running sum
  of the weights times a quarter, and the scale pattern of the specification is the real 1/32 the reference divides out.
-/
import proofs.«101734_j68264210202743_2_alg».proof.Proof.RefLayer0
import proofs.«101734_j68264210202743_2_alg».proof.Proof.RefLayer1
import proofs.«101734_j68264210202743_2_alg».proof.Proof.RefLayer2
import proofs.«101734_j68264210202743_2_alg».proof.Proof.RefLayer3

noncomputable section

namespace Cert.RefSide

open Cert.ReferenceIdeal Cert.ReferenceIdeal.Gen Cert.ReferenceIdeal.ReadP Idealize.ShloMosaic Idealize.ShloMosaic.ValueIdx Cert.Attn

/-- The reference's result, as a function of its five arguments, is the specification's layer-averaged attention matrix. -/
theorem ref_eq_result
    (x0 : (⟨Cert.ReferenceIdeal.S2048x1024, .f32⟩ : BufTy).Contents (Elt Ideal)) (x1 : (⟨Cert.ReferenceIdeal.S4x3072x1024, .f32⟩ : BufTy).Contents (Elt Ideal))
    (x2 : (⟨Cert.ReferenceIdeal.S4x3072, .f32⟩ : BufTy).Contents (Elt Ideal)) (x3 : (⟨Cert.ReferenceIdeal.S4x1024x1024, .f32⟩ : BufTy).Contents (Elt Ideal))
    (x4 : (⟨Cert.ReferenceIdeal.S4x1024, .f32⟩ : BufTy).Contents (Elt Ideal)) :
    Cert.ReferenceIdeal.ReadP.val_main_v163 (F := Ideal) x0 x1 x2 x3 x4 = Cert.Attn.result x0 x1 x2 x3 x4 := by
  funext idx
  obtain ⟨a, b, rfl⟩ : ∃ (a b : Fin 2048), idx = ix2 a b := ⟨idx 0, idx 1, eq_ix2 idx⟩
  -- the mean over the stack, read at (a, b)
  rw [val_main_v163_apply, val_main_v161_apply, val_main_v162_apply, val_main_cst_14_apply, val_main_cst_15_apply,
    Ideal.hostDivf_def, Ideal.ofBits_def, Ideal.ofBits_def, Fin.sum_univ_four]
  have c0 : (val_main_v160 (F := Ideal) x0 x1 x2 x3 x4) (idx_main_v161 (ix2 a b) 0) = (val_main_v31 (F := Ideal) x0 x1 x2) (ix2 a b) := by
    have e : idx_main_v161 (ix2 a b) 0 = ix3 (0 : Fin 4) a b := funext fun c => Fin.ext (by
      match c with
      | ⟨0, _⟩ => rfl
      | ⟨1, _⟩ => rfl
      | ⟨2, _⟩ => rfl)
    rw [e]
    refine (concat_read0 _ _ _ _ a b).trans ?_
    rw [val_main_v156_apply]
    exact congrArg _ (funext fun c => Fin.ext (by
      match c with
      | ⟨0, _⟩ => rfl
      | ⟨1, _⟩ => rfl))
  have c1 : (val_main_v160 (F := Ideal) x0 x1 x2 x3 x4) (idx_main_v161 (ix2 a b) 1) = (val_main_v69 (F := Ideal) x0 x1 x2 x3 x4) (ix2 a b) := by
    have e : idx_main_v161 (ix2 a b) 1 = ix3 (1 : Fin 4) a b := funext fun c => Fin.ext (by
      match c with
      | ⟨0, _⟩ => rfl
      | ⟨1, _⟩ => rfl
      | ⟨2, _⟩ => rfl)
    rw [e]
    refine (concat_read1 _ _ _ _ a b).trans ?_
    rw [val_main_v157_apply]
    exact congrArg _ (funext fun c => Fin.ext (by
      match c with
      | ⟨0, _⟩ => rfl
      | ⟨1, _⟩ => rfl))
  have c2 : (val_main_v160 (F := Ideal) x0 x1 x2 x3 x4) (idx_main_v161 (ix2 a b) 2) = (val_main_v107 (F := Ideal) x0 x1 x2 x3 x4) (ix2 a b) := by
    have e : idx_main_v161 (ix2 a b) 2 = ix3 (2 : Fin 4) a b := funext fun c => Fin.ext (by
      match c with
      | ⟨0, _⟩ => rfl
      | ⟨1, _⟩ => rfl
      | ⟨2, _⟩ => rfl)
    rw [e]
    refine (concat_read2 _ _ _ _ a b).trans ?_
    rw [val_main_v158_apply]
    exact congrArg _ (funext fun c => Fin.ext (by
      match c with
      | ⟨0, _⟩ => rfl
      | ⟨1, _⟩ => rfl))
  have c3 : (val_main_v160 (F := Ideal) x0 x1 x2 x3 x4) (idx_main_v161 (ix2 a b) 3) = (val_main_v145 (F := Ideal) x0 x1 x2 x3 x4) (ix2 a b) := by
    have e : idx_main_v161 (ix2 a b) 3 = ix3 (3 : Fin 4) a b := funext fun c => Fin.ext (by
      match c with
      | ⟨0, _⟩ => rfl
      | ⟨1, _⟩ => rfl
      | ⟨2, _⟩ => rfl)
    rw [e]
    refine (concat_read3 _ _ _ _ a b).trans ?_
    rw [val_main_v159_apply]
    exact congrArg _ (funext fun c => Fin.ext (by
      match c with
      | ⟨0, _⟩ => rfl
      | ⟨1, _⟩ => rfl))
  rw [c0, c1, c2, c3, mean_eq]
  -- the four layers, each on the previous one's output
  have W0 := (layer_0 x0 x1 x2 x3 x4).1 a b
  have X1e : (fun p t => (val_main_v41 (F := Ideal) x0 x1 x2 x3 x4) (ix2 p t)) = Cert.Attn.x1 ((1 / 32 : ℝ) : EReal) (fun p t => x0 (ix2 p t)) (fun l j t => x1 (ix3 l j t)) (fun l j => x2 (ix2 l j))
        (fun l j t => x3 (ix3 l j t)) (fun l j => x4 (ix2 l j)) :=
    funext fun p => funext fun t => (layer_0 x0 x1 x2 x3 x4).2 p t
  have W1 := (layer_1 x0 x1 x2 x3 x4).1 a b
  rw [X1e] at W1
  have X2e : (fun p t => (val_main_v79 (F := Ideal) x0 x1 x2 x3 x4) (ix2 p t)) = Cert.Attn.x2 ((1 / 32 : ℝ) : EReal) (fun p t => x0 (ix2 p t)) (fun l j t => x1 (ix3 l j t)) (fun l j => x2 (ix2 l j))
        (fun l j t => x3 (ix3 l j t)) (fun l j => x4 (ix2 l j)) := by
    funext p t
    rw [(layer_1 x0 x1 x2 x3 x4).2 p t, X1e]
    rfl
  have W2 := (layer_2 x0 x1 x2 x3 x4).1 a b
  rw [X2e] at W2
  have X3e : (fun p t => (val_main_v117 (F := Ideal) x0 x1 x2 x3 x4) (ix2 p t)) = Cert.Attn.x3 ((1 / 32 : ℝ) : EReal) (fun p t => x0 (ix2 p t)) (fun l j t => x1 (ix3 l j t)) (fun l j => x2 (ix2 l j))
        (fun l j t => x3 (ix3 l j t)) (fun l j => x4 (ix2 l j)) := by
    funext p t
    rw [(layer_2 x0 x1 x2 x3 x4).2 p t, X2e]
    rfl
  have W3 := (layer_3 x0 x1 x2 x3 x4).1 a b
  rw [X3e] at W3
  rw [W0, W1, W2, W3]
  show _ = acc4 (Ideal.ofBits .f32 0x3D000000#32) (Ideal.ofBits .f32 0x00000000#32) (Ideal.ofBits .f32 0x3E800000#32)
    (fun p t => x0 (ix2 p t)) (fun l j t => x1 (ix3 l j t)) (fun l j => x2 (ix2 l j))
    (fun l j t => x3 (ix3 l j t)) (fun l j => x4 (ix2 l j)) a b
  rw [ofBits_thirtysecond]
  rfl

end Cert.RefSide

end
-- ==== Proof.lean ====
/-
  Four layers of single-head causal self-attention, the kernel program against its jnp reference, on the
  extended reals: both return the average over the layers of the attention-weight matrices.

  The kernel program runs, per layer, one kernel for the query / key / value projections and one for the causal
  softmax, the mixture of the values and the output projection; the second also adds a quarter of the layer's
  weights to a running sum, which after the fourth layer is the result. The reference computes the same
  projections with one stacked product, scales the queries before the product where the kernel scales the scores
  after it, adds a mask of 0 and -∞ where the kernel selects between the score and a constant that stands for
  -∞, and averages the four weight matrices with a sum and a division by four. On the extended reals the scale
  1/32 (the kernel's literal 0.03125, the reference's 1 / sqrt 1024) and the quarter are nonnegative reals, which
  distribute over any sum, and x + (-∞) = -∞ for every x, so the two programs compute one function of the
  arguments (`Cert.Attn.result`) and no finiteness of the inputs is used.

  The frames of the two kernel programs are the generated frame certificates (in the repaired copies); the
  reference's frame is its run with the result dropped; the idealization changed four constants, each the
  stand-in for -∞ of one attention kernel, and each is the named-constant rule's statement.
-/
import proofs.«101734_j68264210202743_2_alg».proof.Defs
import proofs.«101734_j68264210202743_2_alg».proof.Proof.Gen.Kernel
import proofs.«101734_j68264210202743_2_alg».proof.Proof.Gen.KernelIdeal
import proofs.«101734_j68264210202743_2_alg».proof.Proof.Gen.ReferenceIdeal
import proofs.«101734_j68264210202743_2_alg».proof.Proof.Gen.Pre_finite_inputs
import proofs.«101734_j68264210202743_2_alg».proof.Proof.KernelFrame
import proofs.«101734_j68264210202743_2_alg».proof.Proof.KernelIdealFrame
import proofs.«101734_j68264210202743_2_alg».proof.Proof.KRun
import proofs.«101734_j68264210202743_2_alg».proof.Proof.KChain
import proofs.«101734_j68264210202743_2_alg».proof.Proof.RefRunP
import proofs.«101734_j68264210202743_2_alg».proof.Proof.RefWalk
import proofs.«101734_j68264210202743_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Each attention kernel's fill value is named -∞ by the certificate's table, and the printed constant is that value. -/
theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal := ⟨neg_big, neg_big, neg_big, neg_big⟩

/-- Both idealized programs end with their result buffer at `Cert.Attn.result` of the argument arrays. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KSide.W16_value m ρ c), (h c).2⟩)
      (Cert.KernelIdeal.GenP.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.RefSide.res_eq, Cert.RefSide.ref_eq_result, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
